-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47)) (m ((c.tc : Thread Cert.Kernel.nD Cert.Kernel.τ).loc Cert.Kernel.main_arg48)) (m ((c.tc : Thread Cert.Kernel.nD Cert.Kernel.τ).loc Cert.Kernel.main_arg49)) (m ((c.tc : Thread Cert.Kernel.nD Cert.Kernel.τ).loc Cert.Kernel.main_arg50)) (m ((c.tc : Thread Cert.Kernel.nD Cert.Kernel.τ).loc Cert.Kernel.main_arg51)) (m ((c.tc : Thread Cert.Kernel.nD Cert.Kernel.τ).loc Cert.Kernel.main_arg52)) (m ((c.tc : Thread Cert.Kernel.nD Cert.Kernel.τ).loc Cert.Kernel.main_arg53)) (m ((c.tc : Thread Cert.Kernel.nD Cert.Kernel.τ).loc Cert.Kernel.main_arg54)) (m ((c.tc : Thread Cert.Kernel.nD Cert.Kernel.τ).loc Cert.Kernel.main_arg55))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48)) (m ((c.tc : Thread Cert.KernelIdeal.nD Cert.KernelIdeal.τ).loc Cert.KernelIdeal.main_arg49)) (m ((c.tc : Thread Cert.KernelIdeal.nD Cert.KernelIdeal.τ).loc Cert.KernelIdeal.main_arg50)) (m ((c.tc : Thread Cert.KernelIdeal.nD Cert.KernelIdeal.τ).loc Cert.KernelIdeal.main_arg51)) (m ((c.tc : Thread Cert.KernelIdeal.nD Cert.KernelIdeal.τ).loc Cert.KernelIdeal.main_arg52)) (m ((c.tc : Thread Cert.KernelIdeal.nD Cert.KernelIdeal.τ).loc Cert.KernelIdeal.main_arg53)) (m ((c.tc : Thread Cert.KernelIdeal.nD Cert.KernelIdeal.τ).loc Cert.KernelIdeal.main_arg54)) (m ((c.tc : Thread Cert.KernelIdeal.nD Cert.KernelIdeal.τ).loc Cert.KernelIdeal.main_arg55))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47)) (m ((c.tc : Thread Cert.ReferenceIdeal.nD Cert.ReferenceIdeal.τ).loc Cert.ReferenceIdeal.main_arg48)) (m ((c.tc : Thread Cert.ReferenceIdeal.nD Cert.ReferenceIdeal.τ).loc Cert.ReferenceIdeal.main_arg49)) (m ((c.tc : Thread Cert.ReferenceIdeal.nD Cert.ReferenceIdeal.τ).loc Cert.ReferenceIdeal.main_arg50)) (m ((c.tc : Thread Cert.ReferenceIdeal.nD Cert.ReferenceIdeal.τ).loc Cert.ReferenceIdeal.main_arg51)) (m ((c.tc : Thread Cert.ReferenceIdeal.nD Cert.ReferenceIdeal.τ).loc Cert.ReferenceIdeal.main_arg52)) (m ((c.tc : Thread Cert.ReferenceIdeal.nD Cert.ReferenceIdeal.τ).loc Cert.ReferenceIdeal.main_arg53)) (m ((c.tc : Thread Cert.ReferenceIdeal.nD Cert.ReferenceIdeal.τ).loc Cert.ReferenceIdeal.main_arg54)) (m ((c.tc : Thread Cert.ReferenceIdeal.nD Cert.ReferenceIdeal.τ).loc Cert.ReferenceIdeal.main_arg55))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48)
      ∧ r.2.mem ((c.tc : Thread Cert.Kernel.nD Cert.Kernel.τ).loc Cert.Kernel.main_arg49) = m ((c.tc : Thread Cert.Kernel.nD Cert.Kernel.τ).loc Cert.Kernel.main_arg49)
      ∧ r.2.mem ((c.tc : Thread Cert.Kernel.nD Cert.Kernel.τ).loc Cert.Kernel.main_arg50) = m ((c.tc : Thread Cert.Kernel.nD Cert.Kernel.τ).loc Cert.Kernel.main_arg50)
      ∧ r.2.mem ((c.tc : Thread Cert.Kernel.nD Cert.Kernel.τ).loc Cert.Kernel.main_arg51) = m ((c.tc : Thread Cert.Kernel.nD Cert.Kernel.τ).loc Cert.Kernel.main_arg51)
      ∧ r.2.mem ((c.tc : Thread Cert.Kernel.nD Cert.Kernel.τ).loc Cert.Kernel.main_arg52) = m ((c.tc : Thread Cert.Kernel.nD Cert.Kernel.τ).loc Cert.Kernel.main_arg52)
      ∧ r.2.mem ((c.tc : Thread Cert.Kernel.nD Cert.Kernel.τ).loc Cert.Kernel.main_arg53) = m ((c.tc : Thread Cert.Kernel.nD Cert.Kernel.τ).loc Cert.Kernel.main_arg53)
      ∧ r.2.mem ((c.tc : Thread Cert.Kernel.nD Cert.Kernel.τ).loc Cert.Kernel.main_arg54) = m ((c.tc : Thread Cert.Kernel.nD Cert.Kernel.τ).loc Cert.Kernel.main_arg54)
      ∧ r.2.mem ((c.tc : Thread Cert.Kernel.nD Cert.Kernel.τ).loc Cert.Kernel.main_arg55) = m ((c.tc : Thread Cert.Kernel.nD Cert.Kernel.τ).loc Cert.Kernel.main_arg55))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
      ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
      ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
      ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
      ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
      ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53)
      ∧ r.2.mem ((c.tc : Thread Cert.KernelIdeal.nD Cert.KernelIdeal.τ).loc Cert.KernelIdeal.main_arg54) = m ((c.tc : Thread Cert.KernelIdeal.nD Cert.KernelIdeal.τ).loc Cert.KernelIdeal.main_arg54)
      ∧ r.2.mem ((c.tc : Thread Cert.KernelIdeal.nD Cert.KernelIdeal.τ).loc Cert.KernelIdeal.main_arg55) = m ((c.tc : Thread Cert.KernelIdeal.nD Cert.KernelIdeal.τ).loc Cert.KernelIdeal.main_arg55))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48)
      ∧ r.2.mem ((c.tc : Thread Cert.ReferenceIdeal.nD Cert.ReferenceIdeal.τ).loc Cert.ReferenceIdeal.main_arg49) = m ((c.tc : Thread Cert.ReferenceIdeal.nD Cert.ReferenceIdeal.τ).loc Cert.ReferenceIdeal.main_arg49)
      ∧ r.2.mem ((c.tc : Thread Cert.ReferenceIdeal.nD Cert.ReferenceIdeal.τ).loc Cert.ReferenceIdeal.main_arg50) = m ((c.tc : Thread Cert.ReferenceIdeal.nD Cert.ReferenceIdeal.τ).loc Cert.ReferenceIdeal.main_arg50)
      ∧ r.2.mem ((c.tc : Thread Cert.ReferenceIdeal.nD Cert.ReferenceIdeal.τ).loc Cert.ReferenceIdeal.main_arg51) = m ((c.tc : Thread Cert.ReferenceIdeal.nD Cert.ReferenceIdeal.τ).loc Cert.ReferenceIdeal.main_arg51)
      ∧ r.2.mem ((c.tc : Thread Cert.ReferenceIdeal.nD Cert.ReferenceIdeal.τ).loc Cert.ReferenceIdeal.main_arg52) = m ((c.tc : Thread Cert.ReferenceIdeal.nD Cert.ReferenceIdeal.τ).loc Cert.ReferenceIdeal.main_arg52)
      ∧ r.2.mem ((c.tc : Thread Cert.ReferenceIdeal.nD Cert.ReferenceIdeal.τ).loc Cert.ReferenceIdeal.main_arg53) = m ((c.tc : Thread Cert.ReferenceIdeal.nD Cert.ReferenceIdeal.τ).loc Cert.ReferenceIdeal.main_arg53)
      ∧ r.2.mem ((c.tc : Thread Cert.ReferenceIdeal.nD Cert.ReferenceIdeal.τ).loc Cert.ReferenceIdeal.main_arg54) = m ((c.tc : Thread Cert.ReferenceIdeal.nD Cert.ReferenceIdeal.τ).loc Cert.ReferenceIdeal.main_arg54)
      ∧ r.2.mem ((c.tc : Thread Cert.ReferenceIdeal.nD Cert.ReferenceIdeal.τ).loc Cert.ReferenceIdeal.main_arg55) = m ((c.tc : Thread Cert.ReferenceIdeal.nD Cert.ReferenceIdeal.τ).loc Cert.ReferenceIdeal.main_arg55))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
      ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)
      ∧ m' ((c.tc : Thread Cert.ReferenceIdeal.nD Cert.ReferenceIdeal.τ).loc Cert.ReferenceIdeal.main_arg50) = m ((c.tc : Thread Cert.KernelIdeal.nD Cert.KernelIdeal.τ).loc Cert.KernelIdeal.main_arg50)
      ∧ m' ((c.tc : Thread Cert.ReferenceIdeal.nD Cert.ReferenceIdeal.τ).loc Cert.ReferenceIdeal.main_arg51) = m ((c.tc : Thread Cert.KernelIdeal.nD Cert.KernelIdeal.τ).loc Cert.KernelIdeal.main_arg51)
      ∧ m' ((c.tc : Thread Cert.ReferenceIdeal.nD Cert.ReferenceIdeal.τ).loc Cert.ReferenceIdeal.main_arg52) = m ((c.tc : Thread Cert.KernelIdeal.nD Cert.KernelIdeal.τ).loc Cert.KernelIdeal.main_arg52)
      ∧ m' ((c.tc : Thread Cert.ReferenceIdeal.nD Cert.ReferenceIdeal.τ).loc Cert.ReferenceIdeal.main_arg53) = m ((c.tc : Thread Cert.KernelIdeal.nD Cert.KernelIdeal.τ).loc Cert.KernelIdeal.main_arg53)
      ∧ m' ((c.tc : Thread Cert.ReferenceIdeal.nD Cert.ReferenceIdeal.τ).loc Cert.ReferenceIdeal.main_arg54) = m ((c.tc : Thread Cert.KernelIdeal.nD Cert.KernelIdeal.τ).loc Cert.KernelIdeal.main_arg54)
      ∧ m' ((c.tc : Thread Cert.ReferenceIdeal.nD Cert.ReferenceIdeal.τ).loc Cert.ReferenceIdeal.main_arg55) = m ((c.tc : Thread Cert.KernelIdeal.nD Cert.KernelIdeal.τ).loc Cert.KernelIdeal.main_arg55)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
          ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
          ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
          ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
          ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
          ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53)
          ∧ r.2.mem ((c.tc : Thread Cert.KernelIdeal.nD Cert.KernelIdeal.τ).loc Cert.KernelIdeal.main_arg54) = m ((c.tc : Thread Cert.KernelIdeal.nD Cert.KernelIdeal.τ).loc Cert.KernelIdeal.main_arg54)
          ∧ r.2.mem ((c.tc : Thread Cert.KernelIdeal.nD Cert.KernelIdeal.τ).loc Cert.KernelIdeal.main_arg55) = m ((c.tc : Thread Cert.KernelIdeal.nD Cert.KernelIdeal.τ).loc Cert.KernelIdeal.main_arg55))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48)
          ∧ r.2.mem ((c.tc : Thread Cert.ReferenceIdeal.nD Cert.ReferenceIdeal.τ).loc Cert.ReferenceIdeal.main_arg49) = m' ((c.tc : Thread Cert.ReferenceIdeal.nD Cert.ReferenceIdeal.τ).loc Cert.ReferenceIdeal.main_arg49)
          ∧ r.2.mem ((c.tc : Thread Cert.ReferenceIdeal.nD Cert.ReferenceIdeal.τ).loc Cert.ReferenceIdeal.main_arg50) = m' ((c.tc : Thread Cert.ReferenceIdeal.nD Cert.ReferenceIdeal.τ).loc Cert.ReferenceIdeal.main_arg50)
          ∧ r.2.mem ((c.tc : Thread Cert.ReferenceIdeal.nD Cert.ReferenceIdeal.τ).loc Cert.ReferenceIdeal.main_arg51) = m' ((c.tc : Thread Cert.ReferenceIdeal.nD Cert.ReferenceIdeal.τ).loc Cert.ReferenceIdeal.main_arg51)
          ∧ r.2.mem ((c.tc : Thread Cert.ReferenceIdeal.nD Cert.ReferenceIdeal.τ).loc Cert.ReferenceIdeal.main_arg52) = m' ((c.tc : Thread Cert.ReferenceIdeal.nD Cert.ReferenceIdeal.τ).loc Cert.ReferenceIdeal.main_arg52)
          ∧ r.2.mem ((c.tc : Thread Cert.ReferenceIdeal.nD Cert.ReferenceIdeal.τ).loc Cert.ReferenceIdeal.main_arg53) = m' ((c.tc : Thread Cert.ReferenceIdeal.nD Cert.ReferenceIdeal.τ).loc Cert.ReferenceIdeal.main_arg53)
          ∧ r.2.mem ((c.tc : Thread Cert.ReferenceIdeal.nD Cert.ReferenceIdeal.τ).loc Cert.ReferenceIdeal.main_arg54) = m' ((c.tc : Thread Cert.ReferenceIdeal.nD Cert.ReferenceIdeal.τ).loc Cert.ReferenceIdeal.main_arg54)
          ∧ r.2.mem ((c.tc : Thread Cert.ReferenceIdeal.nD Cert.ReferenceIdeal.τ).loc Cert.ReferenceIdeal.main_arg55) = m' ((c.tc : Thread Cert.ReferenceIdeal.nD Cert.ReferenceIdeal.τ).loc Cert.ReferenceIdeal.main_arg55))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x128 : Shape := ⟨4, ![64, 32, 32, 128]⟩
abbrev S128x512 : Shape := ⟨2, ![128, 512]⟩
abbrev S512 : Shape := ⟨1, ![512]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S512x128 : Shape := ⟨2, ![512, 128]⟩
abbrev S128 : Shape := ⟨1, ![128]⟩
abbrev S3x3x128x128 : Shape := ⟨4, ![3, 3, 128, 128]⟩
abbrev S256x128 : Shape := ⟨2, ![256, 128]⟩
abbrev S_ : Shape := ⟨0, ![]⟩

class Facts : Prop where
  bcast_S_S64x32x32x128 : S_.BroadcastsInDim S64x32x32x128 (![] : Fin 0 → Fin S64x32x32x128.rank)
  reducesTo_S64x32x32x128_S_d0_1_2_3 : S64x32x32x128.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S512x256 : S_.BroadcastsInDim S512x256 (![] : Fin 0 → Fin S512x256.rank)
  reducesTo_S512x256_S_d0_1 : S512x256.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S256x128 : S_.BroadcastsInDim S256x128 (![] : Fin 0 → Fin S256x128.rank)
  reducesTo_S256x128_S_d0_1 : S256x128.ReducesTo [0, 1] S_

variable [Facts]

def fn_part16 {F : FTy → Type} [FloatOps F] (main_arg55 : FVec F S256 .f32) (main_v273 : IVec S_ 1) : IVec S_ 1 :=
  let main_v274 : FVec F S256 .f32 := Host.absf main_arg55
  let main_cst_108 : FVec F S_ .f32 := constant S_ .f32 0x7F800000#32
  let main_v275 : FVec F S256 .f32 := broadcastInDim S256 ![] bcast_S_S256 main_cst_108
  let main_v276 : IVec S256 1 := cmpf .olt main_v274 main_v275
  let main_c_109 : IVec S_ 1 := constantI S_ 1 1#1
  let main_v277 : IVec S_ 1 := (fun x v => Host.reduce IntOp.andi x v reducesTo_S256_S_d0 h_S_) main_v276 main_c_109
  let main_v278 : IVec S_ 1 := andi main_v273 main_v277
  main_v278

def fn_part15 {F : FTy → Type} [FloatOps F] (main_arg52 : FVec F S256 .f32) (main_arg53 : FVec F S256 .f32) (main_arg54 : FVec F S256 .f32) (main_arg55 : FVec F S256 .f32) (main_v253 : IVec S_ 1) (main_v256 : IVec S128x256 1) : IVec S_ 1 :=
  let main_c_101 : IVec S_ 1 := constantI S_ 1 1#1
  let main_v257 : IVec S_ 1 := (fun x v => Host.reduce IntOp.andi x v reducesTo_S128x256_S_d0_1 h_S_) main_v256 main_c_101
  let main_v258 : IVec S_ 1 := andi main_v253 main_v257
  let main_v259 : FVec F S256 .f32 := Host.absf main_arg52
  let main_cst_102 : FVec F S_ .f32 := constant S_ .f32 0x7F800000#32
  let main_v260 : FVec F S256 .f32 := broadcastInDim S256 ![] bcast_S_S256 main_cst_102
  let main_v261 : IVec S256 1 := cmpf .olt main_v259 main_v260
  let main_c_103 : IVec S_ 1 := constantI S_ 1 1#1
  let main_v262 : IVec S_ 1 := (fun x v => Host.reduce IntOp.andi x v reducesTo_S256_S_d0 h_S_) main_v261 main_c_103
  let main_v263 : IVec S_ 1 := andi main_v258 main_v262
  let main_v264 : FVec F S256 .f32 := Host.absf main_arg53
  let main_cst_104 : FVec F S_ .f32 := constant S_ .f32 0x7F800000#32
  let main_v265 : FVec F S256 .f32 := broadcastInDim S256 ![] bcast_S_S256 main_cst_104
  let main_v266 : IVec S256 1 := cmpf .olt main_v264 main_v265
  let main_c_105 : IVec S_ 1 := constantI S_ 1 1#1
  let main_v267 : IVec S_ 1 := (fun x v => Host.reduce IntOp.andi x v reducesTo_S256_S_d0 h_S_) main_v266 main_c_105
  let main_v268 : IVec S_ 1 := andi main_v263 main_v267
  let main_v269 : FVec F S256 .f32 := Host.absf main_arg54
  let main_cst_106 : FVec F S_ .f32 := constant S_ .f32 0x7F800000#32
  let main_v270 : FVec F S256 .f32 := broadcastInDim S256 ![] bcast_S_S256 main_cst_106
  let main_v271 : IVec S256 1 := cmpf .olt main_v269 main_v270
  let main_c_107 : IVec S_ 1 := constantI S_ 1 1#1
  let main_v272 : IVec S_ 1 := (fun x v => Host.reduce IntOp.andi x v reducesTo_S256_S_d0 h_S_) main_v271 main_c_107
  let main_v273 : IVec S_ 1 := andi main_v268 main_v272
  fn_part16 (F := F) main_arg55 main_v273

def fn_part14 {F : FTy → Type} [FloatOps F] (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v238 : IVec S_ 1) (main_v239 : FVec F S128 .f32) : IVec S_ 1 :=
  let main_cst_94 : FVec F S_ .f32 := constant S_ .f32 0x7F800000#32
  let main_v240 : FVec F S128 .f32 := broadcastInDim S128 ![] bcast_S_S128 main_cst_94
  let main_v241 : IVec S128 1 := cmpf .olt main_v239 main_v240
  let main_c_95 : IVec S_ 1 := constantI S_ 1 1#1
  let main_v242 : IVec S_ 1 := (fun x v => Host.reduce IntOp.andi x v reducesTo_S128_S_d0 h_S_) main_v241 main_c_95
  let main_v243 : IVec S_ 1 := andi main_v238 main_v242
  let main_v244 : FVec F S128 .f32 := Host.absf main_arg49
  let main_cst_96 : FVec F S_ .f32 := constant S_ .f32 0x7F800000#32
  let main_v245 : FVec F S128 .f32 := broadcastInDim S128 ![] bcast_S_S128 main_cst_96
  let main_v246 : IVec S128 1 := cmpf .olt main_v244 main_v245
  let main_c_97 : IVec S_ 1 := constantI S_ 1 1#1
  let main_v247 : IVec S_ 1 := (fun x v => Host.reduce IntOp.andi x v reducesTo_S128_S_d0 h_S_) main_v246 main_c_97
  let main_v248 : IVec S_ 1 := andi main_v243 main_v247
  let main_v249 : FVec F S128 .f32 := Host.absf main_arg50
  let main_cst_98 : FVec F S_ .f32 := constant S_ .f32 0x7F800000#32
  let main_v250 : FVec F S128 .f32 := broadcastInDim S128 ![] bcast_S_S128 main_cst_98
  let main_v251 : IVec S128 1 := cmpf .olt main_v249 main_v250
  let main_c_99 : IVec S_ 1 := constantI S_ 1 1#1
  let main_v252 : IVec S_ 1 := (fun x v => Host.reduce IntOp.andi x v reducesTo_S128_S_d0 h_S_) main_v251 main_c_99
  let main_v253 : IVec S_ 1 := andi main_v248 main_v252
  let main_v254 : FVec F S128x256 .f32 := Host.absf main_arg51
  let main_cst_100 : FVec F S_ .f32 := constant S_ .f32 0x7F800000#32
  let main_v255 : FVec F S128x256 .f32 := broadcastInDim S128x256 ![] bcast_S_S128x256 main_cst_100
  let main_v256 : IVec S128x256 1 := cmpf .olt main_v254 main_v255
  fn_part15 (F := F) main_arg52 main_arg53 main_arg54 main_arg55 main_v253 main_v256

def fn_part13 {F : FTy → Type} [FloatOps F] (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v218 : IVec S_ 1) (main_v221 : IVec S128 1) (main_c_87 : IVec S_ 1) : IVec S_ 1 :=
  let main_v222 : IVec S_ 1 := (fun x v => Host.reduce IntOp.andi x v reducesTo_S128_S_d0 h_S_) main_v221 main_c_87
  let main_v223 : IVec S_ 1 := andi main_v218 main_v222
  let main_v224 : FVec F S128 .f32 := Host.absf main_arg45
  let main_cst_88 : FVec F S_ .f32 := constant S_ .f32 0x7F800000#32
  let main_v225 : FVec F S128 .f32 := broadcastInDim S128 ![] bcast_S_S128 main_cst_88
  let main_v226 : IVec S128 1 := cmpf .olt main_v224 main_v225
  let main_c_89 : IVec S_ 1 := constantI S_ 1 1#1
  let main_v227 : IVec S_ 1 := (fun x v => Host.reduce IntOp.andi x v reducesTo_S128_S_d0 h_S_) main_v226 main_c_89
  let main_v228 : IVec S_ 1 := andi main_v223 main_v227
  let main_v229 : FVec F S3x3x128x128 .f32 := Host.absf main_arg46
  let main_cst_90 : FVec F S_ .f32 := constant S_ .f32 0x7F800000#32
  let main_v230 : FVec F S3x3x128x128 .f32 := broadcastInDim S3x3x128x128 ![] bcast_S_S3x3x128x128 main_cst_90
  let main_v231 : IVec S3x3x128x128 1 := cmpf .olt main_v229 main_v230
  let main_c_91 : IVec S_ 1 := constantI S_ 1 1#1
  let main_v232 : IVec S_ 1 := (fun x v => Host.reduce IntOp.andi x v reducesTo_S3x3x128x128_S_d0_1_2_3 h_S_) main_v231 main_c_91
  let main_v233 : IVec S_ 1 := andi main_v228 main_v232
  let main_v234 : FVec F S128 .f32 := Host.absf main_arg47
  let main_cst_92 : FVec F S_ .f32 := constant S_ .f32 0x7F800000#32
  let main_v235 : FVec F S128 .f32 := broadcastInDim S128 ![] bcast_S_S128 main_cst_92
  let main_v236 : IVec S128 1 := cmpf .olt main_v234 main_v235
  let main_c_93 : IVec S_ 1 := constantI S_ 1 1#1
  let main_v237 : IVec S_ 1 := (fun x v => Host.reduce IntOp.andi x v reducesTo_S128_S_d0 h_S_) main_v236 main_c_93
  let main_v238 : IVec S_ 1 := andi main_v233 main_v237
  let main_v239 : FVec F S128 .f32 := Host.absf main_arg48
  fn_part14 (F := F) main_arg49 main_arg50 main_arg51 main_arg52 main_arg53 main_arg54 main_arg55 main_v238 main_v239

def fn_part12 {F : FTy → Type} [FloatOps F] (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v203 : IVec S_ 1) (main_v204 : FVec F S256x128 .f32) (main_cst_80 : FVec F S_ .f32) : IVec S_ 1 :=
  let main_v205 : FVec F S256x128 .f32 := broadcastInDim S256x128 ![] bcast_S_S256x128 main_cst_80
  let main_v206 : IVec S256x128 1 := cmpf .olt main_v204 main_v205
  let main_c_81 : IVec S_ 1 := constantI S_ 1 1#1
  let main_v207 : IVec S_ 1 := (fun x v => Host.reduce IntOp.andi x v reducesTo_S256x128_S_d0_1 h_S_) main_v206 main_c_81
  let main_v208 : IVec S_ 1 := andi main_v203 main_v207
  let main_v209 : FVec F S128 .f32 := Host.absf main_arg42
  let main_cst_82 : FVec F S_ .f32 := constant S_ .f32 0x7F800000#32
  let main_v210 : FVec F S128 .f32 := broadcastInDim S128 ![] bcast_S_S128 main_cst_82
  let main_v211 : IVec S128 1 := cmpf .olt main_v209 main_v210
  let main_c_83 : IVec S_ 1 := constantI S_ 1 1#1
  let main_v212 : IVec S_ 1 := (fun x v => Host.reduce IntOp.andi x v reducesTo_S128_S_d0 h_S_) main_v211 main_c_83
  let main_v213 : IVec S_ 1 := andi main_v208 main_v212
  let main_v214 : FVec F S128 .f32 := Host.absf main_arg43
  let main_cst_84 : FVec F S_ .f32 := constant S_ .f32 0x7F800000#32
  let main_v215 : FVec F S128 .f32 := broadcastInDim S128 ![] bcast_S_S128 main_cst_84
  let main_v216 : IVec S128 1 := cmpf .olt main_v214 main_v215
  let main_c_85 : IVec S_ 1 := constantI S_ 1 1#1
  let main_v217 : IVec S_ 1 := (fun x v => Host.reduce IntOp.andi x v reducesTo_S128_S_d0 h_S_) main_v216 main_c_85
  let main_v218 : IVec S_ 1 := andi main_v213 main_v217
  let main_v219 : FVec F S128 .f32 := Host.absf main_arg44
  let main_cst_86 : FVec F S_ .f32 := constant S_ .f32 0x7F800000#32
  let main_v220 : FVec F S128 .f32 := broadcastInDim S128 ![] bcast_S_S128 main_cst_86
  let main_v221 : IVec S128 1 := cmpf .olt main_v219 main_v220
  let main_c_87 : IVec S_ 1 := constantI S_ 1 1#1
  fn_part13 (F := F) main_arg45 main_arg46 main_arg47 main_arg48 main_arg49 main_arg50 main_arg51 main_arg52 main_arg53 main_arg54 main_arg55 main_v218 main_v221 main_c_87

def fn_part11 {F : FTy → Type} [FloatOps F] (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v183 : IVec S_ 1) (main_v187 : IVec S_ 1) : IVec S_ 1 :=
  let main_v188 : IVec S_ 1 := andi main_v183 main_v187
  let main_v189 : FVec F S256 .f32 := Host.absf main_arg38
  let main_cst_74 : FVec F S_ .f32 := constant S_ .f32 0x7F800000#32
  let main_v190 : FVec F S256 .f32 := broadcastInDim S256 ![] bcast_S_S256 main_cst_74
  let main_v191 : IVec S256 1 := cmpf .olt main_v189 main_v190
  let main_c_75 : IVec S_ 1 := constantI S_ 1 1#1
  let main_v192 : IVec S_ 1 := (fun x v => Host.reduce IntOp.andi x v reducesTo_S256_S_d0 h_S_) main_v191 main_c_75
  let main_v193 : IVec S_ 1 := andi main_v188 main_v192
  let main_v194 : FVec F S256 .f32 := Host.absf main_arg39
  let main_cst_76 : FVec F S_ .f32 := constant S_ .f32 0x7F800000#32
  let main_v195 : FVec F S256 .f32 := broadcastInDim S256 ![] bcast_S_S256 main_cst_76
  let main_v196 : IVec S256 1 := cmpf .olt main_v194 main_v195
  let main_c_77 : IVec S_ 1 := constantI S_ 1 1#1
  let main_v197 : IVec S_ 1 := (fun x v => Host.reduce IntOp.andi x v reducesTo_S256_S_d0 h_S_) main_v196 main_c_77
  let main_v198 : IVec S_ 1 := andi main_v193 main_v197
  let main_v199 : FVec F S256 .f32 := Host.absf main_arg40
  let main_cst_78 : FVec F S_ .f32 := constant S_ .f32 0x7F800000#32
  let main_v200 : FVec F S256 .f32 := broadcastInDim S256 ![] bcast_S_S256 main_cst_78
  let main_v201 : IVec S256 1 := cmpf .olt main_v199 main_v200
  let main_c_79 : IVec S_ 1 := constantI S_ 1 1#1
  let main_v202 : IVec S_ 1 := (fun x v => Host.reduce IntOp.andi x v reducesTo_S256_S_d0 h_S_) main_v201 main_c_79
  let main_v203 : IVec S_ 1 := andi main_v198 main_v202
  let main_v204 : FVec F S256x128 .f32 := Host.absf main_arg41
  let main_cst_80 : FVec F S_ .f32 := constant S_ .f32 0x7F800000#32
  fn_part12 (F := F) main_arg42 main_arg43 main_arg44 main_arg45 main_arg46 main_arg47 main_arg48 main_arg49 main_arg50 main_arg51 main_arg52 main_arg53 main_arg54 main_arg55 main_v203 main_v204 main_cst_80

def fn_part10 {F : FTy → Type} [FloatOps F] (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v168 : IVec S_ 1) (main_v169 : FVec F S256 .f32) (main_v170 : FVec F S256 .f32) : IVec S_ 1 :=
  let main_v171 : IVec S256 1 := cmpf .olt main_v169 main_v170
  let main_c_67 : IVec S_ 1 := constantI S_ 1 1#1
  let main_v172 : IVec S_ 1 := (fun x v => Host.reduce IntOp.andi x v reducesTo_S256_S_d0 h_S_) main_v171 main_c_67
  let main_v173 : IVec S_ 1 := andi main_v168 main_v172
  let main_v174 : FVec F S256 .f32 := Host.absf main_arg35
  let main_cst_68 : FVec F S_ .f32 := constant S_ .f32 0x7F800000#32
  let main_v175 : FVec F S256 .f32 := broadcastInDim S256 ![] bcast_S_S256 main_cst_68
  let main_v176 : IVec S256 1 := cmpf .olt main_v174 main_v175
  let main_c_69 : IVec S_ 1 := constantI S_ 1 1#1
  let main_v177 : IVec S_ 1 := (fun x v => Host.reduce IntOp.andi x v reducesTo_S256_S_d0 h_S_) main_v176 main_c_69
  let main_v178 : IVec S_ 1 := andi main_v173 main_v177
  let main_v179 : FVec F S512x256 .f32 := Host.absf main_arg36
  let main_cst_70 : FVec F S_ .f32 := constant S_ .f32 0x7F800000#32
  let main_v180 : FVec F S512x256 .f32 := broadcastInDim S512x256 ![] bcast_S_S512x256 main_cst_70
  let main_v181 : IVec S512x256 1 := cmpf .olt main_v179 main_v180
  let main_c_71 : IVec S_ 1 := constantI S_ 1 1#1
  let main_v182 : IVec S_ 1 := (fun x v => Host.reduce IntOp.andi x v reducesTo_S512x256_S_d0_1 h_S_) main_v181 main_c_71
  let main_v183 : IVec S_ 1 := andi main_v178 main_v182
  let main_v184 : FVec F S256 .f32 := Host.absf main_arg37
  let main_cst_72 : FVec F S_ .f32 := constant S_ .f32 0x7F800000#32
  let main_v185 : FVec F S256 .f32 := broadcastInDim S256 ![] bcast_S_S256 main_cst_72
  let main_v186 : IVec S256 1 := cmpf .olt main_v184 main_v185
  let main_c_73 : IVec S_ 1 := constantI S_ 1 1#1
  let main_v187 : IVec S_ 1 := (fun x v => Host.reduce IntOp.andi x v reducesTo_S256_S_d0 h_S_) main_v186 main_c_73
  fn_part11 (F := F) main_arg38 main_arg39 main_arg40 main_arg41 main_arg42 main_arg43 main_arg44 main_arg45 main_arg46 main_arg47 main_arg48 main_arg49 main_arg50 main_arg51 main_arg52 main_arg53 main_arg54 main_arg55 main_v183 main_v187

def fn_part9 {F : FTy → Type} [FloatOps F] (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v153 : IVec S_ 1) : IVec S_ 1 :=
  let main_v154 : FVec F S128x256 .f32 := Host.absf main_arg31
  let main_cst_60 : FVec F S_ .f32 := constant S_ .f32 0x7F800000#32
  let main_v155 : FVec F S128x256 .f32 := broadcastInDim S128x256 ![] bcast_S_S128x256 main_cst_60
  let main_v156 : IVec S128x256 1 := cmpf .olt main_v154 main_v155
  let main_c_61 : IVec S_ 1 := constantI S_ 1 1#1
  let main_v157 : IVec S_ 1 := (fun x v => Host.reduce IntOp.andi x v reducesTo_S128x256_S_d0_1 h_S_) main_v156 main_c_61
  let main_v158 : IVec S_ 1 := andi main_v153 main_v157
  let main_v159 : FVec F S256 .f32 := Host.absf main_arg32
  let main_cst_62 : FVec F S_ .f32 := constant S_ .f32 0x7F800000#32
  let main_v160 : FVec F S256 .f32 := broadcastInDim S256 ![] bcast_S_S256 main_cst_62
  let main_v161 : IVec S256 1 := cmpf .olt main_v159 main_v160
  let main_c_63 : IVec S_ 1 := constantI S_ 1 1#1
  let main_v162 : IVec S_ 1 := (fun x v => Host.reduce IntOp.andi x v reducesTo_S256_S_d0 h_S_) main_v161 main_c_63
  let main_v163 : IVec S_ 1 := andi main_v158 main_v162
  let main_v164 : FVec F S256 .f32 := Host.absf main_arg33
  let main_cst_64 : FVec F S_ .f32 := constant S_ .f32 0x7F800000#32
  let main_v165 : FVec F S256 .f32 := broadcastInDim S256 ![] bcast_S_S256 main_cst_64
  let main_v166 : IVec S256 1 := cmpf .olt main_v164 main_v165
  let main_c_65 : IVec S_ 1 := constantI S_ 1 1#1
  let main_v167 : IVec S_ 1 := (fun x v => Host.reduce IntOp.andi x v reducesTo_S256_S_d0 h_S_) main_v166 main_c_65
  let main_v168 : IVec S_ 1 := andi main_v163 main_v167
  let main_v169 : FVec F S256 .f32 := Host.absf main_arg34
  let main_cst_66 : FVec F S_ .f32 := constant S_ .f32 0x7F800000#32
  let main_v170 : FVec F S256 .f32 := broadcastInDim S256 ![] bcast_S_S256 main_cst_66
  fn_part10 (F := F) main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v168 main_v169 main_v170

def fn_part8 {F : FTy → Type} [FloatOps F] (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg29
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128 .f32 := Host.absf main_arg30
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v153

def fn_part7 {F : FTy → Type} [FloatOps F] (main_arg25 : FVec F S128 .f32) (main_arg26 : FVec F S3x3x128x128 .f32) (main_arg27 : FVec F S128 .f32) (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S3x3x128x128 .f32 := Host.absf main_arg26
  let main_cst_50 : FVec F S_ .f32 := constant S_ .f32 0x7F800000#32
  let main_v130 : FVec F S3x3x128x128 .f32 := broadcastInDim S3x3x128x128 ![] bcast_S_S3x3x128x128 main_cst_50
  let main_v131 : IVec S3x3x128x128 1 := cmpf .olt main_v129 main_v130
  let main_c_51 : IVec S_ 1 := constantI S_ 1 1#1
  let main_v132 : IVec S_ 1 := (fun x v => Host.reduce IntOp.andi x v reducesTo_S3x3x128x128_S_d0_1_2_3 h_S_) main_v131 main_c_51
  let main_v133 : IVec S_ 1 := andi main_v128 main_v132
  let main_v134 : FVec F S128 .f32 := Host.absf main_arg27
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v133 main_v136

def fn_part6 {F : FTy → Type} [FloatOps F] (main_arg21 : FVec F S512x128 .f32) (main_arg22 : FVec F S128 .f32) (main_arg23 : FVec F S128 .f32) (main_arg24 : FVec F S128 .f32) (main_arg25 : FVec F S128 .f32) (main_arg26 : FVec F S3x3x128x128 .f32) (main_arg27 : FVec F S128 .f32) (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S512x128 .f32 := Host.absf main_arg21
  let main_cst_40 : FVec F S_ .f32 := constant S_ .f32 0x7F800000#32
  let main_v105 : FVec F S512x128 .f32 := broadcastInDim S512x128 ![] bcast_S_S512x128 main_cst_40
  let main_v106 : IVec S512x128 1 := cmpf .olt main_v104 main_v105
  let main_c_41 : IVec S_ 1 := constantI S_ 1 1#1
  let main_v107 : IVec S_ 1 := (fun x v => Host.reduce IntOp.andi x v reducesTo_S512x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg24
  fn_part7 (F := F) main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v118 main_v119

def fn_part5 {F : FTy → Type} [FloatOps F] (main_arg18 : FVec F S256 .f32) (main_arg19 : FVec F S256 .f32) (main_arg20 : FVec F S256 .f32) (main_arg21 : FVec F S512x128 .f32) (main_arg22 : FVec F S128 .f32) (main_arg23 : FVec F S128 .f32) (main_arg24 : FVec F S128 .f32) (main_arg25 : FVec F S128 .f32) (main_arg26 : FVec F S3x3x128x128 .f32) (main_arg27 : FVec F S128 .f32) (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v98 main_v101 main_c_39

def fn_part4 {F : FTy → Type} [FloatOps F] (main_arg14 : FVec F S256 .f32) (main_arg15 : FVec F S256 .f32) (main_arg16 : FVec F S512x256 .f32) (main_arg17 : FVec F S256 .f32) (main_arg18 : FVec F S256 .f32) (main_arg19 : FVec F S256 .f32) (main_arg20 : FVec F S256 .f32) (main_arg21 : FVec F S512x128 .f32) (main_arg22 : FVec F S128 .f32) (main_arg23 : FVec F S128 .f32) (main_arg24 : FVec F S128 .f32) (main_arg25 : FVec F S128 .f32) (main_arg26 : FVec F S3x3x128x128 .f32) (main_arg27 : FVec F S128 .f32) (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S512x256 .f32 := Host.absf main_arg16
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v83 main_v84 main_cst_32

def fn_part3 {F : FTy → Type} [FloatOps F] (main_arg11 : FVec F S128x256 .f32) (main_arg12 : FVec F S256 .f32) (main_arg13 : FVec F S256 .f32) (main_arg14 : FVec F S256 .f32) (main_arg15 : FVec F S256 .f32) (main_arg16 : FVec F S512x256 .f32) (main_arg17 : FVec F S256 .f32) (main_arg18 : FVec F S256 .f32) (main_arg19 : FVec F S256 .f32) (main_arg20 : FVec F S256 .f32) (main_arg21 : FVec F S512x128 .f32) (main_arg22 : FVec F S128 .f32) (main_arg23 : FVec F S128 .f32) (main_arg24 : FVec F S128 .f32) (main_arg25 : FVec F S128 .f32) (main_arg26 : FVec F S3x3x128x128 .f32) (main_arg27 : FVec F S128 .f32) (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S128x256 .f32) (main_arg12 : FVec F S256 .f32) (main_arg13 : FVec F S256 .f32) (main_arg14 : FVec F S256 .f32) (main_arg15 : FVec F S256 .f32) (main_arg16 : FVec F S512x256 .f32) (main_arg17 : FVec F S256 .f32) (main_arg18 : FVec F S256 .f32) (main_arg19 : FVec F S256 .f32) (main_arg20 : FVec F S256 .f32) (main_arg21 : FVec F S512x128 .f32) (main_arg22 : FVec F S128 .f32) (main_arg23 : FVec F S128 .f32) (main_arg24 : FVec F S128 .f32) (main_arg25 : FVec F S128 .f32) (main_arg26 : FVec F S3x3x128x128 .f32) (main_arg27 : FVec F S128 .f32) (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v48 main_v49 main_v50

def fn_part1 {F : FTy → Type} [FloatOps F] (main_arg4 : FVec F S512 .f32) (main_arg5 : FVec F S512 .f32) (main_arg6 : FVec F S256x256 .f32) (main_arg7 : FVec F S256 .f32) (main_arg8 : FVec F S256 .f32) (main_arg9 : FVec F S256 .f32) (main_arg10 : FVec F S256 .f32) (main_arg11 : FVec F S128x256 .f32) (main_arg12 : FVec F S256 .f32) (main_arg13 : FVec F S256 .f32) (main_arg14 : FVec F S256 .f32) (main_arg15 : FVec F S256 .f32) (main_arg16 : FVec F S512x256 .f32) (main_arg17 : FVec F S256 .f32) (main_arg18 : FVec F S256 .f32) (main_arg19 : FVec F S256 .f32) (main_arg20 : FVec F S256 .f32) (main_arg21 : FVec F S512x128 .f32) (main_arg22 : FVec F S128 .f32) (main_arg23 : FVec F S128 .f32) (main_arg24 : FVec F S128 .f32) (main_arg25 : FVec F S128 .f32) (main_arg26 : FVec F S3x3x128x128 .f32) (main_arg27 : FVec F S128 .f32) (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v33

def fn {F : FTy → Type} [FloatOps F] (main_arg0 : FVec F S64x32x32x128 .f32) (main_arg1 : FVec F S128x512 .f32) (main_arg2 : FVec F S512 .f32) (main_arg3 : FVec F S512 .f32) (main_arg4 : FVec F S512 .f32) (main_arg5 : FVec F S512 .f32) (main_arg6 : FVec F S256x256 .f32) (main_arg7 : FVec F S256 .f32) (main_arg8 : FVec F S256 .f32) (main_arg9 : FVec F S256 .f32) (main_arg10 : FVec F S256 .f32) (main_arg11 : FVec F S128x256 .f32) (main_arg12 : FVec F S256 .f32) (main_arg13 : FVec F S256 .f32) (main_arg14 : FVec F S256 .f32) (main_arg15 : FVec F S256 .f32) (main_arg16 : FVec F S512x256 .f32) (main_arg17 : FVec F S256 .f32) (main_arg18 : FVec F S256 .f32) (main_arg19 : FVec F S256 .f32) (main_arg20 : FVec F S256 .f32) (main_arg21 : FVec F S512x128 .f32) (main_arg22 : FVec F S128 .f32) (main_arg23 : FVec F S128 .f32) (main_arg24 : FVec F S128 .f32) (main_arg25 : FVec F S128 .f32) (main_arg26 : FVec F S3x3x128x128 .f32) (main_arg27 : FVec F S128 .f32) (main_arg28 : FVec F S128 .f32) (main_arg29 : FVec F S128 .f32) (main_arg30 : FVec F S128 .f32) (main_arg31 : FVec F S128x256 .f32) (main_arg32 : FVec F S256 .f32) (main_arg33 : FVec F S256 .f32) (main_arg34 : FVec F S256 .f32) (main_arg35 : FVec F S256 .f32) (main_arg36 : FVec F S512x256 .f32) (main_arg37 : FVec F S256 .f32) (main_arg38 : FVec F S256 .f32) (main_arg39 : FVec F S256 .f32) (main_arg40 : FVec F S256 .f32) (main_arg41 : FVec F S256x128 .f32) (main_arg42 : FVec F S128 .f32) (main_arg43 : FVec F S128 .f32) (main_arg44 : FVec F S128 .f32) (main_arg45 : FVec F S128 .f32) (main_arg46 : FVec F S3x3x128x128 .f32) (main_arg47 : FVec F S128 .f32) (main_arg48 : FVec F S128 .f32) (main_arg49 : FVec F S128 .f32) (main_arg50 : FVec F S128 .f32) (main_arg51 : FVec F S128x256 .f32) (main_arg52 : FVec F S256 .f32) (main_arg53 : FVec F S256 .f32) (main_arg54 : FVec F S256 .f32) (main_arg55 : FVec F S256 .f32) : IVec S_ 1 :=
  let main_v0 : FVec F S64x32x32x128 .f32 := Host.absf main_arg0
  let main_cst : FVec F S_ .f32 := constant S_ .f32 0x7F800000#32
  let main_v1 : FVec F S64x32x32x128 .f32 := broadcastInDim S64x32x32x128 ![] bcast_S_S64x32x32x128 main_cst
  let main_v2 : IVec S64x32x32x128 1 := cmpf .olt main_v0 main_v1
  let main_c : IVec S_ 1 := constantI S_ 1 1#1
  let main_v3 : IVec S_ 1 := (fun x v => Host.reduce IntOp.andi x v reducesTo_S64x32x32x128_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_arg52 main_arg53 main_arg54 main_arg55 main_v13 main_v16
-- ==== Kernel.lean ====
abbrev S64x32x32x128 : Shape := ⟨4, ![64, 32, 32, 128]⟩
abbrev S128x512 : Shape := ⟨2, ![128, 512]⟩
abbrev S512 : Shape := ⟨1, ![512]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S512x128 : Shape := ⟨2, ![512, 128]⟩
abbrev S128 : Shape := ⟨1, ![128]⟩
abbrev S3x3x128x128 : Shape := ⟨4, ![3, 3, 128, 128]⟩
abbrev S256x128 : Shape := ⟨2, ![256, 128]⟩
abbrev S_ : Shape := ⟨0, ![]⟩
abbrev S1x512 : Shape := ⟨2, ![1, 512]⟩
abbrev S1x256 : Shape := ⟨2, ![1, 256]⟩
abbrev S1x128 : Shape := ⟨2, ![1, 128]⟩
abbrev S1x1x1x128 : Shape := ⟨4, ![1, 1, 1, 128]⟩
abbrev S1152x128 : Shape := ⟨2, ![1152, 128]⟩
abbrev S512x384 : Shape := ⟨2, ![512, 384]⟩
abbrev S1x384 : Shape := ⟨2, ![1, 384]⟩
abbrev S65536x128 : Shape := ⟨2, ![65536, 128]⟩
abbrev S65536x256 : Shape := ⟨2, ![65536, 256]⟩
abbrev S2048x128 : Shape := ⟨2, ![2048, 128]⟩
abbrev S2048x256 : Shape := ⟨2, ![2048, 256]⟩
abbrev S2x32x32x1152 : Shape := ⟨4, ![2, 32, 32, 1152]⟩
abbrev S2048x512 : Shape := ⟨2, ![2048, 512]⟩
abbrev S2048x384 : Shape := ⟨2, ![2048, 384]⟩
abbrev S2x32x32x128 : Shape := ⟨4, ![2, 32, 32, 128]⟩
abbrev S1x31x31x128 : Shape := ⟨4, ![1, 31, 31, 128]⟩
abbrev S31x31x128 : Shape := ⟨3, ![31, 31, 128]⟩
abbrev S1x31x32x128 : Shape := ⟨4, ![1, 31, 32, 128]⟩
abbrev S31x32x128 : Shape := ⟨3, ![31, 32, 128]⟩
abbrev S1x32x31x128 : Shape := ⟨4, ![1, 32, 31, 128]⟩
abbrev S32x31x128 : Shape := ⟨3, ![32, 31, 128]⟩
abbrev S1x32x32x128 : Shape := ⟨4, ![1, 32, 32, 128]⟩
abbrev S32x32x128 : Shape := ⟨3, ![32, 32, 128]⟩
abbrev S2048x1152 : Shape := ⟨2, ![2048, 1152]⟩
abbrev S64x32x32x256 : Shape := ⟨4, ![64, 32, 32, 256]⟩

abbrev nBuf : Space → Nat
  | .hbm => 197
  | .vmem => 26
  | .smem => 0
  | _ => 0

abbrev hbmTy0_0 (i : Nat) : BufTy := match i % 128 with
  | 0 => ⟨S64x32x32x128, .f32⟩
  | 1 => ⟨S128x512, .f32⟩
  | 2 => ⟨S512, .f32⟩
  | 3 => ⟨S512, .f32⟩
  | 4 => ⟨S512, .f32⟩
  | 5 => ⟨S512, .f32⟩
  | 6 => ⟨S256x256, .f32⟩
  | 7 => ⟨S256, .f32⟩
  | 8 => ⟨S256, .f32⟩
  | 9 => ⟨S256, .f32⟩
  | 10 => ⟨S256, .f32⟩
  | 11 => ⟨S128x256, .f32⟩
  | 12 => ⟨S256, .f32⟩
  | 13 => ⟨S256, .f32⟩
  | 14 => ⟨S256, .f32⟩
  | 15 => ⟨S256, .f32⟩
  | 16 => ⟨S512x256, .f32⟩
  | 17 => ⟨S256, .f32⟩
  | 18 => ⟨S256, .f32⟩
  | 19 => ⟨S256, .f32⟩
  | 20 => ⟨S256, .f32⟩
  | 21 => ⟨S512x128, .f32⟩
  | 22 => ⟨S128, .f32⟩
  | 23 => ⟨S128, .f32⟩
  | 24 => ⟨S128, .f32⟩
  | 25 => ⟨S128, .f32⟩
  | 26 => ⟨S3x3x128x128, .f32⟩
  | 27 => ⟨S128, .f32⟩
  | 28 => ⟨S128, .f32⟩
  | 29 => ⟨S128, .f32⟩
  | 30 => ⟨S128, .f32⟩
  | 31 => ⟨S128x256, .f32⟩
  | 32 => ⟨S256, .f32⟩
  | 33 => ⟨S256, .f32⟩
  | 34 => ⟨S256, .f32⟩
  | 35 => ⟨S256, .f32⟩
  | 36 => ⟨S512x256, .f32⟩
  | 37 => ⟨S256, .f32⟩
  | 38 => ⟨S256, .f32⟩
  | 39 => ⟨S256, .f32⟩
  | 40 => ⟨S256, .f32⟩
  | 41 => ⟨S256x128, .f32⟩
  | 42 => ⟨S128, .f32⟩
  | 43 => ⟨S128, .f32⟩
  | 44 => ⟨S128, .f32⟩
  | 45 => ⟨S128, .f32⟩
  | 46 => ⟨S3x3x128x128, .f32⟩
  | 47 => ⟨S128, .f32⟩
  | 48 => ⟨S128, .f32⟩
  | 49 => ⟨S128, .f32⟩
  | 50 => ⟨S128, .f32⟩
  | 51 => ⟨S128x256, .f32⟩
  | 52 => ⟨S256, .f32⟩
  | 53 => ⟨S256, .f32⟩
  | 54 => ⟨S256, .f32⟩
  | 55 => ⟨S256, .f32⟩
  | 56 => ⟨S_, .f32⟩
  | 57 => ⟨S512, .f32⟩
  | 58 => ⟨S512, .f32⟩
  | 59 => ⟨S512, .f32⟩
  | 60 => ⟨S512, .f32⟩
  | 61 => ⟨S512, .f32⟩
  | 62 => ⟨S512, .f32⟩
  | 63 => ⟨S1x512, .f32⟩
  | 64 => ⟨S128x512, .f32⟩
  | 65 => ⟨S128x512, .f32⟩
  | 66 => ⟨S128x512, .bf16⟩
  | 67 => ⟨S1x512, .f32⟩
  | 68 => ⟨S_, .f32⟩
  | 69 => ⟨S256, .f32⟩
  | 70 => ⟨S256, .f32⟩
  | 71 => ⟨S256, .f32⟩
  | 72 => ⟨S256, .f32⟩
  | 73 => ⟨S256, .f32⟩
  | 74 => ⟨S256, .f32⟩
  | 75 => ⟨S1x256, .f32⟩
  | 76 => ⟨S256x256, .f32⟩
  | 77 => ⟨S256x256, .f32⟩
  | 78 => ⟨S256x256, .bf16⟩
  | 79 => ⟨S1x256, .f32⟩
  | 80 => ⟨S_, .f32⟩
  | 81 => ⟨S256, .f32⟩
  | 82 => ⟨S256, .f32⟩
  | 83 => ⟨S256, .f32⟩
  | 84 => ⟨S256, .f32⟩
  | 85 => ⟨S256, .f32⟩
  | 86 => ⟨S256, .f32⟩
  | 87 => ⟨S1x256, .f32⟩
  | 88 => ⟨S128x256, .f32⟩
  | 89 => ⟨S128x256, .f32⟩
  | 90 => ⟨S128x256, .bf16⟩
  | 91 => ⟨S1x256, .f32⟩
  | 92 => ⟨S_, .f32⟩
  | 93 => ⟨S256, .f32⟩
  | 94 => ⟨S256, .f32⟩
  | 95 => ⟨S256, .f32⟩
  | 96 => ⟨S256, .f32⟩
  | 97 => ⟨S256, .f32⟩
  | 98 => ⟨S256, .f32⟩
  | 99 => ⟨S1x256, .f32⟩
  | 100 => ⟨S512x256, .f32⟩
  | 101 => ⟨S512x256, .f32⟩
  | 102 => ⟨S512x256, .bf16⟩
  | 103 => ⟨S1x256, .f32⟩
  | 104 => ⟨S256x256, .bf16⟩
  | 105 => ⟨S256x256, .bf16⟩
  | 106 => ⟨S_, .f32⟩
  | 107 => ⟨S128, .f32⟩
  | 108 => ⟨S128, .f32⟩
  | 109 => ⟨S128, .f32⟩
  | 110 => ⟨S128, .f32⟩
  | 111 => ⟨S128, .f32⟩
  | 112 => ⟨S128, .f32⟩
  | 113 => ⟨S1x128, .f32⟩
  | 114 => ⟨S512x128, .f32⟩
  | 115 => ⟨S512x128, .f32⟩
  | 116 => ⟨S512x128, .bf16⟩
  | 117 => ⟨S1x128, .f32⟩
  | 118 => ⟨S_, .f32⟩
  | 119 => ⟨S128, .f32⟩
  | 120 => ⟨S128, .f32⟩
  | 121 => ⟨S128, .f32⟩
  | 122 => ⟨S128, .f32⟩
  | 123 => ⟨S128, .f32⟩
  | 124 => ⟨S128, .f32⟩
  | 125 => ⟨S1x1x1x128, .f32⟩
  | 126 => ⟨S3x3x128x128, .f32⟩
  | 127 => ⟨S3x3x128x128, .f32⟩
  | _ => ⟨S64x32x32x128, .f32⟩

abbrev hbmTy0_1 (i : Nat) : BufTy := match i % 128 with
  | 0 => ⟨S3x3x128x128, .bf16⟩
  | 1 => ⟨S1x128, .f32⟩
  | 2 => ⟨S1152x128, .bf16⟩
  | 3 => ⟨S_, .f32⟩
  | 4 => ⟨S256, .f32⟩
  | 5 => ⟨S256, .f32⟩
  | 6 => ⟨S256, .f32⟩
  | 7 => ⟨S256, .f32⟩
  | 8 => ⟨S256, .f32⟩
  | 9 => ⟨S256, .f32⟩
  | 10 => ⟨S1x256, .f32⟩
  | 11 => ⟨S128x256, .f32⟩
  | 12 => ⟨S128x256, .f32⟩
  | 13 => ⟨S128x256, .bf16⟩
  | 14 => ⟨S1x256, .f32⟩
  | 15 => ⟨S_, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S1x256, .f32⟩
  | 23 => ⟨S512x256, .f32⟩
  | 24 => ⟨S512x256, .f32⟩
  | 25 => ⟨S512x256, .bf16⟩
  | 26 => ⟨S1x256, .f32⟩
  | 27 => ⟨S512x384, .bf16⟩
  | 28 => ⟨S1x384, .f32⟩
  | 29 => ⟨S_, .f32⟩
  | 30 => ⟨S128, .f32⟩
  | 31 => ⟨S128, .f32⟩
  | 32 => ⟨S128, .f32⟩
  | 33 => ⟨S128, .f32⟩
  | 34 => ⟨S128, .f32⟩
  | 35 => ⟨S128, .f32⟩
  | 36 => ⟨S1x128, .f32⟩
  | 37 => ⟨S256x128, .f32⟩
  | 38 => ⟨S256x128, .f32⟩
  | 39 => ⟨S256x128, .bf16⟩
  | 40 => ⟨S1x128, .f32⟩
  | 41 => ⟨S_, .f32⟩
  | 42 => ⟨S128, .f32⟩
  | 43 => ⟨S128, .f32⟩
  | 44 => ⟨S128, .f32⟩
  | 45 => ⟨S128, .f32⟩
  | 46 => ⟨S128, .f32⟩
  | 47 => ⟨S128, .f32⟩
  | 48 => ⟨S1x1x1x128, .f32⟩
  | 49 => ⟨S3x3x128x128, .f32⟩
  | 50 => ⟨S3x3x128x128, .f32⟩
  | 51 => ⟨S3x3x128x128, .bf16⟩
  | 52 => ⟨S1x128, .f32⟩
  | 53 => ⟨S1152x128, .bf16⟩
  | 54 => ⟨S_, .f32⟩
  | 55 => ⟨S256, .f32⟩
  | 56 => ⟨S256, .f32⟩
  | 57 => ⟨S256, .f32⟩
  | 58 => ⟨S256, .f32⟩
  | 59 => ⟨S256, .f32⟩
  | 60 => ⟨S256, .f32⟩
  | 61 => ⟨S1x256, .f32⟩
  | 62 => ⟨S128x256, .f32⟩
  | 63 => ⟨S128x256, .f32⟩
  | 64 => ⟨S128x256, .bf16⟩
  | 65 => ⟨S1x256, .f32⟩
  | 66 => ⟨S65536x128, .f32⟩
  | 67 => ⟨S65536x256, .f32⟩
  | 68 => ⟨S64x32x32x256, .f32⟩
  | _ => ⟨S64x32x32x128, .f32⟩

abbrev hbmTy (i : Nat) : BufTy := match i / 128 with
  | 0 => hbmTy0_0 i
  | 1 => hbmTy0_1 i
  | _ => ⟨S64x32x32x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x512, .bf16⟩
  | .local _ .vmem, ⟨3, _⟩ => ⟨S1x512, .f32⟩
  | .local _ .vmem, ⟨4, _⟩ => ⟨S512x384, .bf16⟩
  | .local _ .vmem, ⟨5, _⟩ => ⟨S1x384, .f32⟩
  | .local _ .vmem, ⟨6, _⟩ => ⟨S1152x128, .bf16⟩
  | .local _ .vmem, ⟨7, _⟩ => ⟨S1x128, .f32⟩
  | .local _ .vmem, ⟨8, _⟩ => ⟨S128x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S1152x128, .bf16⟩
  | .local _ .vmem, ⟨13, _⟩ => ⟨S1x128, .f32⟩
  | .local _ .vmem, ⟨14, _⟩ => ⟨S128x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S128x256, .bf16⟩
  | .local _ .vmem, ⟨19, _⟩ => ⟨S1x256, .f32⟩
  | .local _ .vmem, ⟨20, _⟩ => ⟨S256x256, .bf16⟩
  | .local _ .vmem, ⟨21, _⟩ => ⟨S256x256, .bf16⟩
  | .local _ .vmem, ⟨22, _⟩ => ⟨S1x256, .f32⟩
  | .local _ .vmem, ⟨23, _⟩ => ⟨S2048x256, .f32⟩
  | .local _ .vmem, ⟨24, _⟩ => ⟨S2048x256, .f32⟩
  | .local _ .vmem, ⟨25, _⟩ => ⟨S2x32x32x1152, .bf16⟩
  | _, _ => ⟨S64x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_cst : Ref sig .tc := ⟨.hbm, 56, rfl⟩
abbrev main_v0 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_cst_1 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_cst_2 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_cst_3 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_cst_4 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_5 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_6 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_cst_7 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_8 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_cst_9 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1152x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1152x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S2048x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bitsLt_bf16_f32 : FTy.bits .bf16 < FTy.bits .f32
  shapeCasts_S512_S1x512 : S512.ShapeCasts S1x512
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  shapeCasts_S256_S1x256 : S256.ShapeCasts S1x256
  bcast_S1x256_S128x256_0_1 : S1x256.BroadcastsInDim S128x256 (![0, 1] : Fin 2 → Fin S128x256.rank)
  bcast_S1x256_S512x256_0_1 : S1x256.BroadcastsInDim S512x256 (![0, 1] : Fin 2 → Fin S512x256.rank)
  slices_S512x256_S256x256_0_0 : S512x256.Slices ![0, 0] S256x256
  slices_S512x256_S256x256_256_0 : S512x256.Slices ![256, 0] S256x256
  bcast_S_S128 : S_.BroadcastsInDim S128 (![] : Fin 0 → Fin S128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  shapeCasts_S128_S1x128 : S128.ShapeCasts S1x128
  bcast_S128_S1x1x1x128_3 : S128.BroadcastsInDim S1x1x1x128 (![3] : Fin 1 → Fin S1x1x1x128.rank)
  bcast_S1x1x1x128_S3x3x128x128_0_1_2_3 : S1x1x1x128.BroadcastsInDim S3x3x128x128 (![0, 1, 2, 3] : Fin 4 → Fin S3x3x128x128.rank)
  shapeCasts_S3x3x128x128_S1152x128 : S3x3x128x128.ShapeCasts S1152x128
  concatenates_S512x128_S512x256_S512x384_d1 : Shape.Concatenates [S512x128, S512x256] S512x384 1
  concatenates_S1x128_S1x256_S1x384_d1 : Shape.Concatenates [S1x128, S1x256] S1x384 1
  bcast_S1x128_S256x128_0_1 : S1x128.BroadcastsInDim S256x128 (![0, 1] : Fin 2 → Fin S256x128.rank)
  shapeCasts_S64x32x32x128_S65536x128 : S64x32x32x128.ShapeCasts S65536x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x256 : S2048x384.Slices ![0, 128] S2048x256
  shapeCasts_S2048x128_S2x32x32x128 : S2048x128.ShapeCasts S2x32x32x128
  inb_S2x32x32x1152_S2x32x32x1152_0_0_0_0 : ∀ a, (![0, 0, 0, 0] : Fin 4 → Nat) a + S2x32x32x1152.size a ≤ S2x32x32x1152.size a
  h_S2x32x32x1152 : 0 < S2x32x32x1152.numel
  shapeCasts_S2x32x32x1152_S2x32x32x1152 : S2x32x32x1152.ShapeCasts S2x32x32x1152
  packedbf16_S2x32x32x1152_S2x32x32x1152_0_0_0_0 : (Rect.unit (s := S2x32x32x1152) ![0, 0, 0, 0] S2x32x32x1152.size inb_S2x32x32x1152_S2x32x32x1152_0_0_0_0).PackedRows (EltTy.packing .bf16)
  slices_S2x32x32x128_o0_0_0_0_S1x31x31x128 : S2x32x32x128.Slices ![0, 0, 0, 0] S1x31x31x128
  shapeCasts_S1x31x31x128_S31x31x128 : S1x31x31x128.ShapeCasts S31x31x128
  inb_S2x32x32x1152_S1x31x31x128_0_1_1_0 : ∀ a, (![0, 1, 1, 0] : Fin 4 → Nat) a + S1x31x31x128.size a ≤ S2x32x32x1152.size a
  h_S1x31x31x128 : 0 < S1x31x31x128.numel
  shapeCasts_S31x31x128_S1x31x31x128 : S31x31x128.ShapeCasts S1x31x31x128
  inb_S2x32x32x1152_S1x31x32x128_0_1_0_0 : ∀ a, (![0, 1, 0, 0] : Fin 4 → Nat) a + S1x31x32x128.size a ≤ S2x32x32x1152.size a
  h_S1x31x32x128 : 0 < S1x31x32x128.numel
  slices_S1x31x32x128_S1x31x31x128_0_0_1_0 : S1x31x32x128.Slices ![0, 0, 1, 0] S1x31x31x128
  packedbf16_S2x32x32x1152_S1x31x32x128_0_1_0_0 : (Rect.unit (s := S2x32x32x1152) ![0, 1, 0, 0] S1x31x32x128.size inb_S2x32x32x1152_S1x31x32x128_0_1_0_0).PackedRows (EltTy.packing .bf16)
  slices_S2x32x32x128_o0_0_0_0_S1x31x32x128 : S2x32x32x128.Slices ![0, 0, 0, 0] S1x31x32x128
  shapeCasts_S1x31x32x128_S31x32x128 : S1x31x32x128.ShapeCasts S31x32x128
  inb_S2x32x32x1152_S1x31x32x128_0_1_0_128 : ∀ a, (![0, 1, 0, 128] : Fin 4 → Nat) a + S1x31x32x128.size a ≤ S2x32x32x1152.size a
  shapeCasts_S31x32x128_S1x31x32x128 : S31x32x128.ShapeCasts S1x31x32x128
  packedbf16_S2x32x32x1152_S1x31x32x128_0_1_0_128 : (Rect.unit (s := S2x32x32x1152) ![0, 1, 0, 128] S1x31x32x128.size inb_S2x32x32x1152_S1x31x32x128_0_1_0_128).PackedRows (EltTy.packing .bf16)
  slices_S2x32x32x128_o0_0_1_0_S1x31x31x128 : S2x32x32x128.Slices ![0, 0, 1, 0] S1x31x31x128
  inb_S2x32x32x1152_S1x31x31x128_0_1_0_256 : ∀ a, (![0, 1, 0, 256] : Fin 4 → Nat) a + S1x31x31x128.size a ≤ S2x32x32x1152.size a
  inb_S2x32x32x1152_S1x31x32x128_0_1_0_256 : ∀ a, (![0, 1, 0, 256] : Fin 4 → Nat) a + S1x31x32x128.size a ≤ S2x32x32x1152.size a
  slices_S1x31x32x128_S1x31x31x128_0_0_0_0 : S1x31x32x128.Slices ![0, 0, 0, 0] S1x31x31x128
  packedbf16_S2x32x32x1152_S1x31x32x128_0_1_0_256 : (Rect.unit (s := S2x32x32x1152) ![0, 1, 0, 256] S1x31x32x128.size inb_S2x32x32x1152_S1x31x32x128_0_1_0_256).PackedRows (EltTy.packing .bf16)
  slices_S2x32x32x128_o0_0_0_0_S1x32x31x128 : S2x32x32x128.Slices ![0, 0, 0, 0] S1x32x31x128
  shapeCasts_S1x32x31x128_S32x31x128 : S1x32x31x128.ShapeCasts S32x31x128
  inb_S2x32x32x1152_S1x32x31x128_0_0_1_384 : ∀ a, (![0, 0, 1, 384] : Fin 4 → Nat) a + S1x32x31x128.size a ≤ S2x32x32x1152.size a
  h_S1x32x31x128 : 0 < S1x32x31x128.numel
  shapeCasts_S32x31x128_S1x32x31x128 : S32x31x128.ShapeCasts S1x32x31x128
  inb_S2x32x32x1152_S1x32x32x128_0_0_0_384 : ∀ a, (![0, 0, 0, 384] : Fin 4 → Nat) a + S1x32x32x128.size a ≤ S2x32x32x1152.size a
  h_S1x32x32x128 : 0 < S1x32x32x128.numel
  slices_S1x32x32x128_S1x32x31x128_0_0_1_0 : S1x32x32x128.Slices ![0, 0, 1, 0] S1x32x31x128
  packedbf16_S2x32x32x1152_S1x32x32x128_0_0_0_384 : (Rect.unit (s := S2x32x32x1152) ![0, 0, 0, 384] S1x32x32x128.size inb_S2x32x32x1152_S1x32x32x128_0_0_0_384).PackedRows (EltTy.packing .bf16)
  slices_S2x32x32x128_o0_0_0_0_S1x32x32x128 : S2x32x32x128.Slices ![0, 0, 0, 0] S1x32x32x128
  shapeCasts_S1x32x32x128_S32x32x128 : S1x32x32x128.ShapeCasts S32x32x128
  inb_S2x32x32x1152_S1x32x32x128_0_0_0_512 : ∀ a, (![0, 0, 0, 512] : Fin 4 → Nat) a + S1x32x32x128.size a ≤ S2x32x32x1152.size a
  shapeCasts_S32x32x128_S1x32x32x128 : S32x32x128.ShapeCasts S1x32x32x128
  packedbf16_S2x32x32x1152_S1x32x32x128_0_0_0_512 : (Rect.unit (s := S2x32x32x1152) ![0, 0, 0, 512] S1x32x32x128.size inb_S2x32x32x1152_S1x32x32x128_0_0_0_512).PackedRows (EltTy.packing .bf16)
  slices_S2x32x32x128_o0_0_1_0_S1x32x31x128 : S2x32x32x128.Slices ![0, 0, 1, 0] S1x32x31x128
  inb_S2x32x32x1152_S1x32x31x128_0_0_0_640 : ∀ a, (![0, 0, 0, 640] : Fin 4 → Nat) a + S1x32x31x128.size a ≤ S2x32x32x1152.size a
  inb_S2x32x32x1152_S1x32x32x128_0_0_0_640 : ∀ a, (![0, 0, 0, 640] : Fin 4 → Nat) a + S1x32x32x128.size a ≤ S2x32x32x1152.size a
  slices_S1x32x32x128_S1x32x31x128_0_0_0_0 : S1x32x32x128.Slices ![0, 0, 0, 0] S1x32x31x128
  packedbf16_S2x32x32x1152_S1x32x32x128_0_0_0_640 : (Rect.unit (s := S2x32x32x1152) ![0, 0, 0, 640] S1x32x32x128.size inb_S2x32x32x1152_S1x32x32x128_0_0_0_640).PackedRows (EltTy.packing .bf16)
  slices_S2x32x32x128_o0_1_0_0_S1x31x31x128 : S2x32x32x128.Slices ![0, 1, 0, 0] S1x31x31x128
  inb_S2x32x32x1152_S1x31x31x128_0_0_1_768 : ∀ a, (![0, 0, 1, 768] : Fin 4 → Nat) a + S1x31x31x128.size a ≤ S2x32x32x1152.size a
  inb_S2x32x32x1152_S1x31x32x128_0_0_0_768 : ∀ a, (![0, 0, 0, 768] : Fin 4 → Nat) a + S1x31x32x128.size a ≤ S2x32x32x1152.size a
  packedbf16_S2x32x32x1152_S1x31x32x128_0_0_0_768 : (Rect.unit (s := S2x32x32x1152) ![0, 0, 0, 768] S1x31x32x128.size inb_S2x32x32x1152_S1x31x32x128_0_0_0_768).PackedRows (EltTy.packing .bf16)
  slices_S2x32x32x128_o0_1_0_0_S1x31x32x128 : S2x32x32x128.Slices ![0, 1, 0, 0] S1x31x32x128
  inb_S2x32x32x1152_S1x31x32x128_0_0_0_896 : ∀ a, (![0, 0, 0, 896] : Fin 4 → Nat) a + S1x31x32x128.size a ≤ S2x32x32x1152.size a
  packedbf16_S2x32x32x1152_S1x31x32x128_0_0_0_896 : (Rect.unit (s := S2x32x32x1152) ![0, 0, 0, 896] S1x31x32x128.size inb_S2x32x32x1152_S1x31x32x128_0_0_0_896).PackedRows (EltTy.packing .bf16)
  slices_S2x32x32x128_o0_1_1_0_S1x31x31x128 : S2x32x32x128.Slices ![0, 1, 1, 0] S1x31x31x128
  inb_S2x32x32x1152_S1x31x31x128_0_0_0_1024 : ∀ a, (![0, 0, 0, 1024] : Fin 4 → Nat) a + S1x31x31x128.size a ≤ S2x32x32x1152.size a
  inb_S2x32x32x1152_S1x31x32x128_0_0_0_1024 : ∀ a, (![0, 0, 0, 1024] : Fin 4 → Nat) a + S1x31x32x128.size a ≤ S2x32x32x1152.size a
  packedbf16_S2x32x32x1152_S1x31x32x128_0_0_0_1024 : (Rect.unit (s := S2x32x32x1152) ![0, 0, 0, 1024] S1x31x32x128.size inb_S2x32x32x1152_S1x31x32x128_0_0_0_1024).PackedRows (EltTy.packing .bf16)
  slices_S2x32x32x128_o1_0_0_0_S1x31x31x128 : S2x32x32x128.Slices ![1, 0, 0, 0] S1x31x31x128
  inb_S2x32x32x1152_S1x31x31x128_1_1_1_0 : ∀ a, (![1, 1, 1, 0] : Fin 4 → Nat) a + S1x31x31x128.size a ≤ S2x32x32x1152.size a
  inb_S2x32x32x1152_S1x31x32x128_1_1_0_0 : ∀ a, (![1, 1, 0, 0] : Fin 4 → Nat) a + S1x31x32x128.size a ≤ S2x32x32x1152.size a
  packedbf16_S2x32x32x1152_S1x31x32x128_1_1_0_0 : (Rect.unit (s := S2x32x32x1152) ![1, 1, 0, 0] S1x31x32x128.size inb_S2x32x32x1152_S1x31x32x128_1_1_0_0).PackedRows (EltTy.packing .bf16)
  slices_S2x32x32x128_o1_0_0_0_S1x31x32x128 : S2x32x32x128.Slices ![1, 0, 0, 0] S1x31x32x128
  inb_S2x32x32x1152_S1x31x32x128_1_1_0_128 : ∀ a, (![1, 1, 0, 128] : Fin 4 → Nat) a + S1x31x32x128.size a ≤ S2x32x32x1152.size a
  packedbf16_S2x32x32x1152_S1x31x32x128_1_1_0_128 : (Rect.unit (s := S2x32x32x1152) ![1, 1, 0, 128] S1x31x32x128.size inb_S2x32x32x1152_S1x31x32x128_1_1_0_128).PackedRows (EltTy.packing .bf16)
  slices_S2x32x32x128_o1_0_1_0_S1x31x31x128 : S2x32x32x128.Slices ![1, 0, 1, 0] S1x31x31x128
  inb_S2x32x32x1152_S1x31x31x128_1_1_0_256 : ∀ a, (![1, 1, 0, 256] : Fin 4 → Nat) a + S1x31x31x128.size a ≤ S2x32x32x1152.size a
  inb_S2x32x32x1152_S1x31x32x128_1_1_0_256 : ∀ a, (![1, 1, 0, 256] : Fin 4 → Nat) a + S1x31x32x128.size a ≤ S2x32x32x1152.size a
  packedbf16_S2x32x32x1152_S1x31x32x128_1_1_0_256 : (Rect.unit (s := S2x32x32x1152) ![1, 1, 0, 256] S1x31x32x128.size inb_S2x32x32x1152_S1x31x32x128_1_1_0_256).PackedRows (EltTy.packing .bf16)
  slices_S2x32x32x128_o1_0_0_0_S1x32x31x128 : S2x32x32x128.Slices ![1, 0, 0, 0] S1x32x31x128
  inb_S2x32x32x1152_S1x32x31x128_1_0_1_384 : ∀ a, (![1, 0, 1, 384] : Fin 4 → Nat) a + S1x32x31x128.size a ≤ S2x32x32x1152.size a
  inb_S2x32x32x1152_S1x32x32x128_1_0_0_384 : ∀ a, (![1, 0, 0, 384] : Fin 4 → Nat) a + S1x32x32x128.size a ≤ S2x32x32x1152.size a
  packedbf16_S2x32x32x1152_S1x32x32x128_1_0_0_384 : (Rect.unit (s := S2x32x32x1152) ![1, 0, 0, 384] S1x32x32x128.size inb_S2x32x32x1152_S1x32x32x128_1_0_0_384).PackedRows (EltTy.packing .bf16)
  slices_S2x32x32x128_o1_0_0_0_S1x32x32x128 : S2x32x32x128.Slices ![1, 0, 0, 0] S1x32x32x128
  inb_S2x32x32x1152_S1x32x32x128_1_0_0_512 : ∀ a, (![1, 0, 0, 512] : Fin 4 → Nat) a + S1x32x32x128.size a ≤ S2x32x32x1152.size a
  packedbf16_S2x32x32x1152_S1x32x32x128_1_0_0_512 : (Rect.unit (s := S2x32x32x1152) ![1, 0, 0, 512] S1x32x32x128.size inb_S2x32x32x1152_S1x32x32x128_1_0_0_512).PackedRows (EltTy.packing .bf16)
  slices_S2x32x32x128_o1_0_1_0_S1x32x31x128 : S2x32x32x128.Slices ![1, 0, 1, 0] S1x32x31x128
  inb_S2x32x32x1152_S1x32x31x128_1_0_0_640 : ∀ a, (![1, 0, 0, 640] : Fin 4 → Nat) a + S1x32x31x128.size a ≤ S2x32x32x1152.size a
  inb_S2x32x32x1152_S1x32x32x128_1_0_0_640 : ∀ a, (![1, 0, 0, 640] : Fin 4 → Nat) a + S1x32x32x128.size a ≤ S2x32x32x1152.size a
  packedbf16_S2x32x32x1152_S1x32x32x128_1_0_0_640 : (Rect.unit (s := S2x32x32x1152) ![1, 0, 0, 640] S1x32x32x128.size inb_S2x32x32x1152_S1x32x32x128_1_0_0_640).PackedRows (EltTy.packing .bf16)
  slices_S2x32x32x128_o1_1_0_0_S1x31x31x128 : S2x32x32x128.Slices ![1, 1, 0, 0] S1x31x31x128
  inb_S2x32x32x1152_S1x31x31x128_1_0_1_768 : ∀ a, (![1, 0, 1, 768] : Fin 4 → Nat) a + S1x31x31x128.size a ≤ S2x32x32x1152.size a
  inb_S2x32x32x1152_S1x31x32x128_1_0_0_768 : ∀ a, (![1, 0, 0, 768] : Fin 4 → Nat) a + S1x31x32x128.size a ≤ S2x32x32x1152.size a
  packedbf16_S2x32x32x1152_S1x31x32x128_1_0_0_768 : (Rect.unit (s := S2x32x32x1152) ![1, 0, 0, 768] S1x31x32x128.size inb_S2x32x32x1152_S1x31x32x128_1_0_0_768).PackedRows (EltTy.packing .bf16)
  slices_S2x32x32x128_o1_1_0_0_S1x31x32x128 : S2x32x32x128.Slices ![1, 1, 0, 0] S1x31x32x128
  inb_S2x32x32x1152_S1x31x32x128_1_0_0_896 : ∀ a, (![1, 0, 0, 896] : Fin 4 → Nat) a + S1x31x32x128.size a ≤ S2x32x32x1152.size a
  packedbf16_S2x32x32x1152_S1x31x32x128_1_0_0_896 : (Rect.unit (s := S2x32x32x1152) ![1, 0, 0, 896] S1x31x32x128.size inb_S2x32x32x1152_S1x31x32x128_1_0_0_896).PackedRows (EltTy.packing .bf16)
  slices_S2x32x32x128_o1_1_1_0_S1x31x31x128 : S2x32x32x128.Slices ![1, 1, 1, 0] S1x31x31x128
  inb_S2x32x32x1152_S1x31x31x128_1_0_0_1024 : ∀ a, (![1, 0, 0, 1024] : Fin 4 → Nat) a + S1x31x31x128.size a ≤ S2x32x32x1152.size a
  inb_S2x32x32x1152_S1x31x32x128_1_0_0_1024 : ∀ a, (![1, 0, 0, 1024] : Fin 4 → Nat) a + S1x31x32x128.size a ≤ S2x32x32x1152.size a
  packedbf16_S2x32x32x1152_S1x31x32x128_1_0_0_1024 : (Rect.unit (s := S2x32x32x1152) ![1, 0, 0, 1024] S1x31x32x128.size inb_S2x32x32x1152_S1x31x32x128_1_0_0_1024).PackedRows (EltTy.packing .bf16)
  shapeCasts_S2x32x32x1152_S2048x1152 : S2x32x32x1152.ShapeCasts S2048x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  shapeCasts_S65536x256_S64x32x32x256 : S65536x256.ShapeCasts S64x32x32x256
  dot_S2048x128_S128x512_S2048x512_1_0_0_1_n_n_wf : DotDims.WF S2048x128 S128x512 S2048x512 [1] [0] [0] [1] [] []
  dot_S2048x512_S512x384_S2048x384_1_0_0_1_n_n_wf : DotDims.WF S2048x512 S512x384 S2048x384 [1] [0] [0] [1] [] []
  dot_S2048x1152_S1152x128_S2048x128_1_0_0_1_n_n_wf : DotDims.WF S2048x1152 S1152x128 S2048x128 [1] [0] [0] [1] [] []
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S512x384.size a
  hwx0_3 : ∀ i : grid0.Coords, EltTy.bits .bf16 = 32 ∨ (Rect.block (s := S512x384) S512x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1152x128.size a ≤ S1152x128.size a
  hwx0_5 : ∀ i : grid0.Coords, EltTy.bits .bf16 = 32 ∨ (Rect.block (s := S1152x128) S1152x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1152x128.size a ≤ S1152x128.size a
  hwx0_11 : ∀ i : grid0.Coords, EltTy.bits .bf16 = 32 ∨ (Rect.block (s := S1152x128) S1152x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S128x256.size a
  hwx0_13 : ∀ i : grid0.Coords, EltTy.bits .bf16 = 32 ∨ (Rect.block (s := S128x256) S128x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .bf16 = 32 ∨ (Rect.block (s := S128x256) S128x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .bf16 = 32 ∨ (Rect.block (s := S256x256) S256x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S256x256.size a
  hwx0_20 : ∀ i : grid0.Coords, EltTy.bits .bf16 = 32 ∨ (Rect.block (s := S256x256) S256x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2048x256.size a ≤ S65536x256.size a
  hwx0_22 : ∀ i : grid0.Coords, EltTy.bits .f32 = 32 ∨ (Rect.block (s := S65536x256) S2048x256.size (cc0_transform_22 i) (hinb0_22 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x384_S2048x384_1_0_0_1_n_n : DotDims S2048x512 S512x384 S2048x384 where
  lhsContracting := [1]
  rhsContracting := [0]
  lhsNonContracting := [0]
  rhsNonContracting := [1]
  lhsBatch := []
  rhsBatch := []
  wf := dot_S2048x512_S512x384_S2048x384_1_0_0_1_n_n_wf
def dot_S2048x1152_S1152x128_S2048x128_1_0_0_1_n_n : DotDims S2048x1152 S1152x128 S2048x128 where
  lhsContracting := [1]
  rhsContracting := [0]
  lhsNonContracting := [0]
  rhsNonContracting := [1]
  lhsBatch := []
  rhsBatch := []
  wf := dot_S2048x1152_S1152x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v127) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v91) S512x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v92) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v68) S1152x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v67) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v78) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v79) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v102) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v103) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v115) S1152x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v114) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v125) S128x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v126) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v21) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v31) S128x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v32) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v44) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v45) S256x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v43) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v128) S2048x256.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S64x32x32x128 : Shape := ⟨4, ![64, 32, 32, 128]⟩
abbrev S128x512 : Shape := ⟨2, ![128, 512]⟩
abbrev S512 : Shape := ⟨1, ![512]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S512x128 : Shape := ⟨2, ![512, 128]⟩
abbrev S128 : Shape := ⟨1, ![128]⟩
abbrev S3x3x128x128 : Shape := ⟨4, ![3, 3, 128, 128]⟩
abbrev S256x128 : Shape := ⟨2, ![256, 128]⟩
abbrev S_ : Shape := ⟨0, ![]⟩
abbrev S1x512 : Shape := ⟨2, ![1, 512]⟩
abbrev S65536x128 : Shape := ⟨2, ![65536, 128]⟩
abbrev S65536x512 : Shape := ⟨2, ![65536, 512]⟩
abbrev S512x512 : Shape := ⟨2, ![512, 512]⟩
abbrev S64x32x32x512 : Shape := ⟨4, ![64, 32, 32, 512]⟩
abbrev S1x128 : Shape := ⟨2, ![1, 128]⟩
abbrev S1x1x1x128 : Shape := ⟨4, ![1, 1, 1, 128]⟩
abbrev S9x128x128 : Shape := ⟨3, ![9, 128, 128]⟩
abbrev S1x256 : Shape := ⟨2, ![1, 256]⟩
abbrev S65536x256 : Shape := ⟨2, ![65536, 256]⟩
abbrev S1024x512 : Shape := ⟨2, ![1024, 512]⟩
abbrev S1024x256 : Shape := ⟨2, ![1024, 256]⟩
abbrev S34x34x128 : Shape := ⟨3, ![34, 34, 128]⟩
abbrev S1024x128 : Shape := ⟨2, ![1024, 128]⟩
abbrev S32x32x128 : Shape := ⟨3, ![32, 32, 128]⟩
abbrev S1x128x128 : Shape := ⟨3, ![1, 128, 128]⟩
abbrev S128x128 : Shape := ⟨2, ![128, 128]⟩
abbrev S64x32x32x256 : Shape := ⟨4, ![64, 32, 32, 256]⟩

abbrev nBuf : Space → Nat
  | .hbm => 200
  | .vmem => 51
  | .smem => 0
  | _ => 0

abbrev hbmTy0_0 (i : Nat) : BufTy := match i % 128 with
  | 0 => ⟨S64x32x32x128, .f32⟩
  | 1 => ⟨S128x512, .f32⟩
  | 2 => ⟨S512, .f32⟩
  | 3 => ⟨S512, .f32⟩
  | 4 => ⟨S512, .f32⟩
  | 5 => ⟨S512, .f32⟩
  | 6 => ⟨S256x256, .f32⟩
  | 7 => ⟨S256, .f32⟩
  | 8 => ⟨S256, .f32⟩
  | 9 => ⟨S256, .f32⟩
  | 10 => ⟨S256, .f32⟩
  | 11 => ⟨S128x256, .f32⟩
  | 12 => ⟨S256, .f32⟩
  | 13 => ⟨S256, .f32⟩
  | 14 => ⟨S256, .f32⟩
  | 15 => ⟨S256, .f32⟩
  | 16 => ⟨S512x256, .f32⟩
  | 17 => ⟨S256, .f32⟩
  | 18 => ⟨S256, .f32⟩
  | 19 => ⟨S256, .f32⟩
  | 20 => ⟨S256, .f32⟩
  | 21 => ⟨S512x128, .f32⟩
  | 22 => ⟨S128, .f32⟩
  | 23 => ⟨S128, .f32⟩
  | 24 => ⟨S128, .f32⟩
  | 25 => ⟨S128, .f32⟩
  | 26 => ⟨S3x3x128x128, .f32⟩
  | 27 => ⟨S128, .f32⟩
  | 28 => ⟨S128, .f32⟩
  | 29 => ⟨S128, .f32⟩
  | 30 => ⟨S128, .f32⟩
  | 31 => ⟨S128x256, .f32⟩
  | 32 => ⟨S256, .f32⟩
  | 33 => ⟨S256, .f32⟩
  | 34 => ⟨S256, .f32⟩
  | 35 => ⟨S256, .f32⟩
  | 36 => ⟨S512x256, .f32⟩
  | 37 => ⟨S256, .f32⟩
  | 38 => ⟨S256, .f32⟩
  | 39 => ⟨S256, .f32⟩
  | 40 => ⟨S256, .f32⟩
  | 41 => ⟨S256x128, .f32⟩
  | 42 => ⟨S128, .f32⟩
  | 43 => ⟨S128, .f32⟩
  | 44 => ⟨S128, .f32⟩
  | 45 => ⟨S128, .f32⟩
  | 46 => ⟨S3x3x128x128, .f32⟩
  | 47 => ⟨S128, .f32⟩
  | 48 => ⟨S128, .f32⟩
  | 49 => ⟨S128, .f32⟩
  | 50 => ⟨S128, .f32⟩
  | 51 => ⟨S128x256, .f32⟩
  | 52 => ⟨S256, .f32⟩
  | 53 => ⟨S256, .f32⟩
  | 54 => ⟨S256, .f32⟩
  | 55 => ⟨S256, .f32⟩
  | 56 => ⟨S_, .f32⟩
  | 57 => ⟨S512, .f32⟩
  | 58 => ⟨S512, .f32⟩
  | 59 => ⟨S512, .f32⟩
  | 60 => ⟨S512, .f32⟩
  | 61 => ⟨S512, .f32⟩
  | 62 => ⟨S512, .f32⟩
  | 63 => ⟨S1x512, .f32⟩
  | 64 => ⟨S128x512, .f32⟩
  | 65 => ⟨S128x512, .f32⟩
  | 66 => ⟨S65536x128, .f32⟩
  | 67 => ⟨S1x512, .f32⟩
  | 68 => ⟨S65536x512, .f32⟩
  | 69 => ⟨S64x32x32x512, .f32⟩
  | 70 => ⟨S_, .f32⟩
  | 71 => ⟨S128, .f32⟩
  | 72 => ⟨S128, .f32⟩
  | 73 => ⟨S128, .f32⟩
  | 74 => ⟨S128, .f32⟩
  | 75 => ⟨S128, .f32⟩
  | 76 => ⟨S128, .f32⟩
  | 77 => ⟨S_, .f32⟩
  | 78 => ⟨S128, .f32⟩
  | 79 => ⟨S128, .f32⟩
  | 80 => ⟨S128, .f32⟩
  | 81 => ⟨S128, .f32⟩
  | 82 => ⟨S128, .f32⟩
  | 83 => ⟨S128, .f32⟩
  | 84 => ⟨S_, .f32⟩
  | 85 => ⟨S256, .f32⟩
  | 86 => ⟨S256, .f32⟩
  | 87 => ⟨S256, .f32⟩
  | 88 => ⟨S256, .f32⟩
  | 89 => ⟨S256, .f32⟩
  | 90 => ⟨S256, .f32⟩
  | 91 => ⟨S1x128, .f32⟩
  | 92 => ⟨S512x128, .f32⟩
  | 93 => ⟨S512x128, .f32⟩
  | 94 => ⟨S1x1x1x128, .f32⟩
  | 95 => ⟨S3x3x128x128, .f32⟩
  | 96 => ⟨S3x3x128x128, .f32⟩
  | 97 => ⟨S9x128x128, .f32⟩
  | 98 => ⟨S1x256, .f32⟩
  | 99 => ⟨S128x256, .f32⟩
  | 100 => ⟨S128x256, .f32⟩
  | 101 => ⟨S65536x512, .f32⟩
  | 102 => ⟨S1x128, .f32⟩
  | 103 => ⟨S1x128, .f32⟩
  | 104 => ⟨S1x256, .f32⟩
  | 105 => ⟨S_, .f32⟩
  | 106 => ⟨S256, .f32⟩
  | 107 => ⟨S256, .f32⟩
  | 108 => ⟨S256, .f32⟩
  | 109 => ⟨S256, .f32⟩
  | 110 => ⟨S256, .f32⟩
  | 111 => ⟨S256, .f32⟩
  | 112 => ⟨S1x256, .f32⟩
  | 113 => ⟨S512x256, .f32⟩
  | 114 => ⟨S512x256, .f32⟩
  | 115 => ⟨S1x256, .f32⟩
  | 116 => ⟨S65536x256, .f32⟩
  | 117 => ⟨S64x32x32x256, .f32⟩
  | 118 => ⟨S_, .f32⟩
  | 119 => ⟨S128, .f32⟩
  | 120 => ⟨S128, .f32⟩
  | 121 => ⟨S128, .f32⟩
  | 122 => ⟨S128, .f32⟩
  | 123 => ⟨S128, .f32⟩
  | 124 => ⟨S128, .f32⟩
  | 125 => ⟨S_, .f32⟩
  | 126 => ⟨S128, .f32⟩
  | 127 => ⟨S128, .f32⟩
  | _ => ⟨S64x32x32x128, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S_, .f32⟩
  | 5 => ⟨S256, .f32⟩
  | 6 => ⟨S256, .f32⟩
  | 7 => ⟨S256, .f32⟩
  | 8 => ⟨S256, .f32⟩
  | 9 => ⟨S256, .f32⟩
  | 10 => ⟨S256, .f32⟩
  | 11 => ⟨S1x128, .f32⟩
  | 12 => ⟨S256x128, .f32⟩
  | 13 => ⟨S256x128, .f32⟩
  | 14 => ⟨S1x1x1x128, .f32⟩
  | 15 => ⟨S3x3x128x128, .f32⟩
  | 16 => ⟨S3x3x128x128, .f32⟩
  | 17 => ⟨S9x128x128, .f32⟩
  | 18 => ⟨S1x256, .f32⟩
  | 19 => ⟨S128x256, .f32⟩
  | 20 => ⟨S128x256, .f32⟩
  | 21 => ⟨S65536x256, .f32⟩
  | 22 => ⟨S1x128, .f32⟩
  | 23 => ⟨S1x128, .f32⟩
  | 24 => ⟨S1x256, .f32⟩
  | 25 => ⟨S65536x256, .f32⟩
  | 26 => ⟨S64x32x32x256, .f32⟩
  | 27 => ⟨S_, .f32⟩
  | 28 => ⟨S256, .f32⟩
  | 29 => ⟨S256, .f32⟩
  | 30 => ⟨S256, .f32⟩
  | 31 => ⟨S256, .f32⟩
  | 32 => ⟨S256, .f32⟩
  | 33 => ⟨S256, .f32⟩
  | 34 => ⟨S1x256, .f32⟩
  | 35 => ⟨S256x256, .f32⟩
  | 36 => ⟨S256x256, .f32⟩
  | 37 => ⟨S65536x256, .f32⟩
  | 38 => ⟨S1x256, .f32⟩
  | 39 => ⟨S65536x256, .f32⟩
  | 40 => ⟨S64x32x32x256, .f32⟩
  | 41 => ⟨S_, .f32⟩
  | 42 => ⟨S256, .f32⟩
  | 43 => ⟨S256, .f32⟩
  | 44 => ⟨S256, .f32⟩
  | 45 => ⟨S256, .f32⟩
  | 46 => ⟨S256, .f32⟩
  | 47 => ⟨S256, .f32⟩
  | 48 => ⟨S1x256, .f32⟩
  | 49 => ⟨S128x256, .f32⟩
  | 50 => ⟨S128x256, .f32⟩
  | 51 => ⟨S65536x128, .f32⟩
  | 52 => ⟨S1x256, .f32⟩
  | 53 => ⟨S65536x256, .f32⟩
  | 54 => ⟨S64x32x32x256, .f32⟩
  | 55 => ⟨S_, .f32⟩
  | 56 => ⟨S256, .f32⟩
  | 57 => ⟨S256, .f32⟩
  | 58 => ⟨S256, .f32⟩
  | 59 => ⟨S256, .f32⟩
  | 60 => ⟨S256, .f32⟩
  | 61 => ⟨S256, .f32⟩
  | 62 => ⟨S1x256, .f32⟩
  | 63 => ⟨S512x256, .f32⟩
  | 64 => ⟨S512x256, .f32⟩
  | 65 => ⟨S256x256, .f32⟩
  | 66 => ⟨S256x256, .f32⟩
  | 67 => ⟨S65536x256, .f32⟩
  | 68 => ⟨S65536x256, .f32⟩
  | 69 => ⟨S1x256, .f32⟩
  | 70 => ⟨S65536x256, .f32⟩
  | 71 => ⟨S64x32x32x256, .f32⟩
  | _ => ⟨S64x32x32x128, .f32⟩

abbrev hbmTy (i : Nat) : BufTy := match i / 128 with
  | 0 => hbmTy0_0 i
  | 1 => hbmTy0_1 i
  | _ => ⟨S64x32x32x128, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S128x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S1024x512, .f32⟩
  | .local _ .vmem, ⟨7, _⟩ => ⟨S1024x512, .f32⟩
  | .local _ .vmem, ⟨8, _⟩ => ⟨S512x128, .f32⟩
  | .local _ .vmem, ⟨9, _⟩ => ⟨S1x128, .f32⟩
  | .local _ .vmem, ⟨10, _⟩ => ⟨S9x128x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S512x256, .f32⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S34x34x128, .f32⟩
  | .local _ .vmem, ⟨19, _⟩ => ⟨S1024x256, .f32⟩
  | .local _ .vmem, ⟨20, _⟩ => ⟨S1024x256, .f32⟩
  | .local _ .vmem, ⟨21, _⟩ => ⟨S256x128, .f32⟩
  | .local _ .vmem, ⟨22, _⟩ => ⟨S1x128, .f32⟩
  | .local _ .vmem, ⟨23, _⟩ => ⟨S9x128x128, .f32⟩
  | .local _ .vmem, ⟨24, _⟩ => ⟨S1x128, .f32⟩
  | .local _ .vmem, ⟨25, _⟩ => ⟨S128x256, .f32⟩
  | .local _ .vmem, ⟨26, _⟩ => ⟨S1x256, .f32⟩
  | .local _ .vmem, ⟨27, _⟩ => ⟨S1024x256, .f32⟩
  | .local _ .vmem, ⟨28, _⟩ => ⟨S1024x256, .f32⟩
  | .local _ .vmem, ⟨29, _⟩ => ⟨S34x34x128, .f32⟩
  | .local _ .vmem, ⟨30, _⟩ => ⟨S512x256, .f32⟩
  | .local _ .vmem, ⟨31, _⟩ => ⟨S512x256, .f32⟩
  | .local _ .vmem, ⟨32, _⟩ => ⟨S256x256, .f32⟩
  | .local _ .vmem, ⟨33, _⟩ => ⟨S1x256, .f32⟩
  | .local _ .vmem, ⟨34, _⟩ => ⟨S512x256, .f32⟩
  | .local _ .vmem, ⟨35, _⟩ => ⟨S512x256, .f32⟩
  | .local _ .vmem, ⟨36, _⟩ => ⟨S512x128, .f32⟩
  | .local _ .vmem, ⟨37, _⟩ => ⟨S512x128, .f32⟩
  | .local _ .vmem, ⟨38, _⟩ => ⟨S128x256, .f32⟩
  | .local _ .vmem, ⟨39, _⟩ => ⟨S1x256, .f32⟩
  | .local _ .vmem, ⟨40, _⟩ => ⟨S512x256, .f32⟩
  | .local _ .vmem, ⟨41, _⟩ => ⟨S512x256, .f32⟩
  | .local _ .vmem, ⟨42, _⟩ => ⟨S512x256, .f32⟩
  | .local _ .vmem, ⟨43, _⟩ => ⟨S512x256, .f32⟩
  | .local _ .vmem, ⟨44, _⟩ => ⟨S512x256, .f32⟩
  | .local _ .vmem, ⟨45, _⟩ => ⟨S512x256, .f32⟩
  | .local _ .vmem, ⟨46, _⟩ => ⟨S256x256, .f32⟩
  | .local _ .vmem, ⟨47, _⟩ => ⟨S256x256, .f32⟩
  | .local _ .vmem, ⟨48, _⟩ => ⟨S1x256, .f32⟩
  | .local _ .vmem, ⟨49, _⟩ => ⟨S512x256, .f32⟩
  | .local _ .vmem, ⟨50, _⟩ => ⟨S512x256, .f32⟩
  | _, _ => ⟨S64x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_cst : Ref sig .tc := ⟨.hbm, 56, rfl⟩
abbrev main_v0 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_cst_0 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_cst_1 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_2 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_cst_3 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_cst_4 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_5 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_6 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_7 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_8 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_cst_9 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem5_1 : DmaSem sig := 48

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S9x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![128], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  shapeCasts_S64x32x32x128_S65536x128 : S64x32x32x128.ShapeCasts S65536x128
  shapeCasts_S512_S1x512 : S512.ShapeCasts S1x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S65536x512_S64x32x32x512 : S65536x512.ShapeCasts S64x32x32x512
  bcast_S_S128 : S_.BroadcastsInDim S128 (![] : Fin 0 → Fin S128.rank)
  bcast_S_S256 : S_.BroadcastsInDim S256 (![] : Fin 0 → Fin S256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S128_S1x1x1x128_3 : S128.BroadcastsInDim S1x1x1x128 (![3] : Fin 1 → Fin S1x1x1x128.rank)
  bcast_S1x1x1x128_S3x3x128x128_0_1_2_3 : S1x1x1x128.BroadcastsInDim S3x3x128x128 (![0, 1, 2, 3] : Fin 4 → Fin S3x3x128x128.rank)
  shapeCasts_S3x3x128x128_S9x128x128 : S3x3x128x128.ShapeCasts S9x128x128
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  shapeCasts_S64x32x32x512_S65536x512 : S64x32x32x512.ShapeCasts S65536x512
  shapeCasts_S128_S1x128 : S128.ShapeCasts S1x128
  shapeCasts_S256_S1x256 : S256.ShapeCasts S1x256
  bcast_S1x256_S512x256_0_1 : S1x256.BroadcastsInDim S512x256 (![0, 1] : Fin 2 → Fin S512x256.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S34x34x128_S34x34x128_0_0_0 : ∀ a, (![0, 0, 0] : Fin 3 → Nat) a + S34x34x128.size a ≤ S34x34x128.size a
  h_S34x34x128 : 0 < S34x34x128.numel
  shapeCasts_S34x34x128_S34x34x128 : S34x34x128.ShapeCasts S34x34x128
  shapeCasts_S1024x128_S32x32x128 : S1024x128.ShapeCasts S32x32x128
  inb_S34x34x128_S32x32x128_1_1_0 : ∀ a, (![1, 1, 0] : Fin 3 → Nat) a + S32x32x128.size a ≤ S34x34x128.size a
  h_S32x32x128 : 0 < S32x32x128.numel
  shapeCasts_S32x32x128_S32x32x128 : S32x32x128.ShapeCasts S32x32x128
  slices_S34x34x128_o0_0_0_S32x32x128 : S34x34x128.Slices ![0, 0, 0] S32x32x128
  shapeCasts_S32x32x128_S1024x128 : S32x32x128.ShapeCasts S1024x128
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  slices_S34x34x128_o0_1_0_S32x32x128 : S34x34x128.Slices ![0, 1, 0] S32x32x128
  inb_S9x128x128_S1x128x128_1_0_0 : ∀ a, (![1, 0, 0] : Fin 3 → Nat) a + S1x128x128.size a ≤ S9x128x128.size a
  slices_S34x34x128_o0_2_0_S32x32x128 : S34x34x128.Slices ![0, 2, 0] S32x32x128
  inb_S9x128x128_S1x128x128_2_0_0 : ∀ a, (![2, 0, 0] : Fin 3 → Nat) a + S1x128x128.size a ≤ S9x128x128.size a
  slices_S34x34x128_o1_0_0_S32x32x128 : S34x34x128.Slices ![1, 0, 0] S32x32x128
  inb_S9x128x128_S1x128x128_3_0_0 : ∀ a, (![3, 0, 0] : Fin 3 → Nat) a + S1x128x128.size a ≤ S9x128x128.size a
  slices_S34x34x128_o1_1_0_S32x32x128 : S34x34x128.Slices ![1, 1, 0] S32x32x128
  inb_S9x128x128_S1x128x128_4_0_0 : ∀ a, (![4, 0, 0] : Fin 3 → Nat) a + S1x128x128.size a ≤ S9x128x128.size a
  slices_S34x34x128_o1_2_0_S32x32x128 : S34x34x128.Slices ![1, 2, 0] S32x32x128
  inb_S9x128x128_S1x128x128_5_0_0 : ∀ a, (![5, 0, 0] : Fin 3 → Nat) a + S1x128x128.size a ≤ S9x128x128.size a
  slices_S34x34x128_o2_0_0_S32x32x128 : S34x34x128.Slices ![2, 0, 0] S32x32x128
  inb_S9x128x128_S1x128x128_6_0_0 : ∀ a, (![6, 0, 0] : Fin 3 → Nat) a + S1x128x128.size a ≤ S9x128x128.size a
  slices_S34x34x128_o2_1_0_S32x32x128 : S34x34x128.Slices ![2, 1, 0] S32x32x128
  inb_S9x128x128_S1x128x128_7_0_0 : ∀ a, (![7, 0, 0] : Fin 3 → Nat) a + S1x128x128.size a ≤ S9x128x128.size a
  slices_S34x34x128_o2_2_0_S32x32x128 : S34x34x128.Slices ![2, 2, 0] S32x32x128
  inb_S9x128x128_S1x128x128_8_0_0 : ∀ a, (![8, 0, 0] : Fin 3 → Nat) a + S1x128x128.size a ≤ S9x128x128.size a
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  shapeCasts_S65536x256_S64x32x32x256 : S65536x256.ShapeCasts S64x32x32x256
  bcast_S1x128_S256x128_0_1 : S1x128.BroadcastsInDim S256x128 (![0, 1] : Fin 2 → Fin S256x128.rank)
  shapeCasts_S64x32x32x256_S65536x256 : S64x32x32x256.ShapeCasts S65536x256
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S1x256_S256x256_0_1 : S1x256.BroadcastsInDim S256x256 (![0, 1] : Fin 2 → Fin S256x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S512x256 : S1x256.Broadcasts S512x256
  slices_S512x256_S256x256_0_0 : S512x256.Slices ![0, 0] S256x256
  slices_S512x256_S256x256_256_0 : S512x256.Slices ![256, 0] S256x256
  dot_S512x128_S128x512_S512x512_1_0_0_1_n_n_wf : DotDims.WF S512x128 S128x512 S512x512 [1] [0] [0] [1] [] []
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  dot_S1024x128_S128x256_S1024x256_1_0_0_1_n_n_wf : DotDims.WF S1024x128 S128x256 S1024x256 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S512x256_S256x256_S512x256_1_0_0_1_n_n_wf : DotDims.WF S512x256 S256x256 S512x256 [1] [0] [0] [1] [] []
  dot_S512x128_S128x256_S512x256_1_0_0_1_n_n_wf : DotDims.WF S512x128 S128x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x128.size a
  hwx0_0 : ∀ i : grid0.Coords, EltTy.bits .f32 = 32 ∨ (Rect.block (s := S65536x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S65536x512.size a
  hwx0_3 : ∀ i : grid0.Coords, EltTy.bits .f32 = 32 ∨ (Rect.block (s := S65536x512) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S65536x512.size a
  hwx1_0 : ∀ i : grid1.Coords, EltTy.bits .f32 = 32 ∨ (Rect.block (s := S65536x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x128x128.size a ≤ S9x128x128.size a
  hwx1_3 : ∀ i : grid1.Coords, EltTy.bits .f32 = 32 ∨ (Rect.block (s := S9x128x128) S9x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S512x256.size a
  hwx1_7 : ∀ i : grid1.Coords, EltTy.bits .f32 = 32 ∨ (Rect.block (s := S512x256) S512x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x256.size a ≤ S65536x256.size a
  hwx1_9 : ∀ i : grid1.Coords, EltTy.bits .f32 = 32 ∨ (Rect.block (s := S65536x256) S1024x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S65536x256.size a
  hwx2_0 : ∀ i : grid2.Coords, EltTy.bits .f32 = 32 ∨ (Rect.block (s := S65536x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S9x128x128.size a ≤ S9x128x128.size a
  hwx2_3 : ∀ i : grid2.Coords, EltTy.bits .f32 = 32 ∨ (Rect.block (s := S9x128x128) S9x128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x256.size a ≤ S65536x256.size a
  hwx2_7 : ∀ i : grid2.Coords, EltTy.bits .f32 = 32 ∨ (Rect.block (s := S65536x256) S1024x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S65536x256.size a
  hwx3_0 : ∀ i : grid3.Coords, EltTy.bits .f32 = 32 ∨ (Rect.block (s := S65536x256) S512x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S65536x256.size a
  hwx3_3 : ∀ i : grid3.Coords, EltTy.bits .f32 = 32 ∨ (Rect.block (s := S65536x256) S512x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S65536x128.size a
  hwx4_0 : ∀ i : grid4.Coords, EltTy.bits .f32 = 32 ∨ (Rect.block (s := S65536x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S65536x256.size a
  hwx4_3 : ∀ i : grid4.Coords, EltTy.bits .f32 = 32 ∨ (Rect.block (s := S65536x256) S512x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x256.size a ≤ S65536x256.size a
  hwx5_0 : ∀ i : grid5.Coords, EltTy.bits .f32 = 32 ∨ (Rect.block (s := S65536x256) S512x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S65536x256.size a
  hwx5_1 : ∀ i : grid5.Coords, EltTy.bits .f32 = 32 ∨ (Rect.block (s := S65536x256) S512x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x256.size a ≤ S65536x256.size a
  hwx5_5 : ∀ i : grid5.Coords, EltTy.bits .f32 = 32 ∨ (Rect.block (s := S65536x256) S512x256.size (cc5_transform_5 i) (hinb5_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf

abbrev win0_0 : Pipeline.Window sig grid0 :=
  Pipeline.Window.ofSpec (Memref.whole main_v9) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S9x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S512x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v55) S1024x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v85) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S9x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v88) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v89) S1024x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v100) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v99) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v101) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S512x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v113) S512x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v112) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v114) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S512x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v128) S512x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v129) S512x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v126) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v130) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S512x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== Proof.KRun.lean ====
/- The kernel body as one triple: run on whole staging memrefs, the twenty-two input blocks at their
   contents, the output block and the scratch buffer at anything, the body terminates and leaves every
   input block as it was, the output block with the body's stores written into it (the list of
   pieces is the witness the run finds), and the scratch buffer at some contents.

   The scratch buffer is a patch matrix: the body zeroes it, stores eighteen shifted slices of an
   activation into it and loads it back whole, twice. Every read of it comes after the zeroing store,
   so what it held when the body started never reaches a stored value; that is why it may be handed in
   at any contents. -/
import proofs.«145656_g2000601261699844_pallasbulk_55_1_alg».proof.Proof.Gen.Kernel.Frame
import proofs.«145656_g2000601261699844_pallasbulk_55_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (last store first), with the proof that the
    body runs from the blocks `x1 … x22` to the continuation holding them unchanged, the output block
    with those pieces written and the scratch buffer at some contents. -/
noncomputable def kernelRun0 (c : Dev nD) (i : grid0.Coords) (arg1 : Memref sig .tc .vmem S2048x128 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S512x384 .bf16) (harg4 : arg4.IsWhole) (arg5 : Memref sig .tc .vmem S1x384 .f32) (harg5 : arg5.IsWhole) (arg6 : Memref sig .tc .vmem S1152x128 .bf16) (harg6 : arg6.IsWhole) (arg7 : Memref sig .tc .vmem S1x128 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S1152x128 .bf16) (harg12 : arg12.IsWhole) (arg13 : Memref sig .tc .vmem S1x128 .f32) (harg13 : arg13.IsWhole) (arg14 : Memref sig .tc .vmem S128x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S128x256 .bf16) (harg18 : arg18.IsWhole) (arg19 : Memref sig .tc .vmem S1x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S1x256 .f32) (harg22 : arg22.IsWhole) (arg23 : Memref sig .tc .vmem S2048x256 .f32) (harg23 : arg23.IsWhole) (arg24 : Memref sig .tc .vmem S2x32x32x1152 .bf16) (harg24 : arg24.IsWhole)
    (x1 : Vec F S2048x128 .f32) (x2 : Vec F S128x512 .bf16) (x3 : Vec F S1x512 .f32) (x4 : Vec F S512x384 .bf16) (x5 : Vec F S1x384 .f32) (x6 : Vec F S1152x128 .bf16) (x7 : Vec F S1x128 .f32) (x8 : Vec F S128x256 .bf16) (x9 : Vec F S1x256 .f32) (x10 : Vec F S256x128 .bf16) (x11 : Vec F S1x128 .f32) (x12 : Vec F S1152x128 .bf16) (x13 : Vec F S1x128 .f32) (x14 : Vec F S128x256 .bf16) (x15 : Vec F S1x256 .f32) (x16 : Vec F S256x256 .bf16) (x17 : Vec F S1x256 .f32) (x18 : Vec F S128x256 .bf16) (x19 : Vec F S1x256 .f32) (x20 : Vec F S256x256 .bf16) (x21 : Vec F S256x256 .bf16) (x22 : Vec F S1x256 .f32) :
    { L : List (View.Piece (Elt F) S2048x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (∃ d, owns (c : Thread nD τ) arg23 fullShare d)
            ∗ (∃ f, arg24.view.loc (c : Thread nD τ) ↦[arg24.view.set]{fullShare} f)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
                ∗ (∃ f, arg23.view.loc (c : Thread nD τ) ↦[arg23.view.set]{fullShare} arg23.view.writes (Elt F) f L)
                ∗ (∃ f, arg24.view.loc (c : Thread nD τ) ↦[arg24.view.set]{fullShare} f)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    simp only [cc0__mega_kernel_eq_skeleton]; unfold cc0__mega_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%f24, H24⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    obtain rfl := harg20.eq_unread hf20
    obtain rfl := harg21.eq_unread hf21
    obtain rfl := harg22.eq_unread hf22
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; iexact H23
    iexists _; iexact H24

end Cert.Kernel.Body

end
-- ==== Proof.KFrame.lean ====
/- The frame of the program around its one kernel launch.

   The proof data of the pipeline: every input window's staging buffer holds, after the body at a grid
   point, the block it held before (the body stores into no input), and the output window's buffer
   holds what the body's stores leave there, read back through the pieces the body's run found. The
   body obligation is the body's triple at the point's staging buffers; the scratch buffer reaches the
   body through the region's invariant (every scoped buffer that is no staging buffer, at some
   contents) and goes back into it at whatever the body left, which is sound because the body
   overwrites the scratch before it reads it. The program goes on after the region with one reshape,
   which touches no array of the pipeline. -/
import proofs.«145656_g2000601261699844_pallasbulk_55_1_alg».proof.Proof.KRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the scratch buffer -/

abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1152x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1152x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x256 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x256 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x256 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S2048x256 .f32 := win0_22.stage (cfg0.slots t 22)
abbrev hs0_22 (t : Fin cfg0.N) : (ms0_22 t).IsWhole := hstage0_22 ((cfg0.slots t 22).cast nbuf0_22)
/-- The scratch buffer, whole. -/
abbrev scM : Memref sig .tc .vmem S2x32x32x1152 .bf16 := Memref.whole cc0_scratch0

/-- The region's invariant is the scratch buffer owned at some contents, and the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The scratch buffer owned at some contents is its elements' points-to at some buffer contents, -/
theorem scratch_open (c : Dev nD) :
    (iprop(∃ d, owns (c : Thread nD τ) scM fullShare d) : sProp 𝕄)
      ⊢ iprop(∃ f, scM.view.loc (c : Thread nD τ) ↦[scM.view.set]{fullShare} f) := by
  unfold owns
  iintro ⟨%d, %f, -, H⟩
  iexists f; iexact H

/-- and back. -/
theorem scratch_close (c : Dev nD) :
    (iprop(∃ f, scM.view.loc (c : Thread nD τ) ↦[scM.view.set]{fullShare} f) : sProp 𝕄)
      ⊢ iprop(∃ d, owns (c : Thread nD τ) scM fullShare d) := by
  unfold owns
  iintro ⟨%f, H⟩
  iexists _; iexists f; isplitr
  · ipureintro; rfl
  iexact H

/-! ## What the body leaves in the output block -/

/-- The output block after the body at point `t`, from the input blocks: the body's stores into it, read back. -/
def out22 (c : Dev nD) (t : Fin cfg0.N) (x1 : Vec F S2048x128 .f32) (x2 : Vec F S128x512 .bf16) (x3 : Vec F S1x512 .f32) (x4 : Vec F S512x384 .bf16) (x5 : Vec F S1x384 .f32) (x6 : Vec F S1152x128 .bf16) (x7 : Vec F S1x128 .f32) (x8 : Vec F S128x256 .bf16) (x9 : Vec F S1x256 .f32) (x10 : Vec F S256x128 .bf16) (x11 : Vec F S1x128 .f32) (x12 : Vec F S1152x128 .bf16) (x13 : Vec F S1x128 .f32) (x14 : Vec F S128x256 .bf16) (x15 : Vec F S1x256 .f32) (x16 : Vec F S256x256 .bf16) (x17 : Vec F S1x256 .f32) (x18 : Vec F S128x256 .bf16) (x19 : Vec F S1x256 .f32) (x20 : Vec F S256x256 .bf16) (x21 : Vec F S256x256 .bf16) (x22 : Vec F S1x256 .f32) : Vec F S2048x256 .f32 :=
  View.canon (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM (Memref.isWhole_whole _) x1 x2 x3 x4 x5 x6 x7 x8 x9 x10 x11 x12 x13 x14 x15 x16 x17 x18 x19 x20 x21 x22).1

/-- The body's stores into the output block tile it, so they cover it. -/
theorem cover22 (c : Dev nD) (t : Fin cfg0.N) (x1 : Vec F S2048x128 .f32) (x2 : Vec F S128x512 .bf16) (x3 : Vec F S1x512 .f32) (x4 : Vec F S512x384 .bf16) (x5 : Vec F S1x384 .f32) (x6 : Vec F S1152x128 .bf16) (x7 : Vec F S1x128 .f32) (x8 : Vec F S128x256 .bf16) (x9 : Vec F S1x256 .f32) (x10 : Vec F S256x128 .bf16) (x11 : Vec F S1x128 .f32) (x12 : Vec F S1152x128 .bf16) (x13 : Vec F S1x128 .f32) (x14 : Vec F S128x256 .bf16) (x15 : Vec F S1x256 .f32) (x16 : Vec F S256x256 .bf16) (x17 : Vec F S1x256 .f32) (x18 : Vec F S128x256 .bf16) (x19 : Vec F S1x256 .f32) (x20 : Vec F S256x256 .bf16) (x21 : Vec F S256x256 .bf16) (x22 : Vec F S1x256 .f32) (y : S2048x256.Idx) :
    ∃ pc ∈ (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM (Memref.isWhole_whole _) x1 x2 x3 x4 x5 x6 x7 x8 x9 x10 x11 x12 x13 x14 x15 x16 x17 x18 x19 x20 x21 x22).1, y ∈ pc.1.set :=
  View.cover_of_tiledL (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM (Memref.isWhole_whole _) x1 x2 x3 x4 x5 x6 x7 x8 x9 x10 x11 x12 x13 x14 x15 x16 x17 x18 x19 x20 x21 x22).1 S2048x256.size (by sl_kernel_rfl) y

/-! ## The pipeline's proof data -/

/-- The proof data on core `c`: the arrays as the region finds them; after the body at point `t` each input's
    buffer at its block and the output's at `out22` of the input blocks; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out22 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨_ + 23, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = out22 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

set_option maxHeartbeats 4000000 in
/-- The body at any point: the inputs' buffers hold their blocks, the scratch buffer comes out of the invariant at
    some contents, so the body's triple applies; the scratch goes back into the invariant at what the body left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0 c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS]; · iapply (scratch_open c); iexact HS
  iintro ⟨H0, H1, H2, H3, H4, H5, H6, H7, H8, H9, H10, H11, H12, H13, H14, H15, H16, H17, H18, H19, H20, H21, ⟨%e22, H22⟩, ⟨%es, HS⟩⟩
  isplitl [HS Hg]
  · isplitl [HS]
    · iapply (scratch_close c); iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro
  exact View.read_writes_eq_canon _ _ _ (cover22 c t _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCores terminates, and every final state has every array
    of the pipeline at what the library computes from the proof data and every other unscoped buffer as the line
    after the region leaves it. -/
theorem run_main : θ_run defs (onTc (τ := τ) (main (F := F))) (s₀ m ρ) (Pipeline.FramePost cfgs (dats m) 0 (Pipeline.afterTail₀ cfgs (dats m) 0 (Gen.V0 m) [Gen.hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [Gen.hostOps1]) (hsub := Gen.sfx_sub) (hfresh := Gen.sfx_fresh) (hkeep := Gen.sfx_keeps)
    (hmain := Gen.hmain m Variants.none) (hA := A_eq m) (hΦ := fun _ _ => rfl)

/-- The frame: the program terminates from any memory and leaves every argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)) :=
  Gen.frame_of m ρ (dats m) (A_eq m) (run_main m ρ)

end Cert.Kernel.Body

end
-- ==== Proof.KIRun.lean ====
/- The kernel body as one triple: run on whole staging memrefs, the twenty-two input blocks at their
   contents, the output block and the scratch buffer at anything, the body terminates and leaves every
   input block as it was, the output block with the body's stores written into it (the list of
   pieces is the witness the run finds), and the scratch buffer at some contents.

   The scratch buffer is a patch matrix: the body zeroes it, stores eighteen shifted slices of an
   activation into it and loads it back whole, twice. Every read of it comes after the zeroing store,
   so what it held when the body started never reaches a stored value; that is why it may be handed in
   at any contents. -/
import proofs.«145656_g2000601261699844_pallasbulk_55_1_alg».proof.Proof.Gen.KernelIdeal.Frame
import proofs.«145656_g2000601261699844_pallasbulk_55_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (last store first), with the proof that the
    body runs from the blocks `x1 … x22` to the continuation holding them unchanged, the output block
    with those pieces written and the scratch buffer at some contents. -/
noncomputable def kernelRun0 (c : Dev nD) (i : grid0.Coords) (arg1 : Memref sig .tc .vmem S2048x128 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S512x384 .bf16) (harg4 : arg4.IsWhole) (arg5 : Memref sig .tc .vmem S1x384 .f32) (harg5 : arg5.IsWhole) (arg6 : Memref sig .tc .vmem S1152x128 .bf16) (harg6 : arg6.IsWhole) (arg7 : Memref sig .tc .vmem S1x128 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S1152x128 .bf16) (harg12 : arg12.IsWhole) (arg13 : Memref sig .tc .vmem S1x128 .f32) (harg13 : arg13.IsWhole) (arg14 : Memref sig .tc .vmem S128x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S1x256 .f32) (harg17 : arg17.IsWhole) (arg18 : Memref sig .tc .vmem S128x256 .bf16) (harg18 : arg18.IsWhole) (arg19 : Memref sig .tc .vmem S1x256 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S1x256 .f32) (harg22 : arg22.IsWhole) (arg23 : Memref sig .tc .vmem S2048x256 .f32) (harg23 : arg23.IsWhole) (arg24 : Memref sig .tc .vmem S2x32x32x1152 .bf16) (harg24 : arg24.IsWhole)
    (x1 : Vec F S2048x128 .f32) (x2 : Vec F S128x512 .bf16) (x3 : Vec F S1x512 .f32) (x4 : Vec F S512x384 .bf16) (x5 : Vec F S1x384 .f32) (x6 : Vec F S1152x128 .bf16) (x7 : Vec F S1x128 .f32) (x8 : Vec F S128x256 .bf16) (x9 : Vec F S1x256 .f32) (x10 : Vec F S256x128 .bf16) (x11 : Vec F S1x128 .f32) (x12 : Vec F S1152x128 .bf16) (x13 : Vec F S1x128 .f32) (x14 : Vec F S128x256 .bf16) (x15 : Vec F S1x256 .f32) (x16 : Vec F S256x256 .bf16) (x17 : Vec F S1x256 .f32) (x18 : Vec F S128x256 .bf16) (x19 : Vec F S1x256 .f32) (x20 : Vec F S256x256 .bf16) (x21 : Vec F S256x256 .bf16) (x22 : Vec F S1x256 .f32) :
    { L : List (View.Piece (Elt F) S2048x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (∃ d, owns (c : Thread nD τ) arg23 fullShare d)
            ∗ (∃ f, arg24.view.loc (c : Thread nD τ) ↦[arg24.view.set]{fullShare} f)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
                ∗ (∃ f, arg23.view.loc (c : Thread nD τ) ↦[arg23.view.set]{fullShare} arg23.view.writes (Elt F) f L)
                ∗ (∃ f, arg24.view.loc (c : Thread nD τ) ↦[arg24.view.set]{fullShare} f)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    simp only [cc0__mega_kernel_eq_skeleton]; unfold cc0__mega_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%f24, H24⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    obtain rfl := harg20.eq_unread hf20
    obtain rfl := harg21.eq_unread hf21
    obtain rfl := harg22.eq_unread hf22
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; iexact H23
    iexists _; iexact H24

end Cert.KernelIdeal.Body

end
-- ==== Proof.KIFrame.lean ====
/- The frame of the program around its one kernel launch.

   The proof data of the pipeline: every input window's staging buffer holds, after the body at a grid
   point, the block it held before (the body stores into no input), and the output window's buffer
   holds what the body's stores leave there, read back through the pieces the body's run found. The
   body obligation is the body's triple at the point's staging buffers; the scratch buffer reaches the
   body through the region's invariant (every scoped buffer that is no staging buffer, at some
   contents) and goes back into it at whatever the body left, which is sound because the body
   overwrites the scratch before it reads it. The program goes on after the region with one reshape,
   which touches no array of the pipeline. -/
import proofs.«145656_g2000601261699844_pallasbulk_55_1_alg».proof.Proof.KIRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the scratch buffer -/

abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1152x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1152x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x256 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x256 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x256 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S2048x256 .f32 := win0_22.stage (cfg0.slots t 22)
abbrev hs0_22 (t : Fin cfg0.N) : (ms0_22 t).IsWhole := hstage0_22 ((cfg0.slots t 22).cast nbuf0_22)
/-- The scratch buffer, whole. -/
abbrev scM : Memref sig .tc .vmem S2x32x32x1152 .bf16 := Memref.whole cc0_scratch0

/-- The region's invariant is the scratch buffer owned at some contents, and the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The scratch buffer owned at some contents is its elements' points-to at some buffer contents, -/
theorem scratch_open (c : Dev nD) :
    (iprop(∃ d, owns (c : Thread nD τ) scM fullShare d) : sProp 𝕄)
      ⊢ iprop(∃ f, scM.view.loc (c : Thread nD τ) ↦[scM.view.set]{fullShare} f) := by
  unfold owns
  iintro ⟨%d, %f, -, H⟩
  iexists f; iexact H

/-- and back. -/
theorem scratch_close (c : Dev nD) :
    (iprop(∃ f, scM.view.loc (c : Thread nD τ) ↦[scM.view.set]{fullShare} f) : sProp 𝕄)
      ⊢ iprop(∃ d, owns (c : Thread nD τ) scM fullShare d) := by
  unfold owns
  iintro ⟨%f, H⟩
  iexists _; iexists f; isplitr
  · ipureintro; rfl
  iexact H

/-! ## What the body leaves in the output block -/

/-- The output block after the body at point `t`, from the input blocks: the body's stores into it, read back. -/
def out22 (c : Dev nD) (t : Fin cfg0.N) (x1 : Vec F S2048x128 .f32) (x2 : Vec F S128x512 .bf16) (x3 : Vec F S1x512 .f32) (x4 : Vec F S512x384 .bf16) (x5 : Vec F S1x384 .f32) (x6 : Vec F S1152x128 .bf16) (x7 : Vec F S1x128 .f32) (x8 : Vec F S128x256 .bf16) (x9 : Vec F S1x256 .f32) (x10 : Vec F S256x128 .bf16) (x11 : Vec F S1x128 .f32) (x12 : Vec F S1152x128 .bf16) (x13 : Vec F S1x128 .f32) (x14 : Vec F S128x256 .bf16) (x15 : Vec F S1x256 .f32) (x16 : Vec F S256x256 .bf16) (x17 : Vec F S1x256 .f32) (x18 : Vec F S128x256 .bf16) (x19 : Vec F S1x256 .f32) (x20 : Vec F S256x256 .bf16) (x21 : Vec F S256x256 .bf16) (x22 : Vec F S1x256 .f32) : Vec F S2048x256 .f32 :=
  View.canon (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM (Memref.isWhole_whole _) x1 x2 x3 x4 x5 x6 x7 x8 x9 x10 x11 x12 x13 x14 x15 x16 x17 x18 x19 x20 x21 x22).1

/-- The body's stores into the output block tile it, so they cover it. -/
theorem cover22 (c : Dev nD) (t : Fin cfg0.N) (x1 : Vec F S2048x128 .f32) (x2 : Vec F S128x512 .bf16) (x3 : Vec F S1x512 .f32) (x4 : Vec F S512x384 .bf16) (x5 : Vec F S1x384 .f32) (x6 : Vec F S1152x128 .bf16) (x7 : Vec F S1x128 .f32) (x8 : Vec F S128x256 .bf16) (x9 : Vec F S1x256 .f32) (x10 : Vec F S256x128 .bf16) (x11 : Vec F S1x128 .f32) (x12 : Vec F S1152x128 .bf16) (x13 : Vec F S1x128 .f32) (x14 : Vec F S128x256 .bf16) (x15 : Vec F S1x256 .f32) (x16 : Vec F S256x256 .bf16) (x17 : Vec F S1x256 .f32) (x18 : Vec F S128x256 .bf16) (x19 : Vec F S1x256 .f32) (x20 : Vec F S256x256 .bf16) (x21 : Vec F S256x256 .bf16) (x22 : Vec F S1x256 .f32) (y : S2048x256.Idx) :
    ∃ pc ∈ (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM (Memref.isWhole_whole _) x1 x2 x3 x4 x5 x6 x7 x8 x9 x10 x11 x12 x13 x14 x15 x16 x17 x18 x19 x20 x21 x22).1, y ∈ pc.1.set :=
  View.cover_of_tiledL (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM (Memref.isWhole_whole _) x1 x2 x3 x4 x5 x6 x7 x8 x9 x10 x11 x12 x13 x14 x15 x16 x17 x18 x19 x20 x21 x22).1 S2048x256.size (by sl_kernel_rfl) y

/-! ## The pipeline's proof data -/

/-- The proof data on core `c`: the arrays as the region finds them; after the body at point `t` each input's
    buffer at its block and the output's at `out22` of the input blocks; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out22 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨_ + 23, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = out22 c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

set_option maxHeartbeats 4000000 in
/-- The body at any point: the inputs' buffers hold their blocks, the scratch buffer comes out of the invariant at
    some contents, so the body's triple applies; the scratch goes back into the invariant at what the body left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0 c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS]; · iapply (scratch_open c); iexact HS
  iintro ⟨H0, H1, H2, H3, H4, H5, H6, H7, H8, H9, H10, H11, H12, H13, H14, H15, H16, H17, H18, H19, H20, H21, ⟨%e22, H22⟩, ⟨%es, HS⟩⟩
  isplitl [HS Hg]
  · isplitl [HS]
    · iapply (scratch_close c); iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro
  exact View.read_writes_eq_canon _ _ _ (cover22 c t _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCores terminates, and every final state has every array
    of the pipeline at what the library computes from the proof data and every other unscoped buffer as the line
    after the region leaves it. -/
theorem run_main : θ_run defs (onTc (τ := τ) (main (F := F))) (s₀ m ρ) (Pipeline.FramePost cfgs (dats m) 0 (Pipeline.afterTail₀ cfgs (dats m) 0 (Gen.V0 m) [Gen.hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [Gen.hostOps1]) (hsub := Gen.sfx_sub) (hfresh := Gen.sfx_fresh) (hkeep := Gen.sfx_keeps)
    (hmain := Gen.hmain m Variants.none) (hA := A_eq m) (hΦ := fun _ _ => rfl)

/-- The frame: the program terminates from any memory and leaves every argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)) :=
  Gen.frame_of m ρ (dats m) (A_eq m) (run_main m ρ)

end Cert.KernelIdeal.Body

end
-- ==== Proof.RRegion0.lean ====
/- Region 0 of the reference: its body's run at every grid point, carrying the VALUE the body leaves in the output
   block as a function of its three input blocks, and from it the pipeline's proof data. Everything is stated at a
   parameter `V`, the buffer contents the region is entered with. -/
import proofs.«145656_g2000601261699844_pallasbulk_55_1_alg».proof.Proof.Gen.ReferenceIdeal.Launch
import proofs.«145656_g2000601261699844_pallasbulk_55_1_alg».proof.Proof.Gen.ReferenceIdeal.Skeleton
import proofs.«145656_g2000601261699844_pallasbulk_55_1_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # Region 0: a block of rows times a weight matrix, plus a bias row, through the leaky activation

At each of the grid's points the body reads a block of rows `x`, the whole weight matrix `w` and the bias row `b`,
and stores `max s (λ · s)` over the whole output block, where `s = x·w + b` (the product accumulated from zero, the
bias row added to every row) and `λ` is the single-precision literal `0x3DCCCCCD`, the float nearest one tenth. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether or not the block was fetched there:
    where it was not, the block index did not move, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes. -/
abbrev r0_0 : Rect S512x128 := Rect.unit (s := S512x128) ![0, 0] S512x128.size inb_S512x128_S512x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S512x512 := Rect.unit (s := S512x512) ![0, 0] S512x512.size inb_S512x512_S512x512_0_0

/-- What the body leaves in the output block, as a function of the three input blocks: its one store, of the
    payload of the three loads, over the whole block. -/
def out0 (x0 : Vec F S512x128 .f32) (x1 : Vec F S128x512 .f32) (x2 : Vec F S1x512 .f32) : Vec F S512x512 .f32 :=
  View.canon [⟨r0_3, k0_pay1 (View.ld x0 r0_0) (View.ld x1 r0_1) (View.ld x2 r0_2)⟩]

/-- The one store is over the whole block, so it covers it. -/
theorem cover0 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

set_option maxHeartbeats 1000000 in
/-- The body on whole staging buffers, the inputs' at contents `x0 x1 x2` and the output's at anything, runs to the
    continuation with the inputs' as they were and the output's at `out0 x0 x1 x2`. -/
theorem sound_kernel0 (c : Dev nD) (E : Set ℕ) (i : grid0.Coords)
    (arg1 : Memref sig .tc .vmem S512x128 .f32) (harg1 : arg1.IsWhole) (arg2 : Memref sig .tc .vmem S128x512 .f32) (harg2 : arg2.IsWhole)
    (arg3 : Memref sig .tc .vmem S1x512 .f32) (harg3 : arg3.IsWhole) (arg4 : Memref sig .tc .vmem S512x512 .f32) (harg4 : arg4.IsWhole)
    (x0 : Vec F S512x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__mm_bias_act_kernel i arg1 harg1 arg2 harg2 arg3 harg3 arg4 harg4) K := by
  simp only [cc0__mm_bias_act_kernel_eq_skeleton]; unfold cc0__mm_bias_act_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of pipeline 0 on core `c`: the arrays as the region finds them; after the body at point `t` each
    input's buffer at its block and the output's at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Body

end
-- ==== Proof.RRegion1.lean ====
/- Region 1 of the reference: its body's run at every grid point, carrying the VALUE the body leaves in the output
   block as the pieces its stores write there, and from it the pipeline's proof data. Everything is stated at a
   parameter `V`, the buffer contents the region is entered with. -/
import proofs.«145656_g2000601261699844_pallasbulk_55_1_alg».proof.Proof.Gen.ReferenceIdeal.Launch
import proofs.«145656_g2000601261699844_pallasbulk_55_1_alg».proof.Proof.Gen.ReferenceIdeal.Skeleton
import proofs.«145656_g2000601261699844_pallasbulk_55_1_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # Region 1: a residual block with a 3×3 convolution through a zero-padded scratch image

At each of the grid's points the body reads a block of 1024 rows (one 32×32 image of rows), applies a first matrix with
a bias row and the positive part (the maximum with zero), zeroes the WHOLE 34×34 scratch image and writes that result
into its 32×32 interior, reads the scratch back whole, sums the nine 32×32 windows of it at offsets (0..2, 0..2), each
times its own 128×128 matrix (the first into a zero accumulator), adds a bias row, takes the positive part, applies a
last matrix with a bias row, adds the block of rows itself times a further matrix, plus that matrix's bias row, and stores the positive part of
the sum over the whole output block. The scratch is rewritten from nothing at every point, so nothing is carried
between points. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether or not the block was fetched there:
    where it was not, the block index did not move, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The staging buffer each window is on at point `t`, and that it is a whole buffer. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S9x128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x256 .f32 := win1_9.stage (cfg1.slots t 9)
abbrev hs1_9 (t : Fin cfg1.N) : (ms1_9 t).IsWhole := hstage1_9 ((cfg1.slots t 9).cast nbuf1_9)

set_option maxHeartbeats 4000000 in
/-- The body's run on whole buffers — the inputs' at contents `x0 …`, the output's and the scratch's at anything —
    TOGETHER WITH the pieces its stores leave in the output buffer (last first): the body runs to the continuation
    with the inputs' as they were, the output's with those pieces written over whatever it held, the scratch at some
    contents. The pieces are found by the run itself: the value stored is a term over the scratch as read back after
    the two stores into it. -/
noncomputable def kernelRun1 (c : Dev nD) (i : grid1.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S34x34x128 .f32) (harg11 : arg11.IsWhole)
    (x0 : Vec F S1024x512 .f32) (x1 : Vec F S512x128 .f32) (x2 : Vec F S1x128 .f32) (x3 : Vec F S9x128x128 .f32) (x4 : Vec F S1x128 .f32) (x5 : Vec F S128x256 .f32) (x6 : Vec F S1x256 .f32) (x7 : Vec F S512x256 .f32) (x8 : Vec F S1x256 .f32) :
    { L : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L)
                ∗ (∃ d, owns (c : Thread nD τ) arg11 fullShare d)) -∗ K ⟨⟩))
          ⊢ wp frame (wpE (defs₀ (F := F)) Variants.none c none) E (cc1__csp_block_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1__csp_block_kernel_eq_skeleton]; unfold cc1__csp_block_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%dS, %fS, -, HS⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO]; · iexists _; iexact HO
    iexists _; iexists _; isplitr
    swap; · iexact HS
    ipureintro; rfl

/-- What the body leaves in the output block at a point, from the point's buffers and the input blocks: the run's
    pieces read back. -/
def out1 (c : Dev nD) (i : grid1.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S34x34x128 .f32) (harg11 : arg11.IsWhole)
    (x0 : Vec F S1024x512 .f32) (x1 : Vec F S512x128 .f32) (x2 : Vec F S1x128 .f32) (x3 : Vec F S9x128x128 .f32) (x4 : Vec F S1x128 .f32) (x5 : Vec F S128x256 .f32) (x6 : Vec F S1x256 .f32) (x7 : Vec F S512x256 .f32) (x8 : Vec F S1x256 .f32) : Vec F S1024x256 .f32 :=
  View.canon (kernelRun1 c i arg1 harg1 arg2 harg2 arg3 harg3 arg4 harg4 arg5 harg5 arg6 harg6 arg7 harg7 arg8 harg8 arg9 harg9 arg10 harg10 arg11 harg11 x0 x1 x2 x3 x4 x5 x6 x7 x8).1

/-- The run's pieces tile the output block, so they cover it. -/
theorem cover1 (c : Dev nD) (i : grid1.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S34x34x128 .f32) (harg11 : arg11.IsWhole)
    (x0 : Vec F S1024x512 .f32) (x1 : Vec F S512x128 .f32) (x2 : Vec F S1x128 .f32) (x3 : Vec F S9x128x128 .f32) (x4 : Vec F S1x128 .f32) (x5 : Vec F S128x256 .f32) (x6 : Vec F S1x256 .f32) (x7 : Vec F S512x256 .f32) (x8 : Vec F S1x256 .f32) (y : S1024x256.Idx) :
    ∃ pc ∈ (kernelRun1 c i arg1 harg1 arg2 harg2 arg3 harg3 arg4 harg4 arg5 harg5 arg6 harg6 arg7 harg7 arg8 harg8 arg9 harg9 arg10 harg10 arg11 harg11 x0 x1 x2 x3 x4 x5 x6 x7 x8).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 x0 x1 x2 x3 x4 x5 x6 x7 x8).1 S1024x256.size (by sl_kernel_rfl) y

/-- The proof data of pipeline 1 on core `c`: the arrays as the region finds them; after the body at point `t` each
    input's buffer at its block and the output's at `out1` of the point's buffers and input blocks; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.whole cc1_scratch0) (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.whole cc1_scratch0) (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- A whole buffer at contents `f` is owned, through the memref of the whole buffer, at `f`, and back. -/
theorem scratch_in_at1 (c : Dev nD) (b : Ref sig .tc) (f : Buf (Elt F) ((c : Thread nD τ).loc b)) :
    ((((c : Thread nD τ).loc b) ↦{fullShare} f) : sProp 𝕄) ⊢ owns (c : Thread nD τ) (Memref.whole b) fullShare f := by
  rw [owns_whole]
theorem scratch_out_at1 (c : Dev nD) (b : Ref sig .tc) (f : Buf (Elt F) ((c : Thread nD τ).loc b)) :
    (owns (c : Thread nD τ) (Memref.whole b) fullShare f : sProp 𝕄) ⊢ (((c : Thread nD τ).loc b) ↦{fullShare} f) := by
  rw [owns_whole]
/-- The same at some contents. -/
theorem scratch_in1 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩; iexists f; iapply (scratch_in_at1 c b f); iexact H
theorem scratch_out1 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  iintro ⟨%d, H⟩; iexists d; iapply (scratch_out_at1 c b d); iexact H

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1600000 in
/-- The body at any point: the inputs' buffers hold their blocks; the scratch comes out of the region's invariant at
    whatever it holds, goes through the run, and goes back at whatever the run leaves; the run's pieces cover the
    output block, so the buffer reads `out1`; the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, after1_7, after1_8, after1_9]
  unfold Pipeline.ΦA out1
  rw [scopedRest1_split]
  iintro ⟨⟨⟨Hs, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave Hs' := scratch_in1 c cc1_scratch0 $$ Hs
  iapply ((kernelRun1 c (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [Hs']; · iexact Hs'
  iintro ⟨H0, H1, H2, H3, H4, H5, H6, H7, H8, ⟨%e9, H9⟩, Hs'⟩
  ihave Hs := scratch_out1 c cc1_scratch0 $$ Hs'
  isplitl [Hs Hrest Hp]
  · isplitl [Hs Hrest]
    · isplitl [Hs]; · iexact Hs
      iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_eq_canon _ _ _ (cover1 c _ _ _ _ _ _ _ _ _ _ _ _ _ _ _ _ _ _ _ _ _ _ _ _ _ _ _ _ _ _ _ _)

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Body

end
-- ==== Proof.RRegion2.lean ====
/- Region 2 of the reference: its body's run at every grid point, carrying the VALUE the body leaves in the output
   block as the pieces its stores write there, and from it the pipeline's proof data. Everything is stated at a
   parameter `V`, the buffer contents the region is entered with. -/
import proofs.«145656_g2000601261699844_pallasbulk_55_1_alg».proof.Proof.Gen.ReferenceIdeal.Launch
import proofs.«145656_g2000601261699844_pallasbulk_55_1_alg».proof.Proof.Gen.ReferenceIdeal.Skeleton
import proofs.«145656_g2000601261699844_pallasbulk_55_1_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # Region 2: a residual block with a 3×3 convolution through a zero-padded scratch image

At each of the grid's points the body reads a block of 1024 rows (one 32×32 image of rows), applies a first matrix with
a bias row and the positive part (the maximum with zero), zeroes the WHOLE 34×34 scratch image and writes that result
into its 32×32 interior, reads the scratch back whole, sums the nine 32×32 windows of it at offsets (0..2, 0..2), each
times its own 128×128 matrix (the first into a zero accumulator), adds a bias row, takes the positive part, applies a
last matrix with a bias row, adds the block of rows itself, and stores the positive part of
the sum over the whole output block. The scratch is rewritten from nothing at every point, so nothing is carried
between points. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether or not the block was fetched there:
    where it was not, the block index did not move, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The staging buffer each window is on at point `t`, and that it is a whole buffer. -/
abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S9x128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x256 .f32 := win2_7.stage (cfg2.slots t 7)
abbrev hs2_7 (t : Fin cfg2.N) : (ms2_7 t).IsWhole := hstage2_7 ((cfg2.slots t 7).cast nbuf2_7)

set_option maxHeartbeats 4000000 in
/-- The body's run on whole buffers — the inputs' at contents `x0 …`, the output's and the scratch's at anything —
    TOGETHER WITH the pieces its stores leave in the output buffer (last first): the body runs to the continuation
    with the inputs' as they were, the output's with those pieces written over whatever it held, the scratch at some
    contents. The pieces are found by the run itself: the value stored is a term over the scratch as read back after
    the two stores into it. -/
noncomputable def kernelRun2 (c : Dev nD) (i : grid2.Coords) (arg1 : Memref sig .tc .vmem S1024x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S34x34x128 .f32) (harg9 : arg9.IsWhole)
    (x0 : Vec F S1024x256 .f32) (x1 : Vec F S256x128 .f32) (x2 : Vec F S1x128 .f32) (x3 : Vec F S9x128x128 .f32) (x4 : Vec F S1x128 .f32) (x5 : Vec F S128x256 .f32) (x6 : Vec F S1x256 .f32) :
    { L : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L)
                ∗ (∃ d, owns (c : Thread nD τ) arg9 fullShare d)) -∗ K ⟨⟩))
          ⊢ wp frame (wpE (defs₀ (F := F)) Variants.none c none) E (cc2__csp_block_kernel i arg1 harg1 arg2 harg2 arg3 harg3 arg4 harg4 arg5 harg5 arg6 harg6 arg7 harg7 arg8 harg8 arg9 harg9) K } := by
  refine ⟨?_, fun E K => ?run⟩
  case run =>
    simp only [cc2__csp_block_kernel_eq_skeleton]; unfold cc2__csp_block_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, ⟨%dS, %fS, -, HS⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HO]; · iexists _; iexact HO
    iexists _; iexists _; isplitr
    swap; · iexact HS
    ipureintro; rfl

/-- What the body leaves in the output block at a point, from the point's buffers and the input blocks: the run's
    pieces read back. -/
def out2 (c : Dev nD) (i : grid2.Coords) (arg1 : Memref sig .tc .vmem S1024x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S34x34x128 .f32) (harg9 : arg9.IsWhole)
    (x0 : Vec F S1024x256 .f32) (x1 : Vec F S256x128 .f32) (x2 : Vec F S1x128 .f32) (x3 : Vec F S9x128x128 .f32) (x4 : Vec F S1x128 .f32) (x5 : Vec F S128x256 .f32) (x6 : Vec F S1x256 .f32) : Vec F S1024x256 .f32 :=
  View.canon (kernelRun2 c i arg1 harg1 arg2 harg2 arg3 harg3 arg4 harg4 arg5 harg5 arg6 harg6 arg7 harg7 arg8 harg8 arg9 harg9 x0 x1 x2 x3 x4 x5 x6).1

/-- The run's pieces tile the output block, so they cover it. -/
theorem cover2 (c : Dev nD) (i : grid2.Coords) (arg1 : Memref sig .tc .vmem S1024x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S34x34x128 .f32) (harg9 : arg9.IsWhole)
    (x0 : Vec F S1024x256 .f32) (x1 : Vec F S256x128 .f32) (x2 : Vec F S1x128 .f32) (x3 : Vec F S9x128x128 .f32) (x4 : Vec F S1x128 .f32) (x5 : Vec F S128x256 .f32) (x6 : Vec F S1x256 .f32) (y : S1024x256.Idx) :
    ∃ pc ∈ (kernelRun2 c i arg1 harg1 arg2 harg2 arg3 harg3 arg4 harg4 arg5 harg5 arg6 harg6 arg7 harg7 arg8 harg8 arg9 harg9 x0 x1 x2 x3 x4 x5 x6).1, y ∈ pc.1.set :=
  View.cover_of_tiledL (kernelRun2 c i arg1 harg1 arg2 harg2 arg3 harg3 arg4 harg4 arg5 harg5 arg6 harg6 arg7 harg7 arg8 harg8 arg9 harg9 x0 x1 x2 x3 x4 x5 x6).1 S1024x256.size (by sl_kernel_rfl) y

/-- The proof data of pipeline 2 on core `c`: the arrays as the region finds them; after the body at point `t` each
    input's buffer at its block and the output's at `out2` of the point's buffers and input blocks; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (Memref.whole cc2_scratch0) (Memref.isWhole_whole _) (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (Memref.whole cc2_scratch0) (Memref.isWhole_whole _) (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- A whole buffer at contents `f` is owned, through the memref of the whole buffer, at `f`, and back. -/
theorem scratch_in_at2 (c : Dev nD) (b : Ref sig .tc) (f : Buf (Elt F) ((c : Thread nD τ).loc b)) :
    ((((c : Thread nD τ).loc b) ↦{fullShare} f) : sProp 𝕄) ⊢ owns (c : Thread nD τ) (Memref.whole b) fullShare f := by
  rw [owns_whole]
theorem scratch_out_at2 (c : Dev nD) (b : Ref sig .tc) (f : Buf (Elt F) ((c : Thread nD τ).loc b)) :
    (owns (c : Thread nD τ) (Memref.whole b) fullShare f : sProp 𝕄) ⊢ (((c : Thread nD τ).loc b) ↦{fullShare} f) := by
  rw [owns_whole]
/-- The same at some contents. -/
theorem scratch_in2 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩; iexists f; iapply (scratch_in_at2 c b f); iexact H
theorem scratch_out2 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  iintro ⟨%d, H⟩; iexists d; iapply (scratch_out_at2 c b d); iexact H

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1600000 in
/-- The body at any point: the inputs' buffers hold their blocks; the scratch comes out of the region's invariant at
    whatever it holds, goes through the run, and goes back at whatever the run leaves; the run's pieces cover the
    output block, so the buffer reads `out2`; the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl,
    after2_0, after2_1, after2_2, after2_3, after2_4, after2_5, after2_6, after2_7]
  unfold Pipeline.ΦA out2
  rw [scopedRest2_split]
  iintro ⟨⟨⟨Hs, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave Hs' := scratch_in2 c cc2_scratch0 $$ Hs
  iapply ((kernelRun2 c (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs']; · iexact Hs'
  iintro ⟨H0, H1, H2, H3, H4, H5, H6, ⟨%e7, H7⟩, Hs'⟩
  ihave Hs := scratch_out2 c cc2_scratch0 $$ Hs'
  isplitl [Hs Hrest Hp]
  · isplitl [Hs Hrest]
    · isplitl [Hs]; · iexact Hs
      iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_eq_canon _ _ _ (cover2 c _ _ _ _ _ _ _ _ _ _ _ _ _ _ _ _ _ _ _ _ _ _ _ _ _ _)

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Body

end
-- ==== Proof.RRegion3.lean ====
/- Region 3 of the reference: its body's run at every grid point, carrying the VALUE the body leaves in the output
   block as a function of its three input blocks, and from it the pipeline's proof data. Everything is stated at a
   parameter `V`, the buffer contents the region is entered with. -/
import proofs.«145656_g2000601261699844_pallasbulk_55_1_alg».proof.Proof.Gen.ReferenceIdeal.Launch
import proofs.«145656_g2000601261699844_pallasbulk_55_1_alg».proof.Proof.Gen.ReferenceIdeal.Skeleton
import proofs.«145656_g2000601261699844_pallasbulk_55_1_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # Region 3: a block of rows times a weight matrix, plus a bias row, through the leaky activation

At each of the grid's points the body reads a block of rows `x`, the whole weight matrix `w` and the bias row `b`,
and stores `max s (λ · s)` over the whole output block, where `s = x·w + b` (the product accumulated from zero, the
bias row added to every row) and `λ` is the single-precision literal `0x3DCCCCCD`, the float nearest one tenth. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, whether or not the block was fetched there:
    where it was not, the block index did not move, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body reads and writes. -/
abbrev r3_0 : Rect S512x256 := Rect.unit (s := S512x256) ![0, 0] S512x256.size inb_S512x256_S512x256_0_0
abbrev r3_1 : Rect S256x256 := Rect.unit (s := S256x256) ![0, 0] S256x256.size inb_S256x256_S256x256_0_0
abbrev r3_2 : Rect S1x256 := Rect.unit (s := S1x256) ![0, 0] S1x256.size inb_S1x256_S1x256_0_0
abbrev r3_3 : Rect S512x256 := Rect.unit (s := S512x256) ![0, 0] S512x256.size inb_S512x256_S512x256_0_0

/-- What the body leaves in the output block, as a function of the three input blocks: its one store, of the
    payload of the three loads, over the whole block. -/
def out3 (x0 : Vec F S512x256 .f32) (x1 : Vec F S256x256 .f32) (x2 : Vec F S1x256 .f32) : Vec F S512x256 .f32 :=
  View.canon [⟨r3_3, k3_pay1 (View.ld x0 r3_0) (View.ld x1 r3_1) (View.ld x2 r3_2)⟩]

/-- The one store is over the whole block, so it covers it. -/
theorem cover3 (p0 : Vec F S512x256 .f32) (y : S512x256.Idx) :
    ∃ pc ∈ ([⟨r3_3, p0⟩] : List (View.Piece (Elt F) S512x256 .f32)), y ∈ pc.1.set :=
  View.cover_of_tiled [⟨r3_3, p0⟩] S512x256.size (by rfl) y

set_option maxHeartbeats 1000000 in
/-- The body on whole staging buffers, the inputs' at contents `x0 x1 x2` and the output's at anything, runs to the
    continuation with the inputs' as they were and the output's at `out3 x0 x1 x2`. -/
theorem sound_kernel3 (c : Dev nD) (E : Set ℕ) (i : grid3.Coords)
    (arg1 : Memref sig .tc .vmem S512x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc3__mm_bias_act_kernel i arg1 harg1 arg2 harg2 arg3 harg3 arg4 harg4) K := by
  simp only [cc3__mm_bias_act_kernel_eq_skeleton]; unfold cc3__mm_bias_act_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The proof data of pipeline 3 on core `c`: the arrays as the region finds them; after the body at point `t` each
    input's buffer at its block and the output's at `out3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.ReferenceIdeal.Body

end
-- ==== Proof.RRegion4.lean ====
/- Region 4 of the reference: its body's run at every grid point, carrying the VALUE the body leaves in the output
   block as a function of its three input blocks, and from it the pipeline's proof data. Everything is stated at a
   parameter `V`, the buffer contents the region is entered with. -/
import proofs.«145656_g2000601261699844_pallasbulk_55_1_alg».proof.Proof.Gen.ReferenceIdeal.Launch
import proofs.«145656_g2000601261699844_pallasbulk_55_1_alg».proof.Proof.Gen.ReferenceIdeal.Skeleton
import proofs.«145656_g2000601261699844_pallasbulk_55_1_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # Region 4: a block of rows times a weight matrix, plus a bias row, through the leaky activation

At each of the grid's points the body reads a block of rows `x`, the whole weight matrix `w` and the bias row `b`,
and stores `max s (λ · s)` over the whole output block, where `s = x·w + b` (the product accumulated from zero, the
bias row added to every row) and `λ` is the single-precision literal `0x3DCCCCCD`, the float nearest one tenth. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, whether or not the block was fetched there:
    where it was not, the block index did not move, and the body leaves the buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body reads and writes. -/
abbrev r4_0 : Rect S512x128 := Rect.unit (s := S512x128) ![0, 0] S512x128.size inb_S512x128_S512x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0
abbrev r4_3 : Rect S512x256 := Rect.unit (s := S512x256) ![0, 0] S512x256.size inb_S512x256_S512x256_0_0

/-- What the body leaves in the output block, as a function of the three input blocks: its one store, of the
    payload of the three loads, over the whole block. -/
def out4 (x0 : Vec F S512x128 .f32) (x1 : Vec F S128x256 .f32) (x2 : Vec F S1x256 .f32) : Vec F S512x256 .f32 :=
  View.canon [⟨r4_3, k4_pay1 (View.ld x0 r4_0) (View.ld x1 r4_1) (View.ld x2 r4_2)⟩]

/-- The one store is over the whole block, so it covers it. -/
theorem cover4 (p0 : Vec F S512x256 .f32) (y : S512x256.Idx) :
    ∃ pc ∈ ([⟨r4_3, p0⟩] : List (View.Piece (Elt F) S512x256 .f32)), y ∈ pc.1.set :=
  View.cover_of_tiled [⟨r4_3, p0⟩] S512x256.size (by rfl) y

set_option maxHeartbeats 1000000 in
/-- The body on whole staging buffers, the inputs' at contents `x0 x1 x2` and the output's at anything, runs to the
    continuation with the inputs' as they were and the output's at `out4 x0 x1 x2`. -/
theorem sound_kernel4 (c : Dev nD) (E : Set ℕ) (i : grid4.Coords)
    (arg1 : Memref sig .tc .vmem S512x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4 x0 x1 x2)) -∗ K ⟨⟩))
      ⊢ wp frame (wpE (defs₀ (F := F)) Variants.none c none) E (cc4__mm_bias_act_kernel i arg1 harg1 arg2 harg2 arg3 harg3 arg4 harg4) K := by
  simp only [cc4__mm_bias_act_kernel_eq_skeleton]; unfold cc4__mm_bias_act_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The proof data of pipeline 4 on core `c`: the arrays as the region finds them; after the body at point `t` each
    input's buffer at its block and the output's at `out4` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.ReferenceIdeal.Body

end
-- ==== Proof.RRegion5.lean ====
/- Region 5 of the reference: its body's run at every grid point, carrying the VALUE the body leaves in the output
   block as a function of its five input blocks, and from it the pipeline's proof data. Everything is stated at a
   parameter `V`, the buffer contents the region is entered with. -/
import proofs.«145656_g2000601261699844_pallasbulk_55_1_alg».proof.Proof.Gen.ReferenceIdeal.Launch
import proofs.«145656_g2000601261699844_pallasbulk_55_1_alg».proof.Proof.Gen.ReferenceIdeal.Skeleton
import proofs.«145656_g2000601261699844_pallasbulk_55_1_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # Region 5: two blocks of rows, each times its own weight matrix, summed, plus a bias row, through the leaky activation

At each of the grid's points the body reads two blocks of rows `x` and `y`, two whole weight matrices `wx` and `wy`
and the bias row `b`, and stores `max s (λ · s)` over the whole output block, where `s = (x·wx + y·wy) + b` (each product
accumulated from zero, the bias row added to every row) and `λ` is the single-precision literal `0x3DCCCCCD`, the float
nearest one tenth. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every point, whether or not the block was fetched there:
    where it was not, the block index did not move, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body reads and writes. -/
abbrev r5_0 : Rect S512x256 := Rect.unit (s := S512x256) ![0, 0] S512x256.size inb_S512x256_S512x256_0_0
abbrev r5_1 : Rect S512x256 := Rect.unit (s := S512x256) ![0, 0] S512x256.size inb_S512x256_S512x256_0_0
abbrev r5_2 : Rect S256x256 := Rect.unit (s := S256x256) ![0, 0] S256x256.size inb_S256x256_S256x256_0_0
abbrev r5_3 : Rect S256x256 := Rect.unit (s := S256x256) ![0, 0] S256x256.size inb_S256x256_S256x256_0_0
abbrev r5_4 : Rect S1x256 := Rect.unit (s := S1x256) ![0, 0] S1x256.size inb_S1x256_S1x256_0_0
abbrev r5_5 : Rect S512x256 := Rect.unit (s := S512x256) ![0, 0] S512x256.size inb_S512x256_S512x256_0_0

/-- What the body leaves in the output block, as a function of the five input blocks (window order: the two row
    blocks, the two weight matrices, the bias row): its one store, over the whole block, of the payload of the five
    loads, which the body makes in the order rows, weights, rows, weights, bias. -/
def out5 (x0 : Vec F S512x256 .f32) (x1 : Vec F S512x256 .f32) (x2 : Vec F S256x256 .f32) (x3 : Vec F S256x256 .f32) (x4 : Vec F S1x256 .f32) : Vec F S512x256 .f32 :=
  View.canon [⟨r5_5, k5_pay1 (View.ld x0 r5_0) (View.ld x2 r5_2) (View.ld x1 r5_1) (View.ld x3 r5_3) (View.ld x4 r5_4)⟩]

/-- The one store is over the whole block, so it covers it. -/
theorem cover5 (p0 : Vec F S512x256 .f32) (y : S512x256.Idx) :
    ∃ pc ∈ ([⟨r5_5, p0⟩] : List (View.Piece (Elt F) S512x256 .f32)), y ∈ pc.1.set :=
  View.cover_of_tiled [⟨r5_5, p0⟩] S512x256.size (by rfl) y

set_option maxHeartbeats 1000000 in
/-- The body on whole staging buffers, the inputs' at contents `x0 … x4` and the output's at anything, runs to the
    continuation with the inputs' as they were and the output's at `out5 x0 … x4`. -/
theorem sound_kernel5 (c : Dev nD) (E : Set ℕ) (i : grid5.Coords)
    (arg1 : Memref sig .tc .vmem S512x256 .f32) (harg1 : arg1.IsWhole) (arg2 : Memref sig .tc .vmem S512x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole)
    (arg6 : Memref sig .tc .vmem S512x256 .f32) (harg6 : arg6.IsWhole)
    (x0 : Vec F S512x256 .f32) (x1 : Vec F S512x256 .f32) (x2 : Vec F S256x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc5__dual_mm_bias_act_kernel i arg1 harg1 arg2 harg2 arg3 harg3 arg4 harg4 arg5 harg5 arg6 harg6) K := by
  simp only [cc5__dual_mm_bias_act_kernel_eq_skeleton]; unfold cc5__dual_mm_bias_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-- The proof data of pipeline 5 on core `c`: the arrays as the region finds them; after the body at point `t` each
    input's buffer at its block and the output's at `out5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.ReferenceIdeal.Body

end
-- ==== Proof.RRun.lean ====
/- The reference's run, with its values. Each of the six regions leaves in its result buffer the array its pipeline's
   write-backs fold (the proof data's `arrAt` at the last point); the buffer contents between items are then named
   one after another, each region entered at what the items before it left. From the six regions' records and the
   host stretches between them: every weakly fair execution of the program ends, nothing faulting, with the final
   buffer at the last valuation and every argument array as launched. -/
import proofs.«145656_g2000601261699844_pallasbulk_55_1_alg».proof.Proof.Gen.ReferenceIdeal.Regions
import proofs.«145656_g2000601261699844_pallasbulk_55_1_alg».proof.Proof.RRegion0
import proofs.«145656_g2000601261699844_pallasbulk_55_1_alg».proof.Proof.RRegion1
import proofs.«145656_g2000601261699844_pallasbulk_55_1_alg».proof.Proof.RRegion2
import proofs.«145656_g2000601261699844_pallasbulk_55_1_alg».proof.Proof.RRegion3
import proofs.«145656_g2000601261699844_pallasbulk_55_1_alg».proof.Proof.RRegion4
import proofs.«145656_g2000601261699844_pallasbulk_55_1_alg».proof.Proof.RRegion5

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.ReferenceIdeal.Gen

variable {F : FTy → Type} [FloatOps F]

local notation "𝕄" => MT nD τ sig Unit (Elt F) ℕ (UR sig nD τ) ℕ

variable (m : (ℓ : Loc nD τ sig) → Buf (Elt F) ℓ)

/-! ## What each region leaves, one region after another

`outs J r c` is what buffer `r` holds on core `c` after item `J − 1`. It is read at six points only: the result buffer
of each region, after that region. The family is built in stages, each overriding ONE reference by that region's
folded write-backs, computed from the contents the region is entered with — which read the family only at the
references of EARLIER regions. -/

/-- The launch contents everywhere: the family every stage overrides at one reference. -/
def outsB : Gen.Outs (F := F) := fun _ r c => m ((c : Thread nD τ).loc r)

/-- Region 0 is entered after the first host stretch, which reads no region's result. -/
abbrev U1 (c : Dev nD) (b : Ref sig .tc) : Buf (Elt F) ((c : Thread nD τ).loc b) := Gen.V1 m c b
/-- What region 0 leaves in `main_v11`: its output window's array after the last point's write-back. -/
def res0 (c : Dev nD) : Buf (Elt F) ((c : Thread nD τ).loc main_v11) := (dat0 (U1 m) c).arrAt 3 cfg0.N
/-- The family with region 0's result at `main_v11`. -/
def outs0 : Gen.Outs (F := F) := fun J r c =>
  if h : r = main_v11 then h ▸ res0 m c else outsB m J r c

/-- Region 1 is entered at the contents the items before it leave, regions 0..0 at their own results. -/
abbrev U3 (c : Dev nD) (b : Ref sig .tc) : Buf (Elt F) ((c : Thread nD τ).loc b) := Gen.V3 m (outs0 m) c b
/-- What region 1 leaves in `main_v55`: its output window's array after the last point's write-back. -/
def res1 (c : Dev nD) : Buf (Elt F) ((c : Thread nD τ).loc main_v55) := (dat1 (U3 m) c).arrAt 9 cfg1.N
/-- The family with region 1's result at `main_v55`. -/
def outs1 : Gen.Outs (F := F) := fun J r c =>
  if h : r = main_v55 then h ▸ res1 m c else outs0 m J r c

/-- Region 2 is entered at the contents the items before it leave, regions 0..1 at their own results. -/
abbrev U5 (c : Dev nD) (b : Ref sig .tc) : Buf (Elt F) ((c : Thread nD τ).loc b) := Gen.V5 m (outs1 m) c b
/-- What region 2 leaves in `main_v89`: its output window's array after the last point's write-back. -/
def res2 (c : Dev nD) : Buf (Elt F) ((c : Thread nD τ).loc main_v89) := (dat2 (U5 m) c).arrAt 7 cfg2.N
/-- The family with region 2's result at `main_v89`. -/
def outs2 : Gen.Outs (F := F) := fun J r c =>
  if h : r = main_v89 then h ▸ res2 m c else outs1 m J r c

/-- Region 3 is entered at the contents the items before it leave, regions 0..2 at their own results. -/
abbrev U7 (c : Dev nD) (b : Ref sig .tc) : Buf (Elt F) ((c : Thread nD τ).loc b) := Gen.V7 m (outs2 m) c b
/-- What region 3 leaves in `main_v102`: its output window's array after the last point's write-back. -/
def res3 (c : Dev nD) : Buf (Elt F) ((c : Thread nD τ).loc main_v102) := (dat3 (U7 m) c).arrAt 3 cfg3.N
/-- The family with region 3's result at `main_v102`. -/
def outs3 : Gen.Outs (F := F) := fun J r c =>
  if h : r = main_v102 then h ▸ res3 m c else outs2 m J r c

/-- Region 4 is entered at the contents the items before it leave, regions 0..3 at their own results. -/
abbrev U9 (c : Dev nD) (b : Ref sig .tc) : Buf (Elt F) ((c : Thread nD τ).loc b) := Gen.V9 m (outs3 m) c b
/-- What region 4 leaves in `main_v115`: its output window's array after the last point's write-back. -/
def res4 (c : Dev nD) : Buf (Elt F) ((c : Thread nD τ).loc main_v115) := (dat4 (U9 m) c).arrAt 3 cfg4.N
/-- The family with region 4's result at `main_v115`. -/
def outs4 : Gen.Outs (F := F) := fun J r c =>
  if h : r = main_v115 then h ▸ res4 m c else outs3 m J r c

/-- Region 5 is entered at the contents the items before it leave, regions 0..4 at their own results. -/
abbrev U11 (c : Dev nD) (b : Ref sig .tc) : Buf (Elt F) ((c : Thread nD τ).loc b) := Gen.V11 m (outs4 m) c b
/-- What region 5 leaves in `main_v131`: its output window's array after the last point's write-back. -/
def res5 (c : Dev nD) : Buf (Elt F) ((c : Thread nD τ).loc main_v131) := (dat5 (U11 m) c).arrAt 5 cfg5.N
/-- The family with region 5's result at `main_v131`. -/
def outs : Gen.Outs (F := F) := fun J r c =>
  if h : r = main_v131 then h ▸ res5 m c else outs4 m J r c

/-! ### A later override leaves every other reference alone -/
theorem outs_eq_outs4 (J : ℕ) (r : Ref sig .tc) (c : Dev nD) (h5 : r ≠ main_v131) : outs m J r c = outs4 m J r c :=
  (by unfold outs; exact dif_neg h5)
theorem outs_eq_outs3 (J : ℕ) (r : Ref sig .tc) (c : Dev nD) (h5 : r ≠ main_v131) (h4 : r ≠ main_v115) : outs m J r c = outs3 m J r c :=
  (outs_eq_outs4 m J r c h5).trans (by unfold outs4; exact dif_neg h4)
theorem outs_eq_outs2 (J : ℕ) (r : Ref sig .tc) (c : Dev nD) (h5 : r ≠ main_v131) (h4 : r ≠ main_v115) (h3 : r ≠ main_v102) : outs m J r c = outs2 m J r c :=
  (outs_eq_outs3 m J r c h5 h4).trans (by unfold outs3; exact dif_neg h3)
theorem outs_eq_outs1 (J : ℕ) (r : Ref sig .tc) (c : Dev nD) (h5 : r ≠ main_v131) (h4 : r ≠ main_v115) (h3 : r ≠ main_v102) (h2 : r ≠ main_v89) : outs m J r c = outs1 m J r c :=
  (outs_eq_outs2 m J r c h5 h4 h3).trans (by unfold outs2; exact dif_neg h2)
theorem outs_eq_outs0 (J : ℕ) (r : Ref sig .tc) (c : Dev nD) (h5 : r ≠ main_v131) (h4 : r ≠ main_v115) (h3 : r ≠ main_v102) (h2 : r ≠ main_v89) (h1 : r ≠ main_v55) : outs m J r c = outs0 m J r c :=
  (outs_eq_outs1 m J r c h5 h4 h3 h2).trans (by unfold outs1; exact dif_neg h1)

/-! ### The entry contents of a region read the family only at earlier regions' results

so two families that agree there give the same contents. -/
theorem V3_congr (o o' : Gen.Outs (F := F)) (h0 : ∀ c, o 2 main_v11 c = o' 2 main_v11 c) (c : Dev nD) :
    Gen.V3 m o c = Gen.V3 m o' c := by
  unfold Gen.V3 Gen.V2; rw [h0 c]
theorem V5_congr (o o' : Gen.Outs (F := F)) (h0 : ∀ c, o 2 main_v11 c = o' 2 main_v11 c) (h1 : ∀ c, o 4 main_v55 c = o' 4 main_v55 c) (c : Dev nD) :
    Gen.V5 m o c = Gen.V5 m o' c := by
  unfold Gen.V5 Gen.V4; rw [V3_congr m o o' h0 c, h1 c]
theorem V7_congr (o o' : Gen.Outs (F := F)) (h0 : ∀ c, o 2 main_v11 c = o' 2 main_v11 c) (h1 : ∀ c, o 4 main_v55 c = o' 4 main_v55 c) (h2 : ∀ c, o 6 main_v89 c = o' 6 main_v89 c) (c : Dev nD) :
    Gen.V7 m o c = Gen.V7 m o' c := by
  unfold Gen.V7 Gen.V6; rw [V5_congr m o o' h0 h1 c, h2 c]
theorem V9_congr (o o' : Gen.Outs (F := F)) (h0 : ∀ c, o 2 main_v11 c = o' 2 main_v11 c) (h1 : ∀ c, o 4 main_v55 c = o' 4 main_v55 c) (h2 : ∀ c, o 6 main_v89 c = o' 6 main_v89 c) (h3 : ∀ c, o 8 main_v102 c = o' 8 main_v102 c) (c : Dev nD) :
    Gen.V9 m o c = Gen.V9 m o' c := by
  unfold Gen.V9 Gen.V8; rw [V7_congr m o o' h0 h1 h2 c, h3 c]
theorem V11_congr (o o' : Gen.Outs (F := F)) (h0 : ∀ c, o 2 main_v11 c = o' 2 main_v11 c) (h1 : ∀ c, o 4 main_v55 c = o' 4 main_v55 c) (h2 : ∀ c, o 6 main_v89 c = o' 6 main_v89 c) (h3 : ∀ c, o 8 main_v102 c = o' 8 main_v102 c) (h4 : ∀ c, o 10 main_v115 c = o' 10 main_v115 c) (c : Dev nD) :
    Gen.V11 m o c = Gen.V11 m o' c := by
  unfold Gen.V11 Gen.V10; rw [V9_congr m o o' h0 h1 h2 h3 c, h4 c]

/-- The contents region K is entered with are the same under the whole family as under the family built so far. -/
theorem V3_eq (c : Dev nD) : Gen.V3 m (outs m) c = Gen.V3 m (outs0 m) c :=
  V3_congr m _ _ (fun c => outs_eq_outs0 m 2 main_v11 c (by decide) (by decide) (by decide) (by decide) (by decide)) c
theorem V5_eq (c : Dev nD) : Gen.V5 m (outs m) c = Gen.V5 m (outs1 m) c :=
  V5_congr m _ _ (fun c => outs_eq_outs1 m 2 main_v11 c (by decide) (by decide) (by decide) (by decide)) (fun c => outs_eq_outs1 m 4 main_v55 c (by decide) (by decide) (by decide) (by decide)) c
theorem V7_eq (c : Dev nD) : Gen.V7 m (outs m) c = Gen.V7 m (outs2 m) c :=
  V7_congr m _ _ (fun c => outs_eq_outs2 m 2 main_v11 c (by decide) (by decide) (by decide)) (fun c => outs_eq_outs2 m 4 main_v55 c (by decide) (by decide) (by decide)) (fun c => outs_eq_outs2 m 6 main_v89 c (by decide) (by decide) (by decide)) c
theorem V9_eq (c : Dev nD) : Gen.V9 m (outs m) c = Gen.V9 m (outs3 m) c :=
  V9_congr m _ _ (fun c => outs_eq_outs3 m 2 main_v11 c (by decide) (by decide)) (fun c => outs_eq_outs3 m 4 main_v55 c (by decide) (by decide)) (fun c => outs_eq_outs3 m 6 main_v89 c (by decide) (by decide)) (fun c => outs_eq_outs3 m 8 main_v102 c (by decide) (by decide)) c
theorem V11_eq (c : Dev nD) : Gen.V11 m (outs m) c = Gen.V11 m (outs4 m) c :=
  V11_congr m _ _ (fun c => outs_eq_outs4 m 2 main_v11 c (by decide)) (fun c => outs_eq_outs4 m 4 main_v55 c (by decide)) (fun c => outs_eq_outs4 m 6 main_v89 c (by decide)) (fun c => outs_eq_outs4 m 8 main_v102 c (by decide)) (fun c => outs_eq_outs4 m 10 main_v115 c (by decide)) c

/-! ### Each stage's override read back -/
/-- After region 0, `main_v11` holds region 0's folded write-backs. -/
theorem outs0_eq (c : Dev nD) : outs m 2 main_v11 c = (dat0 (U1 m) c).arrAt 3 cfg0.N :=
  (outs_eq_outs0 m 2 main_v11 c (by decide) (by decide) (by decide) (by decide) (by decide)).trans (by unfold outs0; exact (dif_pos rfl).trans rfl)
/-- After region 1, `main_v55` holds region 1's folded write-backs. -/
theorem outs1_eq (c : Dev nD) : outs m 4 main_v55 c = (dat1 (U3 m) c).arrAt 9 cfg1.N :=
  (outs_eq_outs1 m 4 main_v55 c (by decide) (by decide) (by decide) (by decide)).trans (by unfold outs1; exact (dif_pos rfl).trans rfl)
/-- After region 2, `main_v89` holds region 2's folded write-backs. -/
theorem outs2_eq (c : Dev nD) : outs m 6 main_v89 c = (dat2 (U5 m) c).arrAt 7 cfg2.N :=
  (outs_eq_outs2 m 6 main_v89 c (by decide) (by decide) (by decide)).trans (by unfold outs2; exact (dif_pos rfl).trans rfl)
/-- After region 3, `main_v102` holds region 3's folded write-backs. -/
theorem outs3_eq (c : Dev nD) : outs m 8 main_v102 c = (dat3 (U7 m) c).arrAt 3 cfg3.N :=
  (outs_eq_outs3 m 8 main_v102 c (by decide) (by decide)).trans (by unfold outs3; exact (dif_pos rfl).trans rfl)
/-- After region 4, `main_v115` holds region 4's folded write-backs. -/
theorem outs4_eq (c : Dev nD) : outs m 10 main_v115 c = (dat4 (U9 m) c).arrAt 3 cfg4.N :=
  (outs_eq_outs4 m 10 main_v115 c (by decide)).trans (by unfold outs4; exact (dif_pos rfl).trans rfl)
/-- After region 5, `main_v131` holds region 5's folded write-backs. -/
theorem outs5_eq (c : Dev nD) : outs m 12 main_v131 c = (dat5 (U11 m) c).arrAt 5 cfg5.N :=
  (by unfold outs; exact (dif_pos rfl).trans rfl)

/-! ## The proof data, and what rides beside the buffers -/

/-- Every pipeline's proof data, each at the contents its region is entered with. -/
def pdats : (p : Fin 6) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 7 → Dev nD → sProp 𝕄 := fun _ c => R (F := F) c

/-! ## Each region's exit: its arrays at what the pipeline leaves, every other buffer as entered -/

/-- The contents after region 0, read at the TensorCore's references. -/
abbrev X2 (c : Dev nD) (b : Ref sig .tc) : Buf (Elt F) ((c : Thread nD τ).loc b) := Gen.V2 m (outs m) c b
/-- An input window's array is not written: it ends as the region found it. -/
theorem hF0_in (c : Dev nD) (w : Fin cfg0.W) (hin : (cfg0.win w).isOut = false)
    (hne : Pipeline.arrRef spec0 w ∉ ([main_v11] : List (Ref sig .tc))) :
    (dat0 (U1 m) c).arrAt w cfg0.N = X2 m c (Pipeline.arrRef spec0 w) :=
  ((dat0 (U1 m) c).arrAt_in w hin _).trans ((A_eq0 (U1 m) c w).trans
    (((Gen.V2_of m (outs m) c _ hne)).symm))
/-- The output window's array ends at the folded write-backs, which is what the family holds there. -/
theorem hF0_out (c : Dev nD) : (dat0 (U1 m) c).arrAt 3 cfg0.N = X2 m c (Pipeline.arrRef spec0 3) :=
  (outs0_eq m c).symm.trans
    (Function.update_self (Proc.devRef (τ := τ) .tc main_v11) (outs m 2 main_v11 c) (Gen.V1 m c)).symm
set_option maxHeartbeats 1600000 in
theorem hF0 (c : Dev nD) (w : Fin cfg0.W) : (dat0 (U1 m) c).arrAt w cfg0.N = X2 m c (Pipeline.arrRef spec0 w) :=
  match w with
  | ⟨0, _⟩ => hF0_in m c 0 rfl (by decide)
  | ⟨1, _⟩ => hF0_in m c 1 rfl (by decide)
  | ⟨2, _⟩ => hF0_in m c 2 rfl (by decide)
  | ⟨3, _⟩ => hF0_out m c
theorem hrest0 (c : Dev nD) : ∀ b, b ∉ Finset.univ.image (Pipeline.arrRef spec0) → X2 m c b = U1 m c b :=
  fun b hb => (Gen.V2_of m (outs m) c b (fun hmem => hb (by
    rw [List.mem_singleton] at hmem; subst hmem
    exact Finset.mem_image.mpr ⟨3, Finset.mem_univ _, rfl⟩)))

/-- The contents after region 1, read at the TensorCore's references. -/
abbrev X4 (c : Dev nD) (b : Ref sig .tc) : Buf (Elt F) ((c : Thread nD τ).loc b) := Gen.V4 m (outs m) c b
/-- An input window's array is not written: it ends as the region found it. -/
theorem hF1_in (c : Dev nD) (w : Fin cfg1.W) (hin : (cfg1.win w).isOut = false)
    (hne : Pipeline.arrRef spec1 w ∉ ([main_v55] : List (Ref sig .tc))) :
    (dat1 (U3 m) c).arrAt w cfg1.N = X4 m c (Pipeline.arrRef spec1 w) :=
  ((dat1 (U3 m) c).arrAt_in w hin _).trans ((A_eq1 (U3 m) c w).trans
    (((Gen.V4_of m (outs m) c _ hne).trans (congrFun (V3_eq m c) _)).symm))
/-- The output window's array ends at the folded write-backs, which is what the family holds there. -/
theorem hF1_out (c : Dev nD) : (dat1 (U3 m) c).arrAt 9 cfg1.N = X4 m c (Pipeline.arrRef spec1 9) :=
  (outs1_eq m c).symm.trans
    (Function.update_self (Proc.devRef (τ := τ) .tc main_v55) (outs m 4 main_v55 c) (Gen.V3 m (outs m) c)).symm
set_option maxHeartbeats 1600000 in
theorem hF1 (c : Dev nD) (w : Fin cfg1.W) : (dat1 (U3 m) c).arrAt w cfg1.N = X4 m c (Pipeline.arrRef spec1 w) :=
  match w with
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => hF1_in m c 8 rfl (by decide)
  | ⟨9, _⟩ => hF1_out m c
theorem hrest1 (c : Dev nD) : ∀ b, b ∉ Finset.univ.image (Pipeline.arrRef spec1) → X4 m c b = U3 m c b :=
  fun b hb => (Gen.V4_of m (outs m) c b (fun hmem => hb (by
    rw [List.mem_singleton] at hmem; subst hmem
    exact Finset.mem_image.mpr ⟨9, Finset.mem_univ _, rfl⟩))).trans (congrFun (V3_eq m c) _)

/-- The contents after region 2, read at the TensorCore's references. -/
abbrev X6 (c : Dev nD) (b : Ref sig .tc) : Buf (Elt F) ((c : Thread nD τ).loc b) := Gen.V6 m (outs m) c b
/-- An input window's array is not written: it ends as the region found it. -/
theorem hF2_in (c : Dev nD) (w : Fin cfg2.W) (hin : (cfg2.win w).isOut = false)
    (hne : Pipeline.arrRef spec2 w ∉ ([main_v89] : List (Ref sig .tc))) :
    (dat2 (U5 m) c).arrAt w cfg2.N = X6 m c (Pipeline.arrRef spec2 w) :=
  ((dat2 (U5 m) c).arrAt_in w hin _).trans ((A_eq2 (U5 m) c w).trans
    (((Gen.V6_of m (outs m) c _ hne).trans (congrFun (V5_eq m c) _)).symm))
/-- The output window's array ends at the folded write-backs, which is what the family holds there. -/
theorem hF2_out (c : Dev nD) : (dat2 (U5 m) c).arrAt 7 cfg2.N = X6 m c (Pipeline.arrRef spec2 7) :=
  (outs2_eq m c).symm.trans
    (Function.update_self (Proc.devRef (τ := τ) .tc main_v89) (outs m 6 main_v89 c) (Gen.V5 m (outs m) c)).symm
set_option maxHeartbeats 1600000 in
theorem hF2 (c : Dev nD) (w : Fin cfg2.W) : (dat2 (U5 m) c).arrAt w cfg2.N = X6 m c (Pipeline.arrRef spec2 w) :=
  match w with
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => hF2_in m c 6 rfl (by decide)
  | ⟨7, _⟩ => hF2_out m c
theorem hrest2 (c : Dev nD) : ∀ b, b ∉ Finset.univ.image (Pipeline.arrRef spec2) → X6 m c b = U5 m c b :=
  fun b hb => (Gen.V6_of m (outs m) c b (fun hmem => hb (by
    rw [List.mem_singleton] at hmem; subst hmem
    exact Finset.mem_image.mpr ⟨7, Finset.mem_univ _, rfl⟩))).trans (congrFun (V5_eq m c) _)

/-- The contents after region 3, read at the TensorCore's references. -/
abbrev X8 (c : Dev nD) (b : Ref sig .tc) : Buf (Elt F) ((c : Thread nD τ).loc b) := Gen.V8 m (outs m) c b
/-- An input window's array is not written: it ends as the region found it. -/
theorem hF3_in (c : Dev nD) (w : Fin cfg3.W) (hin : (cfg3.win w).isOut = false)
    (hne : Pipeline.arrRef spec3 w ∉ ([main_v102] : List (Ref sig .tc))) :
    (dat3 (U7 m) c).arrAt w cfg3.N = X8 m c (Pipeline.arrRef spec3 w) :=
  ((dat3 (U7 m) c).arrAt_in w hin _).trans ((A_eq3 (U7 m) c w).trans
    (((Gen.V8_of m (outs m) c _ hne).trans (congrFun (V7_eq m c) _)).symm))
/-- The output window's array ends at the folded write-backs, which is what the family holds there. -/
theorem hF3_out (c : Dev nD) : (dat3 (U7 m) c).arrAt 3 cfg3.N = X8 m c (Pipeline.arrRef spec3 3) :=
  (outs3_eq m c).symm.trans
    (Function.update_self (Proc.devRef (τ := τ) .tc main_v102) (outs m 8 main_v102 c) (Gen.V7 m (outs m) c)).symm
set_option maxHeartbeats 1600000 in
theorem hF3 (c : Dev nD) (w : Fin cfg3.W) : (dat3 (U7 m) c).arrAt w cfg3.N = X8 m c (Pipeline.arrRef spec3 w) :=
  match w with
  | ⟨0, _⟩ => hF3_in m c 0 rfl (by decide)
  | ⟨1, _⟩ => hF3_in m c 1 rfl (by decide)
  | ⟨2, _⟩ => hF3_in m c 2 rfl (by decide)
  | ⟨3, _⟩ => hF3_out m c
theorem hrest3 (c : Dev nD) : ∀ b, b ∉ Finset.univ.image (Pipeline.arrRef spec3) → X8 m c b = U7 m c b :=
  fun b hb => (Gen.V8_of m (outs m) c b (fun hmem => hb (by
    rw [List.mem_singleton] at hmem; subst hmem
    exact Finset.mem_image.mpr ⟨3, Finset.mem_univ _, rfl⟩))).trans (congrFun (V7_eq m c) _)

/-- The contents after region 4, read at the TensorCore's references. -/
abbrev X10 (c : Dev nD) (b : Ref sig .tc) : Buf (Elt F) ((c : Thread nD τ).loc b) := Gen.V10 m (outs m) c b
/-- An input window's array is not written: it ends as the region found it. -/
theorem hF4_in (c : Dev nD) (w : Fin cfg4.W) (hin : (cfg4.win w).isOut = false)
    (hne : Pipeline.arrRef spec4 w ∉ ([main_v115] : List (Ref sig .tc))) :
    (dat4 (U9 m) c).arrAt w cfg4.N = X10 m c (Pipeline.arrRef spec4 w) :=
  ((dat4 (U9 m) c).arrAt_in w hin _).trans ((A_eq4 (U9 m) c w).trans
    (((Gen.V10_of m (outs m) c _ hne).trans (congrFun (V9_eq m c) _)).symm))
/-- The output window's array ends at the folded write-backs, which is what the family holds there. -/
theorem hF4_out (c : Dev nD) : (dat4 (U9 m) c).arrAt 3 cfg4.N = X10 m c (Pipeline.arrRef spec4 3) :=
  (outs4_eq m c).symm.trans
    (Function.update_self (Proc.devRef (τ := τ) .tc main_v115) (outs m 10 main_v115 c) (Gen.V9 m (outs m) c)).symm
set_option maxHeartbeats 1600000 in
theorem hF4 (c : Dev nD) (w : Fin cfg4.W) : (dat4 (U9 m) c).arrAt w cfg4.N = X10 m c (Pipeline.arrRef spec4 w) :=
  match w with
  | ⟨0, _⟩ => hF4_in m c 0 rfl (by decide)
  | ⟨1, _⟩ => hF4_in m c 1 rfl (by decide)
  | ⟨2, _⟩ => hF4_in m c 2 rfl (by decide)
  | ⟨3, _⟩ => hF4_out m c
theorem hrest4 (c : Dev nD) : ∀ b, b ∉ Finset.univ.image (Pipeline.arrRef spec4) → X10 m c b = U9 m c b :=
  fun b hb => (Gen.V10_of m (outs m) c b (fun hmem => hb (by
    rw [List.mem_singleton] at hmem; subst hmem
    exact Finset.mem_image.mpr ⟨3, Finset.mem_univ _, rfl⟩))).trans (congrFun (V9_eq m c) _)

/-- The contents after region 5, read at the TensorCore's references. -/
abbrev X12 (c : Dev nD) (b : Ref sig .tc) : Buf (Elt F) ((c : Thread nD τ).loc b) := Gen.V12 m (outs m) c b
/-- An input window's array is not written: it ends as the region found it. -/
theorem hF5_in (c : Dev nD) (w : Fin cfg5.W) (hin : (cfg5.win w).isOut = false)
    (hne : Pipeline.arrRef spec5 w ∉ ([main_v131] : List (Ref sig .tc))) :
    (dat5 (U11 m) c).arrAt w cfg5.N = X12 m c (Pipeline.arrRef spec5 w) :=
  ((dat5 (U11 m) c).arrAt_in w hin _).trans ((A_eq5 (U11 m) c w).trans
    (((Gen.V12_of m (outs m) c _ hne).trans (congrFun (V11_eq m c) _)).symm))
/-- The output window's array ends at the folded write-backs, which is what the family holds there. -/
theorem hF5_out (c : Dev nD) : (dat5 (U11 m) c).arrAt 5 cfg5.N = X12 m c (Pipeline.arrRef spec5 5) :=
  (outs5_eq m c).symm.trans
    (Function.update_self (Proc.devRef (τ := τ) .tc main_v131) (outs m 12 main_v131 c) (Gen.V11 m (outs m) c)).symm
set_option maxHeartbeats 1600000 in
theorem hF5 (c : Dev nD) (w : Fin cfg5.W) : (dat5 (U11 m) c).arrAt w cfg5.N = X12 m c (Pipeline.arrRef spec5 w) :=
  match w with
  | ⟨0, _⟩ => hF5_in m c 0 rfl (by decide)
  | ⟨1, _⟩ => hF5_in m c 1 rfl (by decide)
  | ⟨2, _⟩ => hF5_in m c 2 rfl (by decide)
  | ⟨3, _⟩ => hF5_in m c 3 rfl (by decide)
  | ⟨4, _⟩ => hF5_in m c 4 rfl (by decide)
  | ⟨5, _⟩ => hF5_out m c
theorem hrest5 (c : Dev nD) : ∀ b, b ∉ Finset.univ.image (Pipeline.arrRef spec5) → X12 m c b = U11 m c b :=
  fun b hb => (Gen.V12_of m (outs m) c b (fun hmem => hb (by
    rw [List.mem_singleton] at hmem; subst hmem
    exact Finset.mem_image.mpr ⟨5, Finset.mem_univ _, rfl⟩))).trans (congrFun (V11_eq m c) _)

/-! ## The regions as segments -/

set_option backward.isDefEq.respectTransparency.types false in
/-- Region 0 over the thread state: entered from every unscoped buffer at the contents before it, left at the contents
    after it. Its arrays are split out of the unscoped buffers and put back at the exit contents; the generator
    register goes into the pipeline's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 0 is entered from the thread state the item before it leaves, and leaves the one the next item takes. -/
theorem hpre0 (c : Dev nD) : iprop(StableHlo.held (c : Thread nD τ) (Pipeline.ucRefs τ sig) (Gen.V1 m c) ∗ E (F := F) 0 c) ⊢ (reg0 m).pre c := by
  exact .rfl
theorem hpost0 (c : Dev nD) : (reg0 m).post c ⊢ iprop(StableHlo.held (c : Thread nD τ) (Pipeline.ucRefs τ sig) (Gen.V2 m (outs m) c) ∗ E (F := F) 1 c) := .rfl

set_option backward.isDefEq.respectTransparency.types false in
/-- Region 1 over the thread state: entered from every unscoped buffer at the contents before it, left at the contents
    after it. Its arrays are split out of the unscoped buffers and put back at the exit contents; the generator
    register goes into the pipeline's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (Gen.V3 m (outs0 m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 is entered from the thread state the item before it leaves, and leaves the one the next item takes. -/
theorem hpre1 (c : Dev nD) : iprop(StableHlo.held (c : Thread nD τ) (Pipeline.ucRefs τ sig) (Gen.V3 m (outs m) c) ∗ E (F := F) 1 c) ⊢ (reg1 m).pre c := by
  rw [V3_eq m c]; exact .rfl
theorem hpost1 (c : Dev nD) : (reg1 m).post c ⊢ iprop(StableHlo.held (c : Thread nD τ) (Pipeline.ucRefs τ sig) (Gen.V4 m (outs m) c) ∗ E (F := F) 2 c) := .rfl

set_option backward.isDefEq.respectTransparency.types false in
/-- Region 2 over the thread state: entered from every unscoped buffer at the contents before it, left at the contents
    after it. Its arrays are split out of the unscoped buffers and put back at the exit contents; the generator
    register goes into the pipeline's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (Gen.V5 m (outs1 m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U5 m c) (X6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2 is entered from the thread state the item before it leaves, and leaves the one the next item takes. -/
theorem hpre2 (c : Dev nD) : iprop(StableHlo.held (c : Thread nD τ) (Pipeline.ucRefs τ sig) (Gen.V5 m (outs m) c) ∗ E (F := F) 2 c) ⊢ (reg2 m).pre c := by
  rw [V5_eq m c]; exact .rfl
theorem hpost2 (c : Dev nD) : (reg2 m).post c ⊢ iprop(StableHlo.held (c : Thread nD τ) (Pipeline.ucRefs τ sig) (Gen.V6 m (outs m) c) ∗ E (F := F) 3 c) := .rfl

set_option backward.isDefEq.respectTransparency.types false in
/-- Region 3 over the thread state: entered from every unscoped buffer at the contents before it, left at the contents
    after it. Its arrays are split out of the unscoped buffers and put back at the exit contents; the generator
    register goes into the pipeline's invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (Gen.V7 m (outs2 m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (U7 m c) (X8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3 is entered from the thread state the item before it leaves, and leaves the one the next item takes. -/
theorem hpre3 (c : Dev nD) : iprop(StableHlo.held (c : Thread nD τ) (Pipeline.ucRefs τ sig) (Gen.V7 m (outs m) c) ∗ E (F := F) 3 c) ⊢ (reg3 m).pre c := by
  rw [V7_eq m c]; exact .rfl
theorem hpost3 (c : Dev nD) : (reg3 m).post c ⊢ iprop(StableHlo.held (c : Thread nD τ) (Pipeline.ucRefs τ sig) (Gen.V8 m (outs m) c) ∗ E (F := F) 4 c) := .rfl

set_option backward.isDefEq.respectTransparency.types false in
/-- Region 4 over the thread state: entered from every unscoped buffer at the contents before it, left at the contents
    after it. Its arrays are split out of the unscoped buffers and put back at the exit contents; the generator
    register goes into the pipeline's invariant and comes back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (Gen.V9 m (outs3 m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (U9 m c) (X10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 4 is entered from the thread state the item before it leaves, and leaves the one the next item takes. -/
theorem hpre4 (c : Dev nD) : iprop(StableHlo.held (c : Thread nD τ) (Pipeline.ucRefs τ sig) (Gen.V9 m (outs m) c) ∗ E (F := F) 4 c) ⊢ (reg4 m).pre c := by
  rw [V9_eq m c]; exact .rfl
theorem hpost4 (c : Dev nD) : (reg4 m).post c ⊢ iprop(StableHlo.held (c : Thread nD τ) (Pipeline.ucRefs τ sig) (Gen.V10 m (outs m) c) ∗ E (F := F) 5 c) := .rfl

set_option backward.isDefEq.respectTransparency.types false in
/-- Region 5 over the thread state: entered from every unscoped buffer at the contents before it, left at the contents
    after it. Its arrays are split out of the unscoped buffers and put back at the exit contents; the generator
    register goes into the pipeline's invariant and comes back; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (Gen.V11 m (outs4 m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (U11 m c) (X12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 5 is entered from the thread state the item before it leaves, and leaves the one the next item takes. -/
theorem hpre5 (c : Dev nD) : iprop(StableHlo.held (c : Thread nD τ) (Pipeline.ucRefs τ sig) (Gen.V11 m (outs m) c) ∗ E (F := F) 5 c) ⊢ (reg5 m).pre c := by
  rw [V11_eq m c]; exact .rfl
theorem hpost5 (c : Dev nD) : (reg5 m).post c ⊢ iprop(StableHlo.held (c : Thread nD τ) (Pipeline.ucRefs τ sig) (Gen.V12 m (outs m) c) ∗ E (F := F) 6 c) := .rfl

/-! ## The run -/

/-- The last rest state owes nothing. -/
theorem hE6 (c : Dev nD) : E (F := F) 6 c ⊢ (iprop(∃ W, owes (c : Thread nD τ) (0 : CellTallies nD τ sig Unit) W) : sProp 𝕄) := by
  iintro ⟨-, H⟩; iexact H

set_option backward.isDefEq.respectTransparency.types false in
set_option maxHeartbeats 1600000 in
/-- THE RUN. From any memory with zero counters every weakly fair execution of the program on the TensorCores ends,
    nothing faulting, and in every final state the last buffer holds what the last valuation says — the final reshape
    of region 5's result, itself the pipeline's folded write-backs, and so on back to the arguments — while every
    argument array is as launched. The program is its thirteen items in order: seven host stretches, each leaving the
    buffers at the fold of its operations over what it found, and six regions, each leaving its result buffer at its
    own array; the first thread state is made from what the launch deals each core, the last is read against the
    final state. -/
theorem run (ρ : Dev nD → PrngReg) : θ_run defs (onTc (τ := τ) (main (F := F))) ⟨m, fun _ => 0, ρ⟩ (fun r => ∀ c : Dev nD,
      r.2.mem ((c.tc : Thread nD τ).loc main_v132) = Gen.V13 m (outs m) c main_v132
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)) := by
  refine Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m) (reg2 m) (reg3 m) (reg4 m) (reg5 m))
    (fun c Q => by
      rewrite [main_chain c, Seg.run_eq_chain,
        show ((Gen.segs m (outs m) 𝒱₀ L lv (E (F := F)) () (pdats m) (reg0 m) (reg1 m) (reg2 m) (reg3 m) (reg4 m) (reg5 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V13 m (outs m) c))
    (hch := fun c => ⟨.rfl, hpre0 m c, hpost0 m c, hpre1 m c, hpost1 m c, hpre2 m c, hpost2 m c, hpre3 m c, hpost3 m c, hpre4 m c, hpost4 m c, hpre5 m c, hpost5 m c, sep_mono .rfl (hE6 c)⟩)
    (hinit := ?_)
    (QY := fun c s => s.mem ((c.tc : Thread nD τ).loc main_v132) = Gen.V13 m (outs m) c main_v132 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28) ∧ s.mem ((c.tc : Thread nD τ).loc main_arg29) = m ((c.tc : Thread nD τ).loc main_arg29) ∧ s.mem ((c.tc : Thread nD τ).loc main_arg30) = m ((c.tc : Thread nD τ).loc main_arg30) ∧ s.mem ((c.tc : Thread nD τ).loc main_arg31) = m ((c.tc : Thread nD τ).loc main_arg31) ∧ s.mem ((c.tc : Thread nD τ).loc main_arg32) = m ((c.tc : Thread nD τ).loc main_arg32) ∧ s.mem ((c.tc : Thread nD τ).loc main_arg33) = m ((c.tc : Thread nD τ).loc main_arg33) ∧ s.mem ((c.tc : Thread nD τ).loc main_arg34) = m ((c.tc : Thread nD τ).loc main_arg34) ∧ s.mem ((c.tc : Thread nD τ).loc main_arg35) = m ((c.tc : Thread nD τ).loc main_arg35) ∧ s.mem ((c.tc : Thread nD τ).loc main_arg36) = m ((c.tc : Thread nD τ).loc main_arg36) ∧ s.mem ((c.tc : Thread nD τ).loc main_arg37) = m ((c.tc : Thread nD τ).loc main_arg37) ∧ s.mem ((c.tc : Thread nD τ).loc main_arg38) = m ((c.tc : Thread nD τ).loc main_arg38) ∧ s.mem ((c.tc : Thread nD τ).loc main_arg39) = m ((c.tc : Thread nD τ).loc main_arg39) ∧ s.mem ((c.tc : Thread nD τ).loc main_arg40) = m ((c.tc : Thread nD τ).loc main_arg40) ∧ s.mem ((c.tc : Thread nD τ).loc main_arg41) = m ((c.tc : Thread nD τ).loc main_arg41) ∧ s.mem ((c.tc : Thread nD τ).loc main_arg42) = m ((c.tc : Thread nD τ).loc main_arg42) ∧ s.mem ((c.tc : Thread nD τ).loc main_arg43) = m ((c.tc : Thread nD τ).loc main_arg43) ∧ s.mem ((c.tc : Thread nD τ).loc main_arg44) = m ((c.tc : Thread nD τ).loc main_arg44) ∧ s.mem ((c.tc : Thread nD τ).loc main_arg45) = m ((c.tc : Thread nD τ).loc main_arg45) ∧ s.mem ((c.tc : Thread nD τ).loc main_arg46) = m ((c.tc : Thread nD τ).loc main_arg46) ∧ s.mem ((c.tc : Thread nD τ).loc main_arg47) = m ((c.tc : Thread nD τ).loc main_arg47) ∧ s.mem ((c.tc : Thread nD τ).loc main_arg48) = m ((c.tc : Thread nD τ).loc main_arg48) ∧ s.mem ((c.tc : Thread nD τ).loc main_arg49) = m ((c.tc : Thread nD τ).loc main_arg49) ∧ s.mem ((c.tc : Thread nD τ).loc main_arg50) = m ((c.tc : Thread nD τ).loc main_arg50) ∧ s.mem ((c.tc : Thread nD τ).loc main_arg51) = m ((c.tc : Thread nD τ).loc main_arg51) ∧ s.mem ((c.tc : Thread nD τ).loc main_arg52) = m ((c.tc : Thread nD τ).loc main_arg52) ∧ s.mem ((c.tc : Thread nD τ).loc main_arg53) = m ((c.tc : Thread nD τ).loc main_arg53) ∧ s.mem ((c.tc : Thread nD τ).loc main_arg54) = m ((c.tc : Thread nD τ).loc main_arg54) ∧ s.mem ((c.tc : Thread nD τ).loc main_arg55) = m ((c.tc : Thread nD τ).loc main_arg55))
    (hfin := fun c s' => ?_) (hQ := fun _ h => h)
  · -- the launch: each core's unscoped buffers are held at the launch contents; its generator register and its dues, at nothing, ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the last buffer and each argument's read off the last valuation
    unfold StableHlo.held
    iintro ⟨Hh, HSI⟩
    ihave Hr := (pointsTo_read_all (Pipeline.ucRefs τ sig) (fun b => ((c : Thread nD τ).1, b)) (Gen.V13 m (outs m) c) s') $$ [Hh HSI]
    · isplitl [Hh] <;> iassumption
    icases Hr with ⟨%h, HSI⟩
    imodintro
    isplitr
    · ipureintro
      exact ⟨h (Proc.devRef .tc main_v132) (Finset.mem_filter.mpr ⟨StableHlo.devRef_mem_tcRefs main_v132, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c),
        (h (Proc.devRef .tc main_arg8) (Finset.mem_filter.mpr ⟨StableHlo.devRef_mem_tcRefs main_arg8, by decide⟩)).trans (V13_main_arg8 m (outs m) c),
        (h (Proc.devRef .tc main_arg9) (Finset.mem_filter.mpr ⟨StableHlo.devRef_mem_tcRefs main_arg9, by decide⟩)).trans (V13_main_arg9 m (outs m) c),
        (h (Proc.devRef .tc main_arg10) (Finset.mem_filter.mpr ⟨StableHlo.devRef_mem_tcRefs main_arg10, by decide⟩)).trans (V13_main_arg10 m (outs m) c),
        (h (Proc.devRef .tc main_arg11) (Finset.mem_filter.mpr ⟨StableHlo.devRef_mem_tcRefs main_arg11, by decide⟩)).trans (V13_main_arg11 m (outs m) c),
        (h (Proc.devRef .tc main_arg12) (Finset.mem_filter.mpr ⟨StableHlo.devRef_mem_tcRefs main_arg12, by decide⟩)).trans (V13_main_arg12 m (outs m) c),
        (h (Proc.devRef .tc main_arg13) (Finset.mem_filter.mpr ⟨StableHlo.devRef_mem_tcRefs main_arg13, by decide⟩)).trans (V13_main_arg13 m (outs m) c),
        (h (Proc.devRef .tc main_arg14) (Finset.mem_filter.mpr ⟨StableHlo.devRef_mem_tcRefs main_arg14, by decide⟩)).trans (V13_main_arg14 m (outs m) c),
        (h (Proc.devRef .tc main_arg15) (Finset.mem_filter.mpr ⟨StableHlo.devRef_mem_tcRefs main_arg15, by decide⟩)).trans (V13_main_arg15 m (outs m) c),
        (h (Proc.devRef .tc main_arg16) (Finset.mem_filter.mpr ⟨StableHlo.devRef_mem_tcRefs main_arg16, by decide⟩)).trans (V13_main_arg16 m (outs m) c),
        (h (Proc.devRef .tc main_arg17) (Finset.mem_filter.mpr ⟨StableHlo.devRef_mem_tcRefs main_arg17, by decide⟩)).trans (V13_main_arg17 m (outs m) c),
        (h (Proc.devRef .tc main_arg18) (Finset.mem_filter.mpr ⟨StableHlo.devRef_mem_tcRefs main_arg18, by decide⟩)).trans (V13_main_arg18 m (outs m) c),
        (h (Proc.devRef .tc main_arg19) (Finset.mem_filter.mpr ⟨StableHlo.devRef_mem_tcRefs main_arg19, by decide⟩)).trans (V13_main_arg19 m (outs m) c),
        (h (Proc.devRef .tc main_arg20) (Finset.mem_filter.mpr ⟨StableHlo.devRef_mem_tcRefs main_arg20, by decide⟩)).trans (V13_main_arg20 m (outs m) c),
        (h (Proc.devRef .tc main_arg21) (Finset.mem_filter.mpr ⟨StableHlo.devRef_mem_tcRefs main_arg21, by decide⟩)).trans (V13_main_arg21 m (outs m) c),
        (h (Proc.devRef .tc main_arg22) (Finset.mem_filter.mpr ⟨StableHlo.devRef_mem_tcRefs main_arg22, by decide⟩)).trans (V13_main_arg22 m (outs m) c),
        (h (Proc.devRef .tc main_arg23) (Finset.mem_filter.mpr ⟨StableHlo.devRef_mem_tcRefs main_arg23, by decide⟩)).trans (V13_main_arg23 m (outs m) c),
        (h (Proc.devRef .tc main_arg24) (Finset.mem_filter.mpr ⟨StableHlo.devRef_mem_tcRefs main_arg24, by decide⟩)).trans (V13_main_arg24 m (outs m) c),
        (h (Proc.devRef .tc main_arg25) (Finset.mem_filter.mpr ⟨StableHlo.devRef_mem_tcRefs main_arg25, by decide⟩)).trans (V13_main_arg25 m (outs m) c),
        (h (Proc.devRef .tc main_arg26) (Finset.mem_filter.mpr ⟨StableHlo.devRef_mem_tcRefs main_arg26, by decide⟩)).trans (V13_main_arg26 m (outs m) c),
        (h (Proc.devRef .tc main_arg27) (Finset.mem_filter.mpr ⟨StableHlo.devRef_mem_tcRefs main_arg27, by decide⟩)).trans (V13_main_arg27 m (outs m) c),
        (h (Proc.devRef .tc main_arg28) (Finset.mem_filter.mpr ⟨StableHlo.devRef_mem_tcRefs main_arg28, by decide⟩)).trans (V13_main_arg28 m (outs m) c),
        (h (Proc.devRef .tc main_arg29) (Finset.mem_filter.mpr ⟨StableHlo.devRef_mem_tcRefs main_arg29, by decide⟩)).trans (V13_main_arg29 m (outs m) c),
        (h (Proc.devRef .tc main_arg30) (Finset.mem_filter.mpr ⟨StableHlo.devRef_mem_tcRefs main_arg30, by decide⟩)).trans (V13_main_arg30 m (outs m) c),
        (h (Proc.devRef .tc main_arg31) (Finset.mem_filter.mpr ⟨StableHlo.devRef_mem_tcRefs main_arg31, by decide⟩)).trans (V13_main_arg31 m (outs m) c),
        (h (Proc.devRef .tc main_arg32) (Finset.mem_filter.mpr ⟨StableHlo.devRef_mem_tcRefs main_arg32, by decide⟩)).trans (V13_main_arg32 m (outs m) c),
        (h (Proc.devRef .tc main_arg33) (Finset.mem_filter.mpr ⟨StableHlo.devRef_mem_tcRefs main_arg33, by decide⟩)).trans (V13_main_arg33 m (outs m) c),
        (h (Proc.devRef .tc main_arg34) (Finset.mem_filter.mpr ⟨StableHlo.devRef_mem_tcRefs main_arg34, by decide⟩)).trans (V13_main_arg34 m (outs m) c),
        (h (Proc.devRef .tc main_arg35) (Finset.mem_filter.mpr ⟨StableHlo.devRef_mem_tcRefs main_arg35, by decide⟩)).trans (V13_main_arg35 m (outs m) c),
        (h (Proc.devRef .tc main_arg36) (Finset.mem_filter.mpr ⟨StableHlo.devRef_mem_tcRefs main_arg36, by decide⟩)).trans (V13_main_arg36 m (outs m) c),
        (h (Proc.devRef .tc main_arg37) (Finset.mem_filter.mpr ⟨StableHlo.devRef_mem_tcRefs main_arg37, by decide⟩)).trans (V13_main_arg37 m (outs m) c),
        (h (Proc.devRef .tc main_arg38) (Finset.mem_filter.mpr ⟨StableHlo.devRef_mem_tcRefs main_arg38, by decide⟩)).trans (V13_main_arg38 m (outs m) c),
        (h (Proc.devRef .tc main_arg39) (Finset.mem_filter.mpr ⟨StableHlo.devRef_mem_tcRefs main_arg39, by decide⟩)).trans (V13_main_arg39 m (outs m) c),
        (h (Proc.devRef .tc main_arg40) (Finset.mem_filter.mpr ⟨StableHlo.devRef_mem_tcRefs main_arg40, by decide⟩)).trans (V13_main_arg40 m (outs m) c),
        (h (Proc.devRef .tc main_arg41) (Finset.mem_filter.mpr ⟨StableHlo.devRef_mem_tcRefs main_arg41, by decide⟩)).trans (V13_main_arg41 m (outs m) c),
        (h (Proc.devRef .tc main_arg42) (Finset.mem_filter.mpr ⟨StableHlo.devRef_mem_tcRefs main_arg42, by decide⟩)).trans (V13_main_arg42 m (outs m) c),
        (h (Proc.devRef .tc main_arg43) (Finset.mem_filter.mpr ⟨StableHlo.devRef_mem_tcRefs main_arg43, by decide⟩)).trans (V13_main_arg43 m (outs m) c),
        (h (Proc.devRef .tc main_arg44) (Finset.mem_filter.mpr ⟨StableHlo.devRef_mem_tcRefs main_arg44, by decide⟩)).trans (V13_main_arg44 m (outs m) c),
        (h (Proc.devRef .tc main_arg45) (Finset.mem_filter.mpr ⟨StableHlo.devRef_mem_tcRefs main_arg45, by decide⟩)).trans (V13_main_arg45 m (outs m) c),
        (h (Proc.devRef .tc main_arg46) (Finset.mem_filter.mpr ⟨StableHlo.devRef_mem_tcRefs main_arg46, by decide⟩)).trans (V13_main_arg46 m (outs m) c),
        (h (Proc.devRef .tc main_arg47) (Finset.mem_filter.mpr ⟨StableHlo.devRef_mem_tcRefs main_arg47, by decide⟩)).trans (V13_main_arg47 m (outs m) c),
        (h (Proc.devRef .tc main_arg48) (Finset.mem_filter.mpr ⟨StableHlo.devRef_mem_tcRefs main_arg48, by decide⟩)).trans (V13_main_arg48 m (outs m) c),
        (h (Proc.devRef .tc main_arg49) (Finset.mem_filter.mpr ⟨StableHlo.devRef_mem_tcRefs main_arg49, by decide⟩)).trans (V13_main_arg49 m (outs m) c),
        (h (Proc.devRef .tc main_arg50) (Finset.mem_filter.mpr ⟨StableHlo.devRef_mem_tcRefs main_arg50, by decide⟩)).trans (V13_main_arg50 m (outs m) c),
        (h (Proc.devRef .tc main_arg51) (Finset.mem_filter.mpr ⟨StableHlo.devRef_mem_tcRefs main_arg51, by decide⟩)).trans (V13_main_arg51 m (outs m) c),
        (h (Proc.devRef .tc main_arg52) (Finset.mem_filter.mpr ⟨StableHlo.devRef_mem_tcRefs main_arg52, by decide⟩)).trans (V13_main_arg52 m (outs m) c),
        (h (Proc.devRef .tc main_arg53) (Finset.mem_filter.mpr ⟨StableHlo.devRef_mem_tcRefs main_arg53, by decide⟩)).trans (V13_main_arg53 m (outs m) c),
        (h (Proc.devRef .tc main_arg54) (Finset.mem_filter.mpr ⟨StableHlo.devRef_mem_tcRefs main_arg54, by decide⟩)).trans (V13_main_arg54 m (outs m) c),
        (h (Proc.devRef .tc main_arg55) (Finset.mem_filter.mpr ⟨StableHlo.devRef_mem_tcRefs main_arg55, by decide⟩)).trans (V13_main_arg55 m (outs m) c)⟩
    · iexact HSI

/-- THE FRAME of the reference at any float instance: the run with the last buffer's value dropped. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)) :=
  (θ_run defs _ _).mono (fun _ h c => (h c).2) (run m ρ)

end Cert.ReferenceIdeal.Body

end
-- ==== Proof.Spec.lean ====
/-
  The network both programs compute, on ONE image, over the extended reals.

  An image is a function of a row `h`, a column `w` (both below 32) and a channel. A dense layer acts on one pixel:
  `dense x W b j = (∑ c, x c · W c j) + b j`. The 3×3 layer reads the image padded by one ring of zeros:
  `conv A W b h w p = (∑ ky, ∑ kx, ∑ c, pad A (h + ky) (w + kx) c · W ky kx c p) + b p`, where `pad A i j` is
  `A (i − 1) (j − 1)` for `1 ≤ i, j ≤ 32` and `0` on the ring. The activations are `relu v = max v 0` and
  `leaky s v = max v (s · v)` for the slope's literal `s`.

  The block structure: a stem (128 → 512, leaky); a first residual block — 512 → 128 (relu), the 3×3 layer (relu),
  128 → 256 added to a linear 512 → 256 projection of the stem, then relu —; a second residual block — 256 → 128
  (relu), the 3×3 layer (relu), 128 → 256 added to the block's own input, then relu —; two leaky branches, 256 → 256
  of the second block and 128 → 256 of the input; and the leaky sum of their two 256 → 256 products plus a bias.
  All weights and biases here are the folded ones (the normalisation's scale multiplied into the weight's output
  channel, its shift as the bias); the two programs fold them by the same host operations.
-/
import Mathlib.Data.EReal.Basic
import Mathlib.Algebra.BigOperators.Fin

noncomputable section

namespace Cert.Spec

open scoped BigOperators

/-- `max v 0`. -/
def relu (v : EReal) : EReal := max v 0

/-- `max v (s · v)`: the slope `s` is the literal both programs multiply by. -/
def leaky (s v : EReal) : EReal := max v (s * v)

/-- One pixel through a dense layer, before the activation: the product's row plus the bias. -/
def dense {K N : Nat} (x : Fin K → EReal) (W : Fin K → Fin N → EReal) (b : Fin N → EReal) (j : Fin N) : EReal :=
  (∑ c, x c * W c j) + b j

/-- The image padded by one ring of zeros, read at a position `(i, j)` of the 34 × 34 padded grid. -/
def pad {C : Nat} (A : Fin 32 → Fin 32 → Fin C → EReal) (i j : Nat) (c : Fin C) : EReal :=
  if h : (1 ≤ i ∧ i ≤ 32) ∧ (1 ≤ j ∧ j ≤ 32) then A ⟨i - 1, by omega⟩ ⟨j - 1, by omega⟩ c else 0

/-- The 3×3 layer at a pixel, before the activation: the nine shifted products summed, plus the bias. -/
def conv (A : Fin 32 → Fin 32 → Fin 128 → EReal) (W : Fin 3 → Fin 3 → Fin 128 → Fin 128 → EReal)
    (b : Fin 128 → EReal) (h w : Fin 32) (p : Fin 128) : EReal :=
  (∑ ky : Fin 3, ∑ kx : Fin 3, ∑ c : Fin 128, pad A (h.val + ky.val) (w.val + kx.val) c * W ky kx c p) + b p

/-- The folded weights and biases, and the slope's literal. -/
structure Params where
  s : EReal
  Ws : Fin 128 → Fin 512 → EReal
  bs : Fin 512 → EReal
  W01 : Fin 512 → Fin 128 → EReal
  b01 : Fin 128 → EReal
  W0d : Fin 512 → Fin 256 → EReal
  b0d : Fin 256 → EReal
  W02 : Fin 3 → Fin 3 → Fin 128 → Fin 128 → EReal
  b02 : Fin 128 → EReal
  W03 : Fin 128 → Fin 256 → EReal
  b03 : Fin 256 → EReal
  W11 : Fin 256 → Fin 128 → EReal
  b11 : Fin 128 → EReal
  W12 : Fin 3 → Fin 3 → Fin 128 → Fin 128 → EReal
  b12 : Fin 128 → EReal
  W13 : Fin 128 → Fin 256 → EReal
  b13 : Fin 256 → EReal
  Wc2 : Fin 256 → Fin 256 → EReal
  bc2 : Fin 256 → EReal
  Wc3 : Fin 128 → Fin 256 → EReal
  bc3 : Fin 256 → EReal
  W4a : Fin 256 → Fin 256 → EReal
  W4b : Fin 256 → Fin 256 → EReal
  b4 : Fin 256 → EReal

variable (P : Params) (X : Fin 32 → Fin 32 → Fin 128 → EReal)

/-- The stem. -/
def stem (h w : Fin 32) (j : Fin 512) : EReal := leaky P.s (dense (X h w) P.Ws P.bs j)

/-- First block: its 1×1 entry, -/
def b0in (h w : Fin 32) (p : Fin 128) : EReal := relu (dense (stem P X h w) P.W01 P.b01 p)
/-- its linear projection of the stem, -/
def b0proj (h w : Fin 32) (q : Fin 256) : EReal := dense (stem P X h w) P.W0d P.b0d q
/-- its 3×3 layer, -/
def b0mid (h w : Fin 32) (p : Fin 128) : EReal := relu (conv (b0in P X) P.W02 P.b02 h w p)
/-- and its exit. -/
def b0out (h w : Fin 32) (q : Fin 256) : EReal := relu (dense (b0mid P X h w) P.W03 P.b03 q + b0proj P X h w q)

/-- Second block: entry, 3×3 layer, exit (the residual is the block's own input). -/
def b1in (h w : Fin 32) (p : Fin 128) : EReal := relu (dense (b0out P X h w) P.W11 P.b11 p)
def b1mid (h w : Fin 32) (p : Fin 128) : EReal := relu (conv (b1in P X) P.W12 P.b12 h w p)
def b1out (h w : Fin 32) (q : Fin 256) : EReal := relu (dense (b1mid P X h w) P.W13 P.b13 q + b0out P X h w q)

/-- The two leaky branches, -/
def brMain (h w : Fin 32) (q : Fin 256) : EReal := leaky P.s (dense (b1out P X h w) P.Wc2 P.bc2 q)
def brSide (h w : Fin 32) (q : Fin 256) : EReal := leaky P.s (dense (X h w) P.Wc3 P.bc3 q)

/-- and the result: the leaky sum of the two branches' products plus the bias. -/
def net (h w : Fin 32) (q : Fin 256) : EReal :=
  leaky P.s (((∑ c, brMain P X h w c * P.W4a c q) + (∑ c, brSide P X h w c * P.W4b c q)) + P.b4 q)

end Cert.Spec

end
-- ==== Proof.SpecExt.lean ====
/-
  Two parameter records with the same entries are the same record.
-/
import proofs.«145656_g2000601261699844_pallasbulk_55_1_alg».proof.Proof.Spec

noncomputable section

namespace Cert.Spec

/-- Records of folded weights and biases are equal when all their fields are. -/
theorem Params.ext' (P Q : Params) (hs : P.s = Q.s) (hWs : P.Ws = Q.Ws) (hbs : P.bs = Q.bs) (hW01 : P.W01 = Q.W01) (hb01 : P.b01 = Q.b01)
    (hW0d : P.W0d = Q.W0d) (hb0d : P.b0d = Q.b0d) (hW02 : P.W02 = Q.W02) (hb02 : P.b02 = Q.b02) (hW03 : P.W03 = Q.W03) (hb03 : P.b03 = Q.b03)
    (hW11 : P.W11 = Q.W11) (hb11 : P.b11 = Q.b11) (hW12 : P.W12 = Q.W12) (hb12 : P.b12 = Q.b12) (hW13 : P.W13 = Q.W13) (hb13 : P.b13 = Q.b13)
    (hWc2 : P.Wc2 = Q.Wc2) (hbc2 : P.bc2 = Q.bc2) (hWc3 : P.Wc3 = Q.Wc3) (hbc3 : P.bc3 = Q.bc3) (hW4a : P.W4a = Q.W4a) (hW4b : P.W4b = Q.W4b)
    (hb4 : P.b4 = Q.b4) : P = Q := by
  cases P; cases Q
  simp only [Params.mk.injEq]
  exact ⟨hs, hWs, hbs, hW01, hb01, hW0d, hb0d, hW02, hb02, hW03, hb03, hW11, hb11, hW12, hb12, hW13, hb13, hWc2, hbc2, hWc3, hbc3, hW4a, hW4b, hb4⟩

end Cert.Spec

end
-- ==== Proof.RParams.lean ====
/-
  The folded weights and biases as the reference's six regions find them.

  Each field is an entry of the array the region's operand holds when the region is entered: the stem's weight and bias
  at the first region, the first block's at the second, the second block's at the third, the main branch's at the
  fourth, the side branch's at the fifth, and the two halves of the last weight and its bias at the sixth. The 3×3
  weights are held as nine 128×128 matrices, tap `3·ky + kx` first. The slope is the literal both programs multiply by.
  The entries do not depend on what the regions leave (the family `outs`): every one is computed by host operations
  from the arguments alone.
-/
import proofs.«145656_g2000601261699844_pallasbulk_55_1_alg».proof.Proof.Gen.ReferenceIdeal.Regions
import proofs.«145656_g2000601261699844_pallasbulk_55_1_alg».proof.Proof.Spec
import Idealize.ShloMosaic.Lib.ValueIdx
import Idealize.ShloMosaic.PureOps.Ideal

noncomputable section

namespace Cert.ReferenceIdeal.Value

open Idealize.ShloMosaic Idealize.ShloMosaic.TcCoe Idealize.ShloMosaic.ValueIdx Idealize.SL.Sem Cert.ReferenceIdeal Cert.ReferenceIdeal.Gen

variable (m : (ℓ : Loc nD τ sig) → Buf (Elt Ideal) ℓ) (outs : Gen.Outs (F := Ideal)) (c : Dev nD)

/-- The argument image `n` as a function of row, column and channel. -/
def XR (n : Fin 64) : Fin 32 → Fin 32 → Fin 128 → EReal :=
  fun h w ch => (m ((c : Thread nD τ).loc main_arg0) : (⟨4, ![64, 32, 32, 128]⟩ : Shape).Idx → EReal) (ix4 n h w ch)

/-- The reference's parameters. -/
def PR : Cert.Spec.Params where
  s := Ideal.ofBits .f32 0x3DCCCCCD#32
  Ws a b := (Gen.V1 m c main_v8 : (⟨2, ![128, 512]⟩ : Shape).Idx → EReal) (ix2 a b)
  bs j := (Gen.V1 m c main_v10 : (⟨2, ![1, 512]⟩ : Shape).Idx → EReal) (ix2 0 j)
  W01 j p := (Gen.V3 m outs c main_v33 : (⟨2, ![512, 128]⟩ : Shape).Idx → EReal) (ix2 j p)
  b01 p := (Gen.V3 m outs c main_v42 : (⟨2, ![1, 128]⟩ : Shape).Idx → EReal) (ix2 0 p)
  W0d j q := (Gen.V3 m outs c main_v53 : (⟨2, ![512, 256]⟩ : Shape).Idx → EReal) (ix2 j q)
  b0d q := (Gen.V3 m outs c main_v54 : (⟨2, ![1, 256]⟩ : Shape).Idx → EReal) (ix2 0 q)
  W02 ky kx ch p := (Gen.V3 m outs c main_v37 : (⟨3, ![9, 128, 128]⟩ : Shape).Idx → EReal)
    (ix3 ⟨ky.val * 3 + kx.val, by have := ky.isLt; have := kx.isLt; omega⟩ ch p)
  b02 p := (Gen.V3 m outs c main_v43 : (⟨2, ![1, 128]⟩ : Shape).Idx → EReal) (ix2 0 p)
  W03 p q := (Gen.V3 m outs c main_v40 : (⟨2, ![128, 256]⟩ : Shape).Idx → EReal) (ix2 p q)
  b03 q := (Gen.V3 m outs c main_v44 : (⟨2, ![1, 256]⟩ : Shape).Idx → EReal) (ix2 0 q)
  W11 q p := (Gen.V5 m outs c main_v77 : (⟨2, ![256, 128]⟩ : Shape).Idx → EReal) (ix2 q p)
  b11 p := (Gen.V5 m outs c main_v86 : (⟨2, ![1, 128]⟩ : Shape).Idx → EReal) (ix2 0 p)
  W12 ky kx ch p := (Gen.V5 m outs c main_v81 : (⟨3, ![9, 128, 128]⟩ : Shape).Idx → EReal)
    (ix3 ⟨ky.val * 3 + kx.val, by have := ky.isLt; have := kx.isLt; omega⟩ ch p)
  b12 p := (Gen.V5 m outs c main_v87 : (⟨2, ![1, 128]⟩ : Shape).Idx → EReal) (ix2 0 p)
  W13 p q := (Gen.V5 m outs c main_v84 : (⟨2, ![128, 256]⟩ : Shape).Idx → EReal) (ix2 p q)
  b13 q := (Gen.V5 m outs c main_v88 : (⟨2, ![1, 256]⟩ : Shape).Idx → EReal) (ix2 0 q)
  Wc2 a b := (Gen.V7 m outs c main_v99 : (⟨2, ![256, 256]⟩ : Shape).Idx → EReal) (ix2 a b)
  bc2 q := (Gen.V7 m outs c main_v101 : (⟨2, ![1, 256]⟩ : Shape).Idx → EReal) (ix2 0 q)
  Wc3 a b := (Gen.V9 m outs c main_v112 : (⟨2, ![128, 256]⟩ : Shape).Idx → EReal) (ix2 a b)
  bc3 q := (Gen.V9 m outs c main_v114 : (⟨2, ![1, 256]⟩ : Shape).Idx → EReal) (ix2 0 q)
  W4a a b := (Gen.V11 m outs c main_v126 : (⟨2, ![256, 256]⟩ : Shape).Idx → EReal) (ix2 a b)
  W4b a b := (Gen.V11 m outs c main_v127 : (⟨2, ![256, 256]⟩ : Shape).Idx → EReal) (ix2 a b)
  b4 q := (Gen.V11 m outs c main_v130 : (⟨2, ![1, 256]⟩ : Shape).Idx → EReal) (ix2 0 q)

end Cert.ReferenceIdeal.Value

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.LibSumSplit.lean ====
/-
  A sum over a range of length `A · B · C`, split into the triple sum over its three digits.

  Every `k < A · B · C` is `(a · B + b) · C + c` for exactly one triple `a < A`, `b < B`, `c < C`: the digits of `k`
  in the mixed radix `(A, B, C)`. So a sum over `k` of any summand, in any commutative additive monoid, is the sum over
  `a`, then `b`, then `c` of the summand at `(a · B + b) · C + c`. This is what turns the single long contraction of a
  3×3 layer written as one matrix product over `9 · channels` columns into the nine shifted products summed over the
  two kernel offsets and the channel. A general lemma: it mentions no program.
-/
import Mathlib.Algebra.BigOperators.Fin
import Mathlib.Logic.Equiv.Fin.Basic

namespace Cert.LibSumSplit

open scoped BigOperators

/-- The position `(a · B + b) · C + c` of the digits `(a, b, c)` is below `A · B · C`. -/
theorem digits_lt {A B C : Nat} (a : Fin A) (b : Fin B) (c : Fin C) : (a.val * B + b.val) * C + c.val < A * B * C := by
  have h1 : a.val * B + b.val < A * B :=
    calc a.val * B + b.val < a.val * B + B := Nat.add_lt_add_left b.isLt _
      _ = (a.val + 1) * B := (Nat.succ_mul _ _).symm
      _ ≤ A * B := Nat.mul_le_mul_right _ a.isLt
  calc (a.val * B + b.val) * C + c.val < (a.val * B + b.val) * C + C := Nat.add_lt_add_left c.isLt _
    _ = (a.val * B + b.val + 1) * C := (Nat.succ_mul _ _).symm
    _ ≤ A * B * C := Nat.mul_le_mul_right _ h1

/-- A sum over `Fin N`, `N = A · B · C`, is the triple sum over the digits. -/
theorem sum_digits3 {M : Type*} [AddCommMonoid M] {A B C N : Nat} (hN : N = A * B * C) (f : Fin N → M) :
    ∑ k : Fin N, f k
      = ∑ a : Fin A, ∑ b : Fin B, ∑ c : Fin C, f ⟨(a.val * B + b.val) * C + c.val, hN ▸ digits_lt a b c⟩ := by
  subst hN
  rw [← Equiv.sum_comp (finProdFinEquiv (m := A * B) (n := C)) f, Fintype.sum_prod_type,
    ← Equiv.sum_comp (finProdFinEquiv (m := A) (n := B)) _, Fintype.sum_prod_type]
  refine Finset.sum_congr rfl fun a _ => Finset.sum_congr rfl fun b _ => Finset.sum_congr rfl fun c _ => ?_
  refine congrArg f (Fin.ext ?_)
  show c.val + C * (b.val + B * a.val) = (a.val * B + b.val) * C + c.val
  rw [Nat.mul_comm C, Nat.mul_comm B, Nat.add_comm b.val, Nat.add_comm c.val]

/-- The same at the literal sizes of a 3×3 window over 128 channels: `1152 = 3 · 3 · 128`. -/
theorem sum_3x3x128 {M : Type*} [AddCommMonoid M] (f : Fin 1152 → M) :
    ∑ k : Fin 1152, f k
      = ∑ ky : Fin 3, ∑ kx : Fin 3, ∑ c : Fin 128,
          f ⟨(ky.val * 3 + kx.val) * 128 + c.val, by have := ky.isLt; have := kx.isLt; have := c.isLt; omega⟩ :=
  sum_digits3 (A := 3) (B := 3) (C := 128) rfl f

end Cert.LibSumSplit
-- ==== Proof.KVLayer.lean ====
/-
  The layers of the network read at one entry of a block, over abstract operands.

  A block of `2048 = 2 · 32 · 32` rows holds two images, row `img · 1024 + h · 32 + w` the pixel `(h, w)` of image `img`;
  the same block seen as a `2 × 32 × 32 × C` array has that row at `(img, h, w)`. A matrix product into a zero accumulator
  plus a broadcast bias row is the dense layer of the specification at every row; a comparison with the zero splat is
  `relu`, a comparison with the slope's multiple is `leaky`. The 3×3 layer arrives as ONE dense layer over `1152 = 3 · 3 · 128`
  columns, the column `(ky · 3 + kx) · 128 + c` holding the padded image at `(h + ky, w + kx, c)`; splitting the sum over the
  columns into the sums over `ky`, `kx` and `c` makes it the specification's `conv`.
-/
import proofs.«145656_g2000601261699844_pallasbulk_55_1_alg».proof.Proof.Spec
import proofs.«145656_g2000601261699844_pallasbulk_55_1_alg».proof.Proof.LibPlainProduct
import proofs.«145656_g2000601261699844_pallasbulk_55_1_alg».proof.Proof.LibSumSplit
import Idealize.ShloMosaic.Lib.ValueLayout
import Idealize.ShloMosaic.Lib.IdealHost

noncomputable section

namespace Cert.KernelIdeal.BlockValue

open Idealize.ShloMosaic Idealize.ShloMosaic.ValueIdx
open scoped BigOperators

/-- The row of pixel `(h, w)` of image `img` in a block of two images. -/
abbrev rowOf (img : Fin 2) (h w : Fin 32) : Fin 2048 := ⟨img.val * 1024 + h.val * 32 + w.val, by omega⟩

/-- The column of kernel offset `(ky, kx)` and channel `c` in the `1152` columns of a 3×3 window. -/
abbrev colOf (ky kx : Fin 3) (c : Fin 128) : Fin 1152 := ⟨(ky.val * 3 + kx.val) * 128 + c.val, by omega⟩

section Casts
variable {α : Type} {C : Nat}

/-- The block of rows seen as two images: entry `(img, h, w, c)` is row `rowOf img h w`, column `c`. -/
theorem cast_rows_to_img (v : (⟨2, ![2048, C]⟩ : Shape).Idx → α)
    (hsc : (⟨2, ![2048, C]⟩ : Shape).ShapeCasts ⟨4, ![2, 32, 32, C]⟩) (img : Fin 2) (h w : Fin 32) (c : Fin C) :
    shapeCast ⟨4, ![2, 32, 32, C]⟩ v hsc (ix4 img h w c) = v (ix2 (rowOf img h w) c) := by
  refine shapeCast_apply v hsc _ _ ?_
  rw [Shape.rowMajor_val_two, Shape.rowMajor_val_four]
  show (img.val * 1024 + h.val * 32 + w.val) * C + c.val = ((img.val * 32 + h.val) * 32 + w.val) * C + c.val
  have e : img.val * 1024 + h.val * 32 + w.val = (img.val * 32 + h.val) * 32 + w.val := by omega
  rw [e]

/-- Two images seen as a block of rows: row `rowOf img h w`, column `c` is entry `(img, h, w, c)`. -/
theorem cast_img_to_rows (v : (⟨4, ![2, 32, 32, C]⟩ : Shape).Idx → α)
    (hsc : (⟨4, ![2, 32, 32, C]⟩ : Shape).ShapeCasts ⟨2, ![2048, C]⟩) (img : Fin 2) (h w : Fin 32) (c : Fin C) :
    shapeCast ⟨2, ![2048, C]⟩ v hsc (ix2 (rowOf img h w) c) = v (ix4 img h w c) := by
  refine shapeCast_apply v hsc _ _ ?_
  rw [Shape.rowMajor_val_two, Shape.rowMajor_val_four]
  show ((img.val * 32 + h.val) * 32 + w.val) * C + c.val = (img.val * 1024 + h.val * 32 + w.val) * C + c.val
  have e : img.val * 1024 + h.val * 32 + w.val = (img.val * 32 + h.val) * 32 + w.val := by omega
  rw [e]

end Casts

section Products
variable {m k n : Nat} {φ₁ φ₂ : FTy}

/-- A product into the zero accumulator at an entry: the sum over the contracted coordinate. -/
theorem prod_apply (D : DotDims ⟨2, ![m, k]⟩ ⟨2, ![k, n]⟩ ⟨2, ![m, n]⟩) (hD : D = DotDims.plain m k n)
    (A : FVec Ideal ⟨2, ![m, k]⟩ φ₁) (W : FVec Ideal ⟨2, ![k, n]⟩ φ₂)
    (hW : (⟨2, ![k, n]⟩ : Shape).ShapeCasts ⟨2, ![k, n]⟩) (y : Fin m) (j : Fin n) :
    matmul D none A (shapeCast ⟨2, ![k, n]⟩ W hW) (constant ⟨2, ![m, n]⟩ .f32 0x00000000#32) (ix2 y j)
      = ∑ c : Fin k, A (ix2 y c) * W (ix2 c j) := by
  subst hD
  rw [Cert.LibPlainProduct.matmul_plain_zero_apply, shapeCast_self]

/-- A bias row broadcast over the rows, at an entry. -/
theorem bias_apply (b : FVec Ideal ⟨2, ![1, n]⟩ .f32) (hb : (⟨2, ![1, n]⟩ : Shape).ShapeCasts ⟨2, ![1, n]⟩)
    (hbc : (⟨2, ![1, n]⟩ : Shape).Broadcasts ⟨2, ![m, n]⟩) (y : Fin m) (j : Fin n) :
    broadcastTo ⟨2, ![m, n]⟩ (shapeCast ⟨2, ![1, n]⟩ b hb) hbc (ix2 y j) = b (ix2 0 j) := by
  rw [broadcastTo_1b_ab_apply, shapeCast_self]

/-- A product into zero plus a broadcast bias row: the dense layer at an entry. -/
theorem dense_apply (D : DotDims ⟨2, ![m, k]⟩ ⟨2, ![k, n]⟩ ⟨2, ![m, n]⟩) (hD : D = DotDims.plain m k n)
    (A : FVec Ideal ⟨2, ![m, k]⟩ φ₁) (W : FVec Ideal ⟨2, ![k, n]⟩ φ₂) (b : FVec Ideal ⟨2, ![1, n]⟩ .f32)
    (hW : (⟨2, ![k, n]⟩ : Shape).ShapeCasts ⟨2, ![k, n]⟩) (hb : (⟨2, ![1, n]⟩ : Shape).ShapeCasts ⟨2, ![1, n]⟩)
    (hbc : (⟨2, ![1, n]⟩ : Shape).Broadcasts ⟨2, ![m, n]⟩) (y : Fin m) (j : Fin n) :
    addf (matmul D none A (shapeCast ⟨2, ![k, n]⟩ W hW) (constant ⟨2, ![m, n]⟩ .f32 0x00000000#32))
        (broadcastTo ⟨2, ![m, n]⟩ (shapeCast ⟨2, ![1, n]⟩ b hb) hbc) (ix2 y j)
      = Cert.Spec.dense (fun c => A (ix2 y c)) (fun c j => W (ix2 c j)) (fun j => b (ix2 0 j)) j := by
  rw [addf_apply, prod_apply D hD, bias_apply]
  rfl

end Products

section Activations
variable {s : Shape}

/-- The maximum with the zero splat is `relu`. -/
theorem relu_apply (v : FVec Ideal s .f32) (i : s.Idx) :
    maximumf v (broadcast s (Scalar.ofBits (F := Ideal) .f32 0x00000000#32)) i = Cert.Spec.relu (v i) := by
  show max (v i) (Ideal.ofBits .f32 0x00000000#32) = max (v i) 0
  rw [Ideal.ofBits_zero_f32]

/-- The maximum with the slope's multiple is `leaky`. -/
theorem leaky_apply (v : FVec Ideal s .f32) (i : s.Idx) :
    maximumf v (mulf (broadcast s (Scalar.ofBits (F := Ideal) .f32 0x3DCCCCCD#32)) v) i
      = Cert.Spec.leaky (Ideal.ofBits .f32 0x3DCCCCCD#32) (v i) := rfl

end Activations

/-- The dense layer over the `1152` window columns is the 3×3 layer, when column `(ky · 3 + kx) · 128 + c` of the row
    holds the padded image at `(h + ky, w + kx, c)`. -/
theorem dense_eq_conv (A : Fin 32 → Fin 32 → Fin 128 → EReal) (x : Fin 1152 → EReal) (W : Fin 1152 → Fin 128 → EReal)
    (b : Fin 128 → EReal) (h w : Fin 32)
    (hx : ∀ (ky kx : Fin 3) (c : Fin 128), x (colOf ky kx c) = Cert.Spec.pad A (h.val + ky.val) (w.val + kx.val) c)
    (p : Fin 128) :
    Cert.Spec.dense x W b p = Cert.Spec.conv A (fun ky kx c p => W (colOf ky kx c) p) b h w p := by
  unfold Cert.Spec.dense Cert.Spec.conv
  rw [Cert.LibSumSplit.sum_3x3x128]
  refine congrArg (· + b p) ?_
  refine Finset.sum_congr rfl fun ky _ => Finset.sum_congr rfl fun kx _ => Finset.sum_congr rfl fun c _ => ?_
  exact congrArg (· * W (colOf ky kx c) p) (hx ky kx c)

end Cert.KernelIdeal.BlockValue

end
-- ==== Proof.KVDefs.lean ====
/-
  The network's parameters and its two input images, read off a block's operands.

  The weights are the matrices the body loads, entry by entry; the first block's two weights out of the stem are the
  columns `0 … 127` (into the block) and `128 … 383` (the linear projection) of one `512 × 384` matrix, and their biases
  the same columns of one row; a 3×3 layer's weight at kernel offset `(ky, kx)`, input channel `c` is row
  `(ky · 3 + kx) · 128 + c` of a `1152 × 128` matrix. The slope is the literal the body multiplies by. Image `img` of a block
  of `2048` rows is its rows `img · 1024 + h · 32 + w`.
-/
import proofs.«145656_g2000601261699844_pallasbulk_55_1_alg».proof.Proof.Gen.KernelIdeal.Skeleton
import proofs.«145656_g2000601261699844_pallasbulk_55_1_alg».proof.Proof.KVLayer

noncomputable section

namespace Cert.KernelIdeal.BlockValue

open Idealize.ShloMosaic Idealize.ShloMosaic.ValueIdx Cert.KernelIdeal Cert.KernelIdeal.Gen

/-- The folded weights and biases of the network, from the blocks the body loads. -/
def paramsOf (ws : Vec Ideal S128x512 .bf16) (bs : Vec Ideal S1x512 .f32) (w0c : Vec Ideal S512x384 .bf16)
    (b0c : Vec Ideal S1x384 .f32) (w02 : Vec Ideal S1152x128 .bf16) (b02 : Vec Ideal S1x128 .f32)
    (w03 : Vec Ideal S128x256 .bf16) (b03 : Vec Ideal S1x256 .f32) (w11 : Vec Ideal S256x128 .bf16)
    (b11 : Vec Ideal S1x128 .f32) (w12 : Vec Ideal S1152x128 .bf16) (b12 : Vec Ideal S1x128 .f32)
    (w13 : Vec Ideal S128x256 .bf16) (b13 : Vec Ideal S1x256 .f32) (wc2 : Vec Ideal S256x256 .bf16)
    (bc2 : Vec Ideal S1x256 .f32) (wc3 : Vec Ideal S128x256 .bf16) (bc3 : Vec Ideal S1x256 .f32)
    (w4a w4b : Vec Ideal S256x256 .bf16) (b4 : Vec Ideal S1x256 .f32) : Cert.Spec.Params where
  s := Ideal.ofBits .f32 0x3DCCCCCD#32
  Ws c j := ws (ix2 c j)
  bs j := bs (ix2 0 j)
  W01 j p := w0c (ix2 j ⟨p.val, by omega⟩)
  b01 p := b0c (ix2 0 ⟨p.val, by omega⟩)
  W0d j q := w0c (ix2 j ⟨128 + q.val, by omega⟩)
  b0d q := b0c (ix2 0 ⟨128 + q.val, by omega⟩)
  W02 ky kx c p := w02 (ix2 (colOf ky kx c) p)
  b02 p := b02 (ix2 0 p)
  W03 p q := w03 (ix2 p q)
  b03 q := b03 (ix2 0 q)
  W11 q p := w11 (ix2 q p)
  b11 p := b11 (ix2 0 p)
  W12 ky kx c p := w12 (ix2 (colOf ky kx c) p)
  b12 p := b12 (ix2 0 p)
  W13 p q := w13 (ix2 p q)
  b13 q := b13 (ix2 0 q)
  Wc2 a q := wc2 (ix2 a q)
  bc2 q := bc2 (ix2 0 q)
  Wc3 c q := wc3 (ix2 c q)
  bc3 q := bc3 (ix2 0 q)
  W4a a q := w4a (ix2 a q)
  W4b a q := w4b (ix2 a q)
  b4 q := b4 (ix2 0 q)

/-- Image `img` of a block of two images' pixels. -/
def imgOf (x0 : Vec Ideal S2048x128 .f32) (img : Fin 2) : Fin 32 → Fin 32 → Fin 128 → EReal :=
  fun h w c => x0 (ix2 (rowOf img h w) c)

end Cert.KernelIdeal.BlockValue

end
-- ==== Proof.KIValueDefs.lean ====
/-
  The kernel's result as ONE function of the argument arrays.

  The array the launch writes has 65536 = 64 · 32 · 32 rows of 256 columns: row `n · 1024 + h · 32 + w` is the pixel
  `(h, w)` of image `n`, and its entry at column `q` is the network of the specification at that pixel and channel,
  run on image `n` of the first argument with the weights and biases the host lines before the launch fold.
  The statement about ONE block of two images — what the body leaves in the output block, entry by entry, is the
  network on the block's two images — is taken here as a hypothesis, in the form it is proved in elsewhere.
-/
import proofs.«145656_g2000601261699844_pallasbulk_55_1_alg».proof.Proof.KIFrame
import proofs.«145656_g2000601261699844_pallasbulk_55_1_alg».proof.Proof.KVDefs

noncomputable section

namespace Cert.KernelIdeal.Value

open Cert.KernelIdeal Cert.KernelIdeal.Gen
open Idealize.ShloMosaic Idealize.ShloMosaic.TcCoe Idealize.ShloMosaic.ValueIdx Idealize.SL.Sem

/-- What the body leaves in the output block, entry by entry: at row `rowOf img h w` and column `q`, the network
    with the parameters read off the twenty-one parameter blocks, on image `img` of the block of pixels, at pixel
    `(h, w)` and channel `q`. -/
abbrev HBlock : Prop :=
  ∀ (c : Dev nD) (t : Fin cfg0.N) (x1 : Vec Ideal S2048x128 .f32) (x2 : Vec Ideal S128x512 .bf16) (x3 : Vec Ideal S1x512 .f32)
    (x4 : Vec Ideal S512x384 .bf16) (x5 : Vec Ideal S1x384 .f32) (x6 : Vec Ideal S1152x128 .bf16) (x7 : Vec Ideal S1x128 .f32)
    (x8 : Vec Ideal S128x256 .bf16) (x9 : Vec Ideal S1x256 .f32) (x10 : Vec Ideal S256x128 .bf16) (x11 : Vec Ideal S1x128 .f32)
    (x12 : Vec Ideal S1152x128 .bf16) (x13 : Vec Ideal S1x128 .f32) (x14 : Vec Ideal S128x256 .bf16) (x15 : Vec Ideal S1x256 .f32)
    (x16 : Vec Ideal S256x256 .bf16) (x17 : Vec Ideal S1x256 .f32) (x18 : Vec Ideal S128x256 .bf16) (x19 : Vec Ideal S1x256 .f32)
    (x20 : Vec Ideal S256x256 .bf16) (x21 : Vec Ideal S256x256 .bf16) (x22 : Vec Ideal S1x256 .f32)
    (img : Fin 2) (h w : Fin 32) (q : Fin 256),
    Body.out22 (F := Ideal) c t x1 x2 x3 x4 x5 x6 x7 x8 x9 x10 x11 x12 x13 x14 x15 x16 x17 x18 x19 x20 x21 x22
        (ix2 (BlockValue.rowOf img h w) q)
      = Cert.Spec.net (BlockValue.paramsOf x2 x3 x4 x5 x6 x7 x8 x9 x10 x11 x12 x13 x14 x15 x16 x17 x18 x19 x20 x21 x22)
          (BlockValue.imgOf x1 img) h w q

variable (m : (ℓ : Loc nD τ sig) → Buf (Elt Ideal) ℓ)

/-- The network's parameters on core `c`: the twenty-one parameter arrays as the launch finds them. -/
def PK (c : Dev nD) : Cert.Spec.Params :=
  BlockValue.paramsOf (V m c main_v9 : Vec Ideal S128x512 .bf16) (V m c main_v10 : Vec Ideal S1x512 .f32)
    (V m c main_v91 : Vec Ideal S512x384 .bf16) (V m c main_v92 : Vec Ideal S1x384 .f32)
    (V m c main_v68 : Vec Ideal S1152x128 .bf16) (V m c main_v67 : Vec Ideal S1x128 .f32)
    (V m c main_v78 : Vec Ideal S128x256 .bf16) (V m c main_v79 : Vec Ideal S1x256 .f32)
    (V m c main_v102 : Vec Ideal S256x128 .bf16) (V m c main_v103 : Vec Ideal S1x128 .f32)
    (V m c main_v115 : Vec Ideal S1152x128 .bf16) (V m c main_v114 : Vec Ideal S1x128 .f32)
    (V m c main_v125 : Vec Ideal S128x256 .bf16) (V m c main_v126 : Vec Ideal S1x256 .f32)
    (V m c main_v20 : Vec Ideal S256x256 .bf16) (V m c main_v21 : Vec Ideal S1x256 .f32)
    (V m c main_v31 : Vec Ideal S128x256 .bf16) (V m c main_v32 : Vec Ideal S1x256 .f32)
    (V m c main_v44 : Vec Ideal S256x256 .bf16) (V m c main_v45 : Vec Ideal S256x256 .bf16)
    (V m c main_v43 : Vec Ideal S1x256 .f32)

/-- Image `n` of the first argument, as launched. -/
def XK (c : Dev nD) (n : Fin 64) : Fin 32 → Fin 32 → Fin 128 → EReal :=
  fun h w ch => (m ((c : Thread nD τ).loc main_arg0) : S64x32x32x128.Idx → EReal) (ix4 n h w ch)

/-- The network at pixel `(h, w)`, channel `q` of image `n`. -/
def Gpix (c : Dev nD) (n : Fin 64) (h w : Fin 32) (q : Fin 256) : EReal :=
  Cert.Spec.net (PK m c) (XK m c n) h w q

/-- The array the launch writes, index by index: row `r` is pixel `(r % 1024 / 32, r % 32)` of image `r / 1024`. -/
def G (c : Dev nD) : S65536x256.Idx → EReal := fun i =>
  Gpix m c ⟨(i 0).val / 1024, by have := idx2_lt0 i; omega⟩ ⟨(i 0).val % 1024 / 32, by omega⟩ ⟨(i 0).val % 32, by omega⟩ (i 1)

/-- `G` at the row of a pixel. -/
theorem G_row (c : Dev nD) (n : Fin 64) (h w : Fin 32) (q : Fin 256) (hr : n.val * 1024 + h.val * 32 + w.val < 65536) :
    G m c (ix2 (⟨n.val * 1024 + h.val * 32 + w.val, hr⟩ : Fin 65536) q) = Gpix m c n h w q := by
  show Gpix m c ⟨(n.val * 1024 + h.val * 32 + w.val) / 1024, _⟩ ⟨(n.val * 1024 + h.val * 32 + w.val) % 1024 / 32, _⟩
      ⟨(n.val * 1024 + h.val * 32 + w.val) % 32, _⟩ q = _
  have e1 : (n.val * 1024 + h.val * 32 + w.val) / 1024 = n.val := by omega
  have e2 : (n.val * 1024 + h.val * 32 + w.val) % 1024 / 32 = h.val := by omega
  have e3 : (n.val * 1024 + h.val * 32 + w.val) % 32 = w.val := by omega
  simp only [e1, e2, e3]

end Cert.KernelIdeal.Value

end
-- ==== Proof.PEqBase.lean ====
/-
  What the two programs' parameter readings share.

  The two programs are launched from memories that hold the same arrays at the arguments. The reference runs six
  kernels with host stretches between them; none of those stretches writes an argument array, and a kernel's result
  buffer is not an argument, so when a later kernel is entered every argument array is still the launched one.
-/
import proofs.«145656_g2000601261699844_pallasbulk_55_1_alg».proof.Proof.Gen.KernelIdeal.Frame
import proofs.«145656_g2000601261699844_pallasbulk_55_1_alg».proof.Proof.Gen.ReferenceIdeal.Regions
import Idealize.ShloMosaic.Lib.ValueIdx
import Idealize.ShloMosaic.Lib.Pipeline.Value

noncomputable section

namespace Cert.Params

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.ReferenceIdeal.Gen.Outs (F := Ideal))

/-- On core `c` the two launch memories hold the same array at each of the 56 arguments (the image, then for each of
    the eleven layers its weight and the four vectors of its normalisation). -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
  ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
  ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
  ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
  ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
  ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
  ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
  ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
  ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
  ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
  ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
  ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
  ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
  ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
  ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
  ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
  ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
  ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
  ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
  ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
  ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
  ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
  ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
  ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
  ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)
  ∧ m' ((c.tc : Thread Cert.ReferenceIdeal.nD Cert.ReferenceIdeal.τ).loc Cert.ReferenceIdeal.main_arg50) = m ((c.tc : Thread Cert.KernelIdeal.nD Cert.KernelIdeal.τ).loc Cert.KernelIdeal.main_arg50)
  ∧ m' ((c.tc : Thread Cert.ReferenceIdeal.nD Cert.ReferenceIdeal.τ).loc Cert.ReferenceIdeal.main_arg51) = m ((c.tc : Thread Cert.KernelIdeal.nD Cert.KernelIdeal.τ).loc Cert.KernelIdeal.main_arg51)
  ∧ m' ((c.tc : Thread Cert.ReferenceIdeal.nD Cert.ReferenceIdeal.τ).loc Cert.ReferenceIdeal.main_arg52) = m ((c.tc : Thread Cert.KernelIdeal.nD Cert.KernelIdeal.τ).loc Cert.KernelIdeal.main_arg52)
  ∧ m' ((c.tc : Thread Cert.ReferenceIdeal.nD Cert.ReferenceIdeal.τ).loc Cert.ReferenceIdeal.main_arg53) = m ((c.tc : Thread Cert.KernelIdeal.nD Cert.KernelIdeal.τ).loc Cert.KernelIdeal.main_arg53)
  ∧ m' ((c.tc : Thread Cert.ReferenceIdeal.nD Cert.ReferenceIdeal.τ).loc Cert.ReferenceIdeal.main_arg54) = m ((c.tc : Thread Cert.KernelIdeal.nD Cert.KernelIdeal.τ).loc Cert.KernelIdeal.main_arg54)
  ∧ m' ((c.tc : Thread Cert.ReferenceIdeal.nD Cert.ReferenceIdeal.τ).loc Cert.ReferenceIdeal.main_arg55) = m ((c.tc : Thread Cert.KernelIdeal.nD Cert.KernelIdeal.τ).loc Cert.KernelIdeal.main_arg55)

section ReferenceArguments

open Cert.ReferenceIdeal Cert.ReferenceIdeal.Gen

variable (c : Dev Cert.ReferenceIdeal.nD) (r : Ref Cert.ReferenceIdeal.sig .tc)

/-! No host stretch of the reference writes an argument, and a region's result buffer is not an argument: at the
    entry of every region an argument array is still the launched one. -/

theorem V0_arg : V0 m' c r = m' (c, Proc.devRef .tc r) := rfl

theorem V2_arg (h0 : r ∉ hostOps0_W := by decide) (h1 : r ∉ ([main_v11] : List (Ref sig .tc)) := by decide) :
    V2 m' outs c r = m' (c, Proc.devRef .tc r) :=
  (V2_of m' outs c r h1).trans (V1_of m' c r h0)

theorem V4_arg (h0 : r ∉ hostOps0_W := by decide) (h1 : r ∉ ([main_v11] : List (Ref sig .tc)) := by decide)
    (h2 : r ∉ hostOps1_W := by decide) (h3 : r ∉ ([main_v55] : List (Ref sig .tc)) := by decide) :
    V4 m' outs c r = m' (c, Proc.devRef .tc r) :=
  (V4_of m' outs c r h3).trans ((V3_of m' outs c r h2).trans (V2_arg m' outs c r h0 h1))

theorem V6_arg (h0 : r ∉ hostOps0_W := by decide) (h1 : r ∉ ([main_v11] : List (Ref sig .tc)) := by decide)
    (h2 : r ∉ hostOps1_W := by decide) (h3 : r ∉ ([main_v55] : List (Ref sig .tc)) := by decide)
    (h4 : r ∉ hostOps2_W := by decide) (h5 : r ∉ ([main_v89] : List (Ref sig .tc)) := by decide) :
    V6 m' outs c r = m' (c, Proc.devRef .tc r) :=
  (V6_of m' outs c r h5).trans ((V5_of m' outs c r h4).trans (V4_arg m' outs c r h0 h1 h2 h3))

theorem V8_arg (h0 : r ∉ hostOps0_W := by decide) (h1 : r ∉ ([main_v11] : List (Ref sig .tc)) := by decide)
    (h2 : r ∉ hostOps1_W := by decide) (h3 : r ∉ ([main_v55] : List (Ref sig .tc)) := by decide)
    (h4 : r ∉ hostOps2_W := by decide) (h5 : r ∉ ([main_v89] : List (Ref sig .tc)) := by decide)
    (h6 : r ∉ hostOps3_W := by decide) (h7 : r ∉ ([main_v102] : List (Ref sig .tc)) := by decide) :
    V8 m' outs c r = m' (c, Proc.devRef .tc r) :=
  (V8_of m' outs c r h7).trans ((V7_of m' outs c r h6).trans (V6_arg m' outs c r h0 h1 h2 h3 h4 h5))

theorem V10_arg (h0 : r ∉ hostOps0_W := by decide) (h1 : r ∉ ([main_v11] : List (Ref sig .tc)) := by decide)
    (h2 : r ∉ hostOps1_W := by decide) (h3 : r ∉ ([main_v55] : List (Ref sig .tc)) := by decide)
    (h4 : r ∉ hostOps2_W := by decide) (h5 : r ∉ ([main_v89] : List (Ref sig .tc)) := by decide)
    (h6 : r ∉ hostOps3_W := by decide) (h7 : r ∉ ([main_v102] : List (Ref sig .tc)) := by decide)
    (h8 : r ∉ hostOps4_W := by decide) (h9 : r ∉ ([main_v115] : List (Ref sig .tc)) := by decide) :
    V10 m' outs c r = m' (c, Proc.devRef .tc r) :=
  (V10_of m' outs c r h9).trans ((V9_of m' outs c r h8).trans (V8_arg m' outs c r h0 h1 h2 h3 h4 h5 h6 h7))

end ReferenceArguments

end Cert.Params

end
-- ==== Proof.PEq0.lean ====
/-
  The stem's operands: the image and the folded weight and bias that the kernel's one region and the reference's
  first kernel find.

  Both programs compute them from the launched arguments by the same host operations: the weight is the argument's
  matrix with each column multiplied by that channel's scale `γ / sqrt (σ² + ε)`, the bias is `β − μ · scale` as a row.
-/
import proofs.«145656_g2000601261699844_pallasbulk_55_1_alg».proof.Proof.Gen.KernelIdeal.Frame
import proofs.«145656_g2000601261699844_pallasbulk_55_1_alg».proof.Proof.Gen.ReferenceIdeal.Regions
import Idealize.ShloMosaic.Lib.ValueIdx
import Idealize.ShloMosaic.Lib.Pipeline.Value
import proofs.«145656_g2000601261699844_pallasbulk_55_1_alg».proof.Proof.PEqBase

noncomputable section

namespace Cert.Params

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 4000000 in
/-- The image, as the 65536 × 128 matrix of its pixels' channels: both programs reshape the same argument. -/
theorem stem_x (hag : Agree m m' c) (r : Fin 65536) (k : Fin 128) :
    (Cert.ReferenceIdeal.Gen.V1 m' c Cert.ReferenceIdeal.main_v9 : (⟨2, ![65536, 128]⟩ : Shape).Idx → EReal) (ix2 r k)
      = (Cert.KernelIdeal.Gen.V m c Cert.KernelIdeal.main_v127 : (⟨2, ![65536, 128]⟩ : Shape).Idx → EReal) (ix2 r k) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps0 (fun b => m' (c, b)) (Proc.devRef .tc Cert.ReferenceIdeal.main_v9)
          : (⟨2, ![65536, 128]⟩ : Shape).Idx → EReal) (ix2 r k)
     = (StableHlo.after Cert.KernelIdeal.Gen.hostOps0 (fun b => m (c, b)) (Proc.devRef .tc Cert.KernelIdeal.main_v127)
          : (⟨2, ![65536, 128]⟩ : Shape).Idx → EReal) (ix2 r k)
  after_results_simp
  rw [h0]
  rfl

set_option maxHeartbeats 4000000 in
/-- The stem's weight: the argument's column `b` times that channel's scale (the kernel also narrows the product, which
    changes nothing over the extended reals). -/
theorem Ws_eq (hag : Agree m m' c) (a : Fin 128) (b : Fin 512) :
    (Cert.ReferenceIdeal.Gen.V1 m' c Cert.ReferenceIdeal.main_v8 : (⟨2, ![128, 512]⟩ : Shape).Idx → EReal) (ix2 a b)
      = (Cert.KernelIdeal.Gen.V m c Cert.KernelIdeal.main_v9 : (⟨2, ![128, 512]⟩ : Shape).Idx → EReal) (ix2 a b) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps0 (fun b => m' (c, b)) (Proc.devRef .tc Cert.ReferenceIdeal.main_v8)
          : (⟨2, ![128, 512]⟩ : Shape).Idx → EReal) (ix2 a b)
     = (StableHlo.after Cert.KernelIdeal.Gen.hostOps0 (fun b => m (c, b)) (Proc.devRef .tc Cert.KernelIdeal.main_v9)
          : (⟨2, ![128, 512]⟩ : Shape).Idx → EReal) (ix2 a b)
  after_results_simp
  rw [h1, h2, h5]
  rfl

set_option maxHeartbeats 4000000 in
/-- The stem's bias row: the normalisation's shift less its mean times the scale. -/
theorem bs_eq (hag : Agree m m' c) (j : Fin 512) :
    (Cert.ReferenceIdeal.Gen.V1 m' c Cert.ReferenceIdeal.main_v10 : (⟨2, ![1, 512]⟩ : Shape).Idx → EReal) (ix2 0 j)
      = (Cert.KernelIdeal.Gen.V m c Cert.KernelIdeal.main_v10 : (⟨2, ![1, 512]⟩ : Shape).Idx → EReal) (ix2 0 j) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps0 (fun b => m' (c, b)) (Proc.devRef .tc Cert.ReferenceIdeal.main_v10)
          : (⟨2, ![1, 512]⟩ : Shape).Idx → EReal) (ix2 0 j)
     = (StableHlo.after Cert.KernelIdeal.Gen.hostOps0 (fun b => m (c, b)) (Proc.devRef .tc Cert.KernelIdeal.main_v10)
          : (⟨2, ![1, 512]⟩ : Shape).Idx → EReal) (ix2 0 j)
  after_results_simp
  rw [h2, h3, h4, h5]
  rfl

end Cert.Params

end
-- ==== Proof.PEqLayout.lean ====
/-
  Three layout facts the parameter readings use.

  The kernel holds a 3×3 layer's weight as one 1152 × 128 matrix and the reference as nine 128 × 128 matrices; both are
  reshapes of the same 3×3×128×128 array. The kernel also sets the first block's two weights out of the stem (and
  their two bias rows) side by side in one matrix; the reference keeps them apart.
-/
import Idealize.ShloMosaic.Lib.ValueIdx
import Idealize.ShloMosaic.Lib.Pipeline.Value

noncomputable section

namespace Cert.Params

open Idealize.ShloMosaic Idealize.ShloMosaic.TcCoe Idealize.ShloMosaic.ValueIdx

variable {α : Type}

/-- A 3×3×128×128 array read as nine 128×128 matrices (tap `3·ky + kx` first) and as one 1152×128 matrix (row
    `(3·ky + kx)·128 + ch`) is read at the same entry `(ky, kx, ch, p)`: all three layouts list the entries in the same
    row-major order. The two arrays need only agree entry by entry. -/
theorem tap_reshape (X X' : (⟨4, ![3, 3, 128, 128]⟩ : Shape).Idx → α) (hX : ∀ i, X i = X' i)
    (h9 : (⟨4, ![3, 3, 128, 128]⟩ : Shape).ShapeCasts ⟨3, ![9, 128, 128]⟩)
    (h1152 : (⟨4, ![3, 3, 128, 128]⟩ : Shape).ShapeCasts ⟨2, ![1152, 128]⟩)
    (ky kx : Fin 3) (ch p : Fin 128) (ht : ky.val * 3 + kx.val < 9) (hr : (ky.val * 3 + kx.val) * 128 + ch.val < 1152) :
    shapeCast ⟨3, ![9, 128, 128]⟩ X h9 (ix3 ⟨ky.val * 3 + kx.val, ht⟩ ch p)
      = shapeCast ⟨2, ![1152, 128]⟩ X' h1152 (ix2 ⟨(ky.val * 3 + kx.val) * 128 + ch.val, hr⟩ p) := by
  rw [shapeCast_apply X h9 _ (ix4 ky kx ch p) (by rw [Shape.rowMajor_val_four, Shape.rowMajor_val_three]; rfl),
      shapeCast_apply X' h1152 _ (ix4 ky kx ch p) (by rw [Shape.rowMajor_val_four, Shape.rowMajor_val_two]; rfl)]
  exact hX _

/-- Two matrices set side by side along the columns, read at a column of the first. -/
theorem concat_left {n a b ab : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, ab]⟩ 1) (j : Fin n) (p : Fin a)
    (hp : p.val < ab) :
    concatenate (⟨2, ![n, ab]⟩ : Shape) 1 [⟨⟨2, ![n, a]⟩, x₁⟩, ⟨⟨2, ![n, b]⟩, x₂⟩] h (ix2 j ⟨p.val, hp⟩) = x₁ (ix2 j p) :=
  concatenate_pair_apply_left 1 x₁ x₂ h _ rfl (ix2 j p)
    (by intro k; match k with | ⟨0, _⟩ => rfl | ⟨1, _⟩ => rfl)

/-- Two matrices set side by side along the columns, read at a column of the second: the column less the first's
    width. -/
theorem concat_right {n a b ab : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, ab]⟩ 1) (j : Fin n) (q : Fin b)
    (hq : a + q.val < ab) :
    concatenate (⟨2, ![n, ab]⟩ : Shape) 1 [⟨⟨2, ![n, a]⟩, x₁⟩, ⟨⟨2, ![n, b]⟩, x₂⟩] h (ix2 j ⟨a + q.val, hq⟩) = x₂ (ix2 j q) :=
  concatenate_pair_apply_right 1 x₁ x₂ h _ rfl rfl (ix2 j q)
    (by intro k hk; match k, hk with | ⟨0, _⟩, _ => rfl | ⟨1, _⟩, hk => exact absurd rfl hk)
    (by show q.val + a = a + q.val; exact Nat.add_comm _ _)

end Cert.Params

end
-- ==== Proof.PEq1a.lean ====
/-
  The first block's two layers out of the stem: the entry layer (512 → 128) and the linear projection (512 → 256),
  as the kernel's one region and the reference's second kernel find their folded weights and biases.

  Both programs compute each from the launched arguments by the same host operations: a weight is the argument's
  matrix with each column multiplied by that channel's scale `γ / sqrt (σ² + ε)`, a bias is `β − μ · scale` as a row. The
  kernel then sets the two weights side by side in one 512 × 384 matrix (entry layer first) and the two bias rows in
  one 1 × 384 row; the reference keeps them apart. When the reference's second kernel is entered the arguments are
  still the launched arrays.
-/
import proofs.«145656_g2000601261699844_pallasbulk_55_1_alg».proof.Proof.Gen.KernelIdeal.Frame
import proofs.«145656_g2000601261699844_pallasbulk_55_1_alg».proof.Proof.Gen.ReferenceIdeal.Regions
import Idealize.ShloMosaic.Lib.ValueIdx
import Idealize.ShloMosaic.Lib.Pipeline.Value
import proofs.«145656_g2000601261699844_pallasbulk_55_1_alg».proof.Proof.PEqBase
import proofs.«145656_g2000601261699844_pallasbulk_55_1_alg».proof.Proof.PEqLayout

noncomputable section

namespace Cert.Params

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.ReferenceIdeal.Gen.Outs (F := Ideal)) (c : Dev Cert.KernelIdeal.nD)

set_option maxHeartbeats 4000000 in
/-- The first block's entry weight (512 → 128): in the kernel, columns `0 … 127` of the 512 × 384 matrix. -/
theorem W01_eq (hag : Agree m m' c) (j : Fin 512) (p : Fin 128) :
    (Cert.ReferenceIdeal.Gen.V3 m' outs c Cert.ReferenceIdeal.main_v33 : (⟨2, ![512, 128]⟩ : Shape).Idx → EReal) (ix2 j p)
      = (Cert.KernelIdeal.Gen.V m c Cert.KernelIdeal.main_v91 : (⟨2, ![512, 384]⟩ : Shape).Idx → EReal)
        (ix2 j ⟨p.val, by have := p.isLt; omega⟩) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps1 (Cert.ReferenceIdeal.Gen.V2 m' outs c) (Proc.devRef .tc Cert.ReferenceIdeal.main_v33)
          : (⟨2, ![512, 128]⟩ : Shape).Idx → EReal) _
     = (StableHlo.after Cert.KernelIdeal.Gen.hostOps0 (fun b => m (c, b)) (Proc.devRef .tc Cert.KernelIdeal.main_v91)
          : (⟨2, ![512, 384]⟩ : Shape).Idx → EReal) _
  after_results_simp
  rw [V2_arg m' outs c Cert.ReferenceIdeal.main_arg21, V2_arg m' outs c Cert.ReferenceIdeal.main_arg22,
      V2_arg m' outs c Cert.ReferenceIdeal.main_arg25]
  rw [h21, h22, h25]
  refine Eq.trans ?_ (concat_left (n := 512) (a := 128) (b := 256) (ab := 384) _ _ _ j p _).symm
  rfl

set_option maxHeartbeats 4000000 in
/-- The first block's linear projection of the stem (512 → 256): in the kernel, columns `128 … 383` of that matrix. -/
theorem W0d_eq (hag : Agree m m' c) (j : Fin 512) (q : Fin 256) :
    (Cert.ReferenceIdeal.Gen.V3 m' outs c Cert.ReferenceIdeal.main_v53 : (⟨2, ![512, 256]⟩ : Shape).Idx → EReal) (ix2 j q)
      = (Cert.KernelIdeal.Gen.V m c Cert.KernelIdeal.main_v91 : (⟨2, ![512, 384]⟩ : Shape).Idx → EReal)
        (ix2 j ⟨128 + q.val, by have := q.isLt; omega⟩) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps1 (Cert.ReferenceIdeal.Gen.V2 m' outs c) (Proc.devRef .tc Cert.ReferenceIdeal.main_v53)
          : (⟨2, ![512, 256]⟩ : Shape).Idx → EReal) _
     = (StableHlo.after Cert.KernelIdeal.Gen.hostOps0 (fun b => m (c, b)) (Proc.devRef .tc Cert.KernelIdeal.main_v91)
          : (⟨2, ![512, 384]⟩ : Shape).Idx → EReal) _
  after_results_simp
  rw [V2_arg m' outs c Cert.ReferenceIdeal.main_arg36, V2_arg m' outs c Cert.ReferenceIdeal.main_arg37,
      V2_arg m' outs c Cert.ReferenceIdeal.main_arg40]
  rw [h36, h37, h40]
  refine Eq.trans ?_ (concat_right (n := 512) (a := 128) (b := 256) (ab := 384) _ _ _ j q _).symm
  rfl

set_option maxHeartbeats 4000000 in
/-- The entry layer's bias: in the kernel, columns `0 … 127` of the 1 × 384 row. -/
theorem b01_eq (hag : Agree m m' c) (p : Fin 128) :
    (Cert.ReferenceIdeal.Gen.V3 m' outs c Cert.ReferenceIdeal.main_v42 : (⟨2, ![1, 128]⟩ : Shape).Idx → EReal) (ix2 0 p)
      = (Cert.KernelIdeal.Gen.V m c Cert.KernelIdeal.main_v92 : (⟨2, ![1, 384]⟩ : Shape).Idx → EReal)
        (ix2 0 ⟨p.val, by have := p.isLt; omega⟩) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps1 (Cert.ReferenceIdeal.Gen.V2 m' outs c) (Proc.devRef .tc Cert.ReferenceIdeal.main_v42)
          : (⟨2, ![1, 128]⟩ : Shape).Idx → EReal) _
     = (StableHlo.after Cert.KernelIdeal.Gen.hostOps0 (fun b => m (c, b)) (Proc.devRef .tc Cert.KernelIdeal.main_v92)
          : (⟨2, ![1, 384]⟩ : Shape).Idx → EReal) _
  after_results_simp
  rw [V2_arg m' outs c Cert.ReferenceIdeal.main_arg22, V2_arg m' outs c Cert.ReferenceIdeal.main_arg23,
      V2_arg m' outs c Cert.ReferenceIdeal.main_arg24, V2_arg m' outs c Cert.ReferenceIdeal.main_arg25]
  rw [h22, h23, h24, h25]
  refine Eq.trans ?_ (concat_left (n := 1) (a := 128) (b := 256) (ab := 384) _ _ _ 0 p _).symm
  rfl

set_option maxHeartbeats 4000000 in
/-- The projection's bias: in the kernel, columns `128 … 383` of that row. -/
theorem b0d_eq (hag : Agree m m' c) (q : Fin 256) :
    (Cert.ReferenceIdeal.Gen.V3 m' outs c Cert.ReferenceIdeal.main_v54 : (⟨2, ![1, 256]⟩ : Shape).Idx → EReal) (ix2 0 q)
      = (Cert.KernelIdeal.Gen.V m c Cert.KernelIdeal.main_v92 : (⟨2, ![1, 384]⟩ : Shape).Idx → EReal)
        (ix2 0 ⟨128 + q.val, by have := q.isLt; omega⟩) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps1 (Cert.ReferenceIdeal.Gen.V2 m' outs c) (Proc.devRef .tc Cert.ReferenceIdeal.main_v54)
          : (⟨2, ![1, 256]⟩ : Shape).Idx → EReal) _
     = (StableHlo.after Cert.KernelIdeal.Gen.hostOps0 (fun b => m (c, b)) (Proc.devRef .tc Cert.KernelIdeal.main_v92)
          : (⟨2, ![1, 384]⟩ : Shape).Idx → EReal) _
  after_results_simp
  rw [V2_arg m' outs c Cert.ReferenceIdeal.main_arg37, V2_arg m' outs c Cert.ReferenceIdeal.main_arg38,
      V2_arg m' outs c Cert.ReferenceIdeal.main_arg39, V2_arg m' outs c Cert.ReferenceIdeal.main_arg40]
  rw [h37, h38, h39, h40]
  refine Eq.trans ?_ (concat_right (n := 1) (a := 128) (b := 256) (ab := 384) _ _ _ 0 q _).symm
  rfl

end Cert.Params

end
-- ==== Proof.PEq1b.lean ====
/-
  The first block's 3×3 layer and its exit layer (128 → 256): their folded weights and biases, as the kernel's one
  region and the reference's second kernel find them.

  Both programs compute them from the launched arguments by the same host operations: a weight is the argument's
  array with each output channel multiplied by that channel's scale `γ / sqrt (σ² + ε)`, a bias is `β − μ · scale` as a
  row. The 3×3 layer's weight is a 3×3×128×128 array; the reference reshapes it to nine 128 × 128 matrices and the
  kernel to one 1152 × 128 matrix. When the reference's second kernel is entered the arguments are still the launched
  arrays.
-/
import proofs.«145656_g2000601261699844_pallasbulk_55_1_alg».proof.Proof.Gen.KernelIdeal.Frame
import proofs.«145656_g2000601261699844_pallasbulk_55_1_alg».proof.Proof.Gen.ReferenceIdeal.Regions
import Idealize.ShloMosaic.Lib.ValueIdx
import Idealize.ShloMosaic.Lib.Pipeline.Value
import proofs.«145656_g2000601261699844_pallasbulk_55_1_alg».proof.Proof.PEqBase
import proofs.«145656_g2000601261699844_pallasbulk_55_1_alg».proof.Proof.PEqLayout

noncomputable section

namespace Cert.Params

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.ReferenceIdeal.Gen.Outs (F := Ideal)) (c : Dev Cert.KernelIdeal.nD)

set_option maxHeartbeats 4000000 in
/-- The first block's 3×3 weight: both programs scale the same 3×3×128×128 argument along its last axis; the reference
    then holds it as nine 128 × 128 matrices, the kernel as one 1152 × 128 matrix. -/
theorem W02_eq (hag : Agree m m' c) (ky kx : Fin 3) (ch p : Fin 128) :
    (Cert.ReferenceIdeal.Gen.V3 m' outs c Cert.ReferenceIdeal.main_v37 : (⟨3, ![9, 128, 128]⟩ : Shape).Idx → EReal)
        (ix3 ⟨ky.val * 3 + kx.val, by have := ky.isLt; have := kx.isLt; omega⟩ ch p)
      = (Cert.KernelIdeal.Gen.V m c Cert.KernelIdeal.main_v68 : (⟨2, ![1152, 128]⟩ : Shape).Idx → EReal)
        (ix2 ⟨(ky.val * 3 + kx.val) * 128 + ch.val, by have := ky.isLt; have := kx.isLt; have := ch.isLt; omega⟩ p) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps1 (Cert.ReferenceIdeal.Gen.V2 m' outs c) (Proc.devRef .tc Cert.ReferenceIdeal.main_v37)
          : (⟨3, ![9, 128, 128]⟩ : Shape).Idx → EReal) _
     = (StableHlo.after Cert.KernelIdeal.Gen.hostOps0 (fun b => m (c, b)) (Proc.devRef .tc Cert.KernelIdeal.main_v68)
          : (⟨2, ![1152, 128]⟩ : Shape).Idx → EReal) _
  after_results_simp
  rw [V2_arg m' outs c Cert.ReferenceIdeal.main_arg26, V2_arg m' outs c Cert.ReferenceIdeal.main_arg27,
      V2_arg m' outs c Cert.ReferenceIdeal.main_arg30]
  rw [h26, h27, h30]
  exact tap_reshape _ _ (fun _ => rfl) _ _ ky kx ch p _ _

set_option maxHeartbeats 4000000 in
/-- Its bias row: the normalisation's shift less its mean times the scale. -/
theorem b02_eq (hag : Agree m m' c) (p : Fin 128) :
    (Cert.ReferenceIdeal.Gen.V3 m' outs c Cert.ReferenceIdeal.main_v43 : (⟨2, ![1, 128]⟩ : Shape).Idx → EReal) (ix2 0 p)
      = (Cert.KernelIdeal.Gen.V m c Cert.KernelIdeal.main_v67 : (⟨2, ![1, 128]⟩ : Shape).Idx → EReal) (ix2 0 p) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps1 (Cert.ReferenceIdeal.Gen.V2 m' outs c) (Proc.devRef .tc Cert.ReferenceIdeal.main_v43)
          : (⟨2, ![1, 128]⟩ : Shape).Idx → EReal) (ix2 0 p)
     = (StableHlo.after Cert.KernelIdeal.Gen.hostOps0 (fun b => m (c, b)) (Proc.devRef .tc Cert.KernelIdeal.main_v67)
          : (⟨2, ![1, 128]⟩ : Shape).Idx → EReal) (ix2 0 p)
  after_results_simp
  rw [V2_arg m' outs c Cert.ReferenceIdeal.main_arg27, V2_arg m' outs c Cert.ReferenceIdeal.main_arg28,
      V2_arg m' outs c Cert.ReferenceIdeal.main_arg29, V2_arg m' outs c Cert.ReferenceIdeal.main_arg30]
  rw [h27, h28, h29, h30]
  rfl

set_option maxHeartbeats 4000000 in
/-- The first block's exit weight (128 → 256): the argument's column `q` times that channel's scale. -/
theorem W03_eq (hag : Agree m m' c) (p : Fin 128) (q : Fin 256) :
    (Cert.ReferenceIdeal.Gen.V3 m' outs c Cert.ReferenceIdeal.main_v40 : (⟨2, ![128, 256]⟩ : Shape).Idx → EReal) (ix2 p q)
      = (Cert.KernelIdeal.Gen.V m c Cert.KernelIdeal.main_v78 : (⟨2, ![128, 256]⟩ : Shape).Idx → EReal) (ix2 p q) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps1 (Cert.ReferenceIdeal.Gen.V2 m' outs c) (Proc.devRef .tc Cert.ReferenceIdeal.main_v40)
          : (⟨2, ![128, 256]⟩ : Shape).Idx → EReal) (ix2 p q)
     = (StableHlo.after Cert.KernelIdeal.Gen.hostOps0 (fun b => m (c, b)) (Proc.devRef .tc Cert.KernelIdeal.main_v78)
          : (⟨2, ![128, 256]⟩ : Shape).Idx → EReal) (ix2 p q)
  after_results_simp
  rw [V2_arg m' outs c Cert.ReferenceIdeal.main_arg31, V2_arg m' outs c Cert.ReferenceIdeal.main_arg32,
      V2_arg m' outs c Cert.ReferenceIdeal.main_arg35]
  rw [h31, h32, h35]
  rfl

set_option maxHeartbeats 4000000 in
/-- Its bias row. -/
theorem b03_eq (hag : Agree m m' c) (q : Fin 256) :
    (Cert.ReferenceIdeal.Gen.V3 m' outs c Cert.ReferenceIdeal.main_v44 : (⟨2, ![1, 256]⟩ : Shape).Idx → EReal) (ix2 0 q)
      = (Cert.KernelIdeal.Gen.V m c Cert.KernelIdeal.main_v79 : (⟨2, ![1, 256]⟩ : Shape).Idx → EReal) (ix2 0 q) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps1 (Cert.ReferenceIdeal.Gen.V2 m' outs c) (Proc.devRef .tc Cert.ReferenceIdeal.main_v44)
          : (⟨2, ![1, 256]⟩ : Shape).Idx → EReal) (ix2 0 q)
     = (StableHlo.after Cert.KernelIdeal.Gen.hostOps0 (fun b => m (c, b)) (Proc.devRef .tc Cert.KernelIdeal.main_v79)
          : (⟨2, ![1, 256]⟩ : Shape).Idx → EReal) (ix2 0 q)
  after_results_simp
  rw [V2_arg m' outs c Cert.ReferenceIdeal.main_arg32, V2_arg m' outs c Cert.ReferenceIdeal.main_arg33,
      V2_arg m' outs c Cert.ReferenceIdeal.main_arg34, V2_arg m' outs c Cert.ReferenceIdeal.main_arg35]
  rw [h32, h33, h34, h35]
  rfl

end Cert.Params

end
-- ==== Proof.PEq2.lean ====
/-
  The second block's operands: the folded weights and biases of its three layers, as the kernel's one region and the
  reference's third kernel find them.

  Both programs compute them from the launched arguments by the same host operations: a weight is the argument's
  array with each output channel multiplied by that channel's scale `γ / sqrt (σ² + ε)`, a bias is `β − μ · scale` as a
  row. The 3×3 layer's weight is a 3×3×128×128 array; the reference reshapes it to nine 128 × 128 matrices and the
  kernel to one 1152 × 128 matrix. When the reference's third kernel is entered the arguments are still the launched
  arrays.
-/
import proofs.«145656_g2000601261699844_pallasbulk_55_1_alg».proof.Proof.Gen.KernelIdeal.Frame
import proofs.«145656_g2000601261699844_pallasbulk_55_1_alg».proof.Proof.Gen.ReferenceIdeal.Regions
import Idealize.ShloMosaic.Lib.ValueIdx
import Idealize.ShloMosaic.Lib.Pipeline.Value
import proofs.«145656_g2000601261699844_pallasbulk_55_1_alg».proof.Proof.PEqBase
import proofs.«145656_g2000601261699844_pallasbulk_55_1_alg».proof.Proof.PEqLayout

noncomputable section

namespace Cert.Params

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.ReferenceIdeal.Gen.Outs (F := Ideal)) (c : Dev Cert.KernelIdeal.nD)

set_option maxHeartbeats 4000000 in
/-- The second block's entry weight (256 → 128): the argument's column `p` times that channel's scale. -/
theorem W11_eq (hag : Agree m m' c) (q : Fin 256) (p : Fin 128) :
    (Cert.ReferenceIdeal.Gen.V5 m' outs c Cert.ReferenceIdeal.main_v77 : (⟨2, ![256, 128]⟩ : Shape).Idx → EReal) (ix2 q p)
      = (Cert.KernelIdeal.Gen.V m c Cert.KernelIdeal.main_v102 : (⟨2, ![256, 128]⟩ : Shape).Idx → EReal) (ix2 q p) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps2 (Cert.ReferenceIdeal.Gen.V4 m' outs c) (Proc.devRef .tc Cert.ReferenceIdeal.main_v77)
          : (⟨2, ![256, 128]⟩ : Shape).Idx → EReal) (ix2 q p)
     = (StableHlo.after Cert.KernelIdeal.Gen.hostOps0 (fun b => m (c, b)) (Proc.devRef .tc Cert.KernelIdeal.main_v102)
          : (⟨2, ![256, 128]⟩ : Shape).Idx → EReal) (ix2 q p)
  after_results_simp
  rw [V4_arg m' outs c Cert.ReferenceIdeal.main_arg41, V4_arg m' outs c Cert.ReferenceIdeal.main_arg42,
      V4_arg m' outs c Cert.ReferenceIdeal.main_arg45]
  rw [h41, h42, h45]
  rfl

set_option maxHeartbeats 4000000 in
/-- Its bias row: the normalisation's shift less its mean times the scale. -/
theorem b11_eq (hag : Agree m m' c) (p : Fin 128) :
    (Cert.ReferenceIdeal.Gen.V5 m' outs c Cert.ReferenceIdeal.main_v86 : (⟨2, ![1, 128]⟩ : Shape).Idx → EReal) (ix2 0 p)
      = (Cert.KernelIdeal.Gen.V m c Cert.KernelIdeal.main_v103 : (⟨2, ![1, 128]⟩ : Shape).Idx → EReal) (ix2 0 p) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps2 (Cert.ReferenceIdeal.Gen.V4 m' outs c) (Proc.devRef .tc Cert.ReferenceIdeal.main_v86)
          : (⟨2, ![1, 128]⟩ : Shape).Idx → EReal) (ix2 0 p)
     = (StableHlo.after Cert.KernelIdeal.Gen.hostOps0 (fun b => m (c, b)) (Proc.devRef .tc Cert.KernelIdeal.main_v103)
          : (⟨2, ![1, 128]⟩ : Shape).Idx → EReal) (ix2 0 p)
  after_results_simp
  rw [V4_arg m' outs c Cert.ReferenceIdeal.main_arg42, V4_arg m' outs c Cert.ReferenceIdeal.main_arg43,
      V4_arg m' outs c Cert.ReferenceIdeal.main_arg44, V4_arg m' outs c Cert.ReferenceIdeal.main_arg45]
  rw [h42, h43, h44, h45]
  rfl

set_option maxHeartbeats 4000000 in
/-- The second block's 3×3 weight: both programs scale the same 3×3×128×128 argument along its last axis; the reference
    then holds it as nine 128 × 128 matrices, the kernel as one 1152 × 128 matrix. -/
theorem W12_eq (hag : Agree m m' c) (ky kx : Fin 3) (ch p : Fin 128) :
    (Cert.ReferenceIdeal.Gen.V5 m' outs c Cert.ReferenceIdeal.main_v81 : (⟨3, ![9, 128, 128]⟩ : Shape).Idx → EReal)
        (ix3 ⟨ky.val * 3 + kx.val, by have := ky.isLt; have := kx.isLt; omega⟩ ch p)
      = (Cert.KernelIdeal.Gen.V m c Cert.KernelIdeal.main_v115 : (⟨2, ![1152, 128]⟩ : Shape).Idx → EReal)
        (ix2 ⟨(ky.val * 3 + kx.val) * 128 + ch.val, by have := ky.isLt; have := kx.isLt; have := ch.isLt; omega⟩ p) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps2 (Cert.ReferenceIdeal.Gen.V4 m' outs c) (Proc.devRef .tc Cert.ReferenceIdeal.main_v81)
          : (⟨3, ![9, 128, 128]⟩ : Shape).Idx → EReal) _
     = (StableHlo.after Cert.KernelIdeal.Gen.hostOps0 (fun b => m (c, b)) (Proc.devRef .tc Cert.KernelIdeal.main_v115)
          : (⟨2, ![1152, 128]⟩ : Shape).Idx → EReal) _
  after_results_simp
  rw [V4_arg m' outs c Cert.ReferenceIdeal.main_arg46, V4_arg m' outs c Cert.ReferenceIdeal.main_arg47,
      V4_arg m' outs c Cert.ReferenceIdeal.main_arg50]
  rw [h46, h47, h50]
  exact tap_reshape _ _ (fun _ => rfl) _ _ ky kx ch p _ _

set_option maxHeartbeats 4000000 in
/-- Its bias row. -/
theorem b12_eq (hag : Agree m m' c) (p : Fin 128) :
    (Cert.ReferenceIdeal.Gen.V5 m' outs c Cert.ReferenceIdeal.main_v87 : (⟨2, ![1, 128]⟩ : Shape).Idx → EReal) (ix2 0 p)
      = (Cert.KernelIdeal.Gen.V m c Cert.KernelIdeal.main_v114 : (⟨2, ![1, 128]⟩ : Shape).Idx → EReal) (ix2 0 p) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps2 (Cert.ReferenceIdeal.Gen.V4 m' outs c) (Proc.devRef .tc Cert.ReferenceIdeal.main_v87)
          : (⟨2, ![1, 128]⟩ : Shape).Idx → EReal) (ix2 0 p)
     = (StableHlo.after Cert.KernelIdeal.Gen.hostOps0 (fun b => m (c, b)) (Proc.devRef .tc Cert.KernelIdeal.main_v114)
          : (⟨2, ![1, 128]⟩ : Shape).Idx → EReal) (ix2 0 p)
  after_results_simp
  rw [V4_arg m' outs c Cert.ReferenceIdeal.main_arg47, V4_arg m' outs c Cert.ReferenceIdeal.main_arg48,
      V4_arg m' outs c Cert.ReferenceIdeal.main_arg49, V4_arg m' outs c Cert.ReferenceIdeal.main_arg50]
  rw [h47, h48, h49, h50]
  rfl

set_option maxHeartbeats 4000000 in
/-- The second block's exit weight (128 → 256). -/
theorem W13_eq (hag : Agree m m' c) (p : Fin 128) (q : Fin 256) :
    (Cert.ReferenceIdeal.Gen.V5 m' outs c Cert.ReferenceIdeal.main_v84 : (⟨2, ![128, 256]⟩ : Shape).Idx → EReal) (ix2 p q)
      = (Cert.KernelIdeal.Gen.V m c Cert.KernelIdeal.main_v125 : (⟨2, ![128, 256]⟩ : Shape).Idx → EReal) (ix2 p q) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps2 (Cert.ReferenceIdeal.Gen.V4 m' outs c) (Proc.devRef .tc Cert.ReferenceIdeal.main_v84)
          : (⟨2, ![128, 256]⟩ : Shape).Idx → EReal) (ix2 p q)
     = (StableHlo.after Cert.KernelIdeal.Gen.hostOps0 (fun b => m (c, b)) (Proc.devRef .tc Cert.KernelIdeal.main_v125)
          : (⟨2, ![128, 256]⟩ : Shape).Idx → EReal) (ix2 p q)
  after_results_simp
  rw [V4_arg m' outs c Cert.ReferenceIdeal.main_arg51, V4_arg m' outs c Cert.ReferenceIdeal.main_arg52,
      V4_arg m' outs c Cert.ReferenceIdeal.main_arg55]
  rw [h51, h52, h55]
  rfl

set_option maxHeartbeats 4000000 in
/-- Its bias row. -/
theorem b13_eq (hag : Agree m m' c) (q : Fin 256) :
    (Cert.ReferenceIdeal.Gen.V5 m' outs c Cert.ReferenceIdeal.main_v88 : (⟨2, ![1, 256]⟩ : Shape).Idx → EReal) (ix2 0 q)
      = (Cert.KernelIdeal.Gen.V m c Cert.KernelIdeal.main_v126 : (⟨2, ![1, 256]⟩ : Shape).Idx → EReal) (ix2 0 q) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps2 (Cert.ReferenceIdeal.Gen.V4 m' outs c) (Proc.devRef .tc Cert.ReferenceIdeal.main_v88)
          : (⟨2, ![1, 256]⟩ : Shape).Idx → EReal) (ix2 0 q)
     = (StableHlo.after Cert.KernelIdeal.Gen.hostOps0 (fun b => m (c, b)) (Proc.devRef .tc Cert.KernelIdeal.main_v126)
          : (⟨2, ![1, 256]⟩ : Shape).Idx → EReal) (ix2 0 q)
  after_results_simp
  rw [V4_arg m' outs c Cert.ReferenceIdeal.main_arg52, V4_arg m' outs c Cert.ReferenceIdeal.main_arg53,
      V4_arg m' outs c Cert.ReferenceIdeal.main_arg54, V4_arg m' outs c Cert.ReferenceIdeal.main_arg55]
  rw [h52, h53, h54, h55]
  rfl

end Cert.Params

end
-- ==== Proof.PEq3.lean ====
/-
  The main branch's operands (256 → 256): the folded weight and bias that the kernel's one region and the reference's
  fourth kernel find.

  Both programs compute them from the launched arguments by the same host operations: the weight is the argument's
  matrix with each column multiplied by that channel's scale `γ / sqrt (σ² + ε)`, the bias is `β − μ · scale` as a row.
  When the reference's fourth kernel is entered the arguments are still the launched arrays.
-/
import proofs.«145656_g2000601261699844_pallasbulk_55_1_alg».proof.Proof.Gen.KernelIdeal.Frame
import proofs.«145656_g2000601261699844_pallasbulk_55_1_alg».proof.Proof.Gen.ReferenceIdeal.Regions
import Idealize.ShloMosaic.Lib.ValueIdx
import Idealize.ShloMosaic.Lib.Pipeline.Value
import proofs.«145656_g2000601261699844_pallasbulk_55_1_alg».proof.Proof.PEqBase

noncomputable section

namespace Cert.Params

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.ReferenceIdeal.Gen.Outs (F := Ideal)) (c : Dev Cert.KernelIdeal.nD)

set_option maxHeartbeats 4000000 in
/-- The main branch's weight (256 → 256): the argument's column `b` times that channel's scale. -/
theorem Wc2_eq (hag : Agree m m' c) (a : Fin 256) (b : Fin 256) :
    (Cert.ReferenceIdeal.Gen.V7 m' outs c Cert.ReferenceIdeal.main_v99 : (⟨2, ![256, 256]⟩ : Shape).Idx → EReal) (ix2 a b)
      = (Cert.KernelIdeal.Gen.V m c Cert.KernelIdeal.main_v20 : (⟨2, ![256, 256]⟩ : Shape).Idx → EReal) (ix2 a b) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps3 (Cert.ReferenceIdeal.Gen.V6 m' outs c) (Proc.devRef .tc Cert.ReferenceIdeal.main_v99)
          : (⟨2, ![256, 256]⟩ : Shape).Idx → EReal) (ix2 a b)
     = (StableHlo.after Cert.KernelIdeal.Gen.hostOps0 (fun b => m (c, b)) (Proc.devRef .tc Cert.KernelIdeal.main_v20)
          : (⟨2, ![256, 256]⟩ : Shape).Idx → EReal) (ix2 a b)
  after_results_simp
  rw [V6_arg m' outs c Cert.ReferenceIdeal.main_arg6, V6_arg m' outs c Cert.ReferenceIdeal.main_arg7,
      V6_arg m' outs c Cert.ReferenceIdeal.main_arg10]
  rw [h6, h7, h10]
  rfl

set_option maxHeartbeats 4000000 in
/-- The main branch's bias row: the normalisation's shift less its mean times the scale. -/
theorem bc2_eq (hag : Agree m m' c) (j : Fin 256) :
    (Cert.ReferenceIdeal.Gen.V7 m' outs c Cert.ReferenceIdeal.main_v101 : (⟨2, ![1, 256]⟩ : Shape).Idx → EReal) (ix2 0 j)
      = (Cert.KernelIdeal.Gen.V m c Cert.KernelIdeal.main_v21 : (⟨2, ![1, 256]⟩ : Shape).Idx → EReal) (ix2 0 j) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps3 (Cert.ReferenceIdeal.Gen.V6 m' outs c) (Proc.devRef .tc Cert.ReferenceIdeal.main_v101)
          : (⟨2, ![1, 256]⟩ : Shape).Idx → EReal) (ix2 0 j)
     = (StableHlo.after Cert.KernelIdeal.Gen.hostOps0 (fun b => m (c, b)) (Proc.devRef .tc Cert.KernelIdeal.main_v21)
          : (⟨2, ![1, 256]⟩ : Shape).Idx → EReal) (ix2 0 j)
  after_results_simp
  rw [V6_arg m' outs c Cert.ReferenceIdeal.main_arg7, V6_arg m' outs c Cert.ReferenceIdeal.main_arg8,
      V6_arg m' outs c Cert.ReferenceIdeal.main_arg9, V6_arg m' outs c Cert.ReferenceIdeal.main_arg10]
  rw [h7, h8, h9, h10]
  rfl

end Cert.Params

end
-- ==== Proof.PEq4.lean ====
/-
  The side branch's operands (128 → 256): the image and the folded weight and bias that the kernel's one region and
  the reference's fifth kernel find.

  Both programs compute them from the launched arguments by the same host operations: the weight is the argument's
  matrix with each column multiplied by that channel's scale `γ / sqrt (σ² + ε)`, the bias is `β − μ · scale` as a row.
  When the reference's fifth kernel is entered the arguments are still the launched arrays.
-/
import proofs.«145656_g2000601261699844_pallasbulk_55_1_alg».proof.Proof.Gen.KernelIdeal.Frame
import proofs.«145656_g2000601261699844_pallasbulk_55_1_alg».proof.Proof.Gen.ReferenceIdeal.Regions
import Idealize.ShloMosaic.Lib.ValueIdx
import Idealize.ShloMosaic.Lib.Pipeline.Value
import proofs.«145656_g2000601261699844_pallasbulk_55_1_alg».proof.Proof.PEqBase

noncomputable section

namespace Cert.Params

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.ReferenceIdeal.Gen.Outs (F := Ideal)) (c : Dev Cert.KernelIdeal.nD)

set_option maxHeartbeats 4000000 in
/-- The image again, as the reference's fifth kernel finds it: the same reshape of the same argument. -/
theorem side_x (hag : Agree m m' c) (r : Fin 65536) (k : Fin 128) :
    (Cert.ReferenceIdeal.Gen.V9 m' outs c Cert.ReferenceIdeal.main_v113 : (⟨2, ![65536, 128]⟩ : Shape).Idx → EReal) (ix2 r k)
      = (Cert.KernelIdeal.Gen.V m c Cert.KernelIdeal.main_v127 : (⟨2, ![65536, 128]⟩ : Shape).Idx → EReal) (ix2 r k) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps4 (Cert.ReferenceIdeal.Gen.V8 m' outs c) (Proc.devRef .tc Cert.ReferenceIdeal.main_v113)
          : (⟨2, ![65536, 128]⟩ : Shape).Idx → EReal) (ix2 r k)
     = (StableHlo.after Cert.KernelIdeal.Gen.hostOps0 (fun b => m (c, b)) (Proc.devRef .tc Cert.KernelIdeal.main_v127)
          : (⟨2, ![65536, 128]⟩ : Shape).Idx → EReal) (ix2 r k)
  after_results_simp
  rw [V8_arg m' outs c Cert.ReferenceIdeal.main_arg0]
  rw [h0]
  rfl

set_option maxHeartbeats 4000000 in
/-- The side branch's weight (128 → 256): the argument's column `b` times that channel's scale. -/
theorem Wc3_eq (hag : Agree m m' c) (a : Fin 128) (b : Fin 256) :
    (Cert.ReferenceIdeal.Gen.V9 m' outs c Cert.ReferenceIdeal.main_v112 : (⟨2, ![128, 256]⟩ : Shape).Idx → EReal) (ix2 a b)
      = (Cert.KernelIdeal.Gen.V m c Cert.KernelIdeal.main_v31 : (⟨2, ![128, 256]⟩ : Shape).Idx → EReal) (ix2 a b) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps4 (Cert.ReferenceIdeal.Gen.V8 m' outs c) (Proc.devRef .tc Cert.ReferenceIdeal.main_v112)
          : (⟨2, ![128, 256]⟩ : Shape).Idx → EReal) (ix2 a b)
     = (StableHlo.after Cert.KernelIdeal.Gen.hostOps0 (fun b => m (c, b)) (Proc.devRef .tc Cert.KernelIdeal.main_v31)
          : (⟨2, ![128, 256]⟩ : Shape).Idx → EReal) (ix2 a b)
  after_results_simp
  rw [V8_arg m' outs c Cert.ReferenceIdeal.main_arg11, V8_arg m' outs c Cert.ReferenceIdeal.main_arg12,
      V8_arg m' outs c Cert.ReferenceIdeal.main_arg15]
  rw [h11, h12, h15]
  rfl

set_option maxHeartbeats 4000000 in
/-- The side branch's bias row: the normalisation's shift less its mean times the scale. -/
theorem bc3_eq (hag : Agree m m' c) (j : Fin 256) :
    (Cert.ReferenceIdeal.Gen.V9 m' outs c Cert.ReferenceIdeal.main_v114 : (⟨2, ![1, 256]⟩ : Shape).Idx → EReal) (ix2 0 j)
      = (Cert.KernelIdeal.Gen.V m c Cert.KernelIdeal.main_v32 : (⟨2, ![1, 256]⟩ : Shape).Idx → EReal) (ix2 0 j) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps4 (Cert.ReferenceIdeal.Gen.V8 m' outs c) (Proc.devRef .tc Cert.ReferenceIdeal.main_v114)
          : (⟨2, ![1, 256]⟩ : Shape).Idx → EReal) (ix2 0 j)
     = (StableHlo.after Cert.KernelIdeal.Gen.hostOps0 (fun b => m (c, b)) (Proc.devRef .tc Cert.KernelIdeal.main_v32)
          : (⟨2, ![1, 256]⟩ : Shape).Idx → EReal) (ix2 0 j)
  after_results_simp
  rw [V8_arg m' outs c Cert.ReferenceIdeal.main_arg12, V8_arg m' outs c Cert.ReferenceIdeal.main_arg13,
      V8_arg m' outs c Cert.ReferenceIdeal.main_arg14, V8_arg m' outs c Cert.ReferenceIdeal.main_arg15]
  rw [h12, h13, h14, h15]
  rfl

end Cert.Params

end
-- ==== Proof.PEq5.lean ====
/-
  The last layer's operands: the two halves of its folded weight and its bias, as the kernel's one region and the
  reference's sixth kernel find them.

  Both programs compute the folded 512 × 256 weight (each column of the argument's matrix multiplied by that channel's
  scale `γ / sqrt (σ² + ε)`) and cut it into its rows `0 … 255` (applied to the main branch) and `256 … 511` (applied
  to the side branch); the bias is `β − μ · scale` as a row. When the reference's sixth kernel is entered the arguments
  are still the launched arrays.
-/
import proofs.«145656_g2000601261699844_pallasbulk_55_1_alg».proof.Proof.Gen.KernelIdeal.Frame
import proofs.«145656_g2000601261699844_pallasbulk_55_1_alg».proof.Proof.Gen.ReferenceIdeal.Regions
import Idealize.ShloMosaic.Lib.ValueIdx
import Idealize.ShloMosaic.Lib.Pipeline.Value
import proofs.«145656_g2000601261699844_pallasbulk_55_1_alg».proof.Proof.PEqBase

noncomputable section

namespace Cert.Params

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.ReferenceIdeal.Gen.Outs (F := Ideal)) (c : Dev Cert.KernelIdeal.nD)

set_option maxHeartbeats 4000000 in
/-- The last layer's weight for the main branch: rows `0 … 255` of the folded 512 × 256 matrix. -/
theorem W4a_eq (hag : Agree m m' c) (a : Fin 256) (b : Fin 256) :
    (Cert.ReferenceIdeal.Gen.V11 m' outs c Cert.ReferenceIdeal.main_v126 : (⟨2, ![256, 256]⟩ : Shape).Idx → EReal) (ix2 a b)
      = (Cert.KernelIdeal.Gen.V m c Cert.KernelIdeal.main_v44 : (⟨2, ![256, 256]⟩ : Shape).Idx → EReal) (ix2 a b) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps5 (Cert.ReferenceIdeal.Gen.V10 m' outs c) (Proc.devRef .tc Cert.ReferenceIdeal.main_v126)
          : (⟨2, ![256, 256]⟩ : Shape).Idx → EReal) (ix2 a b)
     = (StableHlo.after Cert.KernelIdeal.Gen.hostOps0 (fun b => m (c, b)) (Proc.devRef .tc Cert.KernelIdeal.main_v44)
          : (⟨2, ![256, 256]⟩ : Shape).Idx → EReal) (ix2 a b)
  after_results_simp
  rw [V10_arg m' outs c Cert.ReferenceIdeal.main_arg16, V10_arg m' outs c Cert.ReferenceIdeal.main_arg17,
      V10_arg m' outs c Cert.ReferenceIdeal.main_arg20]
  rw [h16, h17, h20]
  rfl

set_option maxHeartbeats 4000000 in
/-- The last layer's weight for the side branch: rows `256 … 511` of the folded 512 × 256 matrix. -/
theorem W4b_eq (hag : Agree m m' c) (a : Fin 256) (b : Fin 256) :
    (Cert.ReferenceIdeal.Gen.V11 m' outs c Cert.ReferenceIdeal.main_v127 : (⟨2, ![256, 256]⟩ : Shape).Idx → EReal) (ix2 a b)
      = (Cert.KernelIdeal.Gen.V m c Cert.KernelIdeal.main_v45 : (⟨2, ![256, 256]⟩ : Shape).Idx → EReal) (ix2 a b) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps5 (Cert.ReferenceIdeal.Gen.V10 m' outs c) (Proc.devRef .tc Cert.ReferenceIdeal.main_v127)
          : (⟨2, ![256, 256]⟩ : Shape).Idx → EReal) (ix2 a b)
     = (StableHlo.after Cert.KernelIdeal.Gen.hostOps0 (fun b => m (c, b)) (Proc.devRef .tc Cert.KernelIdeal.main_v45)
          : (⟨2, ![256, 256]⟩ : Shape).Idx → EReal) (ix2 a b)
  after_results_simp
  rw [V10_arg m' outs c Cert.ReferenceIdeal.main_arg16, V10_arg m' outs c Cert.ReferenceIdeal.main_arg17,
      V10_arg m' outs c Cert.ReferenceIdeal.main_arg20]
  rw [h16, h17, h20]
  rfl

set_option maxHeartbeats 4000000 in
/-- The last layer's bias row: the normalisation's shift less its mean times the scale. -/
theorem b4_eq (hag : Agree m m' c) (j : Fin 256) :
    (Cert.ReferenceIdeal.Gen.V11 m' outs c Cert.ReferenceIdeal.main_v130 : (⟨2, ![1, 256]⟩ : Shape).Idx → EReal) (ix2 0 j)
      = (Cert.KernelIdeal.Gen.V m c Cert.KernelIdeal.main_v43 : (⟨2, ![1, 256]⟩ : Shape).Idx → EReal) (ix2 0 j) := by
  obtain ⟨h0, h1, h2, h3, h4, h5, h6, h7, h8, h9, h10, h11, h12, h13, h14, h15, h16, h17, h18, h19, h20, h21, h22, h23, h24, h25, h26, h27,
    h28, h29, h30, h31, h32, h33, h34, h35, h36, h37, h38, h39, h40, h41, h42, h43, h44, h45, h46, h47, h48, h49, h50, h51, h52, h53, h54, h55⟩ := hag
  show (StableHlo.after Cert.ReferenceIdeal.Gen.hostOps5 (Cert.ReferenceIdeal.Gen.V10 m' outs c) (Proc.devRef .tc Cert.ReferenceIdeal.main_v130)
          : (⟨2, ![1, 256]⟩ : Shape).Idx → EReal) (ix2 0 j)
     = (StableHlo.after Cert.KernelIdeal.Gen.hostOps0 (fun b => m (c, b)) (Proc.devRef .tc Cert.KernelIdeal.main_v43)
          : (⟨2, ![1, 256]⟩ : Shape).Idx → EReal) (ix2 0 j)
  after_results_simp
  rw [V10_arg m' outs c Cert.ReferenceIdeal.main_arg17, V10_arg m' outs c Cert.ReferenceIdeal.main_arg18,
      V10_arg m' outs c Cert.ReferenceIdeal.main_arg19, V10_arg m' outs c Cert.ReferenceIdeal.main_arg20]
  rw [h17, h18, h19, h20]
  rfl

end Cert.Params

end
-- ==== Proof.BridgeParams.lean ====
/-
  The two programs' parameters and images are the same.

  From memories that agree on the arguments, every folded weight and bias the reference's regions find is, entry by
  entry, the one the kernel's region finds (both programs fold them by the same host operations), and image `n` of the
  first argument is the same function on both sides.
-/
import proofs.«145656_g2000601261699844_pallasbulk_55_1_alg».proof.Proof.SpecExt
import proofs.«145656_g2000601261699844_pallasbulk_55_1_alg».proof.Proof.RParams
import proofs.«145656_g2000601261699844_pallasbulk_55_1_alg».proof.Proof.KIValueDefs
import proofs.«145656_g2000601261699844_pallasbulk_55_1_alg».proof.Proof.PEq0
import proofs.«145656_g2000601261699844_pallasbulk_55_1_alg».proof.Proof.PEq1a
import proofs.«145656_g2000601261699844_pallasbulk_55_1_alg».proof.Proof.PEq1b
import proofs.«145656_g2000601261699844_pallasbulk_55_1_alg».proof.Proof.PEq2
import proofs.«145656_g2000601261699844_pallasbulk_55_1_alg».proof.Proof.PEq3
import proofs.«145656_g2000601261699844_pallasbulk_55_1_alg».proof.Proof.PEq4
import proofs.«145656_g2000601261699844_pallasbulk_55_1_alg».proof.Proof.PEq5

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.ReferenceIdeal.Gen.Outs (F := Ideal)) (c : Dev Cert.KernelIdeal.nD)

set_option maxHeartbeats 4000000 in
/-- The reference's parameters are the kernel's. -/
theorem params_eq (hag : Cert.Params.Agree m m' c) :
    Cert.ReferenceIdeal.Value.PR m' outs c = Cert.KernelIdeal.Value.PK m c := by
  refine Cert.Spec.Params.ext' _ _ rfl ?_ ?_ ?_ ?_ ?_ ?_ ?_ ?_ ?_ ?_ ?_ ?_ ?_ ?_ ?_ ?_ ?_ ?_ ?_ ?_ ?_ ?_ ?_ <;>
    dsimp only [Cert.ReferenceIdeal.Value.PR, Cert.KernelIdeal.Value.PK, Cert.KernelIdeal.BlockValue.paramsOf]
  · funext a b; exact Cert.Params.Ws_eq m m' c hag a b
  · funext j; exact Cert.Params.bs_eq m m' c hag j
  · funext j p; exact Cert.Params.W01_eq m m' outs c hag j p
  · funext p; exact Cert.Params.b01_eq m m' outs c hag p
  · funext j q; exact Cert.Params.W0d_eq m m' outs c hag j q
  · funext q; exact Cert.Params.b0d_eq m m' outs c hag q
  · funext ky kx ch p; exact Cert.Params.W02_eq m m' outs c hag ky kx ch p
  · funext p; exact Cert.Params.b02_eq m m' outs c hag p
  · funext p q; exact Cert.Params.W03_eq m m' outs c hag p q
  · funext q; exact Cert.Params.b03_eq m m' outs c hag q
  · funext q p; exact Cert.Params.W11_eq m m' outs c hag q p
  · funext p; exact Cert.Params.b11_eq m m' outs c hag p
  · funext ky kx ch p; exact Cert.Params.W12_eq m m' outs c hag ky kx ch p
  · funext p; exact Cert.Params.b12_eq m m' outs c hag p
  · funext p q; exact Cert.Params.W13_eq m m' outs c hag p q
  · funext q; exact Cert.Params.b13_eq m m' outs c hag q
  · funext a b; exact Cert.Params.Wc2_eq m m' outs c hag a b
  · funext q; exact Cert.Params.bc2_eq m m' outs c hag q
  · funext a b; exact Cert.Params.Wc3_eq m m' outs c hag a b
  · funext q; exact Cert.Params.bc3_eq m m' outs c hag q
  · funext a b; exact Cert.Params.W4a_eq m m' outs c hag a b
  · funext a b; exact Cert.Params.W4b_eq m m' outs c hag a b
  · funext q; exact Cert.Params.b4_eq m m' outs c hag q

/-- Image `n` of the first argument is the same on both sides. -/
theorem image_eq (hag : Cert.Params.Agree m m' c) (n : Fin 64) :
    Cert.ReferenceIdeal.Value.XR m' c n = Cert.KernelIdeal.Value.XK m c n := by
  funext h w ch
  unfold Cert.ReferenceIdeal.Value.XR Cert.KernelIdeal.Value.XK
  rw [hag.1]

end Cert.Bridge

end
-- ==== Proof.LibNineSum.lean ====
/-
  Nine terms added to zero one after the other, as a double sum over a 3 × 3 table.

  A general fact about a commutative additive monoid, with no reference to any program: an accumulator that starts at
  zero and takes the entries of a 3 × 3 table one at a time, row by row, ends at the sum over the rows of the sums
  over the columns. Only associativity of the addition and `0 + x = x` are used.
-/
import Mathlib.Algebra.BigOperators.Fin

namespace Cert.LibNineSum

open scoped BigOperators

variable {M : Type*} [AddCommMonoid M]

/-- The entries of a 3 × 3 table added to zero one after the other, row by row, make the double sum. -/
theorem nine_from_zero (d : Fin 3 → Fin 3 → M) :
    ((((((((0 + d 0 0) + d 0 1) + d 0 2) + d 1 0) + d 1 1) + d 1 2) + d 2 0) + d 2 1) + d 2 2
      = ∑ ky : Fin 3, ∑ kx : Fin 3, d ky kx := by
  simp only [Fin.sum_univ_three, zero_add, add_assoc]

/-- The same with the table laid out as nine entries in a row: entry `ky · 3 + kx` is row `ky`, column `kx`. -/
theorem nine_from_zero_flat (d : Fin 9 → M) :
    ((((((((0 + d 0) + d 1) + d 2) + d 3) + d 4) + d 5) + d 6) + d 7) + d 8
      = ∑ ky : Fin 3, ∑ kx : Fin 3, d ⟨ky.val * 3 + kx.val, by omega⟩ := by
  simp only [Fin.sum_univ_three, zero_add, add_assoc]
  rfl

end Cert.LibNineSum
-- ==== Proof.RVCommon.lean ====
/-
  Readings shared by the reference's dense layers, at the ideal values.

  Each dense layer works on a tile of rows: the tile times the weight matrix, accumulated from the zero matrix, plus the
  bias row copied down every row. At row `r` and column `j` that is `(∑ c, x (r, c) · W (c, j)) + b (0, j)`: the
  specification's `dense` of the tile's row `r`. The two activations act entry by entry: `max v (s · v)` for the
  slope's literal `s`, and `max v 0`.
-/
import Idealize.ShloMosaic.Lib.ValueLayout
import Idealize.ShloMosaic.Lib.Pipeline.Value
import proofs.«145656_g2000601261699844_pallasbulk_55_1_alg».proof.Proof.Spec
import proofs.«145656_g2000601261699844_pallasbulk_55_1_alg».proof.Proof.LibPlainProduct
import proofs.«145656_g2000601261699844_pallasbulk_55_1_alg».proof.Proof.LibNineSum

noncomputable section

namespace Cert.ReferenceIdeal.BlockValue

open Idealize.ShloMosaic Idealize.ShloMosaic.ValueIdx

variable {m k n : Nat}

/-- A tile times a weight matrix, accumulated from zero, read at an entry: the row of the tile against the column of
    the weights. The operands arrive under reshapes to their own shape, which are the identity. -/
theorem product_apply (D : DotDims ⟨2, ![m, k]⟩ ⟨2, ![k, n]⟩ ⟨2, ![m, n]⟩) (hD : D = DotDims.plain m k n)
    (x : FVec Ideal ⟨2, ![m, k]⟩ .f32) (W : FVec Ideal ⟨2, ![k, n]⟩ .f32)
    (hx : (⟨2, ![m, k]⟩ : Shape).ShapeCasts ⟨2, ![m, k]⟩) (hW : (⟨2, ![k, n]⟩ : Shape).ShapeCasts ⟨2, ![k, n]⟩)
    (r : Fin m) (j : Fin n) :
    matmul D none (shapeCast ⟨2, ![m, k]⟩ x hx) (shapeCast ⟨2, ![k, n]⟩ W hW)
        (constant (F := Ideal) ⟨2, ![m, n]⟩ .f32 0x00000000#32) (ix2 r j)
      = ∑ c : Fin k, x (ix2 r c) * W (ix2 c j) := by
  subst hD
  rw [shapeCast_self, shapeCast_self]
  exact Cert.LibPlainProduct.matmul_plain_zero_apply none x W r j

/-- The bias row, reshaped to its own shape and copied down the rows, read at an entry: the bias of that column. -/
theorem bias_apply (b : FVec Ideal ⟨2, ![1, n]⟩ .f32)
    (hb : (⟨2, ![1, n]⟩ : Shape).ShapeCasts ⟨2, ![1, n]⟩) (hbc : (⟨2, ![1, n]⟩ : Shape).Broadcasts ⟨2, ![m, n]⟩)
    (r : Fin m) (j : Fin n) :
    broadcastTo ⟨2, ![m, n]⟩ (shapeCast ⟨2, ![1, n]⟩ b hb) hbc (ix2 r j) = b (ix2 (0 : Fin 1) j) := by
  rw [shapeCast_self]
  exact broadcastTo_1b_ab_apply b hbc r j

/-- The product plus the bias row, read at an entry, is the dense layer of the tile's row. -/
theorem dense_apply (D : DotDims ⟨2, ![m, k]⟩ ⟨2, ![k, n]⟩ ⟨2, ![m, n]⟩) (hD : D = DotDims.plain m k n)
    (x : FVec Ideal ⟨2, ![m, k]⟩ .f32) (W : FVec Ideal ⟨2, ![k, n]⟩ .f32) (b : FVec Ideal ⟨2, ![1, n]⟩ .f32)
    (hx : (⟨2, ![m, k]⟩ : Shape).ShapeCasts ⟨2, ![m, k]⟩) (hW : (⟨2, ![k, n]⟩ : Shape).ShapeCasts ⟨2, ![k, n]⟩)
    (hb : (⟨2, ![1, n]⟩ : Shape).ShapeCasts ⟨2, ![1, n]⟩) (hbc : (⟨2, ![1, n]⟩ : Shape).Broadcasts ⟨2, ![m, n]⟩)
    (r : Fin m) (j : Fin n) :
    addf (matmul D none (shapeCast ⟨2, ![m, k]⟩ x hx) (shapeCast ⟨2, ![k, n]⟩ W hW)
            (constant (F := Ideal) ⟨2, ![m, n]⟩ .f32 0x00000000#32))
         (broadcastTo ⟨2, ![m, n]⟩ (shapeCast ⟨2, ![1, n]⟩ b hb) hbc) (ix2 r j)
      = Cert.Spec.dense (fun c => x (ix2 r c)) (fun c j => W (ix2 c j)) (fun j => b (ix2 (0 : Fin 1) j)) j := by
  rw [addf_apply, product_apply D hD x W hx hW r j, bias_apply b hb hbc r j]
  rfl

/-- `max v (s · v)` entry by entry, the slope splat from its literal word. -/
theorem leaky_apply {s : Shape} (w : BitVec 32) (v : FVec Ideal s .f32) (i : s.Idx) :
    maximumf v (mulf (broadcast s (Scalar.ofBits (F := Ideal) .f32 w)) v) i
      = Cert.Spec.leaky (Ideal.ofBits .f32 w) (v i) := rfl

/-- `max v 0` entry by entry, the zero splat from the scalar's word. -/
theorem relu_apply {s : Shape} (v : FVec Ideal s .f32) (i : s.Idx) :
    maximumf v (broadcast s (Scalar.ofBits (F := Ideal) .f32 0x00000000#32)) i = Cert.Spec.relu (v i) := by
  show max (v i) (Ideal.ofBits .f32 0x00000000#32) = max (v i) 0
  rw [Ideal.ofBits_zero_f32]

/-! ## One image: 1024 rows of pixels, and its 34 × 34 padded copy -/

/-- The padded image, a 32 × 32 window of it, an image's rows, one weight slice, and the slice as a matrix. -/
abbrev Pd : Shape := ⟨3, ![34, 34, 128]⟩
abbrev Im : Shape := ⟨3, ![32, 32, 128]⟩
abbrev Rw : Shape := ⟨2, ![1024, 128]⟩
abbrev Sl : Shape := ⟨3, ![1, 128, 128]⟩
abbrev Sq : Shape := ⟨2, ![128, 128]⟩

/-- The row of pixel `(h, w)` among an image's 1024 rows. -/
abbrev row (h w : Fin 32) : Fin 1024 := ⟨h.val * 32 + w.val, by have := h.isLt; have := w.isLt; omega⟩

/-- An image's rows reshaped to 32 × 32 pixels, read at pixel `(h, w)`: row `h · 32 + w`. -/
theorem image_apply (x : FVec Ideal Rw .f32) (hc : Rw.ShapeCasts Im) (h w : Fin 32) (c : Fin 128) :
    shapeCast Im x hc (ix3 h w c) = x (ix2 (row h w) c) :=
  shapeCast_apply x hc _ _ (by rw [Shape.rowMajor_val_two, Shape.rowMajor_val_three]; rfl)

/-- The 32 × 32 window of the padded image at offset `(ky, kx)`, flattened to rows, read at pixel `(h, w)`:
    the padded image at `(h + ky, w + kx)`. -/
theorem window_apply (ky kx : Nat) (hky : ky ≤ 2) (hkx : kx ≤ 2) (v : FVec Ideal Pd .f32)
    (hs : Pd.Slices ![ky, kx, 0] Im) (hc : Im.ShapeCasts Rw) (h w : Fin 32) (c : Fin 128) :
    shapeCast Rw (extractStridedSlice Im ![ky, kx, 0] v hs) hc (ix2 (row h w) c)
      = v (ix3 ⟨h.val + ky, by have := h.isLt; omega⟩ ⟨w.val + kx, by have := w.isLt; omega⟩ c) := by
  refine (shapeCast_apply _ hc _ (ix3 h w c) ?_).trans ?_
  · rw [Shape.rowMajor_val_three, Shape.rowMajor_val_two]; rfl
  · refine extractStridedSlice_apply _ v hs (ix3 h w c) _ fun a => ?_
    match a with
    | ⟨0, _⟩ => exact Nat.add_comm h.val ky
    | ⟨1, _⟩ => exact Nat.add_comm w.val kx
    | ⟨2, _⟩ => exact (Nat.zero_add c.val).symm

/-- A dense layer over a computed tile whose row `r` is known: the product with the weights plus the bias row. -/
theorem dense_of_row (D : DotDims ⟨2, ![m, k]⟩ ⟨2, ![k, n]⟩ ⟨2, ![m, n]⟩) (hD : D = DotDims.plain m k n)
    (X : FVec Ideal ⟨2, ![m, k]⟩ .f32) (W : FVec Ideal ⟨2, ![k, n]⟩ .f32) (b : FVec Ideal ⟨2, ![1, n]⟩ .f32)
    (hW : (⟨2, ![k, n]⟩ : Shape).ShapeCasts ⟨2, ![k, n]⟩)
    (hb : (⟨2, ![1, n]⟩ : Shape).ShapeCasts ⟨2, ![1, n]⟩) (hbc : (⟨2, ![1, n]⟩ : Shape).Broadcasts ⟨2, ![m, n]⟩)
    (r : Fin m) (j : Fin n) (xr : Fin k → EReal) (hX : ∀ c, X (ix2 r c) = xr c) :
    addf (matmul D none X (shapeCast ⟨2, ![k, n]⟩ W hW) (constant (F := Ideal) ⟨2, ![m, n]⟩ .f32 0x00000000#32))
         (broadcastTo ⟨2, ![m, n]⟩ (shapeCast ⟨2, ![1, n]⟩ b hb) hbc) (ix2 r j)
      = Cert.Spec.dense xr (fun c j => W (ix2 c j)) (fun j => b (ix2 (0 : Fin 1) j)) j := by
  subst hD
  rw [addf_apply, bias_apply b hb hbc r j, shapeCast_self]
  refine congrArg (· + b (ix2 (0 : Fin 1) j)) ?_
  refine (Cert.LibPlainProduct.matmul_plain_zero_apply none X W r j).trans ?_
  exact Finset.sum_congr rfl fun c _ => by rw [hX c]

/-! ## The 3 × 3 layer at a pixel -/

/-- One tap of the 3 × 3 layer at pixel `(h, w)` and output channel `p`: the padded image at `(h + ky, w + kx)`
    against the weights of tap `(ky, kx)`, summed over the input channel. -/
def taps (A : Fin 32 → Fin 32 → Fin 128 → EReal) (W9 : Fin 3 → Fin 3 → Fin 128 → Fin 128 → EReal)
    (h w : Fin 32) (p : Fin 128) (ky kx : Fin 3) : EReal :=
  ∑ c : Fin 128, Cert.Spec.pad A (h.val + ky.val) (w.val + kx.val) c * W9 ky kx c p

/-- The window at offset `(ky, kx)` times weight slice `u`, accumulated from zero, read at pixel `(h, w)`: that
    tap, when the scratch holds the padded image and `u` is the slice of tap `(ky, kx)`. -/
theorem tap_apply (D : DotDims Rw Sq Rw) (hD : D = DotDims.plain 1024 128 128) (ky kx : Fin 3)
    (v : FVec Ideal Pd .f32) (u : FVec Ideal Sl .f32)
    (hs : Pd.Slices ![ky.val, kx.val, 0] Im) (hc : Im.ShapeCasts Rw) (hu' : Sl.ShapeCasts Sq)
    (A : Fin 32 → Fin 32 → Fin 128 → EReal)
    (hpad : ∀ (i j : Fin 34) (c : Fin 128), v (ix3 i j c) = Cert.Spec.pad A i.val j.val c)
    (W9 : Fin 3 → Fin 3 → Fin 128 → Fin 128 → EReal)
    (hu : ∀ (c p : Fin 128), u (ix3 (0 : Fin 1) c p) = W9 ky kx c p) (h w : Fin 32) (p : Fin 128) :
    matmul D none (shapeCast Rw (extractStridedSlice Im ![ky.val, kx.val, 0] v hs) hc) (shapeCast Sq u hu')
        (constant (F := Ideal) Rw .f32 0x00000000#32) (ix2 (row h w) p) = taps A W9 h w p ky kx := by
  subst hD
  refine (Cert.LibPlainProduct.matmul_plain_zero_apply none _ _ (row h w) p).trans ?_
  unfold taps
  refine Finset.sum_congr rfl fun c _ => ?_
  rw [window_apply ky.val kx.val (by have := ky.isLt; omega) (by have := kx.isLt; omega) v hs hc h w c,
    shapeCast_1ab_ab_apply, hu c p, hpad]

/-- The nine taps added to zero one after the other, plus the bias, are the 3 × 3 layer at the pixel. -/
theorem conv_of_taps (A : Fin 32 → Fin 32 → Fin 128 → EReal) (W9 : Fin 3 → Fin 3 → Fin 128 → Fin 128 → EReal)
    (b : Fin 128 → EReal) (h w : Fin 32) (p : Fin 128) :
    (((((((((0 + taps A W9 h w p 0 0) + taps A W9 h w p 0 1) + taps A W9 h w p 0 2) + taps A W9 h w p 1 0)
      + taps A W9 h w p 1 1) + taps A W9 h w p 1 2) + taps A W9 h w p 2 0) + taps A W9 h w p 2 1)
      + taps A W9 h w p 2 2) + b p = Cert.Spec.conv A W9 b h w p := by
  unfold Cert.Spec.conv
  exact congrArg (· + b p) (Cert.LibNineSum.nine_from_zero (taps A W9 h w p))

end Cert.ReferenceIdeal.BlockValue

end
-- ==== Proof.RV0.lean ====
/-
  The reference's stem (128 → 512, leaky), read at an entry.

  The kernel stores, for a tile of 512 rows, `max v (s · v)` of `v` = the tile times the weight matrix plus the bias
  row. At row `r` and column `j` that is the specification's leaky dense layer of the tile's row `r`.
-/
import proofs.«145656_g2000601261699844_pallasbulk_55_1_alg».proof.Proof.Gen.ReferenceIdeal.Skeleton
import proofs.«145656_g2000601261699844_pallasbulk_55_1_alg».proof.Proof.RVCommon

noncomputable section

namespace Cert.ReferenceIdeal.BlockValue

open Idealize.ShloMosaic Idealize.ShloMosaic.ValueIdx

/-- The printed dimension numbers of this product are the plain ones: rows by columns, no batch axis. -/
theorem dot_S512x128_S128x512_S512x512_1_0_0_1_n_n_eq : dot_S512x128_S128x512_S512x512_1_0_0_1_n_n = DotDims.plain 512 128 512 := rfl

/-- The stored tile at row `r`, column `j`. -/
theorem k0_pay1_apply (x : Vec Ideal S512x128 .f32) (W : Vec Ideal S128x512 .f32) (b : Vec Ideal S1x512 .f32)
    (r : Fin 512) (j : Fin 512) :
    Gen.k0_pay1 x W b (ix2 r j)
      = Cert.Spec.leaky (Ideal.ofBits .f32 0x3DCCCCCD#32)
          (Cert.Spec.dense (fun c => x (ix2 r c)) (fun c j => W (ix2 c j)) (fun j => b (ix2 (0 : Fin 1) j)) j) := by
  unfold Gen.k0_pay1
  refine (leaky_apply 0x3DCCCCCD#32 _ (ix2 r j)).trans ?_
  exact congrArg (Cert.Spec.leaky (Ideal.ofBits .f32 0x3DCCCCCD#32))
    (dense_apply dot_S512x128_S128x512_S512x512_1_0_0_1_n_n dot_S512x128_S128x512_S512x512_1_0_0_1_n_n_eq x W b _ _ _ _ r j)

end Cert.ReferenceIdeal.BlockValue

end
-- ==== Proof.RArr0.lean ====
/-
  The reference's stem (128 → 512, leaky): the whole array its region leaves.

  The region works through the 65536 rows in 128 tiles of 512; tile `t` holds rows `512 t … 512 t + 511`, and the weight
  matrix and the bias row are the same at every tile. So row `r` of the result is written by tile `r / 512`, and it is
  the leaky dense layer of row `r` of the input array: the result as one function of the three arrays the region is
  entered with.
-/
import proofs.«145656_g2000601261699844_pallasbulk_55_1_alg».proof.Proof.RRegion0
import proofs.«145656_g2000601261699844_pallasbulk_55_1_alg».proof.Proof.RV0
import Idealize.ShloMosaic.Lib.Pipeline.Value

noncomputable section

namespace Cert.ReferenceIdeal.Value

open Idealize.ShloMosaic Idealize.ShloMosaic.TcCoe Idealize.ShloMosaic.ValueIdx Idealize.SL.Sem
open Cert.ReferenceIdeal Cert.ReferenceIdeal.Gen Cert.ReferenceIdeal.Body Cert.ReferenceIdeal.BlockValue
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The result array as a function of the input rows `X`, the weights `W` and the bias row `b`: row by row the leaky
    dense layer. -/
def G0 (X : S65536x128.Idx → EReal) (W : S128x512.Idx → EReal) (b : S1x512.Idx → EReal) : S65536x512.Idx → EReal :=
  fun i => Cert.Spec.leaky (Ideal.ofBits .f32 0x3DCCCCCD#32)
    (Cert.Spec.dense (fun ch => X (ix2 (i 0) ch)) (fun a j => W (ix2 a j)) (fun j => b (ix2 (0 : Fin 1) j)) (i 1))

/-- The stored tile at any of its entries, the entry's coordinates read off the index. -/
theorem point0 (x0 : Vec Ideal S512x128 .f32) (x1 : Vec Ideal S128x512 .f32) (x2 : Vec Ideal S1x512 .f32) (j : S512x512.Idx) :
    Gen.k0_pay1 x0 x1 x2 j = Cert.Spec.leaky (Ideal.ofBits .f32 0x3DCCCCCD#32)
      (Cert.Spec.dense (fun ch => x0 (ix2 (j 0) ch)) (fun a q => x1 (ix2 a q)) (fun q => x2 (ix2 (0 : Fin 1) q)) (j 1)) := by
  obtain ⟨r, q, rfl⟩ : ∃ (r : Fin 512) (q : Fin 512), j = ix2 r q := ⟨j 0, j 1, eq_ix2 j⟩
  exact k0_pay1_apply x0 x1 x2 r q

/-- The tiles' positions, decided over the 128 tiles: the input and output tiles move together down the rows, tile `t`
    at block row `t`; the weight and bias blocks stay at the origin. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What tile `t` writes back is tile `t` of the result function of the three arrays. -/
theorem flushed0_eq (c : Dev nD) (t : Fin cfg0.N) :
    (dat0 V c).flushed 3 t
      = ((cfg0.win 3).blk t).view.read (Elt Ideal) (G0 (V c main_v9) (V c main_v8) (V c main_v10)) := by
  show (cfg0.win 3).cut (grid0.coords t) ((dat0 V c).after 3 t) = _
  rw [after0_3]
  unfold out0
  rw [View.canon_unit_zero hz0]
  simp only [View.ld_unit_zero (S := S512x128) hz0, View.ld_unit_zero (S := S128x512) hz0,
    View.ld_unit_zero (S := S1x512) hz0]
  obtain ⟨e0, e1, e2, e3, e4, e5, e6, e7⟩ := idx_facts0 t
  funext j
  show Gen.k0_pay1 (iblk0 V c 0 t) (iblk0 V c 1 t) (iblk0 V c 2 t) j
    = G0 (V c main_v9) (V c main_v8) (V c main_v10) (((cfg0.win 3).blk t).view.emb j)
  refine (point0 _ _ _ j).trans ?_
  unfold G0
  have h0 : (fun ch : Fin 128 => iblk0 V c 0 t (ix2 (j 0) ch))
      = fun ch : Fin 128 => (V c main_v9 : S65536x128.Idx → EReal) (ix2 ((((cfg0.win 3).blk t).view.emb j) 0) ch) := by
    funext ch
    show V c main_v9 (((cfg0.win 0).blk t).view.emb (ix2 (j 0) ch)) = _
    refine congrArg (V c main_v9) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 128 + 1 * ch.val = ch.val; omega
  have h1 : (fun (a : Fin 128) (q : Fin 512) => iblk0 V c 1 t (ix2 a q))
      = fun (a : Fin 128) (q : Fin 512) => (V c main_v8 : S128x512.Idx → EReal) (ix2 a q) := by
    funext a q
    show V c main_v8 (((cfg0.win 1).blk t).view.emb (ix2 a q)) = _
    refine congrArg (V c main_v8) (funext fun ax => Fin.ext ?_)
    match ax with
    | ⟨0, _⟩ => show win0_1.index t (0 : Fin 2) * 128 + 1 * a.val = a.val; omega
    | ⟨1, _⟩ => show win0_1.index t (1 : Fin 2) * 512 + 1 * q.val = q.val; omega
  have h2 : (fun q : Fin 512 => iblk0 V c 2 t (ix2 (0 : Fin 1) q))
      = fun q : Fin 512 => (V c main_v10 : S1x512.Idx → EReal) (ix2 (0 : Fin 1) q) := by
    funext q
    show V c main_v10 (((cfg0.win 2).blk t).view.emb (ix2 (0 : Fin 1) q)) = _
    refine congrArg (V c main_v10) (funext fun ax => Fin.ext ?_)
    match ax with
    | ⟨0, _⟩ => show win0_2.index t (0 : Fin 2) * 1 + 1 * 0 = 0; omega
    | ⟨1, _⟩ => show win0_2.index t (1 : Fin 2) * 512 + 1 * q.val = q.val; omega
  have h3 : (((cfg0.win 3).blk t).view.emb j) 1 = j 1 :=
    Fin.ext (by show win0_3.index t (1 : Fin 2) * 512 + 1 * (j 1).val = (j 1).val; omega)
  rw [h0, h1, h2, h3]

/-- A row-and-column of the result lies in tile `t` iff each coordinate is in the tile's range on its axis. -/
theorem mem_blk0 (t : Fin cfg0.N) (i : S65536x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v11).slice (win0_3.rect t)).set ↔ _
  rw [View.set_slice_whole, Rect.mem_set_unit]
  exact Iff.rfl

/-- Every entry of the result is written: row `r` by tile `r / 512`. -/
theorem covered0 (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have hN : grid0.N = 128 := N_0
  have ht : (i 0).val / 512 < cfg0.N := by show _ < grid0.N; omega
  have e6 := (idx_facts0 ⟨(i 0).val / 512, ht⟩).2.2.2.2.2.2.1
  have e7 : win0_3.index ⟨(i 0).val / 512, ht⟩ (0 : Fin 2) = (i 0).val / 512 :=
    (idx_facts0 ⟨(i 0).val / 512, ht⟩).2.2.2.2.2.2.2
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    omega
  | ⟨1, _⟩ =>
    show win0_3.index ⟨(i 0).val / 512, ht⟩ (1 : Fin 2) * 512 ≤ (i 1).val
      ∧ (i 1).val < win0_3.index ⟨(i 0).val / 512, ht⟩ (1 : Fin 2) * 512 + 512
    omega

/-- The array the region leaves: the result function of the three arrays it was entered with. -/
theorem arr0 (c : Dev nD) :
    (dat0 V c).arrAt 3 cfg0.N = G0 (V c main_v9) (V c main_v8) (V c main_v10) :=
  (dat0 V c).arrAt_eq_of_cover 3 _ (fun t _ => flushed0_eq V c t) covered0

/-- The same, with the three arrays named: whatever the input rows are, the result is their leaky dense layer. -/
theorem arr0_of (c : Dev nD) (X : S65536x128.Idx → EReal) (W : S128x512.Idx → EReal) (b : S1x512.Idx → EReal)
    (hX : (V c main_v9 : S65536x128.Idx → EReal) = X) (hW : (V c main_v8 : S128x512.Idx → EReal) = W)
    (hb : (V c main_v10 : S1x512.Idx → EReal) = b) :
    (dat0 V c).arrAt 3 cfg0.N = G0 X W b := by
  rw [← hX, ← hW, ← hb]
  exact arr0 V c

end Cert.ReferenceIdeal.Value

end
-- ==== Proof.RV3.lean ====
/-
  The reference's main branch (256 → 256, leaky), read at an entry.

  The kernel stores, for a tile of 512 rows, `max v (s · v)` of `v` = the tile times the weight matrix plus the bias
  row. At row `r` and column `j` that is the specification's leaky dense layer of the tile's row `r`.
-/
import proofs.«145656_g2000601261699844_pallasbulk_55_1_alg».proof.Proof.Gen.ReferenceIdeal.Skeleton
import proofs.«145656_g2000601261699844_pallasbulk_55_1_alg».proof.Proof.RVCommon

noncomputable section

namespace Cert.ReferenceIdeal.BlockValue

open Idealize.ShloMosaic Idealize.ShloMosaic.ValueIdx

/-- The printed dimension numbers of this product are the plain ones: rows by columns, no batch axis. -/
theorem dot_S512x256_S256x256_S512x256_1_0_0_1_n_n_eq : dot_S512x256_S256x256_S512x256_1_0_0_1_n_n = DotDims.plain 512 256 256 := rfl

/-- The stored tile at row `r`, column `j`. -/
theorem k3_pay1_apply (x : Vec Ideal S512x256 .f32) (W : Vec Ideal S256x256 .f32) (b : Vec Ideal S1x256 .f32)
    (r : Fin 512) (j : Fin 256) :
    Gen.k3_pay1 x W b (ix2 r j)
      = Cert.Spec.leaky (Ideal.ofBits .f32 0x3DCCCCCD#32)
          (Cert.Spec.dense (fun c => x (ix2 r c)) (fun c j => W (ix2 c j)) (fun j => b (ix2 (0 : Fin 1) j)) j) := by
  unfold Gen.k3_pay1
  refine (leaky_apply 0x3DCCCCCD#32 _ (ix2 r j)).trans ?_
  exact congrArg (Cert.Spec.leaky (Ideal.ofBits .f32 0x3DCCCCCD#32))
    (dense_apply dot_S512x256_S256x256_S512x256_1_0_0_1_n_n dot_S512x256_S256x256_S512x256_1_0_0_1_n_n_eq x W b _ _ _ _ r j)

end Cert.ReferenceIdeal.BlockValue

end
-- ==== Proof.RArr3.lean ====
/-
  The reference's main branch (256 → 256, leaky): the whole array its region leaves.

  The region works through the 65536 rows in 128 tiles of 512; tile `t` holds rows `512 t … 512 t + 511`, and the weight
  matrix and the bias row are the same at every tile. So row `r` of the result is written by tile `r / 512`, and it is
  the leaky dense layer of row `r` of the input array: the result as one function of the three arrays the region is
  entered with.
-/
import proofs.«145656_g2000601261699844_pallasbulk_55_1_alg».proof.Proof.RRegion3
import proofs.«145656_g2000601261699844_pallasbulk_55_1_alg».proof.Proof.RV3
import Idealize.ShloMosaic.Lib.Pipeline.Value

noncomputable section

namespace Cert.ReferenceIdeal.Value

open Idealize.ShloMosaic Idealize.ShloMosaic.TcCoe Idealize.ShloMosaic.ValueIdx Idealize.SL.Sem
open Cert.ReferenceIdeal Cert.ReferenceIdeal.Gen Cert.ReferenceIdeal.Body Cert.ReferenceIdeal.BlockValue
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The result array as a function of the input rows `X`, the weights `W` and the bias row `b`: row by row the leaky
    dense layer. -/
def G3 (X : S65536x256.Idx → EReal) (W : S256x256.Idx → EReal) (b : S1x256.Idx → EReal) : S65536x256.Idx → EReal :=
  fun i => Cert.Spec.leaky (Ideal.ofBits .f32 0x3DCCCCCD#32)
    (Cert.Spec.dense (fun ch => X (ix2 (i 0) ch)) (fun a j => W (ix2 a j)) (fun j => b (ix2 (0 : Fin 1) j)) (i 1))

/-- The stored tile at any of its entries, the entry's coordinates read off the index. -/
theorem point3 (x0 : Vec Ideal S512x256 .f32) (x1 : Vec Ideal S256x256 .f32) (x2 : Vec Ideal S1x256 .f32) (j : S512x256.Idx) :
    Gen.k3_pay1 x0 x1 x2 j = Cert.Spec.leaky (Ideal.ofBits .f32 0x3DCCCCCD#32)
      (Cert.Spec.dense (fun ch => x0 (ix2 (j 0) ch)) (fun a q => x1 (ix2 a q)) (fun q => x2 (ix2 (0 : Fin 1) q)) (j 1)) := by
  obtain ⟨r, q, rfl⟩ : ∃ (r : Fin 512) (q : Fin 256), j = ix2 r q := ⟨j 0, j 1, eq_ix2 j⟩
  exact k3_pay1_apply x0 x1 x2 r q

/-- The tiles' positions, decided over the 128 tiles: the input and output tiles move together down the rows, tile `t`
    at block row `t`; the weight and bias blocks stay at the origin. -/
theorem idx_facts3 : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

/-- What tile `t` writes back is tile `t` of the result function of the three arrays. -/
theorem flushed3_eq (c : Dev nD) (t : Fin cfg3.N) :
    (dat3 V c).flushed 3 t
      = ((cfg3.win 3).blk t).view.read (Elt Ideal) (G3 (V c main_v100) (V c main_v99) (V c main_v101)) := by
  show (cfg3.win 3).cut (grid3.coords t) ((dat3 V c).after 3 t) = _
  rw [after3_3]
  unfold out3
  rw [View.canon_unit_zero hz3]
  simp only [View.ld_unit_zero (S := S512x256) hz3, View.ld_unit_zero (S := S256x256) hz3,
    View.ld_unit_zero (S := S1x256) hz3]
  obtain ⟨e0, e1, e2, e3, e4, e5, e6, e7⟩ := idx_facts3 t
  funext j
  show Gen.k3_pay1 (iblk3 V c 0 t) (iblk3 V c 1 t) (iblk3 V c 2 t) j
    = G3 (V c main_v100) (V c main_v99) (V c main_v101) (((cfg3.win 3).blk t).view.emb j)
  refine (point3 _ _ _ j).trans ?_
  unfold G3
  have h0 : (fun ch : Fin 256 => iblk3 V c 0 t (ix2 (j 0) ch))
      = fun ch : Fin 256 => (V c main_v100 : S65536x256.Idx → EReal) (ix2 ((((cfg3.win 3).blk t).view.emb j) 0) ch) := by
    funext ch
    show V c main_v100 (((cfg3.win 0).blk t).view.emb (ix2 (j 0) ch)) = _
    refine congrArg (V c main_v100) (funext fun a => Fin.ext ?_)
    match a with
    | ⟨0, _⟩ => show win3_0.index t (0 : Fin 2) * 512 + 1 * (j 0).val = win3_3.index t (0 : Fin 2) * 512 + 1 * (j 0).val; omega
    | ⟨1, _⟩ => show win3_0.index t (1 : Fin 2) * 256 + 1 * ch.val = ch.val; omega
  have h1 : (fun (a : Fin 256) (q : Fin 256) => iblk3 V c 1 t (ix2 a q))
      = fun (a : Fin 256) (q : Fin 256) => (V c main_v99 : S256x256.Idx → EReal) (ix2 a q) := by
    funext a q
    show V c main_v99 (((cfg3.win 1).blk t).view.emb (ix2 a q)) = _
    refine congrArg (V c main_v99) (funext fun ax => Fin.ext ?_)
    match ax with
    | ⟨0, _⟩ => show win3_1.index t (0 : Fin 2) * 256 + 1 * a.val = a.val; omega
    | ⟨1, _⟩ => show win3_1.index t (1 : Fin 2) * 256 + 1 * q.val = q.val; omega
  have h2 : (fun q : Fin 256 => iblk3 V c 2 t (ix2 (0 : Fin 1) q))
      = fun q : Fin 256 => (V c main_v101 : S1x256.Idx → EReal) (ix2 (0 : Fin 1) q) := by
    funext q
    show V c main_v101 (((cfg3.win 2).blk t).view.emb (ix2 (0 : Fin 1) q)) = _
    refine congrArg (V c main_v101) (funext fun ax => Fin.ext ?_)
    match ax with
    | ⟨0, _⟩ => show win3_2.index t (0 : Fin 2) * 1 + 1 * 0 = 0; omega
    | ⟨1, _⟩ => show win3_2.index t (1 : Fin 2) * 256 + 1 * q.val = q.val; omega
  have h3 : (((cfg3.win 3).blk t).view.emb j) 1 = j 1 :=
    Fin.ext (by show win3_3.index t (1 : Fin 2) * 256 + 1 * (j 1).val = (j 1).val; omega)
  rw [h0, h1, h2, h3]

/-- A row-and-column of the result lies in tile `t` iff each coordinate is in the tile's range on its axis. -/
theorem mem_blk3 (t : Fin cfg3.N) (i : S65536x256.Idx) :
    i ∈ ((cfg3.win 3).blk t).view.set ↔ ∀ a : Fin 2, win3_3.index t a * S512x256.size a ≤ (i a).val
      ∧ (i a).val < win3_3.index t a * S512x256.size a + S512x256.size a := by
  show i ∈ ((View.whole main_v102).slice (win3_3.rect t)).set ↔ _
  rw [View.set_slice_whole, Rect.mem_set_unit]
  exact Iff.rfl

/-- Every entry of the result is written: row `r` by tile `r / 512`. -/
theorem covered3 (i : S65536x256.Idx) :
    ∃ t : Fin cfg3.N, (cfg3.win 3).flush t = true ∧ i ∈ ((cfg3.win 3).blk t).view.set := by
  have hi0 : (i 0).val < 65536 := (i 0).isLt
  have hi1 : (i 1).val < 256 := (i 1).isLt
  have hN : grid3.N = 128 := N_3
  have ht : (i 0).val / 512 < cfg3.N := by show _ < grid3.N; omega
  have e6 := (idx_facts3 ⟨(i 0).val / 512, ht⟩).2.2.2.2.2.2.1
  have e7 : win3_3.index ⟨(i 0).val / 512, ht⟩ (0 : Fin 2) = (i 0).val / 512 :=
    (idx_facts3 ⟨(i 0).val / 512, ht⟩).2.2.2.2.2.2.2
  refine ⟨⟨(i 0).val / 512, ht⟩, flush3_3 _, ?_⟩
  rw [mem_blk3]
  intro a
  match a with
  | ⟨0, _⟩ =>
    show win3_3.index ⟨(i 0).val / 512, ht⟩ (0 : Fin 2) * 512 ≤ (i 0).val
      ∧ (i 0).val < win3_3.index ⟨(i 0).val / 512, ht⟩ (0 : Fin 2) * 512 + 512
    omega
  | ⟨1, _⟩ =>
    show win3_3.index ⟨(i 0).val / 512, ht⟩ (1 : Fin 2) * 256 ≤ (i 1).val
      ∧ (i 1).val < win3_3.index ⟨(i 0).val / 512, ht⟩ (1 : Fin 2) * 256 + 256
    omega

/-- The array the region leaves: the result function of the three arrays it was entered with. -/
theorem arr3 (c : Dev nD) :
    (dat3 V c).arrAt 3 cfg3.N = G3 (V c main_v100) (V c main_v99) (V c main_v101) :=
  (dat3 V c).arrAt_eq_of_cover 3 _ (fun t _ => flushed3_eq V c t) covered3

/-- The same, with the three arrays named: whatever the input rows are, the result is their leaky dense layer. -/
theorem arr3_of (c : Dev nD) (X : S65536x256.Idx → EReal) (W : S256x256.Idx → EReal) (b : S1x256.Idx → EReal)
    (hX : (V c main_v100 : S65536x256.Idx → EReal) = X) (hW : (V c main_v99 : S256x256.Idx → EReal) = W)
    (hb : (V c main_v101 : S1x256.Idx → EReal) = b) :
    (dat3 V c).arrAt 3 cfg3.N = G3 X W b := by
  rw [← hX, ← hW, ← hb]
  exact arr3 V c

end Cert.ReferenceIdeal.Value

end
-- ==== Proof.RV4.lean ====
/-
  The reference's side branch (128 → 256, leaky), read at an entry.

  The kernel stores, for a tile of 512 rows, `max v (s · v)` of `v` = the tile times the weight matrix plus the bias
  row. At row `r` and column `j` that is the specification's leaky dense layer of the tile's row `r`.
-/
import proofs.«145656_g2000601261699844_pallasbulk_55_1_alg».proof.Proof.Gen.ReferenceIdeal.Skeleton
import proofs.«145656_g2000601261699844_pallasbulk_55_1_alg».proof.Proof.RVCommon

noncomputable section

namespace Cert.ReferenceIdeal.BlockValue

open Idealize.ShloMosaic Idealize.ShloMosaic.ValueIdx

/-- The printed dimension numbers of this product are the plain ones: rows by columns, no batch axis. -/
theorem dot_S512x128_S128x256_S512x256_1_0_0_1_n_n_eq : dot_S512x128_S128x256_S512x256_1_0_0_1_n_n = DotDims.plain 512 128 256 := rfl

/-- The stored tile at row `r`, column `j`. -/
theorem k4_pay1_apply (x : Vec Ideal S512x128 .f32) (W : Vec Ideal S128x256 .f32) (b : Vec Ideal S1x256 .f32)
    (r : Fin 512) (j : Fin 256) :
    Gen.k4_pay1 x W b (ix2 r j)
      = Cert.Spec.leaky (Ideal.ofBits .f32 0x3DCCCCCD#32)
          (Cert.Spec.dense (fun c => x (ix2 r c)) (fun c j => W (ix2 c j)) (fun j => b (ix2 (0 : Fin 1) j)) j) := by
  unfold Gen.k4_pay1
  refine (leaky_apply 0x3DCCCCCD#32 _ (ix2 r j)).trans ?_
  exact congrArg (Cert.Spec.leaky (Ideal.ofBits .f32 0x3DCCCCCD#32))
    (dense_apply dot_S512x128_S128x256_S512x256_1_0_0_1_n_n dot_S512x128_S128x256_S512x256_1_0_0_1_n_n_eq x W b _ _ _ _ r j)

end Cert.ReferenceIdeal.BlockValue

end
-- ==== Proof.RArr4.lean ====
/-
  The reference's side branch (128 → 256, leaky): the whole array its region leaves.

  The region works through the 65536 rows in 128 tiles of 512; tile `t` holds rows `512 t … 512 t + 511`, and the weight
  matrix and the bias row are the same at every tile. So row `r` of the result is written by tile `r / 512`, and it is
  the leaky dense layer of row `r` of the input array: the result as one function of the three arrays the region is
  entered with.
-/
import proofs.«145656_g2000601261699844_pallasbulk_55_1_alg».proof.Proof.RRegion4
import proofs.«145656_g2000601261699844_pallasbulk_55_1_alg».proof.Proof.RV4
import Idealize.ShloMosaic.Lib.Pipeline.Value

noncomputable section

namespace Cert.ReferenceIdeal.Value

open Idealize.ShloMosaic Idealize.ShloMosaic.TcCoe Idealize.ShloMosaic.ValueIdx Idealize.SL.Sem
open Cert.ReferenceIdeal Cert.ReferenceIdeal.Gen Cert.ReferenceIdeal.Body Cert.ReferenceIdeal.BlockValue
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The result array as a function of the input rows `X`, the weights `W` and the bias row `b`: row by row the leaky
    dense layer. -/
def G4 (X : S65536x128.Idx → EReal) (W : S128x256.Idx → EReal) (b : S1x256.Idx → EReal) : S65536x256.Idx → EReal :=
  fun i => Cert.Spec.leaky (Ideal.ofBits .f32 0x3DCCCCCD#32)
    (Cert.Spec.dense (fun ch => X (ix2 (i 0) ch)) (fun a j => W (ix2 a j)) (fun j => b (ix2 (0 : Fin 1) j)) (i 1))

/-- The stored tile at any of its entries, the entry's coordinates read off the index. -/
theorem point4 (x0 : Vec Ideal S512x128 .f32) (x1 : Vec Ideal S128x256 .f32) (x2 : Vec Ideal S1x256 .f32) (j : S512x256.Idx) :
    Gen.k4_pay1 x0 x1 x2 j = Cert.Spec.leaky (Ideal.ofBits .f32 0x3DCCCCCD#32)
      (Cert.Spec.dense (fun ch => x0 (ix2 (j 0) ch)) (fun a q => x1 (ix2 a q)) (fun q => x2 (ix2 (0 : Fin 1) q)) (j 1)) := by
  obtain ⟨r, q, rfl⟩ : ∃ (r : Fin 512) (q : Fin 256), j = ix2 r q := ⟨j 0, j 1, eq_ix2 j⟩
  exact k4_pay1_apply x0 x1 x2 r q

/-- The tiles' positions, decided over the 128 tiles: the input and output tiles move together down the rows, tile `t`
    at block row `t`; the weight and bias blocks stay at the origin. -/
theorem idx_facts4 : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) = t.val :=
  (by decide +kernel : ∀ t : Fin grid4.N, _)

/-- What tile `t` writes back is tile `t` of the result function of the three arrays. -/
theorem flushed4_eq (c : Dev nD) (t : Fin cfg4.N) :
    (dat4 V c).flushed 3 t
      = ((cfg4.win 3).blk t).view.read (Elt Ideal) (G4 (V c main_v113) (V c main_v112) (V c main_v114)) := by
  show (cfg4.win 3).cut (grid4.coords t) ((dat4 V c).after 3 t) = _
  rw [after4_3]
  unfold out4
  rw [View.canon_unit_zero hz4]
  simp only [View.ld_unit_zero (S := S512x128) hz4, View.ld_unit_zero (S := S128x256) hz4,
    View.ld_unit_zero (S := S1x256) hz4]
  obtain ⟨e0, e1, e2, e3, e4, e5, e6, e7⟩ := idx_facts4 t
  funext j
  show Gen.k4_pay1 (iblk4 V c 0 t) (iblk4 V c 1 t) (iblk4 V c 2 t) j
    = G4 (V c main_v113) (V c main_v112) (V c main_v114) (((cfg4.win 3).blk t).view.emb j)
  refine (point4 _ _ _ j).trans ?_
  unfold G4
  have h0 : (fun ch : Fin 128 => iblk4 V c 0 t (ix2 (j 0) ch))
      = fun ch : Fin 128 => (V c main_v113 : S65536x128.Idx → EReal) (ix2 ((((cfg4.win 3).blk t).view.emb j) 0) ch) := by
    funext ch
    show V c main_v113 (((cfg4.win 0).blk t).view.emb (ix2 (j 0) ch)) = _
    refine congrArg (V c main_v113) (funext fun a => Fin.ext ?_)
    match a with
    | ⟨0, _⟩ => show win4_0.index t (0 : Fin 2) * 512 + 1 * (j 0).val = win4_3.index t (0 : Fin 2) * 512 + 1 * (j 0).val; omega
    | ⟨1, _⟩ => show win4_0.index t (1 : Fin 2) * 128 + 1 * ch.val = ch.val; omega
  have h1 : (fun (a : Fin 128) (q : Fin 256) => iblk4 V c 1 t (ix2 a q))
      = fun (a : Fin 128) (q : Fin 256) => (V c main_v112 : S128x256.Idx → EReal) (ix2 a q) := by
    funext a q
    show V c main_v112 (((cfg4.win 1).blk t).view.emb (ix2 a q)) = _
    refine congrArg (V c main_v112) (funext fun ax => Fin.ext ?_)
    match ax with
    | ⟨0, _⟩ => show win4_1.index t (0 : Fin 2) * 128 + 1 * a.val = a.val; omega
    | ⟨1, _⟩ => show win4_1.index t (1 : Fin 2) * 256 + 1 * q.val = q.val; omega
  have h2 : (fun q : Fin 256 => iblk4 V c 2 t (ix2 (0 : Fin 1) q))
      = fun q : Fin 256 => (V c main_v114 : S1x256.Idx → EReal) (ix2 (0 : Fin 1) q) := by
    funext q
    show V c main_v114 (((cfg4.win 2).blk t).view.emb (ix2 (0 : Fin 1) q)) = _
    refine congrArg (V c main_v114) (funext fun ax => Fin.ext ?_)
    match ax with
    | ⟨0, _⟩ => show win4_2.index t (0 : Fin 2) * 1 + 1 * 0 = 0; omega
    | ⟨1, _⟩ => show win4_2.index t (1 : Fin 2) * 256 + 1 * q.val = q.val; omega
  have h3 : (((cfg4.win 3).blk t).view.emb j) 1 = j 1 :=
    Fin.ext (by show win4_3.index t (1 : Fin 2) * 256 + 1 * (j 1).val = (j 1).val; omega)
  rw [h0, h1, h2, h3]

/-- A row-and-column of the result lies in tile `t` iff each coordinate is in the tile's range on its axis. -/
theorem mem_blk4 (t : Fin cfg4.N) (i : S65536x256.Idx) :
    i ∈ ((cfg4.win 3).blk t).view.set ↔ ∀ a : Fin 2, win4_3.index t a * S512x256.size a ≤ (i a).val
      ∧ (i a).val < win4_3.index t a * S512x256.size a + S512x256.size a := by
  show i ∈ ((View.whole main_v115).slice (win4_3.rect t)).set ↔ _
  rw [View.set_slice_whole, Rect.mem_set_unit]
  exact Iff.rfl

/-- Every entry of the result is written: row `r` by tile `r / 512`. -/
theorem covered4 (i : S65536x256.Idx) :
    ∃ t : Fin cfg4.N, (cfg4.win 3).flush t = true ∧ i ∈ ((cfg4.win 3).blk t).view.set := by
  have hi0 : (i 0).val < 65536 := (i 0).isLt
  have hi1 : (i 1).val < 256 := (i 1).isLt
  have hN : grid4.N = 128 := N_4
  have ht : (i 0).val / 512 < cfg4.N := by show _ < grid4.N; omega
  have e6 := (idx_facts4 ⟨(i 0).val / 512, ht⟩).2.2.2.2.2.2.1
  have e7 : win4_3.index ⟨(i 0).val / 512, ht⟩ (0 : Fin 2) = (i 0).val / 512 :=
    (idx_facts4 ⟨(i 0).val / 512, ht⟩).2.2.2.2.2.2.2
  refine ⟨⟨(i 0).val / 512, ht⟩, flush4_3 _, ?_⟩
  rw [mem_blk4]
  intro a
  match a with
  | ⟨0, _⟩ =>
    show win4_3.index ⟨(i 0).val / 512, ht⟩ (0 : Fin 2) * 512 ≤ (i 0).val
      ∧ (i 0).val < win4_3.index ⟨(i 0).val / 512, ht⟩ (0 : Fin 2) * 512 + 512
    omega
  | ⟨1, _⟩ =>
    show win4_3.index ⟨(i 0).val / 512, ht⟩ (1 : Fin 2) * 256 ≤ (i 1).val
      ∧ (i 1).val < win4_3.index ⟨(i 0).val / 512, ht⟩ (1 : Fin 2) * 256 + 256
    omega

/-- The array the region leaves: the result function of the three arrays it was entered with. -/
theorem arr4 (c : Dev nD) :
    (dat4 V c).arrAt 3 cfg4.N = G4 (V c main_v113) (V c main_v112) (V c main_v114) :=
  (dat4 V c).arrAt_eq_of_cover 3 _ (fun t _ => flushed4_eq V c t) covered4

/-- The same, with the three arrays named: whatever the input rows are, the result is their leaky dense layer. -/
theorem arr4_of (c : Dev nD) (X : S65536x128.Idx → EReal) (W : S128x256.Idx → EReal) (b : S1x256.Idx → EReal)
    (hX : (V c main_v113 : S65536x128.Idx → EReal) = X) (hW : (V c main_v112 : S128x256.Idx → EReal) = W)
    (hb : (V c main_v114 : S1x256.Idx → EReal) = b) :
    (dat4 V c).arrAt 3 cfg4.N = G4 X W b := by
  rw [← hX, ← hW, ← hb]
  exact arr4 V c

end Cert.ReferenceIdeal.Value

end
-- ==== Proof.RV5.lean ====
/-
  The reference's last kernel, read at an entry.

  For a tile of 512 rows it stores `max v (s · v)` of `v` = (first tile times first weight matrix) plus (second tile
  times second weight matrix), plus the bias row. At row `r` and column `q` the two products are the sums over the
  contracted coordinate, added in that order, then the bias of column `q`.
-/
import proofs.«145656_g2000601261699844_pallasbulk_55_1_alg».proof.Proof.Gen.ReferenceIdeal.Skeleton
import proofs.«145656_g2000601261699844_pallasbulk_55_1_alg».proof.Proof.RVCommon

noncomputable section

namespace Cert.ReferenceIdeal.BlockValue

open Idealize.ShloMosaic Idealize.ShloMosaic.ValueIdx

/-- The printed dimension numbers of both products are the plain ones: rows by columns, no batch axis. -/
theorem dual_dot_eq :
    dot_S512x256_S256x256_S512x256_1_0_0_1_n_n = DotDims.plain 512 256 256 := rfl

/-- The stored tile at row `r`, column `q`. -/
theorem k5_pay1_apply (a : Vec Ideal S512x256 .f32) (wa : Vec Ideal S256x256 .f32) (b : Vec Ideal S512x256 .f32)
    (wb : Vec Ideal S256x256 .f32) (bias : Vec Ideal S1x256 .f32) (r : Fin 512) (q : Fin 256) :
    Gen.k5_pay1 a wa b wb bias (ix2 r q)
      = Cert.Spec.leaky (Ideal.ofBits .f32 0x3DCCCCCD#32)
          (((∑ c : Fin 256, a (ix2 r c) * wa (ix2 c q)) + (∑ c : Fin 256, b (ix2 r c) * wb (ix2 c q)))
            + bias (ix2 (0 : Fin 1) q)) := by
  unfold Gen.k5_pay1
  refine (leaky_apply 0x3DCCCCCD#32 _ (ix2 r q)).trans ?_
  refine congrArg (Cert.Spec.leaky (Ideal.ofBits .f32 0x3DCCCCCD#32)) ?_
  refine (addf_apply _ _ (ix2 r q)).trans ?_
  refine congrArg₂ (· + ·) ?_ (bias_apply bias _ _ r q)
  refine (addf_apply _ _ (ix2 r q)).trans ?_
  exact congrArg₂ (· + ·)
    (product_apply _ dual_dot_eq a wa _ _ r q)
    (product_apply _ dual_dot_eq b wb _ _ r q)

end Cert.ReferenceIdeal.BlockValue

end
-- ==== Proof.RArr5.lean ====
/-
  The reference's last region: the whole array it leaves.

  The region works through the 65536 rows in 128 tiles of 512; tile `t` holds rows `512 t … 512 t + 511` of BOTH input
  arrays, and the two weight matrices and the bias row are the same at every tile. So row `r` of the result is written
  by tile `r / 512`, and it is `max v (s · v)` of `v` = (row `r` of the first input against the first weights) plus
  (row `r` of the second input against the second weights) plus the bias.
-/
import proofs.«145656_g2000601261699844_pallasbulk_55_1_alg».proof.Proof.RRegion5
import proofs.«145656_g2000601261699844_pallasbulk_55_1_alg».proof.Proof.RV5
import Idealize.ShloMosaic.Lib.Pipeline.Value

noncomputable section

namespace Cert.ReferenceIdeal.Value

open Idealize.ShloMosaic Idealize.ShloMosaic.TcCoe Idealize.ShloMosaic.ValueIdx Idealize.SL.Sem
open Cert.ReferenceIdeal Cert.ReferenceIdeal.Gen Cert.ReferenceIdeal.Body Cert.ReferenceIdeal.BlockValue
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The last layer at one row and output channel `q`: the two rows against their weight matrices, summed in that
    order, plus the bias, through `max v (s · v)`. -/
def dual (s : EReal) (ra rb : Fin 256 → EReal) (WA WB : Fin 256 → Fin 256 → EReal) (bias : Fin 256 → EReal)
    (q : Fin 256) : EReal :=
  Cert.Spec.leaky s (((∑ c : Fin 256, ra c * WA c q) + (∑ c : Fin 256, rb c * WB c q)) + bias q)

/-- The result array as a function of the two input arrays, the two weight matrices and the bias row. -/
def G5 (A B : S65536x256.Idx → EReal) (WA WB : S256x256.Idx → EReal) (b : S1x256.Idx → EReal) : S65536x256.Idx → EReal :=
  fun i => dual (Ideal.ofBits .f32 0x3DCCCCCD#32) (fun ch => A (ix2 (i 0) ch)) (fun ch => B (ix2 (i 0) ch))
    (fun ch q => WA (ix2 ch q)) (fun ch q => WB (ix2 ch q)) (fun q => b (ix2 (0 : Fin 1) q)) (i 1)

/-- The stored tile at any of its entries, the entry's coordinates read off the index. -/
theorem point5 (a : Vec Ideal S512x256 .f32) (wa : Vec Ideal S256x256 .f32) (b : Vec Ideal S512x256 .f32)
    (wb : Vec Ideal S256x256 .f32) (bias : Vec Ideal S1x256 .f32) (j : S512x256.Idx) :
    Gen.k5_pay1 a wa b wb bias j = dual (Ideal.ofBits .f32 0x3DCCCCCD#32) (fun ch => a (ix2 (j 0) ch))
      (fun ch => b (ix2 (j 0) ch)) (fun ch q => wa (ix2 ch q)) (fun ch q => wb (ix2 ch q))
      (fun q => bias (ix2 (0 : Fin 1) q)) (j 1) := by
  obtain ⟨r, q, rfl⟩ : ∃ (r : Fin 512) (q : Fin 256), j = ix2 r q := ⟨j 0, j 1, eq_ix2 j⟩
  exact k5_pay1_apply a wa b wb bias r q

/-- The tiles' positions, decided over the 128 tiles: the two input tiles and the output tile move together down the
    rows, tile `t` at block row `t`; the weight and bias blocks stay at the origin. -/
theorem idx_facts5 : ∀ t : Fin cfg5.N, win5_0.index t (0 : Fin 2) = win5_5.index t (0 : Fin 2)
    ∧ win5_0.index t (1 : Fin 2) = 0 ∧ win5_1.index t (0 : Fin 2) = win5_5.index t (0 : Fin 2)
    ∧ win5_1.index t (1 : Fin 2) = 0 ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (1 : Fin 2) = 0 ∧ win5_5.index t (0 : Fin 2) = t.val :=
  (by decide +kernel : ∀ t : Fin grid5.N, _)

/-- What tile `t` writes back is tile `t` of the result function of the five arrays. -/
theorem flushed5_eq (c : Dev nD) (t : Fin cfg5.N) :
    (dat5 V c).flushed 5 t = ((cfg5.win 5).blk t).view.read (Elt Ideal) (G5 (V c main_v128) (V c main_v129) (V c main_v126) (V c main_v127) (V c main_v130)) := by
  show (cfg5.win 5).cut (grid5.coords t) ((dat5 V c).after 5 t) = _
  rw [after5_5]
  unfold out5
  rw [View.canon_unit_zero hz5]
  simp only [View.ld_unit_zero (S := S512x256) hz5, View.ld_unit_zero (S := S256x256) hz5,
    View.ld_unit_zero (S := S1x256) hz5]
  obtain ⟨e0, e1, e2, e3, e4, e5, e6, e7, e8, e9, e10, e11⟩ := idx_facts5 t
  funext j
  show Gen.k5_pay1 (iblk5 V c 0 t) (iblk5 V c 2 t) (iblk5 V c 1 t) (iblk5 V c 3 t) (iblk5 V c 4 t) j
    = G5 (V c main_v128) (V c main_v129) (V c main_v126) (V c main_v127) (V c main_v130) (((cfg5.win 5).blk t).view.emb j)
  refine (point5 _ _ _ _ _ j).trans ?_
  unfold G5
  have h0 : (fun ch : Fin 256 => iblk5 V c 0 t (ix2 (j 0) ch))
      = fun ch : Fin 256 => (V c main_v128 : S65536x256.Idx → EReal) (ix2 ((((cfg5.win 5).blk t).view.emb j) 0) ch) := by
    funext ch
    show V c main_v128 (((cfg5.win 0).blk t).view.emb (ix2 (j 0) ch)) = _
    refine congrArg (V c main_v128) (funext fun ax => Fin.ext ?_)
    match ax with
    | ⟨0, _⟩ => show win5_0.index t (0 : Fin 2) * 512 + 1 * (j 0).val = win5_5.index t (0 : Fin 2) * 512 + 1 * (j 0).val; omega
    | ⟨1, _⟩ => show win5_0.index t (1 : Fin 2) * 256 + 1 * ch.val = ch.val; omega
  have h1 : (fun ch : Fin 256 => iblk5 V c 1 t (ix2 (j 0) ch))
      = fun ch : Fin 256 => (V c main_v129 : S65536x256.Idx → EReal) (ix2 ((((cfg5.win 5).blk t).view.emb j) 0) ch) := by
    funext ch
    show V c main_v129 (((cfg5.win 1).blk t).view.emb (ix2 (j 0) ch)) = _
    refine congrArg (V c main_v129) (funext fun ax => Fin.ext ?_)
    match ax with
    | ⟨0, _⟩ => show win5_1.index t (0 : Fin 2) * 512 + 1 * (j 0).val = win5_5.index t (0 : Fin 2) * 512 + 1 * (j 0).val; omega
    | ⟨1, _⟩ => show win5_1.index t (1 : Fin 2) * 256 + 1 * ch.val = ch.val; omega
  have h2 : (fun (ch : Fin 256) (q : Fin 256) => iblk5 V c 2 t (ix2 ch q))
      = fun (ch : Fin 256) (q : Fin 256) => (V c main_v126 : S256x256.Idx → EReal) (ix2 ch q) := by
    funext ch q
    show V c main_v126 (((cfg5.win 2).blk t).view.emb (ix2 ch q)) = _
    refine congrArg (V c main_v126) (funext fun ax => Fin.ext ?_)
    match ax with
    | ⟨0, _⟩ => show win5_2.index t (0 : Fin 2) * 256 + 1 * ch.val = ch.val; omega
    | ⟨1, _⟩ => show win5_2.index t (1 : Fin 2) * 256 + 1 * q.val = q.val; omega
  have h3 : (fun (ch : Fin 256) (q : Fin 256) => iblk5 V c 3 t (ix2 ch q))
      = fun (ch : Fin 256) (q : Fin 256) => (V c main_v127 : S256x256.Idx → EReal) (ix2 ch q) := by
    funext ch q
    show V c main_v127 (((cfg5.win 3).blk t).view.emb (ix2 ch q)) = _
    refine congrArg (V c main_v127) (funext fun ax => Fin.ext ?_)
    match ax with
    | ⟨0, _⟩ => show win5_3.index t (0 : Fin 2) * 256 + 1 * ch.val = ch.val; omega
    | ⟨1, _⟩ => show win5_3.index t (1 : Fin 2) * 256 + 1 * q.val = q.val; omega
  have h4 : (fun q : Fin 256 => iblk5 V c 4 t (ix2 (0 : Fin 1) q))
      = fun q : Fin 256 => (V c main_v130 : S1x256.Idx → EReal) (ix2 (0 : Fin 1) q) := by
    funext q
    show V c main_v130 (((cfg5.win 4).blk t).view.emb (ix2 (0 : Fin 1) q)) = _
    refine congrArg (V c main_v130) (funext fun ax => Fin.ext ?_)
    match ax with
    | ⟨0, _⟩ => show win5_4.index t (0 : Fin 2) * 1 + 1 * 0 = 0; omega
    | ⟨1, _⟩ => show win5_4.index t (1 : Fin 2) * 256 + 1 * q.val = q.val; omega
  have h5 : (((cfg5.win 5).blk t).view.emb j) 1 = j 1 :=
    Fin.ext (by show win5_5.index t (1 : Fin 2) * 256 + 1 * (j 1).val = (j 1).val; omega)
  rw [h0, h1, h2, h3, h4, h5]

/-- A row-and-column of the result lies in tile `t` iff each coordinate is in the tile's range on its axis. -/
theorem mem_blk5 (t : Fin cfg5.N) (i : S65536x256.Idx) :
    i ∈ ((cfg5.win 5).blk t).view.set ↔ ∀ a : Fin 2, win5_5.index t a * S512x256.size a ≤ (i a).val
      ∧ (i a).val < win5_5.index t a * S512x256.size a + S512x256.size a := by
  show i ∈ ((View.whole main_v131).slice (win5_5.rect t)).set ↔ _
  rw [View.set_slice_whole, Rect.mem_set_unit]
  exact Iff.rfl

/-- Every entry of the result is written: row `r` by tile `r / 512`. -/
theorem covered5 (i : S65536x256.Idx) :
    ∃ t : Fin cfg5.N, (cfg5.win 5).flush t = true ∧ i ∈ ((cfg5.win 5).blk t).view.set := by
  have hi0 : (i 0).val < 65536 := (i 0).isLt
  have hi1 : (i 1).val < 256 := (i 1).isLt
  have hN : grid5.N = 128 := N_5
  have ht : (i 0).val / 512 < cfg5.N := by show _ < grid5.N; omega
  obtain ⟨-, -, -, -, -, -, -, -, -, -, e10, e11⟩ := idx_facts5 ⟨(i 0).val / 512, ht⟩
  have e11' : win5_5.index ⟨(i 0).val / 512, ht⟩ (0 : Fin 2) = (i 0).val / 512 := e11
  refine ⟨⟨(i 0).val / 512, ht⟩, flush5_5 _, ?_⟩
  rw [mem_blk5]
  intro a
  match a with
  | ⟨0, _⟩ =>
    show win5_5.index ⟨(i 0).val / 512, ht⟩ (0 : Fin 2) * 512 ≤ (i 0).val
      ∧ (i 0).val < win5_5.index ⟨(i 0).val / 512, ht⟩ (0 : Fin 2) * 512 + 512
    omega
  | ⟨1, _⟩ =>
    show win5_5.index ⟨(i 0).val / 512, ht⟩ (1 : Fin 2) * 256 ≤ (i 1).val
      ∧ (i 1).val < win5_5.index ⟨(i 0).val / 512, ht⟩ (1 : Fin 2) * 256 + 256
    omega

/-- The array the region leaves: the result function of the five arrays it was entered with. -/
theorem arr5 (c : Dev nD) : (dat5 V c).arrAt 5 cfg5.N = G5 (V c main_v128) (V c main_v129) (V c main_v126) (V c main_v127) (V c main_v130) :=
  (dat5 V c).arrAt_eq_of_cover 5 _ (fun t _ => flushed5_eq V c t) covered5

/-- The same, with the five arrays named. -/
theorem arr5_of (c : Dev nD) (A B : S65536x256.Idx → EReal) (WA WB : S256x256.Idx → EReal) (b : S1x256.Idx → EReal)
    (hA : (V c main_v128 : S65536x256.Idx → EReal) = A) (hB : (V c main_v129 : S65536x256.Idx → EReal) = B)
    (hWA : (V c main_v126 : S256x256.Idx → EReal) = WA) (hWB : (V c main_v127 : S256x256.Idx → EReal) = WB)
    (hb : (V c main_v130 : S1x256.Idx → EReal) = b) :
    (dat5 V c).arrAt 5 cfg5.N = G5 A B WA WB b := by
  rw [← hA, ← hB, ← hWA, ← hWB, ← hb]
  exact arr5 V c

end Cert.ReferenceIdeal.Value

end
-- ==== Proof.RChain.lean ====
/-
  The reference's result, image by image, from its six regions' arrays.

  Between two regions the host only reshapes: each region's 65536 pixel rows are the previous region's result
  reshaped to 64 × 32 × 32 images and back, two reshapes that cancel; the side branch's rows and the stem's are the
  argument's images flattened; the last region's two inputs are the results of the fourth and fifth regions; and the
  program's result is the last region's array reshaped to images. Pixel row `r` is row `r % 1024 / 32`, column
  `r % 32` of image `r / 1024`. So, given what the second residual block's region leaves, the fourth region leaves
  the main branch, the fifth the side branch, the sixth the network's value at every pixel, and the result holds the
  network of each image.
-/
import proofs.«145656_g2000601261699844_pallasbulk_55_1_alg».proof.Proof.RRun
import proofs.«145656_g2000601261699844_pallasbulk_55_1_alg».proof.Proof.RParams
import proofs.«145656_g2000601261699844_pallasbulk_55_1_alg».proof.Proof.RArr0
import proofs.«145656_g2000601261699844_pallasbulk_55_1_alg».proof.Proof.RArr3
import proofs.«145656_g2000601261699844_pallasbulk_55_1_alg».proof.Proof.RArr4
import proofs.«145656_g2000601261699844_pallasbulk_55_1_alg».proof.Proof.RArr5
import Idealize.ShloMosaic.Lib.StableHlo.Run
import Idealize.ShloMosaic.Lib.Pipeline.Value

noncomputable section

namespace Cert.ReferenceIdeal.Value

open Idealize.ShloMosaic Idealize.ShloMosaic.TcCoe Idealize.ShloMosaic.ValueIdx Idealize.SL.Sem
open Cert.ReferenceIdeal Cert.ReferenceIdeal.Gen Cert.ReferenceIdeal.Body

variable (m : (ℓ : Loc nD τ sig) → Buf (Elt Ideal) ℓ) (c : Dev nD)

/-! ## What the host stretches hand each region

Each statement reads one buffer at a region's entry through the reshapes before it; `o` is any family of the
regions' results. -/

set_option maxHeartbeats 4000000 in
/-- The stem's rows are the argument's images flattened. -/
theorem rows0 : (Gen.V1 m c main_v9 : S65536x128.Idx → EReal)
    = shapeCast S65536x128 (m ((c : Thread nD τ).loc main_arg0) : S64x32x32x128.Idx → EReal)
        shapeCasts_S64x32x32x128_S65536x128 := by
  show StableHlo.after hostOps0 (fun b => m (c, b)) (Proc.devRef .tc main_v9) = _
  after_results_simp
  rfl

set_option maxHeartbeats 4000000 in
/-- The main branch's rows are what the second block's region left. -/
theorem rows3 (o : Gen.Outs (F := Ideal)) : (Gen.V7 m o c main_v100 : S65536x256.Idx → EReal)
    = (o 6 main_v89 c : S65536x256.Idx → EReal) := by
  show StableHlo.after hostOps3 (Gen.V6 m o c) (Proc.devRef .tc main_v100) = _
  after_results_simp
  show shapeCast S65536x256 (shapeCast S64x32x32x256 (Gen.V6 m o c main_v89) shapeCasts_S65536x256_S64x32x32x256)
      shapeCasts_S64x32x32x256_S65536x256 = _
  rw [shapeCast_shapeCast]
  exact Function.update_self _ _ _

set_option maxHeartbeats 4000000 in
/-- No host stretch writes the argument. -/
theorem arg0_1 : Gen.V1 m c main_arg0 = m (c, Proc.devRef .tc main_arg0) := by
  show StableHlo.after hostOps0 (fun b => m (c, b)) (Proc.devRef .tc main_arg0) = _
  after_results_simp

set_option maxHeartbeats 4000000 in
theorem arg0_3 (o : Gen.Outs (F := Ideal)) : Gen.V3 m o c main_arg0 = m (c, Proc.devRef .tc main_arg0) := by
  show StableHlo.after hostOps1 (Gen.V2 m o c) (Proc.devRef .tc main_arg0) = _
  after_results_simp
  show Function.update (Gen.V1 m c) (Proc.devRef .tc main_v11) (o 2 main_v11 c) (Proc.devRef .tc main_arg0) = _
  rw [Function.update_of_ne (fun h => absurd (Proc.devRef_injective _ h) (by decide : (main_arg0 : Ref sig .tc) ≠ main_v11))]
  exact arg0_1 m c

set_option maxHeartbeats 4000000 in
theorem arg0_5 (o : Gen.Outs (F := Ideal)) : Gen.V5 m o c main_arg0 = m (c, Proc.devRef .tc main_arg0) := by
  show StableHlo.after hostOps2 (Gen.V4 m o c) (Proc.devRef .tc main_arg0) = _
  after_results_simp
  show Function.update (Gen.V3 m o c) (Proc.devRef .tc main_v55) (o 4 main_v55 c) (Proc.devRef .tc main_arg0) = _
  rw [Function.update_of_ne (fun h => absurd (Proc.devRef_injective _ h) (by decide : (main_arg0 : Ref sig .tc) ≠ main_v55))]
  exact arg0_3 m c o

set_option maxHeartbeats 4000000 in
theorem arg0_7 (o : Gen.Outs (F := Ideal)) : Gen.V7 m o c main_arg0 = m (c, Proc.devRef .tc main_arg0) := by
  show StableHlo.after hostOps3 (Gen.V6 m o c) (Proc.devRef .tc main_arg0) = _
  after_results_simp
  show Function.update (Gen.V5 m o c) (Proc.devRef .tc main_v89) (o 6 main_v89 c) (Proc.devRef .tc main_arg0) = _
  rw [Function.update_of_ne (fun h => absurd (Proc.devRef_injective _ h) (by decide : (main_arg0 : Ref sig .tc) ≠ main_v89))]
  exact arg0_5 m c o

set_option maxHeartbeats 4000000 in
/-- The side branch's rows are the argument's images flattened. -/
theorem rows4 (o : Gen.Outs (F := Ideal)) : (Gen.V9 m o c main_v113 : S65536x128.Idx → EReal)
    = shapeCast S65536x128 (m ((c : Thread nD τ).loc main_arg0) : S64x32x32x128.Idx → EReal)
        shapeCasts_S64x32x32x128_S65536x128 := by
  show StableHlo.after hostOps4 (Gen.V8 m o c) (Proc.devRef .tc main_v113) = _
  after_results_simp
  show shapeCast S65536x128 (Gen.V8 m o c main_arg0) shapeCasts_S64x32x32x128_S65536x128 = _
  refine congrArg (fun A => shapeCast S65536x128 A shapeCasts_S64x32x32x128_S65536x128) ?_
  show Function.update (Gen.V7 m o c) (Proc.devRef .tc main_v102) (o 8 main_v102 c) (Proc.devRef .tc main_arg0) = _
  rw [Function.update_of_ne (fun h => absurd (Proc.devRef_injective _ h) (by decide : (main_arg0 : Ref sig .tc) ≠ main_v102))]
  exact arg0_7 m c o

set_option maxHeartbeats 4000000 in
/-- The main branch's result as images, as the stretch before the side branch leaves it. -/
theorem mid103 (o : Gen.Outs (F := Ideal)) : (Gen.V9 m o c main_v103 : S64x32x32x256.Idx → EReal)
    = shapeCast S64x32x32x256 (o 8 main_v102 c : S65536x256.Idx → EReal) shapeCasts_S65536x256_S64x32x32x256 := by
  show StableHlo.after hostOps4 (Gen.V8 m o c) (Proc.devRef .tc main_v103) = _
  after_results_simp
  show shapeCast S64x32x32x256 (Gen.V8 m o c main_v102) shapeCasts_S65536x256_S64x32x32x256 = _
  refine congrArg (fun A => shapeCast S64x32x32x256 A shapeCasts_S65536x256_S64x32x32x256) ?_
  exact Function.update_self _ _ _

set_option maxHeartbeats 4000000 in
/-- The last region's first input is what the main branch's region left, -/
theorem rows5a (o : Gen.Outs (F := Ideal)) : (Gen.V11 m o c main_v128 : S65536x256.Idx → EReal)
    = (o 8 main_v102 c : S65536x256.Idx → EReal) := by
  show StableHlo.after hostOps5 (Gen.V10 m o c) (Proc.devRef .tc main_v128) = _
  after_results_simp
  show shapeCast S65536x256 (Gen.V10 m o c main_v103) shapeCasts_S64x32x32x256_S65536x256 = _
  have h : Gen.V10 m o c main_v103 = Gen.V9 m o c main_v103 := by
    show Function.update (Gen.V9 m o c) (Proc.devRef .tc main_v115) (o 10 main_v115 c) (Proc.devRef .tc main_v103) = _
    rw [Function.update_of_ne (fun h => absurd (Proc.devRef_injective _ h) (by decide : (main_v103 : Ref sig .tc) ≠ main_v115))]
  rw [h, mid103 m c o]
  exact shapeCast_shapeCast _ _ _

set_option maxHeartbeats 4000000 in
/-- and its second input what the side branch's region left. -/
theorem rows5b (o : Gen.Outs (F := Ideal)) : (Gen.V11 m o c main_v129 : S65536x256.Idx → EReal)
    = (o 10 main_v115 c : S65536x256.Idx → EReal) := by
  show StableHlo.after hostOps5 (Gen.V10 m o c) (Proc.devRef .tc main_v129) = _
  after_results_simp
  show shapeCast S65536x256 (shapeCast S64x32x32x256 (Gen.V10 m o c main_v115) shapeCasts_S65536x256_S64x32x32x256)
      shapeCasts_S64x32x32x256_S65536x256 = _
  rw [shapeCast_shapeCast]
  exact Function.update_self _ _ _

set_option maxHeartbeats 4000000 in
/-- The program's result is the last region's array as images. -/
theorem out132 (o : Gen.Outs (F := Ideal)) : (Gen.V13 m o c main_v132 : S64x32x32x256.Idx → EReal)
    = shapeCast S64x32x32x256 (o 12 main_v131 c : S65536x256.Idx → EReal) shapeCasts_S65536x256_S64x32x32x256 := by
  show StableHlo.after hostOps6 (Gen.V12 m o c) (Proc.devRef .tc main_v132) = _
  after_results_simp
  show shapeCast S64x32x32x256 (Gen.V12 m o c main_v131) shapeCasts_S65536x256_S64x32x32x256 = _
  refine congrArg (fun A => shapeCast S64x32x32x256 A shapeCasts_S65536x256_S64x32x32x256) ?_
  exact Function.update_self _ _ _

/-! ## Pixel rows -/

/-- The image, the row and the column of pixel row `r`, and the pixel row of a pixel. -/
abbrev imgOf (r : Fin 65536) : Fin 64 := ⟨r.val / 1024, by have := r.isLt; omega⟩
abbrev rowOf (r : Fin 65536) : Fin 32 := ⟨r.val % 1024 / 32, by omega⟩
abbrev colOf (r : Fin 65536) : Fin 32 := ⟨r.val % 32, by omega⟩
abbrev pixRow (n : Fin 64) (h w : Fin 32) : Fin 65536 :=
  ⟨n.val * 1024 + h.val * 32 + w.val, by have := n.isLt; have := h.isLt; have := w.isLt; omega⟩

theorem imgOf_pixRow (n : Fin 64) (h w : Fin 32) : imgOf (pixRow n h w) = n :=
  Fin.ext (by show (n.val * 1024 + h.val * 32 + w.val) / 1024 = n.val; have := h.isLt; have := w.isLt; omega)
theorem rowOf_pixRow (n : Fin 64) (h w : Fin 32) : rowOf (pixRow n h w) = h :=
  Fin.ext (by show (n.val * 1024 + h.val * 32 + w.val) % 1024 / 32 = h.val; have := h.isLt; have := w.isLt; omega)
theorem colOf_pixRow (n : Fin 64) (h w : Fin 32) : colOf (pixRow n h w) = w :=
  Fin.ext (by show (n.val * 1024 + h.val * 32 + w.val) % 32 = w.val; have := w.isLt; omega)

/-- The images flattened to pixel rows, read at a row: the pixel's image, row and column. -/
theorem rows_of_images (A : S64x32x32x128.Idx → EReal) (r : Fin 65536) (ch : Fin 128) :
    shapeCast S65536x128 A shapeCasts_S64x32x32x128_S65536x128 (ix2 r ch)
      = A (ix4 (imgOf r) (rowOf r) (colOf r) ch) :=
  shapeCast_apply A _ _ _ (by
    rw [Shape.rowMajor_val_four, Shape.rowMajor_val_two]
    show ((r.val / 1024 * 32 + r.val % 1024 / 32) * 32 + r.val % 32) * 128 + ch.val = r.val * 128 + ch.val
    omega)

/-- Pixel rows reshaped to images, read at a pixel: the pixel's row. -/
theorem images_of_rows (R : S65536x256.Idx → EReal) (n : Fin 64) (h w : Fin 32) (q : Fin 256) :
    shapeCast S64x32x32x256 R shapeCasts_S65536x256_S64x32x32x256 (ix4 n h w q) = R (ix2 (pixRow n h w) q) :=
  shapeCast_apply R _ _ _ (by
    rw [Shape.rowMajor_val_two, Shape.rowMajor_val_four]
    show (n.val * 1024 + h.val * 32 + w.val) * 256 + q.val = ((n.val * 32 + h.val) * 32 + w.val) * 256 + q.val
    omega)

/-! ## The regions' arrays, one from another -/

/-- The fourth region leaves the main branch at every pixel, given what the second block's region leaves. -/
theorem res3_eq (harr2 : ((dat2 (U5 m) c).arrAt 7 cfg2.N : S65536x256.Idx → EReal)
      = fun i => Cert.Spec.b1out (PR m (outs m) c) (XR m c (imgOf (i 0))) (rowOf (i 0)) (colOf (i 0)) (i 1)) :
    ((dat3 (U7 m) c).arrAt 3 cfg3.N : S65536x256.Idx → EReal)
      = fun i => Cert.Spec.brMain (PR m (outs m) c) (XR m c (imgOf (i 0))) (rowOf (i 0)) (colOf (i 0)) (i 1) := by
  rw [arr3 (U7 m) c]
  show G3 (Gen.V7 m (outs2 m) c main_v100) (Gen.V7 m (outs2 m) c main_v99) (Gen.V7 m (outs2 m) c main_v101) = _
  rw [← V7_eq m c, rows3 m c (outs m), outs2_eq m c, harr2]
  rfl

/-- The fifth region leaves the side branch at every pixel. -/
theorem res4_eq : ((dat4 (U9 m) c).arrAt 3 cfg4.N : S65536x256.Idx → EReal)
      = fun i => Cert.Spec.brSide (PR m (outs m) c) (XR m c (imgOf (i 0))) (rowOf (i 0)) (colOf (i 0)) (i 1) := by
  rw [arr4 (U9 m) c]
  show G4 (Gen.V9 m (outs3 m) c main_v113) (Gen.V9 m (outs3 m) c main_v112) (Gen.V9 m (outs3 m) c main_v114) = _
  rw [← V9_eq m c, rows4 m c (outs m)]
  funext i
  have hr : (fun ch : Fin 128 => shapeCast S65536x128
        (m ((c : Thread nD τ).loc main_arg0) : S64x32x32x128.Idx → EReal) shapeCasts_S64x32x32x128_S65536x128 (ix2 (i 0) ch))
      = XR m c (imgOf (i 0)) (rowOf (i 0)) (colOf (i 0)) := funext fun ch => rows_of_images _ (i 0) ch
  refine (congrArg (fun f : Fin 128 → EReal => Cert.Spec.leaky (Ideal.ofBits .f32 0x3DCCCCCD#32)
    (Cert.Spec.dense f (fun a j => (Gen.V9 m (outs m) c main_v112 : S128x256.Idx → EReal) (ix2 a j))
      (fun j => (Gen.V9 m (outs m) c main_v114 : S1x256.Idx → EReal) (ix2 (0 : Fin 1) j)) (i 1))) hr).trans ?_
  rfl

/-- The sixth region leaves the network's value at every pixel. -/
theorem res5_eq (harr2 : ((dat2 (U5 m) c).arrAt 7 cfg2.N : S65536x256.Idx → EReal)
      = fun i => Cert.Spec.b1out (PR m (outs m) c) (XR m c (imgOf (i 0))) (rowOf (i 0)) (colOf (i 0)) (i 1)) :
    ((dat5 (U11 m) c).arrAt 5 cfg5.N : S65536x256.Idx → EReal)
      = fun i => Cert.Spec.net (PR m (outs m) c) (XR m c (imgOf (i 0))) (rowOf (i 0)) (colOf (i 0)) (i 1) := by
  rw [arr5 (U11 m) c]
  show G5 (Gen.V11 m (outs4 m) c main_v128) (Gen.V11 m (outs4 m) c main_v129) (Gen.V11 m (outs4 m) c main_v126)
    (Gen.V11 m (outs4 m) c main_v127) (Gen.V11 m (outs4 m) c main_v130) = _
  rw [← V11_eq m c, rows5a m c (outs m), rows5b m c (outs m), outs3_eq m c, outs4_eq m c, res3_eq m c harr2,
    res4_eq m c]
  rfl

/-- The program's result holds the network of each image, pixel by pixel. -/
theorem result (harr2 : ((dat2 (U5 m) c).arrAt 7 cfg2.N : S65536x256.Idx → EReal)
      = fun i => Cert.Spec.b1out (PR m (outs m) c) (XR m c (imgOf (i 0))) (rowOf (i 0)) (colOf (i 0)) (i 1)) :
    (Gen.V13 m (outs m) c main_v132 : S64x32x32x256.Idx → EReal)
      = fun i => Cert.Spec.net (PR m (outs m) c) (XR m c (i 0)) (i 1) (i 2) (i 3) := by
  rw [out132 m c (outs m), outs5_eq m c, res5_eq m c harr2]
  funext i
  obtain ⟨n, h, w, q, rfl⟩ : ∃ (n : Fin 64) (h w : Fin 32) (q : Fin 256), i = ix4 n h w q :=
    ⟨i 0, i 1, i 2, i 3, eq_ix4 i⟩
  refine (images_of_rows _ n h w q).trans ?_
  show Cert.Spec.net _ (XR m c (imgOf (pixRow n h w))) (rowOf (pixRow n h w)) (colOf (pixRow n h w)) q
    = Cert.Spec.net _ (XR m c n) h w q
  rw [imgOf_pixRow, rowOf_pixRow, colOf_pixRow]

end Cert.ReferenceIdeal.Value

end
-- ==== Proof.RV1.lean ====
/-
  The reference's first residual block on one image, read at a pixel.

  The kernel first stores the block's entry layer (512 → 128, then `max v 0`) into the interior of a 34 × 34 scratch
  whose ring is zero, loads the scratch back whole, and accumulates the nine products of the 3 × 3 layer from zero, one
  32 × 32 window of the scratch against one weight slice at a time. With the bias and `max v 0` this is the 3 × 3
  layer at every pixel; a last dense layer (128 → 256) plus a linear projection of the block's input (512 → 256), then `max v 0`,
  is what the kernel stores. Pixel `(h, w)` is row `h · 32 + w` of the image's 1024 rows.
-/
import proofs.«145656_g2000601261699844_pallasbulk_55_1_alg».proof.Proof.Gen.ReferenceIdeal.Skeleton
import proofs.«145656_g2000601261699844_pallasbulk_55_1_alg».proof.Proof.RVCommon

noncomputable section

namespace Cert.ReferenceIdeal.BlockValue

open Idealize.ShloMosaic Idealize.ShloMosaic.ValueIdx

/-- The printed dimension numbers of the block's products are the plain ones: rows by columns, no batch axis. -/
theorem k1_dot_in_eq : dot_S1024x512_S512x128_S1024x128_1_0_0_1_n_n = DotDims.plain 1024 512 128 := rfl
theorem k1_dot_tap_eq : dot_S1024x128_S128x128_S1024x128_1_0_0_1_n_n = DotDims.plain 1024 128 128 := rfl
theorem k1_dot_out_eq : dot_S1024x128_S128x256_S1024x256_1_0_0_1_n_n = DotDims.plain 1024 128 256 := rfl
theorem k1_dot_proj_eq : dot_S1024x512_S512x256_S1024x256_1_0_0_1_n_n = DotDims.plain 1024 512 256 := rfl

/-- What the entry layer stores into the scratch's interior, at pixel `(h, w)` and channel `c`. -/
theorem k1_pay4_apply (v0 : Vec Ideal S1024x512 .f32) (v2 : Vec Ideal S512x128 .f32) (v5 : Vec Ideal S1x128 .f32)
    (h w : Fin 32) (c : Fin 128) :
    Gen.k1_pay4 v0 v2 v5 (ix3 h w c)
      = Cert.Spec.relu (Cert.Spec.dense (fun k => v0 (ix2 (row h w) k)) (fun k c => v2 (ix2 k c))
          (fun c => v5 (ix2 (0 : Fin 1) c)) c) := by
  unfold Gen.k1_pay4 Gen.k1_pay2
  refine (congrFun (shapeCast_self _ _) (ix3 h w c)).trans ?_
  refine (image_apply _ _ h w c).trans ?_
  refine (relu_apply _ (ix2 (row h w) c)).trans ?_
  exact congrArg Cert.Spec.relu (dense_apply _ k1_dot_in_eq v0 v2 v5 _ _ _ _ (row h w) c)

/-- The block the kernel stores, at pixel `(h, w)` and channel `q`, when the scratch as loaded back holds the padded
    image `A` and the nine weight slices are the taps of `W9`. -/
theorem k1_block_apply (v0 : Vec Ideal S1024x512 .f32) (v19 : Vec Ideal S34x34x128 .f32)
    (v23 v29 v35 v41 v47 v53 v59 v65 v71 : Vec Ideal S1x128x128 .f32)
    (v75 : Vec Ideal S1x128 .f32) (v81 : Vec Ideal S128x256 .f32) (v84 : Vec Ideal S1x256 .f32)
    (v88 : Vec Ideal S512x256 .f32) (v91 : Vec Ideal S1x256 .f32)
    (A : Fin 32 → Fin 32 → Fin 128 → EReal)
    (hpad : ∀ (i j : Fin 34) (c : Fin 128), v19 (ix3 i j c) = Cert.Spec.pad A i.val j.val c)
    (W9 : Fin 3 → Fin 3 → Fin 128 → Fin 128 → EReal)
    (h00 : ∀ (c p : Fin 128), v23 (ix3 (0 : Fin 1) c p) = W9 0 0 c p)
    (h01 : ∀ (c p : Fin 128), v29 (ix3 (0 : Fin 1) c p) = W9 0 1 c p)
    (h02 : ∀ (c p : Fin 128), v35 (ix3 (0 : Fin 1) c p) = W9 0 2 c p)
    (h10 : ∀ (c p : Fin 128), v41 (ix3 (0 : Fin 1) c p) = W9 1 0 c p)
    (h11 : ∀ (c p : Fin 128), v47 (ix3 (0 : Fin 1) c p) = W9 1 1 c p)
    (h12 : ∀ (c p : Fin 128), v53 (ix3 (0 : Fin 1) c p) = W9 1 2 c p)
    (h20 : ∀ (c p : Fin 128), v59 (ix3 (0 : Fin 1) c p) = W9 2 0 c p)
    (h21 : ∀ (c p : Fin 128), v65 (ix3 (0 : Fin 1) c p) = W9 2 1 c p)
    (h22 : ∀ (c p : Fin 128), v71 (ix3 (0 : Fin 1) c p) = W9 2 2 c p)
    (h w : Fin 32) (q : Fin 256) :
    Gen.k1_pay1 (Gen.k1_pay2 v0) v19
        (Gen.k1_pay8 v19 (Gen.k1_pay5 v19 v23) (Gen.k1_pay6 v19) (Gen.k1_pay7 v29) v35 v41 v47 v53 v59)
        (Gen.k1_pay9 v19) (Gen.k1_pay10 v65) v71 v75 v81 v84 v88 v91 (ix2 (row h w) q)
      = Cert.Spec.relu (Cert.Spec.dense
          (fun p => Cert.Spec.relu (Cert.Spec.conv A W9 (fun p => v75 (ix2 (0 : Fin 1) p)) h w p))
          (fun p q => v81 (ix2 p q)) (fun q => v84 (ix2 (0 : Fin 1) q)) q + Cert.Spec.dense (fun c => v0 (ix2 (row h w) c)) (fun c q => v88 (ix2 c q))
            (fun q => v91 (ix2 (0 : Fin 1) q)) q) := by
  unfold Gen.k1_pay1
  refine (relu_apply _ (ix2 (row h w) q)).trans (congrArg Cert.Spec.relu ?_)
  refine (addf_apply _ _ _).trans (congrArg₂ (· + ·) ?_ ?_)
  · refine dense_of_row _ k1_dot_out_eq _ v81 v84 _ _ _ (row h w) q _ fun p => ?_
    refine (relu_apply _ (ix2 (row h w) p)).trans (congrArg Cert.Spec.relu ?_)
    refine Eq.trans ?_ (conv_of_taps A W9 (fun p => v75 (ix2 (0 : Fin 1) p)) h w p)
    refine (addf_apply _ _ _).trans (congrArg₂ (· + ·) ?_ (bias_apply v75 _ _ (row h w) p))
    refine (addf_apply _ _ _).trans (congrArg₂ (· + ·) ?_
      (tap_apply _ k1_dot_tap_eq 2 2 v19 v71 _ _ _ A hpad W9 h22 h w p))
    unfold Gen.k1_pay9 Gen.k1_pay10
    refine (addf_apply _ _ _).trans (congrArg₂ (· + ·) ?_
      (tap_apply _ k1_dot_tap_eq 2 1 v19 v65 _ _ _ A hpad W9 h21 h w p))
    unfold Gen.k1_pay8
    refine (addf_apply _ _ _).trans (congrArg₂ (· + ·) ?_
      (tap_apply _ k1_dot_tap_eq 2 0 v19 v59 _ _ _ A hpad W9 h20 h w p))
    refine (addf_apply _ _ _).trans (congrArg₂ (· + ·) ?_
      (tap_apply _ k1_dot_tap_eq 1 2 v19 v53 _ _ _ A hpad W9 h12 h w p))
    refine (addf_apply _ _ _).trans (congrArg₂ (· + ·) ?_
      (tap_apply _ k1_dot_tap_eq 1 1 v19 v47 _ _ _ A hpad W9 h11 h w p))
    refine (addf_apply _ _ _).trans (congrArg₂ (· + ·) ?_
      (tap_apply _ k1_dot_tap_eq 1 0 v19 v41 _ _ _ A hpad W9 h10 h w p))
    refine (addf_apply _ _ _).trans (congrArg₂ (· + ·) ?_
      (tap_apply _ k1_dot_tap_eq 0 2 v19 v35 _ _ _ A hpad W9 h02 h w p))
    unfold Gen.k1_pay6 Gen.k1_pay7
    refine (addf_apply _ _ _).trans (congrArg₂ (· + ·) ?_
      (tap_apply _ k1_dot_tap_eq 0 1 v19 v29 _ _ _ A hpad W9 h01 h w p))
    unfold Gen.k1_pay5
    refine (addf_apply _ _ _).trans (congrArg₂ (· + ·) ?_
      (tap_apply _ k1_dot_tap_eq 0 0 v19 v23 _ _ _ A hpad W9 h00 h w p))
    exact Ideal.ofBits_zero_f32
  · unfold Gen.k1_pay2
    exact dense_apply _ k1_dot_proj_eq v0 v88 v91 _ _ _ _ (row h w) q

end Cert.ReferenceIdeal.BlockValue

end
-- ==== Proof.LibCanon.lean ====
/-
  Pieces laid over earlier pieces.

  A buffer's contents after a list of rectangle stores (last first) are, at each index, the payload of the first piece
  whose rectangle holds the index. When the later pieces `L` are all blocks of ONE function `G` of the buffer's index
  (piece `p` at its local index `x` is `G (p.emb x)`), the contents after `L` laid over any earlier pieces `L₀` are `G`
  wherever some piece of `L` reaches and the contents after `L₀` elsewhere — however many pieces, in whatever order.
  This is the form a buffer takes that is first filled whole (with zeros, say) and then partly overwritten tile by tile.
-/
import Idealize.ShloMosaic.Lib.Pipeline.Value

noncomputable section

namespace Cert.LibCanon

open Idealize.ShloMosaic

variable {Val : EltTy → Type} {S : Shape} {e : EltTy}

/-- The contents after the pieces `L` (each a block of `G`) laid over the pieces `L₀`: `G` where `L` reaches,
    the contents after `L₀` elsewhere. -/
theorem canon_append_apply [∀ e, Nonempty (Val e)] (G : S.Idx → Val e) (L₀ : List (View.Piece Val S e)) :
    ∀ (L : List (View.Piece Val S e)) (_ : ∀ p ∈ L, ∀ x : p.1.shape.Idx, p.2 x = G (p.1.emb x)) (y : S.Idx),
      View.canon (L ++ L₀) y = if (∃ p ∈ L, y ∈ p.1.set) then G y else View.canon L₀ y
  | [], _, y => by
    rw [if_neg (by rintro ⟨p, hp, _⟩; simp at hp)]; rfl
  | p :: L, hL, y => by
    by_cases hm : y ∈ p.1.set
    · rw [if_pos ⟨p, by simp, hm⟩]
      obtain ⟨x, rfl⟩ := p.1.exists_idx_of_mem hm
      rw [List.cons_append, show p.1.idx x = p.1.emb x from rfl, View.canon_cons_emb]
      exact hL p (by simp) x
    · rw [List.cons_append, View.canon_cons_of_not_mem _ _ hm,
        canon_append_apply G L₀ L (fun q hq => hL q (by simp [hq])) y]
      refine if_congr ⟨fun ⟨q, hq, hy⟩ => ⟨q, by simp [hq], hy⟩, fun ⟨q, hq, hy⟩ => ?_⟩ rfl rfl
      rcases List.mem_cons.mp hq with rfl | hq'
      · exact absurd hy hm
      · exact ⟨q, hq', hy⟩

/-- Where no piece of `L` reaches, the contents are those after `L₀`. -/
theorem canon_append_of_forall_not_mem [∀ e, Nonempty (Val e)] (L₀ : List (View.Piece Val S e)) :
    ∀ (L : List (View.Piece Val S e)) (y : S.Idx) (_ : ∀ p ∈ L, y ∉ p.1.set), View.canon (L ++ L₀) y = View.canon L₀ y
  | [], _, _ => rfl
  | p :: L, y, h => by
    rw [List.cons_append, View.canon_cons_of_not_mem _ _ (h p (by simp))]
    exact canon_append_of_forall_not_mem L₀ L y fun q hq => h q (by simp [hq])

/-! ## One store at a time, by coordinates

A store through the unit-stride rectangle at offsets `off` of sizes `sz` changes the contents exactly at the indices
`y` with `off a ≤ y a < off a + sz a` on every axis; there the new contents are the payload at `y − off`. A store
that first loads the rectangle's words and stores them back with a sub-box replaced (offsets `start` inside the
rectangle, the sub-box's own shape `U`) changes the contents exactly on the sub-box, `off a + start a ≤ y a <
off a + start a + U.size a`; there the new contents are the replacement at `y − off − start`. -/

section Steps

variable {sig : RefSig} {κ : Kind} {sp : Space}

/-- Off a rectangle a store through it changes nothing. -/
theorem canon_cons_unit_of_not_in [∀ e, Nonempty (Val e)] (off sz : Fin S.rank → Nat) (inb : ∀ a, off a + sz a ≤ S.size a)
    (w : (Rect.unit off sz inb).shape.Idx → Val e) (L : List (View.Piece Val S e)) (y : S.Idx)
    (hnot : ¬ ∀ a : Fin S.rank, off a ≤ (y a).val ∧ (y a).val < off a + sz a) :
    View.canon (⟨Rect.unit off sz inb, w⟩ :: L) y = View.canon L y :=
  View.canon_cons_of_not_mem _ _ (fun hm => hnot ((Rect.mem_set_unit (inb := inb)).mp hm))

/-- On the rectangle the contents are the payload at the local index. -/
theorem canon_cons_unit_of_in [∀ e, Nonempty (Val e)] (off sz : Fin S.rank → Nat) (inb : ∀ a, off a + sz a ≤ S.size a)
    (w : (Rect.unit off sz inb).shape.Idx → Val e) (L : List (View.Piece Val S e)) (y : S.Idx)
    (x : (Rect.unit off sz inb).shape.Idx) (hy : ∀ a : Fin S.rank, (y a).val = off a + (x a).val) :
    View.canon (⟨Rect.unit off sz inb, w⟩ :: L) y = w x := by
  have e : y = (Rect.unit off sz inb).emb x := funext fun a => Fin.ext (by rw [Rect.emb_apply]; simp only [Rect.off_unit, Rect.stride_unit, Nat.one_mul]; exact hy a)
  rw [e, View.canon_cons_emb]

/-- A store that puts back the words it loaded, with a sub-box replaced: off the sub-box nothing changes. -/
theorem canon_cons_updateSlice_of_not_in [∀ e, Nonempty (Val e)] (v : View sig κ sp S e)
    (off sz : Fin S.rank → Nat) (inb : ∀ a, off a + sz a ≤ S.size a) (L : List (View.Piece Val S e)) {U : Shape}
    (u : U.Idx → Val e) (start : Fin S.rank → Nat) (hsl : (Rect.unit off sz inb).shape.Slices start U) (y : S.Idx)
    (hnot : ¬ ∀ a : Fin S.rank, off a + start a ≤ (y a).val ∧ (y a).val < off a + start a + U.size (a.cast hsl.1.symm)) :
    View.canon (⟨Rect.unit off sz inb, updateSlice (v.readCov L (Rect.unit off sz inb).toLoadRect) u start hsl⟩ :: L) y
      = View.canon L y := by
  by_cases hm : y ∈ (Rect.unit off sz inb).set
  · obtain ⟨x, rfl⟩ := (Rect.unit off sz inb).exists_idx_of_mem hm
    rw [show (Rect.unit off sz inb).idx x = (Rect.unit off sz inb).emb x from rfl, View.canon_cons_emb]
    unfold updateSlice
    rw [dif_neg, View.readCov_eq_canon']
    · rfl
    · intro hin
      apply hnot
      intro a
      have h1 := hin a
      have e : (((Rect.unit off sz inb).idx x) a : Nat) = off a + 1 * (x a).val := rfl
      omega
  · exact View.canon_cons_of_not_mem _ _ hm

/-- On the sub-box the contents are the replacement at the local index. -/
theorem canon_cons_updateSlice_of_in [∀ e, Nonempty (Val e)] (v : View sig κ sp S e)
    (off sz : Fin S.rank → Nat) (inb : ∀ a, off a + sz a ≤ S.size a) (L : List (View.Piece Val S e)) {U : Shape}
    (u : U.Idx → Val e) (start : Fin S.rank → Nat) (hsl : (Rect.unit off sz inb).shape.Slices start U) (y : S.Idx)
    (x' : U.Idx) (hy : ∀ a : Fin S.rank, (y a).val = off a + start a + (x' (a.cast hsl.1.symm)).val) :
    View.canon (⟨Rect.unit off sz inb, updateSlice (v.readCov L (Rect.unit off sz inb).toLoadRect) u start hsl⟩ :: L) y
      = u x' := by
  have hm : y ∈ (Rect.unit off sz inb).set := Rect.mem_set_unit.mpr fun a => by
    have h1 := hy a
    have h2 : start a + U.size (a.cast hsl.1.symm) ≤ sz a := hsl.2 a
    have h3 := (x' (a.cast hsl.1.symm)).isLt
    omega
  obtain ⟨x, rfl⟩ := (Rect.unit off sz inb).exists_idx_of_mem hm
  rw [show (Rect.unit off sz inb).idx x = (Rect.unit off sz inb).emb x from rfl, View.canon_cons_emb]
  have hx : ∀ a : Fin S.rank, (x a).val = start a + (x' (a.cast hsl.1.symm)).val := fun a => by
    have h1 := hy a
    have e : (((Rect.unit off sz inb).idx x) a : Nat) = off a + 1 * (x a).val := rfl
    omega
  unfold updateSlice
  rw [dif_pos (fun a => by have := hx a; have := (x' (a.cast hsl.1.symm)).isLt; omega)]
  refine congrArg u (funext fun b => Fin.ext ?_)
  have := hx (b.cast hsl.1)
  show (x (b.cast hsl.1)).val - start (b.cast hsl.1) = (x' b).val
  have e : (b.cast hsl.1).cast hsl.1.symm = b := rfl
  rw [e] at this
  omega

end Steps

end Cert.LibCanon

end
-- ==== Proof.RArrLib.lean ====
/-
  Three readings used by the two residual blocks of the reference, at the ideal values.

  A whole buffer read back through the whole-shape rectangle is its contents. One 128 × 128 tap of the nine held as a
  9 × 128 × 128 array, read through the unit rectangle at offset `(T, 0, 0)`, is the array at `(T, ·, ·)`. And a
  34 × 34 × C scratch that was first filled whole with zeros and then had its 32 × 32 interior (offset `(1, 1, 0)`)
  overwritten by an image `A`, read back whole, is `A` padded by one ring of zeros: at `(i, j)` with
  `1 ≤ i, j ≤ 32` the interior store is the last to reach the position and holds `A (i − 1) (j − 1)`; on the ring only the
  zero fill reaches it.
-/
import proofs.«145656_g2000601261699844_pallasbulk_55_1_alg».proof.Proof.Gen.ReferenceIdeal.Skeleton
import proofs.«145656_g2000601261699844_pallasbulk_55_1_alg».proof.Proof.Spec
import proofs.«145656_g2000601261699844_pallasbulk_55_1_alg».proof.Proof.LibCanon
import Idealize.ShloMosaic.Lib.Pipeline.Frame
import Idealize.ShloMosaic.Lib.Pipeline.Value
import Idealize.ShloMosaic.Lib.ValueIdx
import Idealize.ShloMosaic.PureOps.Ideal

noncomputable section

namespace Cert.ReferenceIdeal.ArrLib

open Idealize.ShloMosaic Idealize.ShloMosaic.ValueIdx Cert.ReferenceIdeal Cert.ReferenceIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

variable {sg : RefSig} {κ : Kind} {sp : Space}

/-- A whole buffer holding `x`, read through the whole-shape rectangle, reads `x`. -/
theorem readAt_whole {S : Shape} {e : EltTy} {Val : EltTy → Type} (M : Memref sg κ sp S e) (hM : M.IsWhole) (x : S.Idx → Val e)
    {off : Fin S.rank → Nat} (hz : off = fun _ => 0) (inb : ∀ a, off a + S.size a ≤ S.size a) :
    View.readAt Val M.view (Rect.unit off S.size inb).toLoadRect (hM.unread x) = x := by
  show View.ld (M.view.read Val (hM.unread x)) (Rect.unit off S.size inb) = x
  rw [hM.read_unread, View.ld_unit_zero hz]

/-- Tap `T` of the nine, read at `(0, c, p)`: the array at `(T, c, p)`. -/
theorem readAt_tap {Val : EltTy → Type} (M : Memref sg κ sp S9x128x128 .f32) (hM : M.IsWhole) (x : S9x128x128.Idx → Val .f32)
    (T : Nat) (hT : T < 9) (inb : ∀ a, (![T, 0, 0] : Fin 3 → Nat) a + S1x128x128.size a ≤ S9x128x128.size a) (c p : Fin 128) :
    View.readAt Val M.view (Rect.unit (s := S9x128x128) ![T, 0, 0] S1x128x128.size inb).toLoadRect (hM.unread x) (ix3 (0 : Fin 1) c p)
      = x (ix3 (⟨T, hT⟩ : Fin 9) c p) := by
  show View.ld (M.view.read Val (hM.unread x)) (Rect.unit (s := S9x128x128) ![T, 0, 0] S1x128x128.size inb) (ix3 (0 : Fin 1) c p) = _
  rw [hM.read_unread]
  show x ((Rect.unit (s := S9x128x128) ![T, 0, 0] S1x128x128.size inb).idx (ix3 (0 : Fin 1) c p)) = _
  refine congrArg x (funext fun a => Fin.ext ?_)
  match a with
  | ⟨0, _⟩ => exact Nat.add_zero T
  | ⟨1, _⟩ => show 0 + 1 * c.val = c.val; omega
  | ⟨2, _⟩ => show 0 + 1 * p.val = p.val; omega

/-- The scratch read back whole after the zero fill and the interior store: the stored image padded by a ring of zeros. -/
theorem padded_apply (v : View sg κ sp S34x34x128 .f32)
    (inbI : ∀ a, (![1, 1, 0] : Fin 3 → Nat) a + S32x32x128.size a ≤ S34x34x128.size a)
    (inbW : ∀ a, (![0, 0, 0] : Fin 3 → Nat) a + S34x34x128.size a ≤ S34x34x128.size a)
    (P4 : S32x32x128.Idx → Elt Ideal .f32) (P3 : S34x34x128.Idx → Elt Ideal .f32) (hP3 : ∀ y, P3 y = (0 : EReal))
    (i j : Fin 34) (c : Fin 128) :
    v.readCov (Val := Elt Ideal) [⟨Rect.unit (s := S34x34x128) ![1, 1, 0] S32x32x128.size inbI, P4⟩,
        ⟨Rect.unit (s := S34x34x128) ![0, 0, 0] S34x34x128.size inbW, P3⟩]
        (Rect.unit (s := S34x34x128) ![0, 0, 0] S34x34x128.size inbW).toLoadRect (ix3 i j c)
      = Cert.Spec.pad (fun h w ch => P4 (ix3 h w ch)) i.val j.val c := by
  rw [View.readCov_eq_canon']
  have hidx : (Rect.unit (s := S34x34x128) ![0, 0, 0] S34x34x128.size inbW).toLoadRect.idx (ix3 i j c) = ix3 i j c := by
    funext a; apply Fin.ext
    match a with
    | ⟨0, _⟩ => show 0 + 1 * i.val = i.val; omega
    | ⟨1, _⟩ => show 0 + 1 * j.val = j.val; omega
    | ⟨2, _⟩ => show 0 + 1 * c.val = c.val; omega
  show View.canon _ ((Rect.unit (s := S34x34x128) ![0, 0, 0] S34x34x128.size inbW).toLoadRect.idx (ix3 i j c)) = _
  rw [hidx]
  unfold Cert.Spec.pad
  by_cases hin : (1 ≤ i.val ∧ i.val ≤ 32) ∧ (1 ≤ j.val ∧ j.val ≤ 32)
  · rw [dif_pos hin]
    refine Cert.LibCanon.canon_cons_unit_of_in (Val := Elt Ideal) (e := .f32) (S := S34x34x128) ![1, 1, 0] S32x32x128.size inbI P4 _ (ix3 i j c)
      (ix3 (⟨i.val - 1, by omega⟩ : Fin 32) (⟨j.val - 1, by omega⟩ : Fin 32) c) fun a => ?_
    match a with
    | ⟨0, _⟩ => show i.val = 1 + (i.val - 1); omega
    | ⟨1, _⟩ => show j.val = 1 + (j.val - 1); omega
    | ⟨2, _⟩ => show c.val = 0 + c.val; omega
  · rw [dif_neg hin]
    rw [Cert.LibCanon.canon_cons_unit_of_not_in (Val := Elt Ideal) (e := .f32) (S := S34x34x128) ![1, 1, 0] S32x32x128.size inbI P4 _ (ix3 i j c) (fun hall => hin (by
      have h0 : 1 ≤ i.val ∧ i.val < 1 + 32 := hall 0
      have h1 : 1 ≤ j.val ∧ j.val < 1 + 32 := hall 1
      omega))]
    rw [View.canon_unit_zero (Val := Elt Ideal) hz3]
    exact hP3 _

end Cert.ReferenceIdeal.ArrLib

end
-- ==== Proof.RArr1.lean ====
/-
  The reference's first residual block over the whole array.

  The region's grid has 64 points; point `t` works on image `t`, the 1024 rows `t · 1024 + r` of the row operand, and
  writes back rows `t · 1024 + r` of the result; every weight and bias window is the whole array at every point. So
  the result array is the block function of the specification, image by image: row `i` is pixel
  `(i mod 1024 / 32, i mod 32)` of image `i / 1024`. What the body stores at a pixel is read off the run's one piece:
  the scratch as loaded back is the entry layer's image padded by a ring of zeros, the nine 128 × 128 taps are the
  slices of the 9 × 128 × 128 weights, and the rest are dense layers on the pixel's row.
-/
import proofs.«145656_g2000601261699844_pallasbulk_55_1_alg».proof.Proof.RRun
import proofs.«145656_g2000601261699844_pallasbulk_55_1_alg».proof.Proof.RV1
import proofs.«145656_g2000601261699844_pallasbulk_55_1_alg».proof.Proof.RArrLib
import proofs.«145656_g2000601261699844_pallasbulk_55_1_alg».proof.Proof.RParams

set_option maxRecDepth 16384

noncomputable section

namespace Cert.ReferenceIdeal.Value

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Body Cert.ReferenceIdeal.BlockValue Cert.ReferenceIdeal.ArrLib

/-! ## What the body stores at a pixel -/

/-- The nine taps held as one 9 × 128 × 128 array, tap `3·ky + kx` first. -/
def W9of1 (x3 : Vec Ideal S9x128x128 .f32) : Fin 3 → Fin 3 → Fin 128 → Fin 128 → EReal :=
  fun ky kx ch p => x3 (ix3 (⟨ky.val * 3 + kx.val, by have := ky.isLt; have := kx.isLt; omega⟩ : Fin 9) ch p)

/-- The zero fill is zero everywhere. -/
theorem pay3_zero1 (y : S34x34x128.Idx) : Gen.k1_pay3 (F := Ideal) y = (0 : EReal) := by
  unfold Gen.k1_pay3
  refine (congrFun (shapeCast_self _ _) y).trans ?_
  exact Ideal.ofBits_zero_f32

set_option maxHeartbeats 1600000 in
/-- The run's one piece, read at pixel `(h, w)` and channel `q`: the block's formula over the input blocks. -/
theorem out1_apply (c : Dev nD) (i : grid1.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S34x34x128 .f32) (harg11 : arg11.IsWhole)
    (x0 : Vec Ideal S1024x512 .f32) (x1 : Vec Ideal S512x128 .f32) (x2 : Vec Ideal S1x128 .f32) (x3 : Vec Ideal S9x128x128 .f32) (x4 : Vec Ideal S1x128 .f32) (x5 : Vec Ideal S128x256 .f32) (x6 : Vec Ideal S1x256 .f32) (x7 : Vec Ideal S512x256 .f32) (x8 : Vec Ideal S1x256 .f32) (h w : Fin 32) (q : Fin 256) :
    out1 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 (row h w) q)
      = Cert.Spec.relu (Cert.Spec.dense
          (fun p => Cert.Spec.relu (Cert.Spec.conv (fun h w ch => Gen.k1_pay4 x0 x1 x2 (ix3 h w ch)) (W9of1 x3) (fun p => x4 (ix2 (0 : Fin 1) p)) h w p))
          (fun p q => x5 (ix2 p q)) (fun q => x6 (ix2 (0 : Fin 1) q)) q
        + Cert.Spec.dense (fun k => x0 (ix2 (row h w) k)) (fun k q => x7 (ix2 k q)) (fun q => x8 (ix2 (0 : Fin 1) q)) q) := by
  unfold out1
  unfold kernelRun1
  dsimp only
  refine (congrFun (View.canon_unit_zero (Val := Elt Ideal) (S := S1024x256) hz2 _ _) _).trans ?_
  unfold kernelRun1.sl.r kernelRun1.sl.r_4 kernelRun1.sl.r_5 kernelRun1.sl.r_6 kernelRun1.sl.r_1 kernelRun1.sl.r_2 kernelRun1.sl.r_3 kernelRun1.sl.v19 kernelRun1.sl.HS_2
  simp only [readAt_whole _ harg1 x0 hz2, readAt_whole _ harg2 x1 hz2, readAt_whole _ harg3 x2 hz2, readAt_whole _ harg5 x4 hz2, readAt_whole _ harg6 x5 hz2, readAt_whole _ harg7 x6 hz2, readAt_whole _ harg8 x7 hz2, readAt_whole _ harg9 x8 hz2]
  exact k1_block_apply x0 _ _ _ _ _ _ _ _ _ _ x4 x5 x6 x7 x8 (fun h w ch => Gen.k1_pay4 x0 x1 x2 (ix3 h w ch))
    (fun i j ch => padded_apply _ _ _ _ _ pay3_zero1 i j ch) (W9of1 x3)
    (fun c p => readAt_tap _ harg4 x3 0 (by omega) _ c p)
    (fun c p => readAt_tap _ harg4 x3 1 (by omega) _ c p)
    (fun c p => readAt_tap _ harg4 x3 2 (by omega) _ c p)
    (fun c p => readAt_tap _ harg4 x3 3 (by omega) _ c p)
    (fun c p => readAt_tap _ harg4 x3 4 (by omega) _ c p)
    (fun c p => readAt_tap _ harg4 x3 5 (by omega) _ c p)
    (fun c p => readAt_tap _ harg4 x3 6 (by omega) _ c p)
    (fun c p => readAt_tap _ harg4 x3 7 (by omega) _ c p)
    (fun c p => readAt_tap _ harg4 x3 8 (by omega) _ c p)
    h w q

/-- With the input blocks the specification's — the rows the block's input at this image, the weights and biases the
    folded parameters — the stored block is the specification's block function at the pixel. -/
theorem block1 (P : Cert.Spec.Params) (X : Fin 32 → Fin 32 → Fin 128 → EReal) (c : Dev nD) (i : grid1.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S34x34x128 .f32) (harg11 : arg11.IsWhole)
    (x0 : Vec Ideal S1024x512 .f32) (x1 : Vec Ideal S512x128 .f32) (x2 : Vec Ideal S1x128 .f32) (x3 : Vec Ideal S9x128x128 .f32) (x4 : Vec Ideal S1x128 .f32) (x5 : Vec Ideal S128x256 .f32) (x6 : Vec Ideal S1x256 .f32) (x7 : Vec Ideal S512x256 .f32) (x8 : Vec Ideal S1x256 .f32)
    (hx0 : ∀ (h w : Fin 32) (k : Fin 512), x0 (ix2 (row h w) k) = Cert.Spec.stem P X h w k)
    (hx1 : ∀ (k : Fin 512) (p : Fin 128), x1 (ix2 k p) = P.W01 k p)
    (hx2 : ∀ p : Fin 128, x2 (ix2 (0 : Fin 1) p) = P.b01 p)
    (hx3 : ∀ (ky kx : Fin 3) (ch p : Fin 128), W9of1 x3 ky kx ch p = P.W02 ky kx ch p)
    (hx4 : ∀ p : Fin 128, x4 (ix2 (0 : Fin 1) p) = P.b02 p)
    (hx5 : ∀ (p : Fin 128) (q : Fin 256), x5 (ix2 p q) = P.W03 p q)
    (hx6 : ∀ q : Fin 256, x6 (ix2 (0 : Fin 1) q) = P.b03 q)
    (hx7 : ∀ (k : Fin 512) (q : Fin 256), x7 (ix2 k q) = P.W0d k q)
    (hx8 : ∀ q : Fin 256, x8 (ix2 (0 : Fin 1) q) = P.b0d q)
    (h w : Fin 32) (q : Fin 256) :
    out1 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 (row h w) q) = Cert.Spec.b0out P X h w q := by
  rw [out1_apply]
  unfold Cert.Spec.b0out Cert.Spec.b0mid Cert.Spec.b0proj
  have hA : (fun h w ch => Gen.k1_pay4 x0 x1 x2 (ix3 h w ch)) = Cert.Spec.b0in P X := by
    funext h w ch
    rw [k1_pay4_apply]
    unfold Cert.Spec.b0in
    simp only [hx0, hx1, hx2]
  have hW : W9of1 x3 = P.W02 := by funext ky kx ch p; exact hx3 ky kx ch p
  rw [hA, hW]
  simp only [hx0, hx4, hx5, hx6, hx7, hx8]

/-! ## From blocks to the array -/

section Pipeline

variable (V : (c : Dev nD) → (b : Ref sig .tc) → Buf (Elt Ideal) ((c : Thread nD τ).loc b))

/-- The printed index maps, decided over the grid: the row window and the result window move with the point along the
    rows; every other window stays at block 0. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 3) = 0
    ∧ win1_3.index t (1 : Fin 3) = 0
    ∧ win1_3.index t (2 : Fin 3) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-- The row window's block at point `t` is image `t`: rows `t · 1024 + r` of the operand array. -/
theorem blk1_0 (c : Dev nD) (t : Fin cfg1.N) (h w : Fin 32) (k : Fin 512) :
    iblk1 V c 0 t (ix2 (row h w) k)
      = (V c main_v41 : S65536x512.Idx → EReal) (ix2 (⟨t.val * 1024 + (row h w).val, by have := t.isLt; have hN : cfg1.N = 64 := N_1; have := (row h w).isLt; omega⟩ : Fin 65536) k) := by
  show V c main_v41 (((cfg1.win 0).blk t).view.emb (ix2 (row h w) k)) = _
  refine congrArg (V c main_v41) (funext fun a => Fin.ext ?_)
  match a with
  | ⟨0, _⟩ => show win1_0.index t (0 : Fin 2) * 1024 + 1 * (row h w).val = t.val * 1024 + (row h w).val; rw [(idx1 t).1]; omega
  | ⟨1, _⟩ => show win1_0.index t (1 : Fin 2) * 512 + 1 * k.val = k.val; rw [(idx1 t).2.1]; omega
theorem blk1_1 (c : Dev nD) (t : Fin cfg1.N) (a0 : Fin 512) (a1 : Fin 128) :
    iblk1 V c 1 t (ix2 a0 a1) = (V c main_v33 : S512x128.Idx → EReal) (ix2 a0 a1) := by
  show V c main_v33 (((cfg1.win 1).blk t).view.emb (ix2 a0 a1)) = _
  refine congrArg (V c main_v33) (funext fun a => Fin.ext ?_)
  match a with
  | ⟨0, _⟩ => show win1_1.index t (0 : Fin 2) * 512 + 1 * a0.val = a0.val; rw [(idx1 t).2.2.1]; omega
  | ⟨1, _⟩ => show win1_1.index t (1 : Fin 2) * 128 + 1 * a1.val = a1.val; rw [(idx1 t).2.2.2.1]; omega
theorem blk1_2 (c : Dev nD) (t : Fin cfg1.N) (a0 : Fin 1) (a1 : Fin 128) :
    iblk1 V c 2 t (ix2 a0 a1) = (V c main_v42 : S1x128.Idx → EReal) (ix2 a0 a1) := by
  show V c main_v42 (((cfg1.win 2).blk t).view.emb (ix2 a0 a1)) = _
  refine congrArg (V c main_v42) (funext fun a => Fin.ext ?_)
  match a with
  | ⟨0, _⟩ => show win1_2.index t (0 : Fin 2) * 1 + 1 * a0.val = a0.val; rw [(idx1 t).2.2.2.2.1]; omega
  | ⟨1, _⟩ => show win1_2.index t (1 : Fin 2) * 128 + 1 * a1.val = a1.val; rw [(idx1 t).2.2.2.2.2.1]; omega
theorem blk1_3 (c : Dev nD) (t : Fin cfg1.N) (T : Fin 9) (ch p : Fin 128) :
    iblk1 V c 3 t (ix3 T ch p) = (V c main_v37 : S9x128x128.Idx → EReal) (ix3 T ch p) := by
  show V c main_v37 (((cfg1.win 3).blk t).view.emb (ix3 T ch p)) = _
  refine congrArg (V c main_v37) (funext fun a => Fin.ext ?_)
  match a with
  | ⟨0, _⟩ => show win1_3.index t (0 : Fin 3) * 9 + 1 * T.val = T.val; rw [(idx1 t).2.2.2.2.2.2.1]; omega
  | ⟨1, _⟩ => show win1_3.index t (1 : Fin 3) * 128 + 1 * ch.val = ch.val; rw [(idx1 t).2.2.2.2.2.2.2.1]; omega
  | ⟨2, _⟩ => show win1_3.index t (2 : Fin 3) * 128 + 1 * p.val = p.val; rw [(idx1 t).2.2.2.2.2.2.2.2.1]; omega
theorem blk1_4 (c : Dev nD) (t : Fin cfg1.N) (a0 : Fin 1) (a1 : Fin 128) :
    iblk1 V c 4 t (ix2 a0 a1) = (V c main_v43 : S1x128.Idx → EReal) (ix2 a0 a1) := by
  show V c main_v43 (((cfg1.win 4).blk t).view.emb (ix2 a0 a1)) = _
  refine congrArg (V c main_v43) (funext fun a => Fin.ext ?_)
  match a with
  | ⟨0, _⟩ => show win1_4.index t (0 : Fin 2) * 1 + 1 * a0.val = a0.val; rw [(idx1 t).2.2.2.2.2.2.2.2.2.1]; omega
  | ⟨1, _⟩ => show win1_4.index t (1 : Fin 2) * 128 + 1 * a1.val = a1.val; rw [(idx1 t).2.2.2.2.2.2.2.2.2.2.1]; omega
theorem blk1_5 (c : Dev nD) (t : Fin cfg1.N) (a0 : Fin 128) (a1 : Fin 256) :
    iblk1 V c 5 t (ix2 a0 a1) = (V c main_v40 : S128x256.Idx → EReal) (ix2 a0 a1) := by
  show V c main_v40 (((cfg1.win 5).blk t).view.emb (ix2 a0 a1)) = _
  refine congrArg (V c main_v40) (funext fun a => Fin.ext ?_)
  match a with
  | ⟨0, _⟩ => show win1_5.index t (0 : Fin 2) * 128 + 1 * a0.val = a0.val; rw [(idx1 t).2.2.2.2.2.2.2.2.2.2.2.1]; omega
  | ⟨1, _⟩ => show win1_5.index t (1 : Fin 2) * 256 + 1 * a1.val = a1.val; rw [(idx1 t).2.2.2.2.2.2.2.2.2.2.2.2.1]; omega
theorem blk1_6 (c : Dev nD) (t : Fin cfg1.N) (a0 : Fin 1) (a1 : Fin 256) :
    iblk1 V c 6 t (ix2 a0 a1) = (V c main_v44 : S1x256.Idx → EReal) (ix2 a0 a1) := by
  show V c main_v44 (((cfg1.win 6).blk t).view.emb (ix2 a0 a1)) = _
  refine congrArg (V c main_v44) (funext fun a => Fin.ext ?_)
  match a with
  | ⟨0, _⟩ => show win1_6.index t (0 : Fin 2) * 1 + 1 * a0.val = a0.val; rw [(idx1 t).2.2.2.2.2.2.2.2.2.2.2.2.2.1]; omega
  | ⟨1, _⟩ => show win1_6.index t (1 : Fin 2) * 256 + 1 * a1.val = a1.val; rw [(idx1 t).2.2.2.2.2.2.2.2.2.2.2.2.2.2.1]; omega
theorem blk1_7 (c : Dev nD) (t : Fin cfg1.N) (a0 : Fin 512) (a1 : Fin 256) :
    iblk1 V c 7 t (ix2 a0 a1) = (V c main_v53 : S512x256.Idx → EReal) (ix2 a0 a1) := by
  show V c main_v53 (((cfg1.win 7).blk t).view.emb (ix2 a0 a1)) = _
  refine congrArg (V c main_v53) (funext fun a => Fin.ext ?_)
  match a with
  | ⟨0, _⟩ => show win1_7.index t (0 : Fin 2) * 512 + 1 * a0.val = a0.val; rw [(idx1 t).2.2.2.2.2.2.2.2.2.2.2.2.2.2.2.1]; omega
  | ⟨1, _⟩ => show win1_7.index t (1 : Fin 2) * 256 + 1 * a1.val = a1.val; rw [(idx1 t).2.2.2.2.2.2.2.2.2.2.2.2.2.2.2.2.1]; omega
theorem blk1_8 (c : Dev nD) (t : Fin cfg1.N) (a0 : Fin 1) (a1 : Fin 256) :
    iblk1 V c 8 t (ix2 a0 a1) = (V c main_v54 : S1x256.Idx → EReal) (ix2 a0 a1) := by
  show V c main_v54 (((cfg1.win 8).blk t).view.emb (ix2 a0 a1)) = _
  refine congrArg (V c main_v54) (funext fun a => Fin.ext ?_)
  match a with
  | ⟨0, _⟩ => show win1_8.index t (0 : Fin 2) * 1 + 1 * a0.val = a0.val; rw [(idx1 t).2.2.2.2.2.2.2.2.2.2.2.2.2.2.2.2.2.1]; omega
  | ⟨1, _⟩ => show win1_8.index t (1 : Fin 2) * 256 + 1 * a1.val = a1.val; rw [(idx1 t).2.2.2.2.2.2.2.2.2.2.2.2.2.2.2.2.2.2.1]; omega

end Pipeline

variable (m : (ℓ : Loc nD τ sig) → Buf (Elt Ideal) ℓ) (c : Dev nD)

/-- The entry contents of the region under the whole family. -/
theorem U3_eq (r : Ref sig .tc) : U3 m c r = Gen.V3 m (outs m) c r := (congrFun (V3_eq m c) _).symm

/-- Row `r` of the 65536 is pixel `(prow r, pcol r)` of image `img r`. -/
abbrev img1 (r : Nat) (hr : r < 65536) : Fin 64 := ⟨r / 1024, by omega⟩
abbrev prow1 (r : Nat) : Fin 32 := ⟨r % 1024 / 32, by omega⟩
abbrev pcol1 (r : Nat) : Fin 32 := ⟨r % 32, by omega⟩

/-- The result array, as the specification has it. -/
def G1 : S65536x256.Idx → EReal := fun i =>
  Cert.Spec.b0out (PR m (outs m) c) (XR m c (img1 (i 0).val (i 0).isLt)) (prow1 (i 0).val) (pcol1 (i 0).val) (i 1)

/-- An index of the result array is in point `t`'s block iff each coordinate is in the block's range on its axis. -/
theorem mem_blk1 (t : Fin cfg1.N) (i : S65536x256.Idx) :
    i ∈ ((cfg1.win 9).blk t).view.set ↔ ∀ a : Fin 2, win1_9.index t a * S1024x256.size a ≤ (i a).val ∧ (i a).val < win1_9.index t a * S1024x256.size a + S1024x256.size a := by
  show i ∈ ((View.whole main_v55).slice (win1_9.rect t)).set ↔ _
  rw [View.set_slice_whole, Rect.mem_set_unit]
  exact Iff.rfl

/-- Every row of the result is in the block of the point of its image. -/
theorem hcover1 (i : S65536x256.Idx) : ∃ t : Fin cfg1.N, (cfg1.win 9).flush t = true ∧ i ∈ ((cfg1.win 9).blk t).view.set := by
  have hi0 : (i 0).val < 65536 := (i 0).isLt
  have hi1 : (i 1).val < 256 := (i 1).isLt
  have hN : cfg1.N = 64 := N_1
  let t : Fin cfg1.N := ⟨(i 0).val / 1024, by omega⟩
  have ht : t.val = (i 0).val / 1024 := rfl
  refine ⟨t, flush1_9 t, ?_⟩
  rw [mem_blk1]
  intro a
  match a with
  | ⟨0, _⟩ => show win1_9.index t (0 : Fin 2) * 1024 ≤ (i 0).val ∧ (i 0).val < win1_9.index t (0 : Fin 2) * 1024 + 1024; rw [(idx1 t).2.2.2.2.2.2.2.2.2.2.2.2.2.2.2.2.2.2.2.1]; omega
  | ⟨1, _⟩ => show win1_9.index t (1 : Fin 2) * 256 ≤ (i 1).val ∧ (i 1).val < win1_9.index t (1 : Fin 2) * 256 + 256; rw [(idx1 t).2.2.2.2.2.2.2.2.2.2.2.2.2.2.2.2.2.2.2.2]; omega

/-- Every index of a 1024 × 256 block is a pixel's row and a channel. -/
theorem split_row1 (j : S1024x256.Idx) : ∃ (h w : Fin 32) (q : Fin 256), j = ix2 (row h w) q := by
  have hj : (j 0).val < 1024 := (j 0).isLt
  refine ⟨⟨(j 0).val / 32, by omega⟩, ⟨(j 0).val % 32, by omega⟩, j 1, ?_⟩
  funext a; apply Fin.ext
  match a with
  | ⟨0, _⟩ => show (j 0).val = (j 0).val / 32 * 32 + (j 0).val % 32; omega
  | ⟨1, _⟩ => rfl

/-- The row operand at row `t · 1024 + (h · 32 + w)` is the specification's block input at pixel `(h, w)` of image `t`. -/
theorem S0_at1 (hS0 : ∀ i : S65536x512.Idx, (U3 m c main_v41 : S65536x512.Idx → EReal) i
      = Cert.Spec.stem (PR m (outs m) c) (XR m c (img1 (i 0).val (i 0).isLt)) (prow1 (i 0).val) (pcol1 (i 0).val) (i 1))
    (t : Fin 64) (h w : Fin 32) (k : Fin 512) (i : S65536x512.Idx)
    (h0 : (i 0).val = t.val * 1024 + (row h w).val) (h1 : (i 1).val = k.val) :
    (U3 m c main_v41 : S65536x512.Idx → EReal) i = Cert.Spec.stem (PR m (outs m) c) (XR m c t) h w k := by
  rw [hS0 i]
  have hh := h.isLt; have hw := w.isLt; have ht := t.isLt
  have hr : (row h w).val = h.val * 32 + w.val := rfl
  have i1 : img1 (i 0).val (i 0).isLt = t := Fin.ext (by show (i 0).val / 1024 = t.val; rw [h0, hr]; omega)
  have i2 : prow1 (i 0).val = h := Fin.ext (by show (i 0).val % 1024 / 32 = h.val; rw [h0, hr]; omega)
  have i3 : pcol1 (i 0).val = w := Fin.ext (by show (i 0).val % 32 = w.val; rw [h0, hr]; omega)
  have i4 : (i 1 : Fin 512) = k := Fin.ext h1
  rw [i1, i2, i3, i4]

/-- The specification's array at row `t · 1024 + (h · 32 + w)` and column `q` is its block function at pixel `(h, w)` of image `t`. -/
theorem G_at1 (t : Fin 64) (h w : Fin 32) (q : Fin 256) (i : S65536x256.Idx)
    (h0 : (i 0).val = t.val * 1024 + (row h w).val) (h1 : (i 1).val = q.val) :
    G1 m c i = Cert.Spec.b0out (PR m (outs m) c) (XR m c t) h w q := by
  unfold G1
  have hh := h.isLt; have hw := w.isLt; have ht := t.isLt
  have hr : (row h w).val = h.val * 32 + w.val := rfl
  have i1 : img1 (i 0).val (i 0).isLt = t := Fin.ext (by show (i 0).val / 1024 = t.val; rw [h0, hr]; omega)
  have i2 : prow1 (i 0).val = h := Fin.ext (by show (i 0).val % 1024 / 32 = h.val; rw [h0, hr]; omega)
  have i3 : pcol1 (i 0).val = w := Fin.ext (by show (i 0).val % 32 = w.val; rw [h0, hr]; omega)
  have i4 : (i 1 : Fin 256) = q := Fin.ext h1
  rw [i1, i2, i3, i4]

/-- The grid point as an image number. -/
abbrev tImg1 (t : Fin cfg1.N) : Fin 64 := ⟨t.val, by have := t.isLt; have hN : cfg1.N = 64 := N_1; omega⟩

/-! The input blocks at point `t` are the specification's: the rows the block's input at image `t`, the weights and
    biases the folded parameters (each window's block is the whole operand array, read under the whole family). -/
theorem hx1_0 (hS0 : ∀ i : S65536x512.Idx, (U3 m c main_v41 : S65536x512.Idx → EReal) i
      = Cert.Spec.stem (PR m (outs m) c) (XR m c (img1 (i 0).val (i 0).isLt)) (prow1 (i 0).val) (pcol1 (i 0).val) (i 1)) (t : Fin cfg1.N) (h w : Fin 32) (k : Fin 512) :
    iblk1 (U3 m) c 0 t (ix2 (row h w) k) = Cert.Spec.stem (PR m (outs m) c) (XR m c (tImg1 t)) h w k :=
  (blk1_0 (U3 m) c t h w k).trans (S0_at1 m c hS0 (tImg1 t) h w k _ rfl rfl)
theorem hx1_1 (t : Fin cfg1.N) (a : Fin 512) (b : Fin 128) :
    iblk1 (U3 m) c 1 t (ix2 a b) = (PR m (outs m) c).W01 a b :=
  (blk1_1 (U3 m) c t a b).trans (congrFun (U3_eq m c main_v33) _)
theorem hx1_2 (t : Fin cfg1.N) (p : Fin 128) :
    iblk1 (U3 m) c 2 t (ix2 (0 : Fin 1) p) = (PR m (outs m) c).b01 p :=
  (blk1_2 (U3 m) c t 0 p).trans (congrFun (U3_eq m c main_v42) _)
theorem hx1_3 (t : Fin cfg1.N) (ky kx : Fin 3) (ch p : Fin 128) :
    W9of1 (iblk1 (U3 m) c 3 t) ky kx ch p = (PR m (outs m) c).W02 ky kx ch p :=
  (blk1_3 (U3 m) c t _ ch p).trans (congrFun (U3_eq m c main_v37) _)
theorem hx1_4 (t : Fin cfg1.N) (p : Fin 128) :
    iblk1 (U3 m) c 4 t (ix2 (0 : Fin 1) p) = (PR m (outs m) c).b02 p :=
  (blk1_4 (U3 m) c t 0 p).trans (congrFun (U3_eq m c main_v43) _)
theorem hx1_5 (t : Fin cfg1.N) (a : Fin 128) (b : Fin 256) :
    iblk1 (U3 m) c 5 t (ix2 a b) = (PR m (outs m) c).W03 a b :=
  (blk1_5 (U3 m) c t a b).trans (congrFun (U3_eq m c main_v40) _)
theorem hx1_6 (t : Fin cfg1.N) (p : Fin 256) :
    iblk1 (U3 m) c 6 t (ix2 (0 : Fin 1) p) = (PR m (outs m) c).b03 p :=
  (blk1_6 (U3 m) c t 0 p).trans (congrFun (U3_eq m c main_v44) _)
theorem hx1_7 (t : Fin cfg1.N) (a : Fin 512) (b : Fin 256) :
    iblk1 (U3 m) c 7 t (ix2 a b) = (PR m (outs m) c).W0d a b :=
  (blk1_7 (U3 m) c t a b).trans (congrFun (U3_eq m c main_v53) _)
theorem hx1_8 (t : Fin cfg1.N) (p : Fin 256) :
    iblk1 (U3 m) c 8 t (ix2 (0 : Fin 1) p) = (PR m (outs m) c).b0d p :=
  (blk1_8 (U3 m) c t 0 p).trans (congrFun (U3_eq m c main_v54) _)

set_option maxHeartbeats 1600000 in
/-- WHAT POINT `t` WRITES BACK is block `t` of the specification's array, when the row operand is the specification's. -/
theorem flushed1_eq (hS0 : ∀ i : S65536x512.Idx, (U3 m c main_v41 : S65536x512.Idx → EReal) i
      = Cert.Spec.stem (PR m (outs m) c) (XR m c (img1 (i 0).val (i 0).isLt)) (prow1 (i 0).val) (pcol1 (i 0).val) (i 1))
    (t : Fin cfg1.N) :
    (dat1 (U3 m) c).flushed 9 t = ((cfg1.win 9).blk t).view.read (Elt Ideal) (G1 m c) := by
  show (cfg1.win 9).cut (grid1.coords t) ((dat1 (U3 m) c).after 9 t) = _
  rw [after1_9]
  funext j
  obtain ⟨h, w, q, rfl⟩ := split_row1 j
  refine (block1 (PR m (outs m) c) (XR m c (tImg1 t)) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.whole cc1_scratch0) (Memref.isWhole_whole _)
    (iblk1 (U3 m) c 0 t) (iblk1 (U3 m) c 1 t) (iblk1 (U3 m) c 2 t) (iblk1 (U3 m) c 3 t) (iblk1 (U3 m) c 4 t) (iblk1 (U3 m) c 5 t) (iblk1 (U3 m) c 6 t) (iblk1 (U3 m) c 7 t) (iblk1 (U3 m) c 8 t)
    (hx1_0 m c hS0 t) (hx1_1 m c t) (hx1_2 m c t) (hx1_3 m c t) (hx1_4 m c t) (hx1_5 m c t) (hx1_6 m c t) (hx1_7 m c t) (hx1_8 m c t)
    h w q).trans ?_
  show _ = G1 m c (((cfg1.win 9).blk t).view.emb (ix2 (row h w) q))
  refine (G_at1 m c (tImg1 t) h w q _ ?_ ?_).symm
  · show win1_9.index t (0 : Fin 2) * 1024 + 1 * (row h w).val = t.val * 1024 + (row h w).val; rw [(idx1 t).2.2.2.2.2.2.2.2.2.2.2.2.2.2.2.2.2.2.2.1]; omega
  · show win1_9.index t (1 : Fin 2) * 256 + 1 * q.val = q.val; rw [(idx1 t).2.2.2.2.2.2.2.2.2.2.2.2.2.2.2.2.2.2.2.2]; omega

/-- THE WHOLE-ARRAY POST of region 1: given the row operand is the specification's, the result array is the
    specification's block function, image by image. -/
theorem harr1
    (hS0 : ∀ i : S65536x512.Idx, (U3 m c main_v41 : S65536x512.Idx → EReal) i
      = Cert.Spec.stem (PR m (outs m) c) (XR m c (img1 (i 0).val (i 0).isLt)) (prow1 (i 0).val) (pcol1 (i 0).val) (i 1)) :
    (dat1 (U3 m) c).arrAt 9 cfg1.N = G1 m c :=
  (dat1 (U3 m) c).arrAt_eq_of_cover 9 (G1 m c) (fun t _ => flushed1_eq m c hS0 t) hcover1

/-- The same with the row operand and the result as functions of the row index. -/
theorem harr1_fun
    (hrows : (U3 m c main_v41 : S65536x512.Idx → EReal)
      = fun i => Cert.Spec.stem (PR m (outs m) c) (XR m c (img1 (i 0).val (i 0).isLt)) (prow1 (i 0).val) (pcol1 (i 0).val) (i 1)) :
    ((dat1 (U3 m) c).arrAt 9 cfg1.N : S65536x256.Idx → EReal)
      = fun i => Cert.Spec.b0out (PR m (outs m) c) (XR m c (img1 (i 0).val (i 0).isLt)) (prow1 (i 0).val) (pcol1 (i 0).val) (i 1) :=
  harr1 m c (fun i => congrFun hrows i)

end Cert.ReferenceIdeal.Value

end
-- ==== Proof.RV2.lean ====
/-
  The reference's second residual block on one image, read at a pixel.

  The kernel first stores the block's entry layer (256 → 128, then `max v 0`) into the interior of a 34 × 34 scratch
  whose ring is zero, loads the scratch back whole, and accumulates the nine products of the 3 × 3 layer from zero, one
  32 × 32 window of the scratch against one weight slice at a time. With the bias and `max v 0` this is the 3 × 3
  layer at every pixel; a last dense layer (128 → 256) plus the block's own input, then `max v 0`,
  is what the kernel stores. Pixel `(h, w)` is row `h · 32 + w` of the image's 1024 rows.
-/
import proofs.«145656_g2000601261699844_pallasbulk_55_1_alg».proof.Proof.Gen.ReferenceIdeal.Skeleton
import proofs.«145656_g2000601261699844_pallasbulk_55_1_alg».proof.Proof.RVCommon

noncomputable section

namespace Cert.ReferenceIdeal.BlockValue

open Idealize.ShloMosaic Idealize.ShloMosaic.ValueIdx

/-- The printed dimension numbers of the block's products are the plain ones: rows by columns, no batch axis. -/
theorem k2_dot_in_eq : dot_S1024x256_S256x128_S1024x128_1_0_0_1_n_n = DotDims.plain 1024 256 128 := rfl
theorem k2_dot_tap_eq : dot_S1024x128_S128x128_S1024x128_1_0_0_1_n_n = DotDims.plain 1024 128 128 := rfl
theorem k2_dot_out_eq : dot_S1024x128_S128x256_S1024x256_1_0_0_1_n_n = DotDims.plain 1024 128 256 := rfl

/-- What the entry layer stores into the scratch's interior, at pixel `(h, w)` and channel `c`. -/
theorem k2_pay4_apply (v0 : Vec Ideal S1024x256 .f32) (v2 : Vec Ideal S256x128 .f32) (v5 : Vec Ideal S1x128 .f32)
    (h w : Fin 32) (c : Fin 128) :
    Gen.k2_pay4 v0 v2 v5 (ix3 h w c)
      = Cert.Spec.relu (Cert.Spec.dense (fun k => v0 (ix2 (row h w) k)) (fun k c => v2 (ix2 k c))
          (fun c => v5 (ix2 (0 : Fin 1) c)) c) := by
  unfold Gen.k2_pay4 Gen.k2_pay2
  refine (congrFun (shapeCast_self _ _) (ix3 h w c)).trans ?_
  refine (image_apply _ _ h w c).trans ?_
  refine (relu_apply _ (ix2 (row h w) c)).trans ?_
  exact congrArg Cert.Spec.relu (dense_apply _ k2_dot_in_eq v0 v2 v5 _ _ _ _ (row h w) c)

/-- The block the kernel stores, at pixel `(h, w)` and channel `q`, when the scratch as loaded back holds the padded
    image `A` and the nine weight slices are the taps of `W9`. -/
theorem k2_block_apply (v0 : Vec Ideal S1024x256 .f32) (v19 : Vec Ideal S34x34x128 .f32)
    (v23 v29 v35 v41 v47 v53 v59 v65 v71 : Vec Ideal S1x128x128 .f32)
    (v75 : Vec Ideal S1x128 .f32) (v81 : Vec Ideal S128x256 .f32) (v84 : Vec Ideal S1x256 .f32)
    (A : Fin 32 → Fin 32 → Fin 128 → EReal)
    (hpad : ∀ (i j : Fin 34) (c : Fin 128), v19 (ix3 i j c) = Cert.Spec.pad A i.val j.val c)
    (W9 : Fin 3 → Fin 3 → Fin 128 → Fin 128 → EReal)
    (h00 : ∀ (c p : Fin 128), v23 (ix3 (0 : Fin 1) c p) = W9 0 0 c p)
    (h01 : ∀ (c p : Fin 128), v29 (ix3 (0 : Fin 1) c p) = W9 0 1 c p)
    (h02 : ∀ (c p : Fin 128), v35 (ix3 (0 : Fin 1) c p) = W9 0 2 c p)
    (h10 : ∀ (c p : Fin 128), v41 (ix3 (0 : Fin 1) c p) = W9 1 0 c p)
    (h11 : ∀ (c p : Fin 128), v47 (ix3 (0 : Fin 1) c p) = W9 1 1 c p)
    (h12 : ∀ (c p : Fin 128), v53 (ix3 (0 : Fin 1) c p) = W9 1 2 c p)
    (h20 : ∀ (c p : Fin 128), v59 (ix3 (0 : Fin 1) c p) = W9 2 0 c p)
    (h21 : ∀ (c p : Fin 128), v65 (ix3 (0 : Fin 1) c p) = W9 2 1 c p)
    (h22 : ∀ (c p : Fin 128), v71 (ix3 (0 : Fin 1) c p) = W9 2 2 c p)
    (h w : Fin 32) (q : Fin 256) :
    Gen.k2_pay1 (Gen.k2_pay2 v0) v19
        (Gen.k2_pay8 v19 (Gen.k2_pay5 v19 v23) (Gen.k2_pay6 v19) (Gen.k2_pay7 v29) v35 v41 v47 v53 v59)
        (Gen.k2_pay9 v19) (Gen.k2_pay10 v65) v71 v75 v81 v84 (ix2 (row h w) q)
      = Cert.Spec.relu (Cert.Spec.dense
          (fun p => Cert.Spec.relu (Cert.Spec.conv A W9 (fun p => v75 (ix2 (0 : Fin 1) p)) h w p))
          (fun p q => v81 (ix2 p q)) (fun q => v84 (ix2 (0 : Fin 1) q)) q + v0 (ix2 (row h w) q)) := by
  unfold Gen.k2_pay1
  refine (relu_apply _ (ix2 (row h w) q)).trans (congrArg Cert.Spec.relu ?_)
  refine (addf_apply _ _ _).trans (congrArg₂ (· + ·) ?_ ?_)
  · refine dense_of_row _ k2_dot_out_eq _ v81 v84 _ _ _ (row h w) q _ fun p => ?_
    refine (relu_apply _ (ix2 (row h w) p)).trans (congrArg Cert.Spec.relu ?_)
    refine Eq.trans ?_ (conv_of_taps A W9 (fun p => v75 (ix2 (0 : Fin 1) p)) h w p)
    refine (addf_apply _ _ _).trans (congrArg₂ (· + ·) ?_ (bias_apply v75 _ _ (row h w) p))
    refine (addf_apply _ _ _).trans (congrArg₂ (· + ·) ?_
      (tap_apply _ k2_dot_tap_eq 2 2 v19 v71 _ _ _ A hpad W9 h22 h w p))
    unfold Gen.k2_pay9 Gen.k2_pay10
    refine (addf_apply _ _ _).trans (congrArg₂ (· + ·) ?_
      (tap_apply _ k2_dot_tap_eq 2 1 v19 v65 _ _ _ A hpad W9 h21 h w p))
    unfold Gen.k2_pay8
    refine (addf_apply _ _ _).trans (congrArg₂ (· + ·) ?_
      (tap_apply _ k2_dot_tap_eq 2 0 v19 v59 _ _ _ A hpad W9 h20 h w p))
    refine (addf_apply _ _ _).trans (congrArg₂ (· + ·) ?_
      (tap_apply _ k2_dot_tap_eq 1 2 v19 v53 _ _ _ A hpad W9 h12 h w p))
    refine (addf_apply _ _ _).trans (congrArg₂ (· + ·) ?_
      (tap_apply _ k2_dot_tap_eq 1 1 v19 v47 _ _ _ A hpad W9 h11 h w p))
    refine (addf_apply _ _ _).trans (congrArg₂ (· + ·) ?_
      (tap_apply _ k2_dot_tap_eq 1 0 v19 v41 _ _ _ A hpad W9 h10 h w p))
    refine (addf_apply _ _ _).trans (congrArg₂ (· + ·) ?_
      (tap_apply _ k2_dot_tap_eq 0 2 v19 v35 _ _ _ A hpad W9 h02 h w p))
    unfold Gen.k2_pay6 Gen.k2_pay7
    refine (addf_apply _ _ _).trans (congrArg₂ (· + ·) ?_
      (tap_apply _ k2_dot_tap_eq 0 1 v19 v29 _ _ _ A hpad W9 h01 h w p))
    unfold Gen.k2_pay5
    refine (addf_apply _ _ _).trans (congrArg₂ (· + ·) ?_
      (tap_apply _ k2_dot_tap_eq 0 0 v19 v23 _ _ _ A hpad W9 h00 h w p))
    exact Ideal.ofBits_zero_f32
  · exact congrFun (shapeCast_self v0 _) (ix2 (row h w) q)

end Cert.ReferenceIdeal.BlockValue

end
-- ==== Proof.RArr2.lean ====
/-
  The reference's second residual block over the whole array.

  The region's grid has 64 points; point `t` works on image `t`, the 1024 rows `t · 1024 + r` of the row operand, and
  writes back rows `t · 1024 + r` of the result; every weight and bias window is the whole array at every point. So
  the result array is the block function of the specification, image by image: row `i` is pixel
  `(i mod 1024 / 32, i mod 32)` of image `i / 1024`. What the body stores at a pixel is read off the run's one piece:
  the scratch as loaded back is the entry layer's image padded by a ring of zeros, the nine 128 × 128 taps are the
  slices of the 9 × 128 × 128 weights, and the rest are dense layers on the pixel's row.
-/
import proofs.«145656_g2000601261699844_pallasbulk_55_1_alg».proof.Proof.RRun
import proofs.«145656_g2000601261699844_pallasbulk_55_1_alg».proof.Proof.RV2
import proofs.«145656_g2000601261699844_pallasbulk_55_1_alg».proof.Proof.RArrLib
import proofs.«145656_g2000601261699844_pallasbulk_55_1_alg».proof.Proof.RParams

set_option maxRecDepth 16384

noncomputable section

namespace Cert.ReferenceIdeal.Value

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Body Cert.ReferenceIdeal.BlockValue Cert.ReferenceIdeal.ArrLib

/-! ## What the body stores at a pixel -/

/-- The nine taps held as one 9 × 128 × 128 array, tap `3·ky + kx` first. -/
def W9of2 (x3 : Vec Ideal S9x128x128 .f32) : Fin 3 → Fin 3 → Fin 128 → Fin 128 → EReal :=
  fun ky kx ch p => x3 (ix3 (⟨ky.val * 3 + kx.val, by have := ky.isLt; have := kx.isLt; omega⟩ : Fin 9) ch p)

/-- The zero fill is zero everywhere. -/
theorem pay3_zero2 (y : S34x34x128.Idx) : Gen.k2_pay3 (F := Ideal) y = (0 : EReal) := by
  unfold Gen.k2_pay3
  refine (congrFun (shapeCast_self _ _) y).trans ?_
  exact Ideal.ofBits_zero_f32

set_option maxHeartbeats 1600000 in
/-- The run's one piece, read at pixel `(h, w)` and channel `q`: the block's formula over the input blocks. -/
theorem out2_apply (c : Dev nD) (i : grid2.Coords) (arg1 : Memref sig .tc .vmem S1024x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S34x34x128 .f32) (harg9 : arg9.IsWhole)
    (x0 : Vec Ideal S1024x256 .f32) (x1 : Vec Ideal S256x128 .f32) (x2 : Vec Ideal S1x128 .f32) (x3 : Vec Ideal S9x128x128 .f32) (x4 : Vec Ideal S1x128 .f32) (x5 : Vec Ideal S128x256 .f32) (x6 : Vec Ideal S1x256 .f32) (h w : Fin 32) (q : Fin 256) :
    out2 (F := Ideal) c i arg1 harg1 arg2 harg2 arg3 harg3 arg4 harg4 arg5 harg5 arg6 harg6 arg7 harg7 arg8 harg8 arg9 harg9 x0 x1 x2 x3 x4 x5 x6 (ix2 (row h w) q)
      = Cert.Spec.relu (Cert.Spec.dense
          (fun p => Cert.Spec.relu (Cert.Spec.conv (fun h w ch => Gen.k2_pay4 x0 x1 x2 (ix3 h w ch)) (W9of2 x3) (fun p => x4 (ix2 (0 : Fin 1) p)) h w p))
          (fun p q => x5 (ix2 p q)) (fun q => x6 (ix2 (0 : Fin 1) q)) q
        + x0 (ix2 (row h w) q)) := by
  unfold out2
  unfold kernelRun2
  dsimp only
  refine (congrFun (View.canon_unit_zero (Val := Elt Ideal) (S := S1024x256) hz2 _ _) _).trans ?_
  unfold kernelRun2.sl.r kernelRun2.sl.r_4 kernelRun2.sl.r_5 kernelRun2.sl.r_6 kernelRun2.sl.r_1 kernelRun2.sl.r_2 kernelRun2.sl.r_3 kernelRun2.sl.v19 kernelRun2.sl.HS_2
  simp only [readAt_whole _ harg1 x0 hz2, readAt_whole _ harg2 x1 hz2, readAt_whole _ harg3 x2 hz2, readAt_whole _ harg5 x4 hz2, readAt_whole _ harg6 x5 hz2, readAt_whole _ harg7 x6 hz2]
  exact k2_block_apply x0 _ _ _ _ _ _ _ _ _ _ x4 x5 x6 (fun h w ch => Gen.k2_pay4 x0 x1 x2 (ix3 h w ch))
    (fun i j ch => padded_apply _ _ _ _ _ pay3_zero2 i j ch) (W9of2 x3)
    (fun c p => readAt_tap _ harg4 x3 0 (by omega) _ c p)
    (fun c p => readAt_tap _ harg4 x3 1 (by omega) _ c p)
    (fun c p => readAt_tap _ harg4 x3 2 (by omega) _ c p)
    (fun c p => readAt_tap _ harg4 x3 3 (by omega) _ c p)
    (fun c p => readAt_tap _ harg4 x3 4 (by omega) _ c p)
    (fun c p => readAt_tap _ harg4 x3 5 (by omega) _ c p)
    (fun c p => readAt_tap _ harg4 x3 6 (by omega) _ c p)
    (fun c p => readAt_tap _ harg4 x3 7 (by omega) _ c p)
    (fun c p => readAt_tap _ harg4 x3 8 (by omega) _ c p)
    h w q

/-- With the input blocks the specification's — the rows the block's input at this image, the weights and biases the
    folded parameters — the stored block is the specification's block function at the pixel. -/
theorem block2 (P : Cert.Spec.Params) (X : Fin 32 → Fin 32 → Fin 128 → EReal) (c : Dev nD) (i : grid2.Coords) (arg1 : Memref sig .tc .vmem S1024x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S34x34x128 .f32) (harg9 : arg9.IsWhole)
    (x0 : Vec Ideal S1024x256 .f32) (x1 : Vec Ideal S256x128 .f32) (x2 : Vec Ideal S1x128 .f32) (x3 : Vec Ideal S9x128x128 .f32) (x4 : Vec Ideal S1x128 .f32) (x5 : Vec Ideal S128x256 .f32) (x6 : Vec Ideal S1x256 .f32)
    (hx0 : ∀ (h w : Fin 32) (k : Fin 256), x0 (ix2 (row h w) k) = Cert.Spec.b0out P X h w k)
    (hx1 : ∀ (k : Fin 256) (p : Fin 128), x1 (ix2 k p) = P.W11 k p)
    (hx2 : ∀ p : Fin 128, x2 (ix2 (0 : Fin 1) p) = P.b11 p)
    (hx3 : ∀ (ky kx : Fin 3) (ch p : Fin 128), W9of2 x3 ky kx ch p = P.W12 ky kx ch p)
    (hx4 : ∀ p : Fin 128, x4 (ix2 (0 : Fin 1) p) = P.b12 p)
    (hx5 : ∀ (p : Fin 128) (q : Fin 256), x5 (ix2 p q) = P.W13 p q)
    (hx6 : ∀ q : Fin 256, x6 (ix2 (0 : Fin 1) q) = P.b13 q)
    (h w : Fin 32) (q : Fin 256) :
    out2 (F := Ideal) c i arg1 harg1 arg2 harg2 arg3 harg3 arg4 harg4 arg5 harg5 arg6 harg6 arg7 harg7 arg8 harg8 arg9 harg9 x0 x1 x2 x3 x4 x5 x6 (ix2 (row h w) q) = Cert.Spec.b1out P X h w q := by
  rw [out2_apply]
  unfold Cert.Spec.b1out Cert.Spec.b1mid
  have hA : (fun h w ch => Gen.k2_pay4 x0 x1 x2 (ix3 h w ch)) = Cert.Spec.b1in P X := by
    funext h w ch
    rw [k2_pay4_apply]
    unfold Cert.Spec.b1in
    simp only [hx0, hx1, hx2]
  have hW : W9of2 x3 = P.W12 := by funext ky kx ch p; exact hx3 ky kx ch p
  rw [hA, hW]
  simp only [hx0, hx4, hx5, hx6]

/-! ## From blocks to the array -/

section Pipeline

variable (V : (c : Dev nD) → (b : Ref sig .tc) → Buf (Elt Ideal) ((c : Thread nD τ).loc b))

/-- The printed index maps, decided over the grid: the row window and the result window move with the point along the
    rows; every other window stays at block 0. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 3) = 0
    ∧ win2_3.index t (1 : Fin 3) = 0
    ∧ win2_3.index t (2 : Fin 3) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- The row window's block at point `t` is image `t`: rows `t · 1024 + r` of the operand array. -/
theorem blk2_0 (c : Dev nD) (t : Fin cfg2.N) (h w : Fin 32) (k : Fin 256) :
    iblk2 V c 0 t (ix2 (row h w) k)
      = (V c main_v85 : S65536x256.Idx → EReal) (ix2 (⟨t.val * 1024 + (row h w).val, by have := t.isLt; have hN : cfg2.N = 64 := N_2; have := (row h w).isLt; omega⟩ : Fin 65536) k) := by
  show V c main_v85 (((cfg2.win 0).blk t).view.emb (ix2 (row h w) k)) = _
  refine congrArg (V c main_v85) (funext fun a => Fin.ext ?_)
  match a with
  | ⟨0, _⟩ => show win2_0.index t (0 : Fin 2) * 1024 + 1 * (row h w).val = t.val * 1024 + (row h w).val; rw [(idx2 t).1]; omega
  | ⟨1, _⟩ => show win2_0.index t (1 : Fin 2) * 256 + 1 * k.val = k.val; rw [(idx2 t).2.1]; omega
theorem blk2_1 (c : Dev nD) (t : Fin cfg2.N) (a0 : Fin 256) (a1 : Fin 128) :
    iblk2 V c 1 t (ix2 a0 a1) = (V c main_v77 : S256x128.Idx → EReal) (ix2 a0 a1) := by
  show V c main_v77 (((cfg2.win 1).blk t).view.emb (ix2 a0 a1)) = _
  refine congrArg (V c main_v77) (funext fun a => Fin.ext ?_)
  match a with
  | ⟨0, _⟩ => show win2_1.index t (0 : Fin 2) * 256 + 1 * a0.val = a0.val; rw [(idx2 t).2.2.1]; omega
  | ⟨1, _⟩ => show win2_1.index t (1 : Fin 2) * 128 + 1 * a1.val = a1.val; rw [(idx2 t).2.2.2.1]; omega
theorem blk2_2 (c : Dev nD) (t : Fin cfg2.N) (a0 : Fin 1) (a1 : Fin 128) :
    iblk2 V c 2 t (ix2 a0 a1) = (V c main_v86 : S1x128.Idx → EReal) (ix2 a0 a1) := by
  show V c main_v86 (((cfg2.win 2).blk t).view.emb (ix2 a0 a1)) = _
  refine congrArg (V c main_v86) (funext fun a => Fin.ext ?_)
  match a with
  | ⟨0, _⟩ => show win2_2.index t (0 : Fin 2) * 1 + 1 * a0.val = a0.val; rw [(idx2 t).2.2.2.2.1]; omega
  | ⟨1, _⟩ => show win2_2.index t (1 : Fin 2) * 128 + 1 * a1.val = a1.val; rw [(idx2 t).2.2.2.2.2.1]; omega
theorem blk2_3 (c : Dev nD) (t : Fin cfg2.N) (T : Fin 9) (ch p : Fin 128) :
    iblk2 V c 3 t (ix3 T ch p) = (V c main_v81 : S9x128x128.Idx → EReal) (ix3 T ch p) := by
  show V c main_v81 (((cfg2.win 3).blk t).view.emb (ix3 T ch p)) = _
  refine congrArg (V c main_v81) (funext fun a => Fin.ext ?_)
  match a with
  | ⟨0, _⟩ => show win2_3.index t (0 : Fin 3) * 9 + 1 * T.val = T.val; rw [(idx2 t).2.2.2.2.2.2.1]; omega
  | ⟨1, _⟩ => show win2_3.index t (1 : Fin 3) * 128 + 1 * ch.val = ch.val; rw [(idx2 t).2.2.2.2.2.2.2.1]; omega
  | ⟨2, _⟩ => show win2_3.index t (2 : Fin 3) * 128 + 1 * p.val = p.val; rw [(idx2 t).2.2.2.2.2.2.2.2.1]; omega
theorem blk2_4 (c : Dev nD) (t : Fin cfg2.N) (a0 : Fin 1) (a1 : Fin 128) :
    iblk2 V c 4 t (ix2 a0 a1) = (V c main_v87 : S1x128.Idx → EReal) (ix2 a0 a1) := by
  show V c main_v87 (((cfg2.win 4).blk t).view.emb (ix2 a0 a1)) = _
  refine congrArg (V c main_v87) (funext fun a => Fin.ext ?_)
  match a with
  | ⟨0, _⟩ => show win2_4.index t (0 : Fin 2) * 1 + 1 * a0.val = a0.val; rw [(idx2 t).2.2.2.2.2.2.2.2.2.1]; omega
  | ⟨1, _⟩ => show win2_4.index t (1 : Fin 2) * 128 + 1 * a1.val = a1.val; rw [(idx2 t).2.2.2.2.2.2.2.2.2.2.1]; omega
theorem blk2_5 (c : Dev nD) (t : Fin cfg2.N) (a0 : Fin 128) (a1 : Fin 256) :
    iblk2 V c 5 t (ix2 a0 a1) = (V c main_v84 : S128x256.Idx → EReal) (ix2 a0 a1) := by
  show V c main_v84 (((cfg2.win 5).blk t).view.emb (ix2 a0 a1)) = _
  refine congrArg (V c main_v84) (funext fun a => Fin.ext ?_)
  match a with
  | ⟨0, _⟩ => show win2_5.index t (0 : Fin 2) * 128 + 1 * a0.val = a0.val; rw [(idx2 t).2.2.2.2.2.2.2.2.2.2.2.1]; omega
  | ⟨1, _⟩ => show win2_5.index t (1 : Fin 2) * 256 + 1 * a1.val = a1.val; rw [(idx2 t).2.2.2.2.2.2.2.2.2.2.2.2.1]; omega
theorem blk2_6 (c : Dev nD) (t : Fin cfg2.N) (a0 : Fin 1) (a1 : Fin 256) :
    iblk2 V c 6 t (ix2 a0 a1) = (V c main_v88 : S1x256.Idx → EReal) (ix2 a0 a1) := by
  show V c main_v88 (((cfg2.win 6).blk t).view.emb (ix2 a0 a1)) = _
  refine congrArg (V c main_v88) (funext fun a => Fin.ext ?_)
  match a with
  | ⟨0, _⟩ => show win2_6.index t (0 : Fin 2) * 1 + 1 * a0.val = a0.val; rw [(idx2 t).2.2.2.2.2.2.2.2.2.2.2.2.2.1]; omega
  | ⟨1, _⟩ => show win2_6.index t (1 : Fin 2) * 256 + 1 * a1.val = a1.val; rw [(idx2 t).2.2.2.2.2.2.2.2.2.2.2.2.2.2.1]; omega

end Pipeline

variable (m : (ℓ : Loc nD τ sig) → Buf (Elt Ideal) ℓ) (c : Dev nD)

/-- The entry contents of the region under the whole family. -/
theorem U5_eq (r : Ref sig .tc) : U5 m c r = Gen.V5 m (outs m) c r := (congrFun (V5_eq m c) _).symm

/-- Row `r` of the 65536 is pixel `(prow r, pcol r)` of image `img r`. -/
abbrev img2 (r : Nat) (hr : r < 65536) : Fin 64 := ⟨r / 1024, by omega⟩
abbrev prow2 (r : Nat) : Fin 32 := ⟨r % 1024 / 32, by omega⟩
abbrev pcol2 (r : Nat) : Fin 32 := ⟨r % 32, by omega⟩

/-- The result array, as the specification has it. -/
def G2 : S65536x256.Idx → EReal := fun i =>
  Cert.Spec.b1out (PR m (outs m) c) (XR m c (img2 (i 0).val (i 0).isLt)) (prow2 (i 0).val) (pcol2 (i 0).val) (i 1)

/-- An index of the result array is in point `t`'s block iff each coordinate is in the block's range on its axis. -/
theorem mem_blk2 (t : Fin cfg2.N) (i : S65536x256.Idx) :
    i ∈ ((cfg2.win 7).blk t).view.set ↔ ∀ a : Fin 2, win2_7.index t a * S1024x256.size a ≤ (i a).val ∧ (i a).val < win2_7.index t a * S1024x256.size a + S1024x256.size a := by
  show i ∈ ((View.whole main_v89).slice (win2_7.rect t)).set ↔ _
  rw [View.set_slice_whole, Rect.mem_set_unit]
  exact Iff.rfl

/-- Every row of the result is in the block of the point of its image. -/
theorem hcover2 (i : S65536x256.Idx) : ∃ t : Fin cfg2.N, (cfg2.win 7).flush t = true ∧ i ∈ ((cfg2.win 7).blk t).view.set := by
  have hi0 : (i 0).val < 65536 := (i 0).isLt
  have hi1 : (i 1).val < 256 := (i 1).isLt
  have hN : cfg2.N = 64 := N_2
  let t : Fin cfg2.N := ⟨(i 0).val / 1024, by omega⟩
  have ht : t.val = (i 0).val / 1024 := rfl
  refine ⟨t, flush2_7 t, ?_⟩
  rw [mem_blk2]
  intro a
  match a with
  | ⟨0, _⟩ => show win2_7.index t (0 : Fin 2) * 1024 ≤ (i 0).val ∧ (i 0).val < win2_7.index t (0 : Fin 2) * 1024 + 1024; rw [(idx2 t).2.2.2.2.2.2.2.2.2.2.2.2.2.2.2.1]; omega
  | ⟨1, _⟩ => show win2_7.index t (1 : Fin 2) * 256 ≤ (i 1).val ∧ (i 1).val < win2_7.index t (1 : Fin 2) * 256 + 256; rw [(idx2 t).2.2.2.2.2.2.2.2.2.2.2.2.2.2.2.2]; omega

/-- Every index of a 1024 × 256 block is a pixel's row and a channel. -/
theorem split_row2 (j : S1024x256.Idx) : ∃ (h w : Fin 32) (q : Fin 256), j = ix2 (row h w) q := by
  have hj : (j 0).val < 1024 := (j 0).isLt
  refine ⟨⟨(j 0).val / 32, by omega⟩, ⟨(j 0).val % 32, by omega⟩, j 1, ?_⟩
  funext a; apply Fin.ext
  match a with
  | ⟨0, _⟩ => show (j 0).val = (j 0).val / 32 * 32 + (j 0).val % 32; omega
  | ⟨1, _⟩ => rfl

/-- A function of an image, a pixel's row and column (and a channel) at equal arguments. -/
theorem rowform_congr {α : Sort _} (f : Fin 64 → Fin 32 → Fin 32 → α) {n n' : Fin 64} {h h' w w' : Fin 32}
    (hn : n = n') (hh : h = h') (hw : w = w') : f n h w = f n' h' w' := by
  subst hn hh hw; rfl
theorem rowform_congr4 {α : Sort _} (f : Fin 64 → Fin 32 → Fin 32 → Fin 256 → α) {n n' : Fin 64} {h h' w w' : Fin 32}
    {q q' : Fin 256} (hn : n = n') (hh : h = h') (hw : w = w') (hq : q = q') : f n h w q = f n' h' w' q' := by
  subst hn hh hw hq; rfl

set_option maxHeartbeats 1600000 in
/-- WHAT POINT `t` WRITES BACK is block `t` of the specification's array, when the row operand is the specification's. -/
theorem flushed2_eq
    (hS0 : ∀ i : S65536x256.Idx, (U5 m c main_v85 : S65536x256.Idx → EReal) i
      = Cert.Spec.b0out (PR m (outs m) c) (XR m c (img2 (i 0).val (i 0).isLt)) (prow2 (i 0).val) (pcol2 (i 0).val) (i 1))
    (t : Fin cfg2.N) :
    (dat2 (U5 m) c).flushed 7 t = ((cfg2.win 7).blk t).view.read (Elt Ideal) (G2 m c) := by
  show (cfg2.win 7).cut (grid2.coords t) ((dat2 (U5 m) c).after 7 t) = _
  rw [after2_7]
  funext j
  obtain ⟨h, w, q, rfl⟩ := split_row2 j
  refine (block2 (PR m (outs m) c) (XR m c ⟨t.val, by have := t.isLt; have hN : cfg2.N = 64 := N_2; omega⟩) c (grid2.coords t) _ _ _ _ _ _ _ _ _ _ _ _ _ _ _ _ _ _
    (iblk2 (U5 m) c 0 t) (iblk2 (U5 m) c 1 t) (iblk2 (U5 m) c 2 t) (iblk2 (U5 m) c 3 t) (iblk2 (U5 m) c 4 t) (iblk2 (U5 m) c 5 t) (iblk2 (U5 m) c 6 t)
    (fun h w k => (blk2_0 (U5 m) c t h w k).trans ((hS0 _).trans (by
        have e1 : (t.val * 1024 + (row h w).val) / 1024 = t.val := by have := (row h w).isLt; omega
        have e2 : (t.val * 1024 + (row h w).val) % 1024 / 32 = h.val := by have := h.isLt; have := w.isLt; show (t.val * 1024 + (h.val * 32 + w.val)) % 1024 / 32 = h.val; omega
        have e3 : (t.val * 1024 + (row h w).val) % 32 = w.val := by have := h.isLt; have := w.isLt; show (t.val * 1024 + (h.val * 32 + w.val)) % 32 = w.val; omega
        exact rowform_congr (fun (n : Fin 64) (h w : Fin 32) => Cert.Spec.b0out (PR m (outs m) c) (XR m c n) h w k)
          (Fin.ext e1) (Fin.ext e2) (Fin.ext e3))))
    (fun a b => (blk2_1 (U5 m) c t a b).trans (congrFun (U5_eq m c main_v77) _))
    (fun p => (blk2_2 (U5 m) c t 0 p).trans (congrFun (U5_eq m c main_v86) _))
    (fun ky kx ch p => (blk2_3 (U5 m) c t _ ch p).trans (congrFun (U5_eq m c main_v81) _))
    (fun p => (blk2_4 (U5 m) c t 0 p).trans (congrFun (U5_eq m c main_v87) _))
    (fun a b => (blk2_5 (U5 m) c t a b).trans (congrFun (U5_eq m c main_v84) _))
    (fun p => (blk2_6 (U5 m) c t 0 p).trans (congrFun (U5_eq m c main_v88) _))
    h w q).trans ?_
  show _ = G2 m c (((cfg2.win 7).blk t).view.emb (ix2 (row h w) q))
  unfold G2
  have e0 : ((((cfg2.win 7).blk t).view.emb (ix2 (row h w) q)) 0).val = t.val * 1024 + (row h w).val := by
    show win2_7.index t (0 : Fin 2) * 1024 + 1 * (row h w).val = _; rw [(idx2 t).2.2.2.2.2.2.2.2.2.2.2.2.2.2.2.1]; omega
  have e1 : ((((cfg2.win 7).blk t).view.emb (ix2 (row h w) q)) 1).val = q.val := by
    show win2_7.index t (1 : Fin 2) * 256 + 1 * q.val = _; rw [(idx2 t).2.2.2.2.2.2.2.2.2.2.2.2.2.2.2.2]; omega
  have d1 : (t.val * 1024 + (row h w).val) / 1024 = t.val := by have := (row h w).isLt; omega
  have d2 : (t.val * 1024 + (row h w).val) % 1024 / 32 = h.val := by have := h.isLt; have := w.isLt; show (t.val * 1024 + (h.val * 32 + w.val)) % 1024 / 32 = h.val; omega
  have d3 : (t.val * 1024 + (row h w).val) % 32 = w.val := by have := h.isLt; have := w.isLt; show (t.val * 1024 + (h.val * 32 + w.val)) % 32 = w.val; omega
  exact rowform_congr4 (fun (n : Fin 64) (h w : Fin 32) (q : Fin 256) => Cert.Spec.b1out (PR m (outs m) c) (XR m c n) h w q)
    (Fin.ext (by show t.val = ((((cfg2.win 7).blk t).view.emb (ix2 (row h w) q)) 0).val / 1024; rw [e0]; exact d1.symm))
    (Fin.ext (by show h.val = ((((cfg2.win 7).blk t).view.emb (ix2 (row h w) q)) 0).val % 1024 / 32; rw [e0]; exact d2.symm))
    (Fin.ext (by show w.val = ((((cfg2.win 7).blk t).view.emb (ix2 (row h w) q)) 0).val % 32; rw [e0]; exact d3.symm))
    (Fin.ext e1.symm)

/-- THE WHOLE-ARRAY POST of region 2: given the row operand is the specification's, the result array is the
    specification's block function, image by image. -/
theorem harr2
    (hS0 : ∀ i : S65536x256.Idx, (U5 m c main_v85 : S65536x256.Idx → EReal) i
      = Cert.Spec.b0out (PR m (outs m) c) (XR m c (img2 (i 0).val (i 0).isLt)) (prow2 (i 0).val) (pcol2 (i 0).val) (i 1)) :
    (dat2 (U5 m) c).arrAt 7 cfg2.N = G2 m c :=
  (dat2 (U5 m) c).arrAt_eq_of_cover 7 (G2 m c) (fun t _ => flushed2_eq m c hS0 t) hcover2

/-- The same with the row operand and the result given as functions of the index. -/
theorem harr2_fun
    (hrows : (U5 m c main_v85 : S65536x256.Idx → EReal) = fun i =>
      Cert.Spec.b0out (PR m (outs m) c) (XR m c (img2 (i 0).val (i 0).isLt)) (prow2 (i 0).val) (pcol2 (i 0).val) (i 1)) :
    ((dat2 (U5 m) c).arrAt 7 cfg2.N : S65536x256.Idx → EReal) = fun i =>
      Cert.Spec.b1out (PR m (outs m) c) (XR m c (img2 (i 0).val (i 0).isLt)) (prow2 (i 0).val) (pcol2 (i 0).val) (i 1) :=
  harr2 m c (fun i => congrFun hrows i)

end Cert.ReferenceIdeal.Value

end
-- ==== Proof.RFinal.lean ====
/-
  The reference's result, closed: the six regions' arrays chained through the host's reshapes.

  The stem's region leaves the stem at every pixel; its array, reshaped to images and back, is the first residual
  block's rows, so that block's region leaves the first block's result; that array in turn is the second block's rows,
  so its region leaves the second block's result; and from there the main branch, the side branch and the last layer
  follow. The program's result is the network of each image.
-/
import proofs.«145656_g2000601261699844_pallasbulk_55_1_alg».proof.Proof.RChain
import proofs.«145656_g2000601261699844_pallasbulk_55_1_alg».proof.Proof.RArr1
import proofs.«145656_g2000601261699844_pallasbulk_55_1_alg».proof.Proof.RArr2

noncomputable section

namespace Cert.ReferenceIdeal.Value

open Idealize.ShloMosaic Idealize.ShloMosaic.TcCoe Idealize.ShloMosaic.ValueIdx Idealize.SL.Sem
open Cert.ReferenceIdeal Cert.ReferenceIdeal.Gen Cert.ReferenceIdeal.Body

variable (m : (ℓ : Loc nD τ sig) → Buf (Elt Ideal) ℓ) (c : Dev nD)

set_option maxHeartbeats 4000000 in
/-- The first block's rows are what the stem's region left. -/
theorem rows1 (o : Gen.Outs (F := Ideal)) : (Gen.V3 m o c main_v41 : S65536x512.Idx → EReal)
    = (o 2 main_v11 c : S65536x512.Idx → EReal) := by
  show StableHlo.after hostOps1 (Gen.V2 m o c) (Proc.devRef .tc main_v41) = _
  after_results_simp
  show shapeCast S65536x512 (shapeCast S64x32x32x512 (Gen.V2 m o c main_v11) shapeCasts_S65536x512_S64x32x32x512)
      shapeCasts_S64x32x32x512_S65536x512 = _
  refine (shapeCast_shapeCast _ _ _).trans ?_
  exact Function.update_self _ _ _

set_option maxHeartbeats 4000000 in
/-- The second block's rows are what the first block's region left. -/
theorem rows2 (o : Gen.Outs (F := Ideal)) : (Gen.V5 m o c main_v85 : S65536x256.Idx → EReal)
    = (o 4 main_v55 c : S65536x256.Idx → EReal) := by
  show StableHlo.after hostOps2 (Gen.V4 m o c) (Proc.devRef .tc main_v85) = _
  after_results_simp
  show shapeCast S65536x256 (shapeCast S64x32x32x256 (Gen.V4 m o c main_v55) shapeCasts_S65536x256_S64x32x32x256)
      shapeCasts_S64x32x32x256_S65536x256 = _
  refine (shapeCast_shapeCast _ _ _).trans ?_
  exact Function.update_self _ _ _

/-- The first region leaves the stem at every pixel. -/
theorem res0_eq : ((dat0 (U1 m) c).arrAt 3 cfg0.N : S65536x512.Idx → EReal)
      = fun i => Cert.Spec.stem (PR m (outs m) c) (XR m c (imgOf (i 0))) (rowOf (i 0)) (colOf (i 0)) (i 1) := by
  rw [arr0 (U1 m) c]
  show G0 (Gen.V1 m c main_v9) (Gen.V1 m c main_v8) (Gen.V1 m c main_v10) = _
  rw [rows0 m c]
  funext i
  have hr : (fun ch : Fin 128 => shapeCast S65536x128
        (m ((c : Thread nD τ).loc main_arg0) : S64x32x32x128.Idx → EReal) shapeCasts_S64x32x32x128_S65536x128 (ix2 (i 0) ch))
      = XR m c (imgOf (i 0)) (rowOf (i 0)) (colOf (i 0)) := funext fun ch => rows_of_images _ (i 0) ch
  refine (congrArg (fun f : Fin 128 → EReal => Cert.Spec.leaky (Ideal.ofBits .f32 0x3DCCCCCD#32)
    (Cert.Spec.dense f (fun a j => (Gen.V1 m c main_v8 : S128x512.Idx → EReal) (ix2 a j))
      (fun j => (Gen.V1 m c main_v10 : S1x512.Idx → EReal) (ix2 (0 : Fin 1) j)) (i 1))) hr).trans ?_
  rfl

/-- So the first block's region is entered with the stem as its rows, -/
theorem hrows1 : (U3 m c main_v41 : S65536x512.Idx → EReal)
      = fun i => Cert.Spec.stem (PR m (outs m) c) (XR m c (imgOf (i 0))) (rowOf (i 0)) (colOf (i 0)) (i 1) := by
  show (Gen.V3 m (outs0 m) c main_v41 : S65536x512.Idx → EReal) = _
  rw [← V3_eq m c, rows1 m c (outs m), outs0_eq m c, res0_eq m c]
  rfl

/-- and the second block's region with the first block's result as its rows. -/
theorem hrows2 (harr1 : ((dat1 (U3 m) c).arrAt 9 cfg1.N : S65536x256.Idx → EReal)
      = fun i => Cert.Spec.b0out (PR m (outs m) c) (XR m c (imgOf (i 0))) (rowOf (i 0)) (colOf (i 0)) (i 1)) :
    (U5 m c main_v85 : S65536x256.Idx → EReal)
      = fun i => Cert.Spec.b0out (PR m (outs m) c) (XR m c (imgOf (i 0))) (rowOf (i 0)) (colOf (i 0)) (i 1) := by
  show (Gen.V5 m (outs1 m) c main_v85 : S65536x256.Idx → EReal) = _
  rw [← V5_eq m c, rows2 m c (outs m), outs1_eq m c, harr1]
  rfl

/-- The program's result holds the network of each image, pixel by pixel: nothing assumed. -/
theorem result_closed : (Gen.V13 m (Body.outs m) c main_v132 : S64x32x32x256.Idx → EReal)
      = fun i => Cert.Spec.net (PR m (Body.outs m) c) (XR m c (i 0)) (i 1) (i 2) (i 3) :=
  result m c (harr2_fun m c (hrows2 m c (harr1_fun m c (hrows1 m c))))

end Cert.ReferenceIdeal.Value

end
-- ==== Proof.KIValueIn.lean ====
/-
  The launch's pixel window at a grid point, in terms of the first argument.

  The window's array is the first argument reshaped from `64 × 32 × 32 × 128` to `65536 × 128`: row
  `n · 1024 + h · 32 + w` is pixel `(h, w)` of image `n`. Its block at grid point `t` is the rows `2048 · t …`, that is
  the two images `2t` and `2t + 1`. The output window moves over its array the same way.
-/
import proofs.«145656_g2000601261699844_pallasbulk_55_1_alg».proof.Proof.KIValueDefs
import Idealize.ShloMosaic.Lib.Pipeline.Value

noncomputable section

namespace Cert.KernelIdeal.Value

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The index maps, decided over the grid -/

/-- The pixel window and the output window move with the grid point along the rows and stay on the columns. -/
theorem idx_move : ∀ t : Fin cfg0.N, win0_0.index t (0 : Fin 2) = t.val ∧ win0_0.index t (1 : Fin 2) = 0
    ∧ win0_22.index t (0 : Fin 2) = t.val ∧ win0_22.index t (1 : Fin 2) = 0 :=
  (by decide +kernel : ∀ t : Fin grid0.N, _)

/-! ## The pixel window's array: the first argument, reshaped -/

set_option maxHeartbeats 4000000 in
/-- The one host line before the launch that writes the pixel window's array is the reshape of the first argument;
    none of the lines before it writes either buffer. -/
theorem V_v127 (c : Dev nD) :
    (V m c main_v127 : S65536x128.Idx → EReal)
      = shapeCast S65536x128 (m ((c : Thread nD τ).loc main_arg0) : S64x32x32x128.Idx → EReal) shapeCasts_S64x32x32x128_S65536x128 := by
  show StableHlo.after hostOps0 (fun b => m (c, b)) (Proc.devRef .tc main_v127) = _
  after_results_simp
  rfl

/-- Row `n · 1024 + h · 32 + w` of the pixel window's array is pixel `(h, w)` of image `n`: the two row-major
    positions agree. -/
theorem V_v127_apply (c : Dev nD) (n : Fin 64) (h w : Fin 32) (ch : Fin 128) (hr : n.val * 1024 + h.val * 32 + w.val < 65536) :
    (V m c main_v127 : S65536x128.Idx → EReal) (ix2 (⟨n.val * 1024 + h.val * 32 + w.val, hr⟩ : Fin 65536) ch) = XK m c n h w ch := by
  refine (congrFun (V_v127 m c) _).trans ?_
  show _ = (m ((c : Thread nD τ).loc main_arg0) : S64x32x32x128.Idx → EReal) (ix4 n h w ch)
  refine shapeCast_apply _ _ _ (ix4 n h w ch) ?_
  rw [Shape.rowMajor_val_two, Shape.rowMajor_val_four]
  show ((n.val * 32 + h.val) * 32 + w.val) * 128 + ch.val = (n.val * 1024 + h.val * 32 + w.val) * 128 + ch.val
  have e : n.val * 1024 + h.val * 32 + w.val = (n.val * 32 + h.val) * 32 + w.val := by omega
  rw [e]

/-- Image `img` of the pixel window's block at point `t` is image `2t + img` of the first argument: an element of
    the block sits in the array at the block index times the block's size plus its own coordinate. -/
theorem img_iblk0 (c : Dev nD) (t : Fin cfg0.N) (img : Fin 2) (hn : 2 * t.val + img.val < 64) :
    BlockValue.imgOf (iblk m c 0 t : Vec Ideal S2048x128 .f32) img = XK m c ⟨2 * t.val + img.val, hn⟩ := by
  have hN : t.val < 32 := lt_of_lt_of_eq t.isLt (show cfg0.N = 32 from N_0)
  funext h w ch
  obtain ⟨i00, i01, -, -⟩ := idx_move t
  show V m c main_v127 (((cfg0.win 0).blk t).view.emb (ix2 (BlockValue.rowOf img h w) ch)) = _
  have he : ((cfg0.win 0).blk t).view.emb (ix2 (BlockValue.rowOf img h w) ch)
      = ix2 (⟨(2 * t.val + img.val) * 1024 + h.val * 32 + w.val, by omega⟩ : Fin 65536) ch := by
    funext a; apply Fin.ext
    match a with
    | ⟨0, _⟩ => show win0_0.index t (0 : Fin 2) * 2048 + 1 * (img.val * 1024 + h.val * 32 + w.val) = (2 * t.val + img.val) * 1024 + h.val * 32 + w.val; omega
    | ⟨1, _⟩ => show win0_0.index t (1 : Fin 2) * 128 + 1 * ch.val = ch.val; omega
  rw [he]
  exact V_v127_apply m c ⟨2 * t.val + img.val, hn⟩ h w ch _

end Cert.KernelIdeal.Value

end
-- ==== Proof.KIValueParams.lean ====
/-
  The launch's parameter windows at a grid point.

  Each of the twenty-one parameter windows has the constant index map: at every grid point its block sits at block
  index zero on both axes and is as large as its array, so the block is the whole array, entry for entry.
-/
import proofs.«145656_g2000601261699844_pallasbulk_55_1_alg».proof.Proof.KIValueDefs
import Idealize.ShloMosaic.Lib.Pipeline.Value

noncomputable section

namespace Cert.KernelIdeal.Value

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The index maps, decided over the grid -/

/-- Every parameter window stays at block index zero on both axes. -/
theorem idx_stay_1 : ∀ (t : Fin cfg0.N) (a : Fin 2), win0_1.index t a = 0 := (by decide +kernel : ∀ (t : Fin grid0.N) (a : Fin 2), win0_1.index t a = 0)
theorem idx_stay_2 : ∀ (t : Fin cfg0.N) (a : Fin 2), win0_2.index t a = 0 := (by decide +kernel : ∀ (t : Fin grid0.N) (a : Fin 2), win0_2.index t a = 0)
theorem idx_stay_3 : ∀ (t : Fin cfg0.N) (a : Fin 2), win0_3.index t a = 0 := (by decide +kernel : ∀ (t : Fin grid0.N) (a : Fin 2), win0_3.index t a = 0)
theorem idx_stay_4 : ∀ (t : Fin cfg0.N) (a : Fin 2), win0_4.index t a = 0 := (by decide +kernel : ∀ (t : Fin grid0.N) (a : Fin 2), win0_4.index t a = 0)
theorem idx_stay_5 : ∀ (t : Fin cfg0.N) (a : Fin 2), win0_5.index t a = 0 := (by decide +kernel : ∀ (t : Fin grid0.N) (a : Fin 2), win0_5.index t a = 0)
theorem idx_stay_6 : ∀ (t : Fin cfg0.N) (a : Fin 2), win0_6.index t a = 0 := (by decide +kernel : ∀ (t : Fin grid0.N) (a : Fin 2), win0_6.index t a = 0)
theorem idx_stay_7 : ∀ (t : Fin cfg0.N) (a : Fin 2), win0_7.index t a = 0 := (by decide +kernel : ∀ (t : Fin grid0.N) (a : Fin 2), win0_7.index t a = 0)
theorem idx_stay_8 : ∀ (t : Fin cfg0.N) (a : Fin 2), win0_8.index t a = 0 := (by decide +kernel : ∀ (t : Fin grid0.N) (a : Fin 2), win0_8.index t a = 0)
theorem idx_stay_9 : ∀ (t : Fin cfg0.N) (a : Fin 2), win0_9.index t a = 0 := (by decide +kernel : ∀ (t : Fin grid0.N) (a : Fin 2), win0_9.index t a = 0)
theorem idx_stay_10 : ∀ (t : Fin cfg0.N) (a : Fin 2), win0_10.index t a = 0 := (by decide +kernel : ∀ (t : Fin grid0.N) (a : Fin 2), win0_10.index t a = 0)
theorem idx_stay_11 : ∀ (t : Fin cfg0.N) (a : Fin 2), win0_11.index t a = 0 := (by decide +kernel : ∀ (t : Fin grid0.N) (a : Fin 2), win0_11.index t a = 0)
theorem idx_stay_12 : ∀ (t : Fin cfg0.N) (a : Fin 2), win0_12.index t a = 0 := (by decide +kernel : ∀ (t : Fin grid0.N) (a : Fin 2), win0_12.index t a = 0)
theorem idx_stay_13 : ∀ (t : Fin cfg0.N) (a : Fin 2), win0_13.index t a = 0 := (by decide +kernel : ∀ (t : Fin grid0.N) (a : Fin 2), win0_13.index t a = 0)
theorem idx_stay_14 : ∀ (t : Fin cfg0.N) (a : Fin 2), win0_14.index t a = 0 := (by decide +kernel : ∀ (t : Fin grid0.N) (a : Fin 2), win0_14.index t a = 0)
theorem idx_stay_15 : ∀ (t : Fin cfg0.N) (a : Fin 2), win0_15.index t a = 0 := (by decide +kernel : ∀ (t : Fin grid0.N) (a : Fin 2), win0_15.index t a = 0)
theorem idx_stay_16 : ∀ (t : Fin cfg0.N) (a : Fin 2), win0_16.index t a = 0 := (by decide +kernel : ∀ (t : Fin grid0.N) (a : Fin 2), win0_16.index t a = 0)
theorem idx_stay_17 : ∀ (t : Fin cfg0.N) (a : Fin 2), win0_17.index t a = 0 := (by decide +kernel : ∀ (t : Fin grid0.N) (a : Fin 2), win0_17.index t a = 0)
theorem idx_stay_18 : ∀ (t : Fin cfg0.N) (a : Fin 2), win0_18.index t a = 0 := (by decide +kernel : ∀ (t : Fin grid0.N) (a : Fin 2), win0_18.index t a = 0)
theorem idx_stay_19 : ∀ (t : Fin cfg0.N) (a : Fin 2), win0_19.index t a = 0 := (by decide +kernel : ∀ (t : Fin grid0.N) (a : Fin 2), win0_19.index t a = 0)
theorem idx_stay_20 : ∀ (t : Fin cfg0.N) (a : Fin 2), win0_20.index t a = 0 := (by decide +kernel : ∀ (t : Fin grid0.N) (a : Fin 2), win0_20.index t a = 0)
theorem idx_stay_21 : ∀ (t : Fin cfg0.N) (a : Fin 2), win0_21.index t a = 0 := (by decide +kernel : ∀ (t : Fin grid0.N) (a : Fin 2), win0_21.index t a = 0)

/-! ## The parameter windows: the block is the whole array

At block index zero an element of the block has the same coordinates in the array. -/

/-- At block index zero an element of the block has the same coordinates in the array: a read of ANY contents
    through the block is the contents themselves. Stated over arbitrary contents first, the array's put in last. -/
theorem read_stay_1 (t : Fin cfg0.N) (f : S128x512.Idx → Elt Ideal .bf16) : ((cfg0.win 1).blk t).view.read (Elt Ideal) f = f := by
  funext y
  show f (((cfg0.win 1).blk t).view.emb y) = f y
  refine congrArg f (funext fun a => Fin.ext ?_)
  exact win0_1.rect_emb_val_of_index_zero t a (idx_stay_1 t a) y
theorem iblk_1 (c : Dev nD) (t : Fin cfg0.N) : (iblk m c 1 t : Vec Ideal S128x512 .bf16) = (V m c main_v9 : Vec Ideal S128x512 .bf16) :=
  read_stay_1 t (V m c main_v9)
theorem read_stay_2 (t : Fin cfg0.N) (f : S1x512.Idx → Elt Ideal .f32) : ((cfg0.win 2).blk t).view.read (Elt Ideal) f = f := by
  funext y
  show f (((cfg0.win 2).blk t).view.emb y) = f y
  refine congrArg f (funext fun a => Fin.ext ?_)
  exact win0_2.rect_emb_val_of_index_zero t a (idx_stay_2 t a) y
theorem iblk_2 (c : Dev nD) (t : Fin cfg0.N) : (iblk m c 2 t : Vec Ideal S1x512 .f32) = (V m c main_v10 : Vec Ideal S1x512 .f32) :=
  read_stay_2 t (V m c main_v10)
theorem read_stay_3 (t : Fin cfg0.N) (f : S512x384.Idx → Elt Ideal .bf16) : ((cfg0.win 3).blk t).view.read (Elt Ideal) f = f := by
  funext y
  show f (((cfg0.win 3).blk t).view.emb y) = f y
  refine congrArg f (funext fun a => Fin.ext ?_)
  exact win0_3.rect_emb_val_of_index_zero t a (idx_stay_3 t a) y
theorem iblk_3 (c : Dev nD) (t : Fin cfg0.N) : (iblk m c 3 t : Vec Ideal S512x384 .bf16) = (V m c main_v91 : Vec Ideal S512x384 .bf16) :=
  read_stay_3 t (V m c main_v91)
theorem read_stay_4 (t : Fin cfg0.N) (f : S1x384.Idx → Elt Ideal .f32) : ((cfg0.win 4).blk t).view.read (Elt Ideal) f = f := by
  funext y
  show f (((cfg0.win 4).blk t).view.emb y) = f y
  refine congrArg f (funext fun a => Fin.ext ?_)
  exact win0_4.rect_emb_val_of_index_zero t a (idx_stay_4 t a) y
theorem iblk_4 (c : Dev nD) (t : Fin cfg0.N) : (iblk m c 4 t : Vec Ideal S1x384 .f32) = (V m c main_v92 : Vec Ideal S1x384 .f32) :=
  read_stay_4 t (V m c main_v92)
theorem read_stay_5 (t : Fin cfg0.N) (f : S1152x128.Idx → Elt Ideal .bf16) : ((cfg0.win 5).blk t).view.read (Elt Ideal) f = f := by
  funext y
  show f (((cfg0.win 5).blk t).view.emb y) = f y
  refine congrArg f (funext fun a => Fin.ext ?_)
  exact win0_5.rect_emb_val_of_index_zero t a (idx_stay_5 t a) y
theorem iblk_5 (c : Dev nD) (t : Fin cfg0.N) : (iblk m c 5 t : Vec Ideal S1152x128 .bf16) = (V m c main_v68 : Vec Ideal S1152x128 .bf16) :=
  read_stay_5 t (V m c main_v68)
theorem read_stay_6 (t : Fin cfg0.N) (f : S1x128.Idx → Elt Ideal .f32) : ((cfg0.win 6).blk t).view.read (Elt Ideal) f = f := by
  funext y
  show f (((cfg0.win 6).blk t).view.emb y) = f y
  refine congrArg f (funext fun a => Fin.ext ?_)
  exact win0_6.rect_emb_val_of_index_zero t a (idx_stay_6 t a) y
theorem iblk_6 (c : Dev nD) (t : Fin cfg0.N) : (iblk m c 6 t : Vec Ideal S1x128 .f32) = (V m c main_v67 : Vec Ideal S1x128 .f32) :=
  read_stay_6 t (V m c main_v67)
theorem read_stay_7 (t : Fin cfg0.N) (f : S128x256.Idx → Elt Ideal .bf16) : ((cfg0.win 7).blk t).view.read (Elt Ideal) f = f := by
  funext y
  show f (((cfg0.win 7).blk t).view.emb y) = f y
  refine congrArg f (funext fun a => Fin.ext ?_)
  exact win0_7.rect_emb_val_of_index_zero t a (idx_stay_7 t a) y
theorem iblk_7 (c : Dev nD) (t : Fin cfg0.N) : (iblk m c 7 t : Vec Ideal S128x256 .bf16) = (V m c main_v78 : Vec Ideal S128x256 .bf16) :=
  read_stay_7 t (V m c main_v78)
theorem read_stay_8 (t : Fin cfg0.N) (f : S1x256.Idx → Elt Ideal .f32) : ((cfg0.win 8).blk t).view.read (Elt Ideal) f = f := by
  funext y
  show f (((cfg0.win 8).blk t).view.emb y) = f y
  refine congrArg f (funext fun a => Fin.ext ?_)
  exact win0_8.rect_emb_val_of_index_zero t a (idx_stay_8 t a) y
theorem iblk_8 (c : Dev nD) (t : Fin cfg0.N) : (iblk m c 8 t : Vec Ideal S1x256 .f32) = (V m c main_v79 : Vec Ideal S1x256 .f32) :=
  read_stay_8 t (V m c main_v79)
theorem read_stay_9 (t : Fin cfg0.N) (f : S256x128.Idx → Elt Ideal .bf16) : ((cfg0.win 9).blk t).view.read (Elt Ideal) f = f := by
  funext y
  show f (((cfg0.win 9).blk t).view.emb y) = f y
  refine congrArg f (funext fun a => Fin.ext ?_)
  exact win0_9.rect_emb_val_of_index_zero t a (idx_stay_9 t a) y
theorem iblk_9 (c : Dev nD) (t : Fin cfg0.N) : (iblk m c 9 t : Vec Ideal S256x128 .bf16) = (V m c main_v102 : Vec Ideal S256x128 .bf16) :=
  read_stay_9 t (V m c main_v102)
theorem read_stay_10 (t : Fin cfg0.N) (f : S1x128.Idx → Elt Ideal .f32) : ((cfg0.win 10).blk t).view.read (Elt Ideal) f = f := by
  funext y
  show f (((cfg0.win 10).blk t).view.emb y) = f y
  refine congrArg f (funext fun a => Fin.ext ?_)
  exact win0_10.rect_emb_val_of_index_zero t a (idx_stay_10 t a) y
theorem iblk_10 (c : Dev nD) (t : Fin cfg0.N) : (iblk m c 10 t : Vec Ideal S1x128 .f32) = (V m c main_v103 : Vec Ideal S1x128 .f32) :=
  read_stay_10 t (V m c main_v103)
theorem read_stay_11 (t : Fin cfg0.N) (f : S1152x128.Idx → Elt Ideal .bf16) : ((cfg0.win 11).blk t).view.read (Elt Ideal) f = f := by
  funext y
  show f (((cfg0.win 11).blk t).view.emb y) = f y
  refine congrArg f (funext fun a => Fin.ext ?_)
  exact win0_11.rect_emb_val_of_index_zero t a (idx_stay_11 t a) y
theorem iblk_11 (c : Dev nD) (t : Fin cfg0.N) : (iblk m c 11 t : Vec Ideal S1152x128 .bf16) = (V m c main_v115 : Vec Ideal S1152x128 .bf16) :=
  read_stay_11 t (V m c main_v115)
theorem read_stay_12 (t : Fin cfg0.N) (f : S1x128.Idx → Elt Ideal .f32) : ((cfg0.win 12).blk t).view.read (Elt Ideal) f = f := by
  funext y
  show f (((cfg0.win 12).blk t).view.emb y) = f y
  refine congrArg f (funext fun a => Fin.ext ?_)
  exact win0_12.rect_emb_val_of_index_zero t a (idx_stay_12 t a) y
theorem iblk_12 (c : Dev nD) (t : Fin cfg0.N) : (iblk m c 12 t : Vec Ideal S1x128 .f32) = (V m c main_v114 : Vec Ideal S1x128 .f32) :=
  read_stay_12 t (V m c main_v114)
theorem read_stay_13 (t : Fin cfg0.N) (f : S128x256.Idx → Elt Ideal .bf16) : ((cfg0.win 13).blk t).view.read (Elt Ideal) f = f := by
  funext y
  show f (((cfg0.win 13).blk t).view.emb y) = f y
  refine congrArg f (funext fun a => Fin.ext ?_)
  exact win0_13.rect_emb_val_of_index_zero t a (idx_stay_13 t a) y
theorem iblk_13 (c : Dev nD) (t : Fin cfg0.N) : (iblk m c 13 t : Vec Ideal S128x256 .bf16) = (V m c main_v125 : Vec Ideal S128x256 .bf16) :=
  read_stay_13 t (V m c main_v125)
theorem read_stay_14 (t : Fin cfg0.N) (f : S1x256.Idx → Elt Ideal .f32) : ((cfg0.win 14).blk t).view.read (Elt Ideal) f = f := by
  funext y
  show f (((cfg0.win 14).blk t).view.emb y) = f y
  refine congrArg f (funext fun a => Fin.ext ?_)
  exact win0_14.rect_emb_val_of_index_zero t a (idx_stay_14 t a) y
theorem iblk_14 (c : Dev nD) (t : Fin cfg0.N) : (iblk m c 14 t : Vec Ideal S1x256 .f32) = (V m c main_v126 : Vec Ideal S1x256 .f32) :=
  read_stay_14 t (V m c main_v126)
theorem read_stay_15 (t : Fin cfg0.N) (f : S256x256.Idx → Elt Ideal .bf16) : ((cfg0.win 15).blk t).view.read (Elt Ideal) f = f := by
  funext y
  show f (((cfg0.win 15).blk t).view.emb y) = f y
  refine congrArg f (funext fun a => Fin.ext ?_)
  exact win0_15.rect_emb_val_of_index_zero t a (idx_stay_15 t a) y
theorem iblk_15 (c : Dev nD) (t : Fin cfg0.N) : (iblk m c 15 t : Vec Ideal S256x256 .bf16) = (V m c main_v20 : Vec Ideal S256x256 .bf16) :=
  read_stay_15 t (V m c main_v20)
theorem read_stay_16 (t : Fin cfg0.N) (f : S1x256.Idx → Elt Ideal .f32) : ((cfg0.win 16).blk t).view.read (Elt Ideal) f = f := by
  funext y
  show f (((cfg0.win 16).blk t).view.emb y) = f y
  refine congrArg f (funext fun a => Fin.ext ?_)
  exact win0_16.rect_emb_val_of_index_zero t a (idx_stay_16 t a) y
theorem iblk_16 (c : Dev nD) (t : Fin cfg0.N) : (iblk m c 16 t : Vec Ideal S1x256 .f32) = (V m c main_v21 : Vec Ideal S1x256 .f32) :=
  read_stay_16 t (V m c main_v21)
theorem read_stay_17 (t : Fin cfg0.N) (f : S128x256.Idx → Elt Ideal .bf16) : ((cfg0.win 17).blk t).view.read (Elt Ideal) f = f := by
  funext y
  show f (((cfg0.win 17).blk t).view.emb y) = f y
  refine congrArg f (funext fun a => Fin.ext ?_)
  exact win0_17.rect_emb_val_of_index_zero t a (idx_stay_17 t a) y
theorem iblk_17 (c : Dev nD) (t : Fin cfg0.N) : (iblk m c 17 t : Vec Ideal S128x256 .bf16) = (V m c main_v31 : Vec Ideal S128x256 .bf16) :=
  read_stay_17 t (V m c main_v31)
theorem read_stay_18 (t : Fin cfg0.N) (f : S1x256.Idx → Elt Ideal .f32) : ((cfg0.win 18).blk t).view.read (Elt Ideal) f = f := by
  funext y
  show f (((cfg0.win 18).blk t).view.emb y) = f y
  refine congrArg f (funext fun a => Fin.ext ?_)
  exact win0_18.rect_emb_val_of_index_zero t a (idx_stay_18 t a) y
theorem iblk_18 (c : Dev nD) (t : Fin cfg0.N) : (iblk m c 18 t : Vec Ideal S1x256 .f32) = (V m c main_v32 : Vec Ideal S1x256 .f32) :=
  read_stay_18 t (V m c main_v32)
theorem read_stay_19 (t : Fin cfg0.N) (f : S256x256.Idx → Elt Ideal .bf16) : ((cfg0.win 19).blk t).view.read (Elt Ideal) f = f := by
  funext y
  show f (((cfg0.win 19).blk t).view.emb y) = f y
  refine congrArg f (funext fun a => Fin.ext ?_)
  exact win0_19.rect_emb_val_of_index_zero t a (idx_stay_19 t a) y
theorem iblk_19 (c : Dev nD) (t : Fin cfg0.N) : (iblk m c 19 t : Vec Ideal S256x256 .bf16) = (V m c main_v44 : Vec Ideal S256x256 .bf16) :=
  read_stay_19 t (V m c main_v44)
theorem read_stay_20 (t : Fin cfg0.N) (f : S256x256.Idx → Elt Ideal .bf16) : ((cfg0.win 20).blk t).view.read (Elt Ideal) f = f := by
  funext y
  show f (((cfg0.win 20).blk t).view.emb y) = f y
  refine congrArg f (funext fun a => Fin.ext ?_)
  exact win0_20.rect_emb_val_of_index_zero t a (idx_stay_20 t a) y
theorem iblk_20 (c : Dev nD) (t : Fin cfg0.N) : (iblk m c 20 t : Vec Ideal S256x256 .bf16) = (V m c main_v45 : Vec Ideal S256x256 .bf16) :=
  read_stay_20 t (V m c main_v45)
theorem read_stay_21 (t : Fin cfg0.N) (f : S1x256.Idx → Elt Ideal .f32) : ((cfg0.win 21).blk t).view.read (Elt Ideal) f = f := by
  funext y
  show f (((cfg0.win 21).blk t).view.emb y) = f y
  refine congrArg f (funext fun a => Fin.ext ?_)
  exact win0_21.rect_emb_val_of_index_zero t a (idx_stay_21 t a) y
theorem iblk_21 (c : Dev nD) (t : Fin cfg0.N) : (iblk m c 21 t : Vec Ideal S1x256 .f32) = (V m c main_v43 : Vec Ideal S1x256 .f32) :=
  read_stay_21 t (V m c main_v43)

end Cert.KernelIdeal.Value

end
-- ==== Proof.KIValueFlush.lean ====
/-
  The array the launch leaves, as one function of the arguments.

  At grid point `t` the launch writes back the output block: by the statement about one block (`HBlock`) its entry at
  the row of pixel `(h, w)` of image `img` is the network on that image with the block's parameters; the block's
  images are images `2t` and `2t + 1` of the first argument, its parameter blocks are the parameter arrays, and the
  block sits in the array at rows `2048 · t …`. The thirty-two blocks tile the array, so the array ends at `G`.
-/
import proofs.«145656_g2000601261699844_pallasbulk_55_1_alg».proof.Proof.KIValueIn
import proofs.«145656_g2000601261699844_pallasbulk_55_1_alg».proof.Proof.KIValueParams

noncomputable section

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Every index of a block of 2048 rows is the row of a pixel of one of its two images. -/
theorem exists_pixel (j : S2048x256.Idx) :
    ∃ (img : Fin 2) (h w : Fin 32) (q : Fin 256), j = ix2 (BlockValue.rowOf img h w) q := by
  have hj : (j 0).val < 2048 := idx2_lt0 j
  refine ⟨⟨(j 0).val / 1024, by omega⟩, ⟨(j 0).val % 1024 / 32, by omega⟩, ⟨(j 0).val % 32, by omega⟩, j 1, ?_⟩
  refine (eq_ix2 j).trans ?_
  have e : j 0 = BlockValue.rowOf ⟨(j 0).val / 1024, by omega⟩ ⟨(j 0).val % 1024 / 32, by omega⟩ ⟨(j 0).val % 32, by omega⟩ :=
    Fin.ext (by show (j 0).val = (j 0).val / 1024 * 1024 + (j 0).val % 1024 / 32 * 32 + (j 0).val % 32; omega)
  rw [← e]
  rfl

/-- WHAT POINT `t` WRITES BACK is block `t` of `G`: the block's two images are images `2t` and `2t + 1` of the
    argument, its parameter blocks the parameter arrays, and row `rowOf img h w` of block `t` is row
    `(2t + img) · 1024 + h · 32 + w` of the array. -/
theorem flushed_eq (hblock : HBlock) (c : Dev nD) (t : Fin cfg0.N) :
    (Body.dats m 0 c).flushed 22 t = ((cfg0.win 22).blk t).view.read (Elt Ideal) (G m c) := by
  have hN : t.val < 32 := lt_of_lt_of_eq t.isLt (show cfg0.N = 32 from N_0)
  show (cfg0.win 22).cut (grid0.coords t) ((Body.dats m 0 c).after 22 t) = _
  rw [Body.after0_22]
  refine funext fun (j : S2048x256.Idx) => ?_
  obtain ⟨img, h, w, q, rfl⟩ := exists_pixel j
  obtain ⟨-, -, i0, i1⟩ := idx_move t
  show Body.out22 (F := Ideal) c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 (BlockValue.rowOf img h w) q)
    = G m c (((cfg0.win 22).blk t).view.emb (ix2 (BlockValue.rowOf img h w) q))
  refine (hblock c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) img h w q).trans ?_
  have he : ((cfg0.win 22).blk t).view.emb (ix2 (BlockValue.rowOf img h w) q)
      = ix2 (⟨(2 * t.val + img.val) * 1024 + h.val * 32 + w.val, by omega⟩ : Fin 65536) q := by
    funext a; apply Fin.ext
    match a with
    | ⟨0, _⟩ => show win0_22.index t (0 : Fin 2) * 2048 + 1 * (img.val * 1024 + h.val * 32 + w.val) = (2 * t.val + img.val) * 1024 + h.val * 32 + w.val; omega
    | ⟨1, _⟩ => show win0_22.index t (1 : Fin 2) * 256 + 1 * q.val = q.val; omega
  rw [he, G_row m c ⟨2 * t.val + img.val, by omega⟩ h w q]
  rw [iblk_1 m c t, iblk_2 m c t, iblk_3 m c t, iblk_4 m c t, iblk_5 m c t, iblk_6 m c t, iblk_7 m c t, iblk_8 m c t, iblk_9 m c t, iblk_10 m c t, iblk_11 m c t, iblk_12 m c t, iblk_13 m c t, iblk_14 m c t, iblk_15 m c t, iblk_16 m c t, iblk_17 m c t, iblk_18 m c t, iblk_19 m c t, iblk_20 m c t, iblk_21 m c t, img_iblk0 m c t img (by omega)]
  rfl

/-- An index of the array is in point `t`'s block iff each coordinate is in the block's range on its axis. -/
theorem mem_blk22 (t : Fin cfg0.N) (i : S65536x256.Idx) :
    i ∈ ((cfg0.win 22).blk t).view.set ↔ ∀ a : Fin 2, win0_22.index t a * S2048x256.size a ≤ (i a).val ∧ (i a).val < win0_22.index t a * S2048x256.size a + S2048x256.size a := by
  show i ∈ ((View.whole main_v128).slice (win0_22.rect t)).set ↔ _
  rw [View.set_slice_whole, Rect.mem_set_unit]
  exact Iff.rfl

/-- The blocks tile the array: row `r` is in the block of point `r / 2048`. -/
theorem covered (i : S65536x256.Idx) :
    ∃ t : Fin cfg0.N, (cfg0.win 22).flush t = true ∧ i ∈ ((cfg0.win 22).blk t).view.set := by
  have hi0 : (i 0).val < 65536 := idx2_lt0 i
  have hi1 : (i 1).val < 256 := (i 1).isLt
  have hN : cfg0.N = 32 := N_0
  have ht : (i 0).val / 2048 < cfg0.N := by rw [hN]; omega
  obtain ⟨-, -, e0, e1⟩ := idx_move ⟨(i 0).val / 2048, ht⟩
  have e0' : win0_22.index ⟨(i 0).val / 2048, ht⟩ (0 : Fin 2) = (i 0).val / 2048 := e0
  refine ⟨⟨(i 0).val / 2048, ht⟩, flush0_22 _, ?_⟩
  rw [mem_blk22]
  intro a
  match a with
  | ⟨0, _⟩ => show win0_22.index ⟨(i 0).val / 2048, ht⟩ (0 : Fin 2) * 2048 ≤ (i 0).val ∧ (i 0).val < win0_22.index ⟨(i 0).val / 2048, ht⟩ (0 : Fin 2) * 2048 + 2048; omega
  | ⟨1, _⟩ => show win0_22.index ⟨(i 0).val / 2048, ht⟩ (1 : Fin 2) * 256 ≤ (i 1).val ∧ (i 1).val < win0_22.index ⟨(i 0).val / 2048, ht⟩ (1 : Fin 2) * 256 + 256; omega

/-- THE ARRAY the launch leaves: `G`. -/
theorem final22 (hblock : HBlock) (c : Dev nD) : (Body.dats m 0 c).arrAt 22 cfg0.N = G m c :=
  (Body.dats m 0 c).arrAt_eq_of_cover 22 (G m c) (fun t _ => flushed_eq m hblock c t) covered

end Cert.KernelIdeal.Value

end
-- ==== Proof.KIValueRun.lean ====
/-
  The program's run at the exact instance, read: the result as one function of the arguments.

  The frame run leaves the launch's array at what the proof data computes, which is `G`; the one line after the launch
  reshapes it to `64 × 32 × 32 × 256`, so the result's entry at `(n, h, w, q)` is the network at pixel `(h, w)`,
  channel `q` of image `n`; no line writes an argument array.
-/
import proofs.«145656_g2000601261699844_pallasbulk_55_1_alg».proof.Proof.KIValueFlush

noncomputable section

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result: the one line after the launch reshapes the launch's array to `64 × 32 × 32 × 256`, so its entry at
    `(n, h, w, q)` is the array's at row `n · 1024 + h · 32 + w`, column `q`. -/
theorem tail_v129 (hblock : HBlock) (c : Dev nD) :
    Pipeline.afterTail₀ cfgs (Body.dats m) 0 (V0 m) [hostOps1] c main_v129
      = (fun i : S64x32x32x256.Idx => Cert.Spec.net (PK m c) (XK m c (i 0)) (i 1) (i 2) (i 3)) := by
  unfold Pipeline.afterTail₀
  show StableHlo.after hostOps1 _ (Proc.devRef .tc main_v129) = _
  after_results
  rw [Pipeline.withArrays_arr spec0 launch0.win.arr_inj c _ _ 22]
  refine funext fun (i : S64x32x32x256.Idx) => ?_
  show shapeCast S64x32x32x256 ((Body.dats m 0 c).arrAt 22 cfg0.N) shapeCasts_S65536x256_S64x32x32x256 i
    = Gpix m c (i 0) (i 1) (i 2) (i 3)
  rw [final22 m hblock c]
  have h0 : (i 0).val < 64 := (i 0).isLt
  have h1 : (i 1).val < 32 := (i 1).isLt
  have h2 : (i 2).val < 32 := (i 2).isLt
  have hi : (i 0).val * 1024 + (i 1).val * 32 + (i 2).val < 65536 := by omega
  refine (shapeCast_apply _ _ i (ix2 (⟨(i 0).val * 1024 + (i 1).val * 32 + (i 2).val, hi⟩ : Fin 65536) (i 3)) ?_).trans
    (G_row m c (i 0) (i 1) (i 2) (i 3) hi)
  rw [Shape.rowMajor_val_two, Shape.rowMajor_val_four]
  show ((i 0).val * 1024 + (i 1).val * 32 + (i 2).val) * 256 + (i 3).val = (((i 0).val * 32 + (i 1).val) * 32 + (i 2).val) * 256 + (i 3).val
  have e : (i 0).val * 1024 + (i 1).val * 32 + (i 2).val = ((i 0).val * 32 + (i 1).val) * 32 + (i 2).val := by omega
  rw [e]

/-- THE RUN, READ: every weakly fair execution of the program at the exact instance terminates with the result at the
    network of every pixel of every image, and every argument array as it was. -/
theorem run (ρ : Dev nD → PrngReg) (hblock : HBlock) :
    θ_run defs (onTc (τ := τ) (main (F := Ideal))) ⟨m, fun _ => 0, ρ⟩ (fun r => ∀ c : Dev nD,
      r.2.mem ((c.tc : Thread nD τ).loc main_v129) = (fun i : S64x32x32x256.Idx => Cert.Spec.net (PK m c) (XK m c (i 0)) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)) :=
  (θ_run defs _ _).mono (fun r h c => ⟨((h c).2 main_v129 (Pipeline.mem_restRefs_of main_v129 (by decide) (by decide))).trans (tail_v129 m hblock c),
      ((h c).2 main_arg0 (Pipeline.mem_restRefs_of main_arg0 (by decide) (by decide))).trans (W_main_arg0 m (Body.dats m) c),
      ((h c).2 main_arg1 (Pipeline.mem_restRefs_of main_arg1 (by decide) (by decide))).trans (W_main_arg1 m (Body.dats m) c),
      ((h c).2 main_arg2 (Pipeline.mem_restRefs_of main_arg2 (by decide) (by decide))).trans (W_main_arg2 m (Body.dats m) c),
      ((h c).2 main_arg3 (Pipeline.mem_restRefs_of main_arg3 (by decide) (by decide))).trans (W_main_arg3 m (Body.dats m) c),
      ((h c).2 main_arg4 (Pipeline.mem_restRefs_of main_arg4 (by decide) (by decide))).trans (W_main_arg4 m (Body.dats m) c),
      ((h c).2 main_arg5 (Pipeline.mem_restRefs_of main_arg5 (by decide) (by decide))).trans (W_main_arg5 m (Body.dats m) c),
      ((h c).2 main_arg6 (Pipeline.mem_restRefs_of main_arg6 (by decide) (by decide))).trans (W_main_arg6 m (Body.dats m) c),
      ((h c).2 main_arg7 (Pipeline.mem_restRefs_of main_arg7 (by decide) (by decide))).trans (W_main_arg7 m (Body.dats m) c),
      ((h c).2 main_arg8 (Pipeline.mem_restRefs_of main_arg8 (by decide) (by decide))).trans (W_main_arg8 m (Body.dats m) c),
      ((h c).2 main_arg9 (Pipeline.mem_restRefs_of main_arg9 (by decide) (by decide))).trans (W_main_arg9 m (Body.dats m) c),
      ((h c).2 main_arg10 (Pipeline.mem_restRefs_of main_arg10 (by decide) (by decide))).trans (W_main_arg10 m (Body.dats m) c),
      ((h c).2 main_arg11 (Pipeline.mem_restRefs_of main_arg11 (by decide) (by decide))).trans (W_main_arg11 m (Body.dats m) c),
      ((h c).2 main_arg12 (Pipeline.mem_restRefs_of main_arg12 (by decide) (by decide))).trans (W_main_arg12 m (Body.dats m) c),
      ((h c).2 main_arg13 (Pipeline.mem_restRefs_of main_arg13 (by decide) (by decide))).trans (W_main_arg13 m (Body.dats m) c),
      ((h c).2 main_arg14 (Pipeline.mem_restRefs_of main_arg14 (by decide) (by decide))).trans (W_main_arg14 m (Body.dats m) c),
      ((h c).2 main_arg15 (Pipeline.mem_restRefs_of main_arg15 (by decide) (by decide))).trans (W_main_arg15 m (Body.dats m) c),
      ((h c).2 main_arg16 (Pipeline.mem_restRefs_of main_arg16 (by decide) (by decide))).trans (W_main_arg16 m (Body.dats m) c),
      ((h c).2 main_arg17 (Pipeline.mem_restRefs_of main_arg17 (by decide) (by decide))).trans (W_main_arg17 m (Body.dats m) c),
      ((h c).2 main_arg18 (Pipeline.mem_restRefs_of main_arg18 (by decide) (by decide))).trans (W_main_arg18 m (Body.dats m) c),
      ((h c).2 main_arg19 (Pipeline.mem_restRefs_of main_arg19 (by decide) (by decide))).trans (W_main_arg19 m (Body.dats m) c),
      ((h c).2 main_arg20 (Pipeline.mem_restRefs_of main_arg20 (by decide) (by decide))).trans (W_main_arg20 m (Body.dats m) c),
      ((h c).2 main_arg21 (Pipeline.mem_restRefs_of main_arg21 (by decide) (by decide))).trans (W_main_arg21 m (Body.dats m) c),
      ((h c).2 main_arg22 (Pipeline.mem_restRefs_of main_arg22 (by decide) (by decide))).trans (W_main_arg22 m (Body.dats m) c),
      ((h c).2 main_arg23 (Pipeline.mem_restRefs_of main_arg23 (by decide) (by decide))).trans (W_main_arg23 m (Body.dats m) c),
      ((h c).2 main_arg24 (Pipeline.mem_restRefs_of main_arg24 (by decide) (by decide))).trans (W_main_arg24 m (Body.dats m) c),
      ((h c).2 main_arg25 (Pipeline.mem_restRefs_of main_arg25 (by decide) (by decide))).trans (W_main_arg25 m (Body.dats m) c),
      ((h c).2 main_arg26 (Pipeline.mem_restRefs_of main_arg26 (by decide) (by decide))).trans (W_main_arg26 m (Body.dats m) c),
      ((h c).2 main_arg27 (Pipeline.mem_restRefs_of main_arg27 (by decide) (by decide))).trans (W_main_arg27 m (Body.dats m) c),
      ((h c).2 main_arg28 (Pipeline.mem_restRefs_of main_arg28 (by decide) (by decide))).trans (W_main_arg28 m (Body.dats m) c),
      ((h c).2 main_arg29 (Pipeline.mem_restRefs_of main_arg29 (by decide) (by decide))).trans (W_main_arg29 m (Body.dats m) c),
      ((h c).2 main_arg30 (Pipeline.mem_restRefs_of main_arg30 (by decide) (by decide))).trans (W_main_arg30 m (Body.dats m) c),
      ((h c).2 main_arg31 (Pipeline.mem_restRefs_of main_arg31 (by decide) (by decide))).trans (W_main_arg31 m (Body.dats m) c),
      ((h c).2 main_arg32 (Pipeline.mem_restRefs_of main_arg32 (by decide) (by decide))).trans (W_main_arg32 m (Body.dats m) c),
      ((h c).2 main_arg33 (Pipeline.mem_restRefs_of main_arg33 (by decide) (by decide))).trans (W_main_arg33 m (Body.dats m) c),
      ((h c).2 main_arg34 (Pipeline.mem_restRefs_of main_arg34 (by decide) (by decide))).trans (W_main_arg34 m (Body.dats m) c),
      ((h c).2 main_arg35 (Pipeline.mem_restRefs_of main_arg35 (by decide) (by decide))).trans (W_main_arg35 m (Body.dats m) c),
      ((h c).2 main_arg36 (Pipeline.mem_restRefs_of main_arg36 (by decide) (by decide))).trans (W_main_arg36 m (Body.dats m) c),
      ((h c).2 main_arg37 (Pipeline.mem_restRefs_of main_arg37 (by decide) (by decide))).trans (W_main_arg37 m (Body.dats m) c),
      ((h c).2 main_arg38 (Pipeline.mem_restRefs_of main_arg38 (by decide) (by decide))).trans (W_main_arg38 m (Body.dats m) c),
      ((h c).2 main_arg39 (Pipeline.mem_restRefs_of main_arg39 (by decide) (by decide))).trans (W_main_arg39 m (Body.dats m) c),
      ((h c).2 main_arg40 (Pipeline.mem_restRefs_of main_arg40 (by decide) (by decide))).trans (W_main_arg40 m (Body.dats m) c),
      ((h c).2 main_arg41 (Pipeline.mem_restRefs_of main_arg41 (by decide) (by decide))).trans (W_main_arg41 m (Body.dats m) c),
      ((h c).2 main_arg42 (Pipeline.mem_restRefs_of main_arg42 (by decide) (by decide))).trans (W_main_arg42 m (Body.dats m) c),
      ((h c).2 main_arg43 (Pipeline.mem_restRefs_of main_arg43 (by decide) (by decide))).trans (W_main_arg43 m (Body.dats m) c),
      ((h c).2 main_arg44 (Pipeline.mem_restRefs_of main_arg44 (by decide) (by decide))).trans (W_main_arg44 m (Body.dats m) c),
      ((h c).2 main_arg45 (Pipeline.mem_restRefs_of main_arg45 (by decide) (by decide))).trans (W_main_arg45 m (Body.dats m) c),
      ((h c).2 main_arg46 (Pipeline.mem_restRefs_of main_arg46 (by decide) (by decide))).trans (W_main_arg46 m (Body.dats m) c),
      ((h c).2 main_arg47 (Pipeline.mem_restRefs_of main_arg47 (by decide) (by decide))).trans (W_main_arg47 m (Body.dats m) c),
      ((h c).2 main_arg48 (Pipeline.mem_restRefs_of main_arg48 (by decide) (by decide))).trans (W_main_arg48 m (Body.dats m) c),
      ((h c).2 main_arg49 (Pipeline.mem_restRefs_of main_arg49 (by decide) (by decide))).trans (W_main_arg49 m (Body.dats m) c),
      ((h c).2 main_arg50 (Pipeline.mem_restRefs_of main_arg50 (by decide) (by decide))).trans (W_main_arg50 m (Body.dats m) c),
      ((h c).2 main_arg51 (Pipeline.mem_restRefs_of main_arg51 (by decide) (by decide))).trans (W_main_arg51 m (Body.dats m) c),
      ((h c).2 main_arg52 (Pipeline.mem_restRefs_of main_arg52 (by decide) (by decide))).trans (W_main_arg52 m (Body.dats m) c),
      ((h c).2 main_arg53 (Pipeline.mem_restRefs_of main_arg53 (by decide) (by decide))).trans (W_main_arg53 m (Body.dats m) c),
      ((h c).2 main_arg54 (Pipeline.mem_restRefs_of main_arg54 (by decide) (by decide))).trans (W_main_arg54 m (Body.dats m) c),
      ((h c).2 main_arg55 (Pipeline.mem_restRefs_of main_arg55 (by decide) (by decide))).trans (W_main_arg55 m (Body.dats m) c)⟩) (Body.run_main m ρ)

end Cert.KernelIdeal.Value

end
-- ==== Proof.KVStem.lean ====
/-
  The stem and the entry of the first block, read at one entry of the block.

  The body's first two products are the stem (128 → 512, leaky) and ONE product of the stem with the `512 × 384` matrix
  that holds the first block's two weights side by side, plus their biases' row. Its columns `0 … 127`, after `relu` and
  seen as two images, are the first block's 1×1 entry; its columns `128 … 383` are the block's linear projection.
-/
import proofs.«145656_g2000601261699844_pallasbulk_55_1_alg».proof.Proof.KVDefs

noncomputable section

namespace Cert.KernelIdeal.BlockValue

open Idealize.ShloMosaic Idealize.ShloMosaic.ValueIdx Cert.KernelIdeal Cert.KernelIdeal.Gen

section
variable (x0 : Vec Ideal S2048x128 .f32) (ws : Vec Ideal S128x512 .bf16) (bs : Vec Ideal S1x512 .f32) (w0c : Vec Ideal S512x384 .bf16)
    (b0c : Vec Ideal S1x384 .f32) (w02 : Vec Ideal S1152x128 .bf16) (b02 : Vec Ideal S1x128 .f32)
    (w03 : Vec Ideal S128x256 .bf16) (b03 : Vec Ideal S1x256 .f32) (w11 : Vec Ideal S256x128 .bf16)
    (b11 : Vec Ideal S1x128 .f32) (w12 : Vec Ideal S1152x128 .bf16) (b12 : Vec Ideal S1x128 .f32)
    (w13 : Vec Ideal S128x256 .bf16) (b13 : Vec Ideal S1x256 .f32) (wc2 : Vec Ideal S256x256 .bf16)
    (bc2 : Vec Ideal S1x256 .f32) (wc3 : Vec Ideal S128x256 .bf16) (bc3 : Vec Ideal S1x256 .f32)
    (w4a w4b : Vec Ideal S256x256 .bf16) (b4 : Vec Ideal S1x256 .f32)

local notation "P" => paramsOf ws bs w0c b0c w02 b02 w03 b03 w11 b11 w12 b12 w13 b13 wc2 bc2 wc3 bc3 w4a w4b b4

/-- The stem followed by the joint `512 → 384` product, at row `y` and column `r`. -/
theorem pay3_apply (y : Fin 2048) (r : Fin 384) :
    k0_pay3 x0 ws bs w0c b0c (ix2 y r)
      = Cert.Spec.dense (fun j => Cert.Spec.leaky (Ideal.ofBits .f32 0x3DCCCCCD#32)
            (Cert.Spec.dense (fun c => x0 (ix2 y c)) (fun c j => ws (ix2 c j)) (fun j => bs (ix2 0 j)) j))
          (fun j r => w0c (ix2 j r)) (fun r => b0c (ix2 0 r)) r := by
  unfold k0_pay3 k0_pay2
  refine (dense_apply _ rfl _ _ _ _ _ _ y r).trans ?_
  refine congrArg (fun x => Cert.Spec.dense x _ _ r) (funext fun j => ?_)
  refine (congrArg (Cert.Spec.leaky (Ideal.ofBits .f32 0x3DCCCCCD#32)) (dense_apply _ rfl _ _ _ _ _ _ y j)).trans ?_
  simp only [truncf_apply, shapeCast_self]

/-- The first block's 1×1 entry, as two images. -/
theorem pay5_apply (img : Fin 2) (h w : Fin 32) (p : Fin 128) :
    k0_pay5 x0 ws bs w0c b0c (ix4 img h w p) = Cert.Spec.b0in P (imgOf x0 img) h w p := by
  unfold k0_pay5 Cert.Spec.b0in
  refine (cast_rows_to_img _ _ img h w p).trans ?_
  refine (relu_apply _ _).trans (congrArg Cert.Spec.relu ?_)
  refine (slice2_axis1_apply (n1 := 384) 0 (k0_pay3 x0 ws bs w0c b0c) slices_S2048x384_o0_0_S2048x128 (rowOf img h w) p
    ⟨p.val, by omega⟩ (Nat.zero_add _).symm).trans ?_
  exact pay3_apply x0 ws bs w0c b0c (rowOf img h w) ⟨p.val, by omega⟩

/-- The first block's linear projection of the stem. -/
theorem pay4_apply (img : Fin 2) (h w : Fin 32) (q : Fin 256) :
    k0_pay4 x0 ws bs w0c b0c (ix2 (rowOf img h w) q) = Cert.Spec.b0proj P (imgOf x0 img) h w q := by
  unfold k0_pay4 Cert.Spec.b0proj
  refine (slice2_axis1_apply (n1 := 384) 128 (k0_pay3 x0 ws bs w0c b0c) slices_S2048x384_o0_128_S2048x256 (rowOf img h w) q
    ⟨128 + q.val, by omega⟩ rfl).trans ?_
  exact pay3_apply x0 ws bs w0c b0c (rowOf img h w) ⟨128 + q.val, by omega⟩

end

end Cert.KernelIdeal.BlockValue

end
-- ==== Proof.KVBlock0.lean ====
/-
  The first residual block's exit and the second block's entry, read at one entry of the block.

  The first block's 3×3 layer is one product of the window buffer (two images × 32 × 32 pixels, `1152` columns each, seen
  as `2048` rows) with the `1152 × 128` weight, plus the bias, then `relu`; given that pixel `(h, w)`'s columns hold the
  padded entry of the block at the nine shifted positions, it is the specification's 3×3 layer. The exit adds the
  128 → 256 product of that to the projection and applies `relu`; the second block's 1×1 entry follows.
-/
import proofs.«145656_g2000601261699844_pallasbulk_55_1_alg».proof.Proof.KVDefs

noncomputable section

namespace Cert.KernelIdeal.BlockValue

open Idealize.ShloMosaic Idealize.ShloMosaic.ValueIdx Cert.KernelIdeal Cert.KernelIdeal.Gen

section
variable (x0 : Vec Ideal S2048x128 .f32) (ws : Vec Ideal S128x512 .bf16) (bs : Vec Ideal S1x512 .f32) (w0c : Vec Ideal S512x384 .bf16)
    (b0c : Vec Ideal S1x384 .f32) (w02 : Vec Ideal S1152x128 .bf16) (b02 : Vec Ideal S1x128 .f32)
    (w03 : Vec Ideal S128x256 .bf16) (b03 : Vec Ideal S1x256 .f32) (w11 : Vec Ideal S256x128 .bf16)
    (b11 : Vec Ideal S1x128 .f32) (w12 : Vec Ideal S1152x128 .bf16) (b12 : Vec Ideal S1x128 .f32)
    (w13 : Vec Ideal S128x256 .bf16) (b13 : Vec Ideal S1x256 .f32) (wc2 : Vec Ideal S256x256 .bf16)
    (bc2 : Vec Ideal S1x256 .f32) (wc3 : Vec Ideal S128x256 .bf16) (bc3 : Vec Ideal S1x256 .f32)
    (w4a w4b : Vec Ideal S256x256 .bf16) (b4 : Vec Ideal S1x256 .f32)

local notation "P" => paramsOf ws bs w0c b0c w02 b02 w03 b03 w11 b11 w12 b12 w13 b13 wc2 bc2 wc3 bc3 w4a w4b b4

/-- The first block's exit at pixel `(h, w)` of image `img`, given the projection's row and the window's columns there. -/
theorem pay29_apply (v24 : FVec Ideal S2048x256 .f32) (COL1 : Vec Ideal S2x32x32x1152 .bf16)
    (X : Fin 32 → Fin 32 → Fin 128 → EReal) (img : Fin 2) (h w : Fin 32)
    (hproj : ∀ q : Fin 256, v24 (ix2 (rowOf img h w) q) = Cert.Spec.b0proj P X h w q)
    (hcol : ∀ (ky kx : Fin 3) (c : Fin 128), COL1 (ix4 img h w (colOf ky kx c))
      = Cert.Spec.pad (Cert.Spec.b0in P X) (h.val + ky.val) (w.val + kx.val) c)
    (q : Fin 256) :
    k0_pay29 v24 (k0_pay28 COL1) w02 b02 w03 b03 (ix2 (rowOf img h w) q) = Cert.Spec.b0out P X h w q := by
  unfold k0_pay29 k0_pay28 Cert.Spec.b0out
  refine (relu_apply _ _).trans (congrArg Cert.Spec.relu ?_)
  refine (addf_apply _ _ _).trans (congrArg₂ (· + ·) ?_ (hproj q))
  refine (dense_apply _ rfl _ _ _ _ _ _ (rowOf img h w) q).trans ?_
  refine congrArg (fun x => Cert.Spec.dense x _ _ q) (funext fun p => ?_)
  unfold Cert.Spec.b0mid
  refine (relu_apply _ _).trans (congrArg Cert.Spec.relu ?_)
  refine (dense_apply _ rfl _ _ _ _ _ _ (rowOf img h w) p).trans ?_
  refine dense_eq_conv (Cert.Spec.b0in P X) _ _ _ h w (fun ky kx c => ?_) p
  exact (cast_img_to_rows COL1 _ img h w (colOf ky kx c)).trans (hcol ky kx c)

/-- The second block's 1×1 entry, as two images, given the first block's exit on that pixel's row. -/
theorem pay30_apply (v24 : FVec Ideal S2048x256 .f32) (v122 : FVec Ideal S2048x1152 .bf16)
    (X : Fin 32 → Fin 32 → Fin 128 → EReal) (img : Fin 2) (h w : Fin 32)
    (hin : ∀ q : Fin 256, k0_pay29 v24 v122 w02 b02 w03 b03 (ix2 (rowOf img h w) q) = Cert.Spec.b0out P X h w q)
    (p : Fin 128) :
    k0_pay30 v24 v122 w02 b02 w03 b03 w11 b11 (ix4 img h w p) = Cert.Spec.b1in P X h w p := by
  unfold k0_pay30 Cert.Spec.b1in
  refine (cast_rows_to_img _ _ img h w p).trans ?_
  refine (relu_apply _ _).trans (congrArg Cert.Spec.relu ?_)
  refine (dense_apply _ rfl _ _ _ _ _ _ (rowOf img h w) p).trans ?_
  exact congrArg (fun x => Cert.Spec.dense x _ _ p) (funext fun q => hin q)

end

end Cert.KernelIdeal.BlockValue

end
-- ==== Proof.KVTail.lean ====
/-
  The second residual block with the main branch, the side branch, and the result, read at one entry of the block.

  The second block's 3×3 layer is again one product of the window buffer with a `1152 × 128` weight; its exit adds the
  128 → 256 product to the block's own input, the first block's exit. The main branch is the leaky 256 → 256 layer of
  that; the side branch the leaky 128 → 256 layer of the input pixels; the result the leaky sum of the two branches'
  256 → 256 products plus the last bias.
-/
import proofs.«145656_g2000601261699844_pallasbulk_55_1_alg».proof.Proof.KVDefs

noncomputable section

namespace Cert.KernelIdeal.BlockValue

open Idealize.ShloMosaic Idealize.ShloMosaic.ValueIdx Cert.KernelIdeal Cert.KernelIdeal.Gen

section
variable (x0 : Vec Ideal S2048x128 .f32) (ws : Vec Ideal S128x512 .bf16) (bs : Vec Ideal S1x512 .f32) (w0c : Vec Ideal S512x384 .bf16)
    (b0c : Vec Ideal S1x384 .f32) (w02 : Vec Ideal S1152x128 .bf16) (b02 : Vec Ideal S1x128 .f32)
    (w03 : Vec Ideal S128x256 .bf16) (b03 : Vec Ideal S1x256 .f32) (w11 : Vec Ideal S256x128 .bf16)
    (b11 : Vec Ideal S1x128 .f32) (w12 : Vec Ideal S1152x128 .bf16) (b12 : Vec Ideal S1x128 .f32)
    (w13 : Vec Ideal S128x256 .bf16) (b13 : Vec Ideal S1x256 .f32) (wc2 : Vec Ideal S256x256 .bf16)
    (bc2 : Vec Ideal S1x256 .f32) (wc3 : Vec Ideal S128x256 .bf16) (bc3 : Vec Ideal S1x256 .f32)
    (w4a w4b : Vec Ideal S256x256 .bf16) (b4 : Vec Ideal S1x256 .f32)

local notation "P" => paramsOf ws bs w0c b0c w02 b02 w03 b03 w11 b11 w12 b12 w13 b13 wc2 bc2 wc3 bc3 w4a w4b b4

/-- The main branch at pixel `(h, w)` of image `img`, given the first block's exit on that row and the window's columns. -/
theorem pay53_apply (v142 : FVec Ideal S2048x256 .f32) (COL2 : Vec Ideal S2x32x32x1152 .bf16)
    (X : Fin 32 → Fin 32 → Fin 128 → EReal) (img : Fin 2) (h w : Fin 32)
    (hin : ∀ q : Fin 256, v142 (ix2 (rowOf img h w) q) = Cert.Spec.b0out P X h w q)
    (hcol : ∀ (ky kx : Fin 3) (c : Fin 128), COL2 (ix4 img h w (colOf ky kx c))
      = Cert.Spec.pad (Cert.Spec.b1in P X) (h.val + ky.val) (w.val + kx.val) c)
    (q : Fin 256) :
    k0_pay53 v142 COL2 w12 b12 w13 b13 wc2 bc2 (ix2 (rowOf img h w) q) = Cert.Spec.brMain P X h w q := by
  unfold k0_pay53 Cert.Spec.brMain
  refine (leaky_apply _ _).trans (congrArg (Cert.Spec.leaky _) ?_)
  refine (dense_apply _ rfl _ _ _ _ _ _ (rowOf img h w) q).trans ?_
  refine congrArg (fun x => Cert.Spec.dense x _ _ q) (funext fun q' => ?_)
  unfold Cert.Spec.b1out
  refine (relu_apply _ _).trans (congrArg Cert.Spec.relu ?_)
  refine (addf_apply _ _ _).trans (congrArg₂ (· + ·) ?_ (hin q'))
  refine (dense_apply _ rfl _ _ _ _ _ _ (rowOf img h w) q').trans ?_
  refine congrArg (fun x => Cert.Spec.dense x _ _ q') (funext fun p => ?_)
  unfold Cert.Spec.b1mid
  refine (relu_apply _ _).trans (congrArg Cert.Spec.relu ?_)
  refine (dense_apply _ rfl _ _ _ _ _ _ (rowOf img h w) p).trans ?_
  refine dense_eq_conv (Cert.Spec.b1in P X) _ _ _ h w (fun ky kx c => ?_) p
  exact (cast_img_to_rows COL2 _ img h w (colOf ky kx c)).trans (hcol ky kx c)

/-- The side branch's product, before its bias: the input pixels' row times the `128 × 256` weight. -/
theorem pay54_apply (y : Fin 2048) (q : Fin 256) :
    k0_pay54 (k0_pay2 x0) wc3 (ix2 y q) = ∑ c : Fin 128, x0 (ix2 y c) * wc3 (ix2 c q) := by
  unfold k0_pay54 k0_pay2
  refine (prod_apply _ rfl _ _ _ y q).trans ?_
  simp only [truncf_apply, shapeCast_self]

/-- The result at pixel `(h, w)` of image `img`, given the main branch and the side branch's product on that row. -/
theorem pay1_apply (v281 v284 : FVec Ideal S2048x256 .f32)
    (X : Fin 32 → Fin 32 → Fin 128 → EReal) (img : Fin 2) (h w : Fin 32)
    (hmain : ∀ c : Fin 256, v281 (ix2 (rowOf img h w) c) = Cert.Spec.brMain P X h w c)
    (hside : ∀ c : Fin 256, v284 (ix2 (rowOf img h w) c) = ∑ k : Fin 128, X h w k * wc3 (ix2 k c))
    (q : Fin 256) :
    k0_pay1 v281 v284 bc3 w4a w4b b4 (ix2 (rowOf img h w) q) = Cert.Spec.net P X h w q := by
  unfold k0_pay1 Cert.Spec.net
  refine (leaky_apply _ _).trans (congrArg (Cert.Spec.leaky _) ?_)
  refine (addf_apply _ _ _).trans (congrArg₂ (· + ·) ?_ (bias_apply _ _ _ (rowOf img h w) q))
  refine (addf_apply _ _ _).trans (congrArg₂ (· + ·) ?_ ?_)
  · refine (prod_apply _ rfl _ _ _ (rowOf img h w) q).trans ?_
    exact Finset.sum_congr rfl fun c _ => congrArg (· * w4a (ix2 c q)) (hmain c)
  · refine (prod_apply _ rfl _ _ _ (rowOf img h w) q).trans ?_
    refine Finset.sum_congr rfl fun c _ => congrArg (· * w4b (ix2 c q)) ?_
    unfold Cert.Spec.brSide
    refine (leaky_apply _ _).trans (congrArg (Cert.Spec.leaky _) ?_)
    exact (addf_apply _ _ _).trans (congrArg₂ (· + ·) (hside c) (bias_apply _ _ _ (rowOf img h w) c))

end

end Cert.KernelIdeal.BlockValue

end
-- ==== Proof.KValue.lean ====
/-
  The block the body stores, read at one entry: the network of the specification on the entry's image.

  With the body's loaded blocks and the two contents of the window buffer as variables, and given that each content
  holds, at pixel `(h, w)` and column `(ky · 3 + kx) · 128 + c`, the padded 3×3-layer input at `(h + ky, w + kx, c)`, the
  stored block at row `img · 1024 + h · 32 + w` and column `q` is the network's result at pixel `(h, w)`, channel `q`, of
  image `img` — the layers' lemmas chained in the order of the body.
-/
import proofs.«145656_g2000601261699844_pallasbulk_55_1_alg».proof.Proof.KVStem
import proofs.«145656_g2000601261699844_pallasbulk_55_1_alg».proof.Proof.KVBlock0
import proofs.«145656_g2000601261699844_pallasbulk_55_1_alg».proof.Proof.KVTail

noncomputable section

namespace Cert.KernelIdeal.BlockValue

open Idealize.ShloMosaic Idealize.ShloMosaic.ValueIdx Cert.KernelIdeal Cert.KernelIdeal.Gen

section
variable (x0 : Vec Ideal S2048x128 .f32) (ws : Vec Ideal S128x512 .bf16) (bs : Vec Ideal S1x512 .f32) (w0c : Vec Ideal S512x384 .bf16)
    (b0c : Vec Ideal S1x384 .f32) (w02 : Vec Ideal S1152x128 .bf16) (b02 : Vec Ideal S1x128 .f32)
    (w03 : Vec Ideal S128x256 .bf16) (b03 : Vec Ideal S1x256 .f32) (w11 : Vec Ideal S256x128 .bf16)
    (b11 : Vec Ideal S1x128 .f32) (w12 : Vec Ideal S1152x128 .bf16) (b12 : Vec Ideal S1x128 .f32)
    (w13 : Vec Ideal S128x256 .bf16) (b13 : Vec Ideal S1x256 .f32) (wc2 : Vec Ideal S256x256 .bf16)
    (bc2 : Vec Ideal S1x256 .f32) (wc3 : Vec Ideal S128x256 .bf16) (bc3 : Vec Ideal S1x256 .f32)
    (w4a w4b : Vec Ideal S256x256 .bf16) (b4 : Vec Ideal S1x256 .f32)

local notation "P" => paramsOf ws bs w0c b0c w02 b02 w03 b03 w11 b11 w12 b12 w13 b13 wc2 bc2 wc3 bc3 w4a w4b b4

/-- The stored block at row `rowOf img h w`, column `q`, is the network on image `img` at `(h, w, q)`. -/
theorem out_eq (COL1 COL2 : Vec Ideal S2x32x32x1152 .bf16)
    (hcol1 : ∀ (img : Fin 2) (h w : Fin 32) (ky kx : Fin 3) (c : Fin 128), COL1 (ix4 img h w (colOf ky kx c))
      = Cert.Spec.pad (fun h' w' c' => k0_pay5 x0 ws bs w0c b0c (ix4 img h' w' c')) (h.val + ky.val) (w.val + kx.val) c)
    (hcol2 : ∀ (img : Fin 2) (h w : Fin 32) (ky kx : Fin 3) (c : Fin 128), COL2 (ix4 img h w (colOf ky kx c))
      = Cert.Spec.pad (fun h' w' c' => k0_pay30 (k0_pay4 x0 ws bs w0c b0c) (k0_pay28 COL1) w02 b02 w03 b03 w11 b11
          (ix4 img h' w' c')) (h.val + ky.val) (w.val + kx.val) c)
    (img : Fin 2) (h w : Fin 32) (q : Fin 256) :
    k0_pay1 (k0_pay53 (k0_pay29 (k0_pay4 x0 ws bs w0c b0c) (k0_pay28 COL1) w02 b02 w03 b03) COL2 w12 b12 w13 b13 wc2 bc2)
        (k0_pay54 (k0_pay2 x0) wc3) bc3 w4a w4b b4 (ix2 (rowOf img h w) q)
      = Cert.Spec.net P (imgOf x0 img) h w q := by
  have hb0in : (fun h' w' c' => k0_pay5 x0 ws bs w0c b0c (ix4 img h' w' c')) = Cert.Spec.b0in P (imgOf x0 img) :=
    funext fun h' => funext fun w' => funext fun c' =>
      pay5_apply x0 ws bs w0c b0c w02 b02 w03 b03 w11 b11 w12 b12 w13 b13 wc2 bc2 wc3 bc3 w4a w4b b4 img h' w' c'
  have h29 : ∀ (h' w' : Fin 32) (q' : Fin 256),
      k0_pay29 (k0_pay4 x0 ws bs w0c b0c) (k0_pay28 COL1) w02 b02 w03 b03 (ix2 (rowOf img h' w') q')
        = Cert.Spec.b0out P (imgOf x0 img) h' w' q' := fun h' w' q' =>
    pay29_apply ws bs w0c b0c w02 b02 w03 b03 w11 b11 w12 b12 w13 b13 wc2 bc2 wc3 bc3 w4a w4b b4 (k0_pay4 x0 ws bs w0c b0c) COL1 (imgOf x0 img) img h' w'
      (fun q'' => pay4_apply x0 ws bs w0c b0c w02 b02 w03 b03 w11 b11 w12 b12 w13 b13 wc2 bc2 wc3 bc3 w4a w4b b4 img h' w' q'')
      (fun ky kx c => (hcol1 img h' w' ky kx c).trans (by rw [hb0in])) q'
  have hb1in : (fun h' w' c' => k0_pay30 (k0_pay4 x0 ws bs w0c b0c) (k0_pay28 COL1) w02 b02 w03 b03 w11 b11
      (ix4 img h' w' c')) = Cert.Spec.b1in P (imgOf x0 img) :=
    funext fun h' => funext fun w' => funext fun c' =>
      pay30_apply ws bs w0c b0c w02 b02 w03 b03 w11 b11 w12 b12 w13 b13 wc2 bc2 wc3 bc3 w4a w4b b4 (k0_pay4 x0 ws bs w0c b0c) (k0_pay28 COL1) (imgOf x0 img) img h' w' (h29 h' w') c'
  refine pay1_apply ws bs w0c b0c w02 b02 w03 b03 w11 b11 w12 b12 w13 b13 wc2 bc2 wc3 bc3 w4a w4b b4 _ _ (imgOf x0 img) img h w (fun c => ?_) (fun c => ?_) q
  · exact pay53_apply ws bs w0c b0c w02 b02 w03 b03 w11 b11 w12 b12 w13 b13 wc2 bc2 wc3 bc3 w4a w4b b4 _ COL2 (imgOf x0 img) img h w (h29 h w)
      (fun ky kx c' => (hcol2 img h w ky kx c').trans (by rw [hb1in])) c
  · exact pay54_apply x0 wc3 (rowOf img h w) c

end

end Cert.KernelIdeal.BlockValue

end
-- ==== Proof.LibIm2col.lean ====
/-
  The 3×3 layer's column buffer, store by store.

  The buffer has, for each of two images, each pixel `(h, w)` and each of the nine taps `t = 3·ky + kx`, a group of
  128 channels at columns `128·t … 128·t + 127`. It is filled with zeros and then, image by image and tap by tap, the
  activation shifted by `(ky − 1, kx − 1)` is stored into the tap's group at the pixels where the shifted position is
  inside the image. After the first `n` of these eighteen stores the buffer therefore holds, at image `i`, pixel `(h, w)`
  and column `128·t + c`: the zero-padded activation at padded position `(h + ky, w + kx)`, channel `c`, if the tap's
  store is among the first `n` (its place in the order is `9·i + t`), and zero otherwise. The two step lemmas add one store:
  a plain one, through a rectangle of whole pixel rows (the taps with `kx = 1`), and one that loads the rows' words, replaces
  the columns the tap reaches and stores the words back (`kx = 0`: columns from 1; `kx = 2`: columns up to 30).
-/
import Idealize.ShloMosaic.PureOps.Ideal
import Idealize.ShloMosaic.Lib.ValueIdx
import proofs.«145656_g2000601261699844_pallasbulk_55_1_alg».proof.Proof.LibCanon
import proofs.«145656_g2000601261699844_pallasbulk_55_1_alg».proof.Proof.Spec

noncomputable section

namespace Cert.LibIm2col

open Idealize.ShloMosaic Idealize.ShloMosaic.ValueIdx

/-- The column buffer's and the activation's shapes. -/
abbrev SCol : Shape := ⟨4, ![2, 32, 32, 1152]⟩
abbrev SAct : Shape := ⟨4, ![2, 32, 32, 128]⟩

/-- A tap store's place in the order: image by image, tap by tap. -/
def ord (y : SCol.Idx) : Nat := (y 0).val * 9 + (y 3).val / 128

theorem ord_lt (y : SCol.Idx) : ord y < 18 := by
  have h0 : (y 0).val < 2 := (y 0).isLt
  have h3 : (y 3).val < 1152 := (y 3).isLt
  unfold ord; omega

/-- The zero-padded activation of the index's image at the index's pixel shifted by its tap. -/
def tapAt (ab : SAct.Idx → EReal) (y : SCol.Idx) : EReal :=
  Cert.Spec.pad (fun h w c => ab (ix4 ⟨(y 0).val, (y 0).isLt⟩ h w c)) ((y 1).val + (y 3).val / 128 / 3) ((y 2).val + (y 3).val / 128 % 3)
    (⟨(y 3).val % 128, Nat.mod_lt _ (by decide)⟩ : Fin 128)

/-- The buffer after the zero fill and the first `n` tap stores. -/
def upto (ab : SAct.Idx → EReal) (n : Nat) (y : SCol.Idx) : EReal := if ord y < n then tapAt ab y else 0

theorem upto_zero (ab : SAct.Idx → EReal) (y : SCol.Idx) : upto ab 0 y = 0 := by
  unfold upto; rw [if_neg (Nat.not_lt_zero _)]

theorem upto_all (ab : SAct.Idx → EReal) (y : SCol.Idx) : upto ab 18 y = tapAt ab y := by
  unfold upto; rw [if_pos (ord_lt y)]

/-- The first row a tap's store reaches, the number of rows, and the activation's first row it takes. -/
def rowOff (ky : Fin 3) : Nat := if ky.val = 0 then 1 else 0
def rowN (ky : Fin 3) : Nat := if ky.val = 1 then 32 else 31
def srcRow (ky : Fin 3) : Nat := if ky.val = 2 then 1 else 0

/-! ## One more tap store -/

/-- The indices the store of tap `(ky, kx)` of image `img` reaches: the tap's column group, at the pixels whose position
    shifted by the tap is inside the image. -/
def InTap (img : Fin 2) (ky kx : Fin 3) (y : SCol.Idx) : Prop :=
  (y 0).val = img.val ∧ (1 ≤ (y 1).val + ky.val ∧ (y 1).val + ky.val ≤ 32) ∧ (1 ≤ (y 2).val + kx.val ∧ (y 2).val + kx.val ≤ 32)
    ∧ (y 3).val / 128 = ky.val * 3 + kx.val

/-- Where the tap's store reaches, the buffer after it holds the activation at the shifted pixel. -/
theorem upto_succ_of_in (ab : SAct.Idx → EReal) (img : Fin 2) (ky kx : Fin 3) (y : SCol.Idx) (hB : InTap img ky kx y)
    (k : SAct.Idx) (hk0 : (k 0).val = img.val) (hk1 : (k 1).val + 1 = (y 1).val + ky.val) (hk2 : (k 2).val + 1 = (y 2).val + kx.val)
    (hk3 : (k 3).val = (y 3).val % 128) :
    upto ab (img.val * 9 + ky.val * 3 + kx.val + 1) y = ab k := by
  obtain ⟨h0, ⟨h1a, h1b⟩, ⟨h2a, h2b⟩, h3⟩ := hB
  have hky := ky.isLt; have hkx := kx.isLt
  have ho : ord y = img.val * 9 + ky.val * 3 + kx.val := by unfold ord; omega
  unfold upto
  rw [if_pos (by omega)]
  unfold tapAt Cert.Spec.pad
  rw [dif_pos (by omega)]
  refine congrArg ab (funext fun a => Fin.ext ?_)
  match a with
  | ⟨0, _⟩ => show (y 0).val = (k 0).val; omega
  | ⟨1, _⟩ => show (y 1).val + (y 3).val / 128 / 3 - 1 = (k 1).val; omega
  | ⟨2, _⟩ => show (y 2).val + (y 3).val / 128 % 3 - 1 = (k 2).val; omega
  | ⟨3, _⟩ => show (y 3).val % 128 = (k 3).val; omega

/-- Elsewhere the tap's store changes nothing. -/
theorem upto_succ_of_not_in (ab : SAct.Idx → EReal) (img : Fin 2) (ky kx : Fin 3) (y : SCol.Idx) (hB : ¬ InTap img ky kx y) :
    upto ab (img.val * 9 + ky.val * 3 + kx.val + 1) y = upto ab (img.val * 9 + ky.val * 3 + kx.val) y := by
  have hky := ky.isLt; have hkx := kx.isLt; have himg := img.isLt
  have hy0 : (y 0).val < 2 := (y 0).isLt
  have hy3 : (y 3).val < 1152 := (y 3).isLt
  unfold upto
  by_cases ho : ord y = img.val * 9 + ky.val * 3 + kx.val
  · rw [if_pos (by omega), if_neg (by omega)]
    unfold tapAt Cert.Spec.pad
    rw [dif_neg]
    intro hr
    apply hB
    unfold ord at ho
    unfold InTap
    omega
  · exact if_congr (by omega) rfl rfl

section Steps

variable {sig : RefSig} {κ : Kind} {sp : Space}

/-- A plain store of the tap's rows: the rectangle is the tap's reach, the payload the activation's rows. -/
theorem step_plain (ab : SAct.Idx → EReal) (img : Fin 2) (ky kx : Fin 3) (sr sc : Nat)
    (off sz : Fin 4 → Nat) (inb : ∀ a, off a + sz a ≤ SCol.size a)
    (hbox : ∀ y : SCol.Idx, (∀ a : Fin 4, off a ≤ (y a).val ∧ (y a).val < off a + sz a) ↔ InTap img ky kx y)
    (hsr : off 1 + ky.val = sr + 1) (hsc : off 2 + kx.val = sc + 1) (hch : off 3 = (ky.val * 3 + kx.val) * 128)
    (w : (Rect.unit (s := SCol) off sz inb).shape.Idx → EReal)
    (hw : ∀ (x : (Rect.unit (s := SCol) off sz inb).shape.Idx) (k : SAct.Idx), (k 0).val = img.val → (k 1).val = (x 1).val + sr →
      (k 2).val = (x 2).val + sc → (k 3).val = (x 3).val → w x = ab k)
    (L : List (View.Piece (Elt Ideal) SCol .bf16))
    (hL : ∀ y, View.canon L y = upto ab (img.val * 9 + ky.val * 3 + kx.val) y) (y : SCol.Idx) :
    View.canon (⟨Rect.unit off sz inb, w⟩ :: L) y = upto ab (img.val * 9 + ky.val * 3 + kx.val + 1) y := by
  by_cases hb : ∀ a : Fin 4, off a ≤ (y a).val ∧ (y a).val < off a + sz a
  · have hB := (hbox y).mp hb
    obtain ⟨h0, ⟨h1a, h1b⟩, ⟨h2a, h2b⟩, h3⟩ := hB
    have hx : ∀ a : Fin 4, (y a).val = off a + ((fun a => ⟨(y a).val - off a, by have := hb a; show (y a).val - off a < sz a; omega⟩ : (Rect.unit (s := SCol) off sz inb).shape.Idx) a).val :=
      fun a => by have := hb a; show (y a).val = off a + ((y a).val - off a); omega
    rw [LibCanon.canon_cons_unit_of_in off sz inb w L y _ hx]
    have b1 := hb 1; have b2 := hb 2; have b3 := hb 3
    have hy3 : (y 3).val < 1152 := (y 3).isLt
    have hky := ky.isLt; have hkx := kx.isLt
    rw [upto_succ_of_in ab img ky kx y ⟨h0, ⟨h1a, h1b⟩, ⟨h2a, h2b⟩, h3⟩
      (ix4 img ⟨(y 1).val + ky.val - 1, by omega⟩ ⟨(y 2).val + kx.val - 1, by omega⟩ ⟨(y 3).val % 128, Nat.mod_lt _ (by decide)⟩)
      rfl (by show (y 1).val + ky.val - 1 + 1 = _; omega) (by show (y 2).val + kx.val - 1 + 1 = _; omega) rfl]
    refine hw _ _ rfl ?_ ?_ ?_
    · show (y 1).val + ky.val - 1 = (y 1).val - off 1 + sr; omega
    · show (y 2).val + kx.val - 1 = (y 2).val - off 2 + sc; omega
    · show (y 3).val % 128 = (y 3).val - off 3; omega
  · rw [LibCanon.canon_cons_unit_of_not_in off sz inb w L y hb, hL,
      upto_succ_of_not_in ab img ky kx y (fun hB => hb ((hbox y).mpr hB))]

/-- A store of the tap's rows' words with the tap's columns replaced: the replaced sub-box is the tap's reach. -/
theorem step_sub (v : View sig κ sp SCol .bf16) (ab : SAct.Idx → EReal) (img : Fin 2) (ky kx : Fin 3) (sr sc : Nat)
    (off sz : Fin 4 → Nat) (inb : ∀ a, off a + sz a ≤ SCol.size a) (usz : Fin 4 → Nat) (start : Fin 4 → Nat)
    (hsl : (Rect.unit (s := SCol) off sz inb).shape.Slices start ⟨4, usz⟩)
    (hbox : ∀ y : SCol.Idx, (∀ a : Fin 4, off a + start a ≤ (y a).val ∧ (y a).val < off a + start a + usz a) ↔ InTap img ky kx y)
    (hsr : off 1 + start 1 + ky.val = sr + 1) (hsc : off 2 + start 2 + kx.val = sc + 1) (hch : off 3 + start 3 = (ky.val * 3 + kx.val) * 128)
    (u : (⟨4, usz⟩ : Shape).Idx → EReal)
    (hu : ∀ (x : (⟨4, usz⟩ : Shape).Idx) (k : SAct.Idx), (k 0).val = img.val → (k 1).val = (x 1).val + sr →
      (k 2).val = (x 2).val + sc → (k 3).val = (x 3).val → u x = ab k)
    (L : List (View.Piece (Elt Ideal) SCol .bf16))
    (hL : ∀ y, View.canon L y = upto ab (img.val * 9 + ky.val * 3 + kx.val) y) (y : SCol.Idx) :
    View.canon (⟨Rect.unit off sz inb, updateSlice (v.readCov L (Rect.unit off sz inb).toLoadRect) u start hsl⟩ :: L) y
      = upto ab (img.val * 9 + ky.val * 3 + kx.val + 1) y := by
  by_cases hb : ∀ a : Fin 4, off a + start a ≤ (y a).val ∧ (y a).val < off a + start a + usz a
  · have hB := (hbox y).mp hb
    obtain ⟨h0, ⟨h1a, h1b⟩, ⟨h2a, h2b⟩, h3⟩ := hB
    have hlt : ∀ b : Fin 4, (y b).val - off b - start b < usz b := fun b => by have := hb b; omega
    rw [LibCanon.canon_cons_updateSlice_of_in v off sz inb L u start hsl y (fun b => ⟨(y b).val - off b - start b, hlt b⟩)
      (fun a => by have := hb a; show (y a).val = off a + start a + ((y a).val - off a - start a); omega)]
    have b1 := hb 1; have b2 := hb 2; have b3 := hb 3
    have hy3 : (y 3).val < 1152 := (y 3).isLt
    have hky := ky.isLt; have hkx := kx.isLt
    rw [upto_succ_of_in ab img ky kx y ⟨h0, ⟨h1a, h1b⟩, ⟨h2a, h2b⟩, h3⟩
      (ix4 img ⟨(y 1).val + ky.val - 1, by omega⟩ ⟨(y 2).val + kx.val - 1, by omega⟩ ⟨(y 3).val % 128, Nat.mod_lt _ (by decide)⟩)
      rfl (by show (y 1).val + ky.val - 1 + 1 = _; omega) (by show (y 2).val + kx.val - 1 + 1 = _; omega) rfl]
    refine hu _ _ rfl ?_ ?_ ?_
    · show (y 1).val + ky.val - 1 = (y 1).val - off 1 - start 1 + sr; omega
    · show (y 2).val + kx.val - 1 = (y 2).val - off 2 - start 2 + sc; omega
    · show (y 3).val % 128 = (y 3).val - off 3 - start 3; omega
  · rw [LibCanon.canon_cons_updateSlice_of_not_in v off sz inb L u start hsl y hb, hL,
      upto_succ_of_not_in ab img ky kx y (fun hB => hb ((hbox y).mpr hB))]

end Steps

end Cert.LibIm2col

end
-- ==== Proof.KIColLib.lean ====
/-
  The window buffer's stores and its read-back, in coordinates: the facts the two rounds of stores share.

  A box of the buffer given by its lower and upper bounds on the four axes is the reach of tap `(ky, kx)` of image `img`
  exactly when the bounds are that image, the rows `h` with `1 ≤ h + ky ≤ 32`, the columns `w` with `1 ≤ w + kx ≤ 32` and
  the tap's group of 128 buffer columns. A tap's payload is a box of rows and columns of one image's activation with its
  leading unit axis dropped and put back: at a local index it is the activation at the index shifted by the box's
  offsets. The whole buffer's box places every index at itself, and the buffer's final contents at column
  `(ky · 3 + kx) · 128 + c` are the padded activation at the pixel shifted by `(ky, kx)`, channel `c`.
-/
import proofs.«145656_g2000601261699844_pallasbulk_55_1_alg».proof.Proof.LibIm2col
import proofs.«145656_g2000601261699844_pallasbulk_55_1_alg».proof.Proof.KVLayer
import Idealize.ShloMosaic.Lib.ValueLayout
import Idealize.ShloMosaic.Lib.IdealHost

noncomputable section

namespace Cert.KernelIdeal.Col

open Idealize.ShloMosaic Idealize.ShloMosaic.ValueIdx Cert.LibIm2col

/-- The zero offsets of a rank-2 and of a rank-4 rectangle, as the constant function. -/
theorem hz2 : (![0, 0] : Fin 2 → Nat) = fun _ => 0 := by
  funext a; match a with | ⟨0, _⟩ => rfl | ⟨1, _⟩ => rfl
theorem hz4 : (![0, 0, 0, 0] : Fin 4 → Nat) = fun _ => 0 := by
  funext a; match a with | ⟨0, _⟩ => rfl | ⟨1, _⟩ => rfl | ⟨2, _⟩ => rfl | ⟨3, _⟩ => rfl

/-- A box of the buffer is the reach of tap `(ky, kx)` of image `img` when it is that image, the rows and columns whose
    shifted position is inside the image, and the tap's group of 128 columns. -/
theorem inTap_iff (img : Fin 2) (ky kx : Fin 3) (lo hi : Fin 4 → Nat)
    (e0 : lo 0 = img.val) (e0' : hi 0 = img.val + 1)
    (e1 : lo 1 = 1 - ky.val) (e1' : hi 1 = min 32 (33 - ky.val))
    (e2 : lo 2 = 1 - kx.val) (e2' : hi 2 = min 32 (33 - kx.val))
    (e3 : lo 3 = (ky.val * 3 + kx.val) * 128) (e3' : hi 3 = (ky.val * 3 + kx.val) * 128 + 128) (y : SCol.Idx) :
    (∀ a : Fin 4, lo a ≤ (y a).val ∧ (y a).val < hi a) ↔ InTap img ky kx y := by
  have hky := ky.isLt; have hkx := kx.isLt
  have y1 : (y 1).val < 32 := (y 1).isLt
  have y2 : (y 2).val < 32 := (y 2).isLt
  unfold InTap
  constructor
  · intro h
    have h0 := h 0; have h1 := h 1; have h2 := h 2; have h3 := h 3
    omega
  · intro h a
    match a with
    | ⟨0, _⟩ => show lo 0 ≤ (y 0).val ∧ (y 0).val < hi 0; omega
    | ⟨1, _⟩ => show lo 1 ≤ (y 1).val ∧ (y 1).val < hi 1; omega
    | ⟨2, _⟩ => show lo 2 ≤ (y 2).val ∧ (y 2).val < hi 2; omega
    | ⟨3, _⟩ => show lo 3 ≤ (y 3).val ∧ (y 3).val < hi 3; omega

/-- A tap's payload — rows and columns cut out of the activation of one image, the unit axis dropped and put back — read
    at a local index is the activation at the index shifted by the cut's offsets. -/
theorem tap_payload {α : Type} {A B : Nat} (ab : SAct.Idx → α) (i sr sc : Nat)
    (hsl : SAct.Slices ![i, sr, sc, 0] ⟨4, ![1, A, B, 128]⟩)
    (h1 : (⟨4, ![1, A, B, 128]⟩ : Shape).ShapeCasts ⟨3, ![A, B, 128]⟩)
    (h2 : (⟨3, ![A, B, 128]⟩ : Shape).ShapeCasts ⟨4, ![1, A, B, 128]⟩)
    (x : (⟨4, ![1, A, B, 128]⟩ : Shape).Idx) (k : SAct.Idx)
    (hk0 : (k 0).val = i) (hk1 : (k 1).val = (x 1).val + sr) (hk2 : (k 2).val = (x 2).val + sc)
    (hk3 : (k 3).val = (x 3).val) :
    shapeCast ⟨4, ![1, A, B, 128]⟩ (shapeCast ⟨3, ![A, B, 128]⟩
      (extractStridedSlice ⟨4, ![1, A, B, 128]⟩ ![i, sr, sc, 0] ab hsl) h1) h2 x = ab k := by
  rw [shapeCast_shapeCast]
  refine extractStridedSlice_apply _ ab hsl x k fun a => ?_
  have x0 : (x 0).val = 0 := by have : (x 0).val < 1 := (x 0).isLt; omega
  match a with
  | ⟨0, _⟩ => show (k 0).val = i + (x 0).val; omega
  | ⟨1, _⟩ => show (k 1).val = sr + (x 1).val; omega
  | ⟨2, _⟩ => show (k 2).val = sc + (x 2).val; omega
  | ⟨3, _⟩ => show (k 3).val = 0 + (x 3).val; omega

/-- The whole buffer's box places a local index at itself. -/
theorem whole_idx (inb : ∀ a, (![0, 0, 0, 0] : Fin 4 → Nat) a + SCol.size a ≤ SCol.size a) (j : SCol.Idx) :
    (Rect.unit (s := SCol) ![0, 0, 0, 0] SCol.size inb).toLoadRect.idx j = j := by
  funext a; apply Fin.ext
  have e : (((Rect.unit (s := SCol) ![0, 0, 0, 0] SCol.size inb).toLoadRect.idx j) a : Nat)
      = (![0, 0, 0, 0] : Fin 4 → Nat) a + 1 * (j a).val := rfl
  rw [e]
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- The padded image read at equal positions. -/
theorem pad_congr {C : Nat} (A : Fin 32 → Fin 32 → Fin C → EReal) {i i' j j' : Nat} {c c' : Fin C}
    (hi : i = i') (hj : j = j') (hc : c = c') : Cert.Spec.pad A i j c = Cert.Spec.pad A i' j' c' := by
  subst hi hj hc; rfl

/-- The buffer's final contents at pixel `(h, w)` of image `img`, column `(ky · 3 + kx) · 128 + c`: the padded
    activation of that image at `(h + ky, w + kx, c)`. -/
theorem tapAt_colOf (ab : SAct.Idx → EReal) (img : Fin 2) (h w : Fin 32) (ky kx : Fin 3) (c : Fin 128) :
    tapAt ab (ix4 img h w (BlockValue.colOf ky kx c))
      = Cert.Spec.pad (fun h' w' c' => ab (ix4 img h' w' c')) (h.val + ky.val) (w.val + kx.val) c := by
  have hky := ky.isLt; have hkx := kx.isLt; have hc := c.isLt
  unfold tapAt
  exact pad_congr _
    (by show h.val + ((ky.val * 3 + kx.val) * 128 + c.val) / 128 / 3 = h.val + ky.val; omega)
    (by show w.val + ((ky.val * 3 + kx.val) * 128 + c.val) / 128 % 3 = w.val + kx.val; omega)
    (Fin.ext (by show ((ky.val * 3 + kx.val) * 128 + c.val) % 128 = c.val; omega))

end Cert.KernelIdeal.Col

end
-- ==== Proof.KICol1.lean ====
/-
  The window buffer before the first 3×3 layer's product.

  The body fills the buffer with zeros and stores into it, image by image and tap by tap, eighteen boxes of the first
  block's 1×1 entry (as two images): nine per image, tap `(ky, kx)` into the column group `ky · 3 + kx` at the pixels whose
  position shifted by `(ky − 1, kx − 1)` is inside the image. Store by store the buffer holds the zero fill and the taps
  stored so far; after the eighteenth it holds, at every pixel and every column `(ky · 3 + kx) · 128 + c`, the zero-padded
  entry at the pixel shifted by the tap — what the layer's one long product needs of it.
-/
import proofs.«145656_g2000601261699844_pallasbulk_55_1_alg».proof.Proof.KIRun
import proofs.«145656_g2000601261699844_pallasbulk_55_1_alg».proof.Proof.KIColLib

set_option maxRecDepth 16384

noncomputable section

namespace Cert.KernelIdeal.Col

open Cert.KernelIdeal Cert.KernelIdeal.Gen Cert.KernelIdeal.Body
open Idealize.ShloMosaic Idealize.ShloMosaic.ValueIdx Cert.LibIm2col

section Round1
variable (c : Dev nD)
  (arg1 : Memref sig .tc .vmem S2048x128 .f32) (harg1 : arg1.IsWhole) (arg2 : Memref sig .tc .vmem S128x512 .bf16) (harg2 : arg2.IsWhole)
  (arg3 : Memref sig .tc .vmem S1x512 .f32) (harg3 : arg3.IsWhole) (arg4 : Memref sig .tc .vmem S512x384 .bf16) (harg4 : arg4.IsWhole)
  (arg5 : Memref sig .tc .vmem S1x384 .f32) (harg5 : arg5.IsWhole) (arg24 : Memref sig .tc .vmem S2x32x32x1152 .bf16)
  (x1 : Vec Ideal S2048x128 .f32) (x2 : Vec Ideal S128x512 .bf16) (x3 : Vec Ideal S1x512 .f32) (x4 : Vec Ideal S512x384 .bf16)
  (x5 : Vec Ideal S1x384 .f32)

/-- The first 3×3 layer's input, from the loaded blocks. -/
theorem r2_eq : kernelRun0.sl.r_2 (F := Ideal) c arg1 harg1 arg2 harg2 arg3 harg3 arg4 harg4 arg5 harg5 x1 x2 x3 x4 x5 = k0_pay5 x1 x2 x3 x4 x5 := by
  unfold kernelRun0.sl.r_2
  simp only [View.readAt_eq_ld, Memref.IsWhole.read_unread, View.ld_unit_zero (S := S2048x128) hz2, View.ld_unit_zero (S := S128x512) hz2, View.ld_unit_zero (S := S1x512) hz2, View.ld_unit_zero (S := S512x384) hz2, View.ld_unit_zero (S := S1x384) hz2]

theorem r3_eq : kernelRun0.sl.r_3 (F := Ideal) c arg1 harg1 arg2 harg2 arg3 harg3 arg4 harg4 arg5 harg5 x1 x2 x3 x4 x5 = k0_pay7 x1 x2 x3 x4 x5 := by
  unfold kernelRun0.sl.r_3
  simp only [View.readAt_eq_ld, Memref.IsWhole.read_unread, View.ld_unit_zero (S := S2048x128) hz2, View.ld_unit_zero (S := S128x512) hz2, View.ld_unit_zero (S := S1x512) hz2, View.ld_unit_zero (S := S512x384) hz2, View.ld_unit_zero (S := S1x384) hz2]

local notation "AB1" => (k0_pay5 x1 x2 x3 x4 x5 : SAct.Idx → EReal)

/-- After the zero fill the buffer holds no tap. -/
theorem fact1 (y : SCol.Idx) : View.canon (kernelRun0.sl.H24_1 (F := Ideal)) y = upto AB1 0 y := by
  unfold kernelRun0.sl.H24_1
  rw [View.canon_unit_zero hz4, upto_zero]
  unfold k0_pay6
  exact Ideal.ofBits_zero_bf16

/-- Image 0, tap (0, 0): the payload at a local index. -/
theorem v35_apply (x : S1x31x31x128.Idx) (k : SAct.Idx) (hk0 : (k 0).val = (0 : Fin 2).val)
    (hk1 : (k 1).val = (x 1).val + 0) (hk2 : (k 2).val = (x 2).val + 0) (hk3 : (k 3).val = (x 3).val) :
    kernelRun0.sl.v35 (F := Ideal) c arg1 harg1 arg2 harg2 arg3 harg3 arg4 harg4 arg5 harg5 x1 x2 x3 x4 x5 x = AB1 k := by
  unfold kernelRun0.sl.v35
  rw [r3_eq]
  unfold k0_pay7
  exact tap_payload AB1 0 0 0 _ _ _ x k hk0 hk1 hk2 hk3

/-- After that store the buffer holds the first 1 taps. -/
theorem fact2 (y : SCol.Idx) : View.canon (kernelRun0.sl.H24_2 (F := Ideal) c arg1 harg1 arg2 harg2 arg3 harg3 arg4 harg4 arg5 harg5 arg24 x1 x2 x3 x4 x5) y = upto AB1 1 y := by
  unfold kernelRun0.sl.H24_2 kernelRun0.sl.old
  exact step_sub arg24.view AB1 0 0 0 0 0 _ _ _ _ _ _
    (fun y => inTap_iff 0 0 0 _ _ rfl rfl rfl rfl rfl rfl rfl rfl y) rfl rfl rfl _
    (fun x k => v35_apply c arg1 harg1 arg2 harg2 arg3 harg3 arg4 harg4 arg5 harg5 x1 x2 x3 x4 x5 x k) _ (fact1 x1 x2 x3 x4 x5) y

/-- Image 0, tap (0, 1): the payload at a local index. -/
theorem v40_apply (x : S1x31x32x128.Idx) (k : SAct.Idx) (hk0 : (k 0).val = (0 : Fin 2).val)
    (hk1 : (k 1).val = (x 1).val + 0) (hk2 : (k 2).val = (x 2).val + 0) (hk3 : (k 3).val = (x 3).val) :
    kernelRun0.sl.v40 (F := Ideal) c arg1 harg1 arg2 harg2 arg3 harg3 arg4 harg4 arg5 harg5 x1 x2 x3 x4 x5 x = AB1 k := by
  unfold kernelRun0.sl.v40 kernelRun0.sl.v37 kernelRun0.sl.v36
  rw [r2_eq]
  exact tap_payload AB1 0 0 0 _ _ _ x k hk0 hk1 hk2 hk3

/-- After that store the buffer holds the first 2 taps. -/
theorem fact3 (y : SCol.Idx) : View.canon (kernelRun0.sl.H24_3 (F := Ideal) c arg1 harg1 arg2 harg2 arg3 harg3 arg4 harg4 arg5 harg5 arg24 x1 x2 x3 x4 x5) y = upto AB1 2 y := by
  unfold kernelRun0.sl.H24_3
  exact step_plain AB1 0 0 1 0 0 _ _ _
    (fun y => inTap_iff 0 0 1 _ _ rfl rfl rfl rfl rfl rfl rfl rfl y) rfl rfl rfl _
    (fun x k => v40_apply c arg1 harg1 arg2 harg2 arg3 harg3 arg4 harg4 arg5 harg5 x1 x2 x3 x4 x5 x k) _ (fact2 c arg1 harg1 arg2 harg2 arg3 harg3 arg4 harg4 arg5 harg5 arg24 x1 x2 x3 x4 x5) y

/-- Image 0, tap (0, 2): the payload at a local index. -/
theorem v45_apply (x : S1x31x31x128.Idx) (k : SAct.Idx) (hk0 : (k 0).val = (0 : Fin 2).val)
    (hk1 : (k 1).val = (x 1).val + 0) (hk2 : (k 2).val = (x 2).val + 1) (hk3 : (k 3).val = (x 3).val) :
    kernelRun0.sl.v45 (F := Ideal) c arg1 harg1 arg2 harg2 arg3 harg3 arg4 harg4 arg5 harg5 x1 x2 x3 x4 x5 x = AB1 k := by
  unfold kernelRun0.sl.v45 kernelRun0.sl.v42 kernelRun0.sl.v41
  rw [r2_eq]
  exact tap_payload AB1 0 0 1 _ _ _ x k hk0 hk1 hk2 hk3

/-- After that store the buffer holds the first 3 taps. -/
theorem fact4 (y : SCol.Idx) : View.canon (kernelRun0.sl.H24_4 (F := Ideal) c arg1 harg1 arg2 harg2 arg3 harg3 arg4 harg4 arg5 harg5 arg24 x1 x2 x3 x4 x5) y = upto AB1 3 y := by
  unfold kernelRun0.sl.H24_4 kernelRun0.sl.old_1
  exact step_sub arg24.view AB1 0 0 2 0 1 _ _ _ _ _ _
    (fun y => inTap_iff 0 0 2 _ _ rfl rfl rfl rfl rfl rfl rfl rfl y) rfl rfl rfl _
    (fun x k => v45_apply c arg1 harg1 arg2 harg2 arg3 harg3 arg4 harg4 arg5 harg5 x1 x2 x3 x4 x5 x k) _ (fact3 c arg1 harg1 arg2 harg2 arg3 harg3 arg4 harg4 arg5 harg5 arg24 x1 x2 x3 x4 x5) y

/-- Image 0, tap (1, 0): the payload at a local index. -/
theorem v50_apply (x : S1x32x31x128.Idx) (k : SAct.Idx) (hk0 : (k 0).val = (0 : Fin 2).val)
    (hk1 : (k 1).val = (x 1).val + 0) (hk2 : (k 2).val = (x 2).val + 0) (hk3 : (k 3).val = (x 3).val) :
    kernelRun0.sl.v50 (F := Ideal) c arg1 harg1 arg2 harg2 arg3 harg3 arg4 harg4 arg5 harg5 x1 x2 x3 x4 x5 x = AB1 k := by
  unfold kernelRun0.sl.v50 kernelRun0.sl.v47 kernelRun0.sl.v46
  rw [r2_eq]
  exact tap_payload AB1 0 0 0 _ _ _ x k hk0 hk1 hk2 hk3

/-- After that store the buffer holds the first 4 taps. -/
theorem fact5 (y : SCol.Idx) : View.canon (kernelRun0.sl.H24_5 (F := Ideal) c arg1 harg1 arg2 harg2 arg3 harg3 arg4 harg4 arg5 harg5 arg24 x1 x2 x3 x4 x5) y = upto AB1 4 y := by
  unfold kernelRun0.sl.H24_5 kernelRun0.sl.old_2
  exact step_sub arg24.view AB1 0 1 0 0 0 _ _ _ _ _ _
    (fun y => inTap_iff 0 1 0 _ _ rfl rfl rfl rfl rfl rfl rfl rfl y) rfl rfl rfl _
    (fun x k => v50_apply c arg1 harg1 arg2 harg2 arg3 harg3 arg4 harg4 arg5 harg5 x1 x2 x3 x4 x5 x k) _ (fact4 c arg1 harg1 arg2 harg2 arg3 harg3 arg4 harg4 arg5 harg5 arg24 x1 x2 x3 x4 x5) y

/-- Image 0, tap (1, 1): the payload at a local index. -/
theorem v55_apply (x : S1x32x32x128.Idx) (k : SAct.Idx) (hk0 : (k 0).val = (0 : Fin 2).val)
    (hk1 : (k 1).val = (x 1).val + 0) (hk2 : (k 2).val = (x 2).val + 0) (hk3 : (k 3).val = (x 3).val) :
    kernelRun0.sl.v55 (F := Ideal) c arg1 harg1 arg2 harg2 arg3 harg3 arg4 harg4 arg5 harg5 x1 x2 x3 x4 x5 x = AB1 k := by
  unfold kernelRun0.sl.v55 kernelRun0.sl.v52 kernelRun0.sl.v51
  rw [r2_eq]
  exact tap_payload AB1 0 0 0 _ _ _ x k hk0 hk1 hk2 hk3

/-- After that store the buffer holds the first 5 taps. -/
theorem fact6 (y : SCol.Idx) : View.canon (kernelRun0.sl.H24_6 (F := Ideal) c arg1 harg1 arg2 harg2 arg3 harg3 arg4 harg4 arg5 harg5 arg24 x1 x2 x3 x4 x5) y = upto AB1 5 y := by
  unfold kernelRun0.sl.H24_6
  exact step_plain AB1 0 1 1 0 0 _ _ _
    (fun y => inTap_iff 0 1 1 _ _ rfl rfl rfl rfl rfl rfl rfl rfl y) rfl rfl rfl _
    (fun x k => v55_apply c arg1 harg1 arg2 harg2 arg3 harg3 arg4 harg4 arg5 harg5 x1 x2 x3 x4 x5 x k) _ (fact5 c arg1 harg1 arg2 harg2 arg3 harg3 arg4 harg4 arg5 harg5 arg24 x1 x2 x3 x4 x5) y

/-- Image 0, tap (1, 2): the payload at a local index. -/
theorem v60_apply (x : S1x32x31x128.Idx) (k : SAct.Idx) (hk0 : (k 0).val = (0 : Fin 2).val)
    (hk1 : (k 1).val = (x 1).val + 0) (hk2 : (k 2).val = (x 2).val + 1) (hk3 : (k 3).val = (x 3).val) :
    kernelRun0.sl.v60 (F := Ideal) c arg1 harg1 arg2 harg2 arg3 harg3 arg4 harg4 arg5 harg5 x1 x2 x3 x4 x5 x = AB1 k := by
  unfold kernelRun0.sl.v60 kernelRun0.sl.v57 kernelRun0.sl.v56
  rw [r2_eq]
  exact tap_payload AB1 0 0 1 _ _ _ x k hk0 hk1 hk2 hk3

/-- After that store the buffer holds the first 6 taps. -/
theorem fact7 (y : SCol.Idx) : View.canon (kernelRun0.sl.H24_7 (F := Ideal) c arg1 harg1 arg2 harg2 arg3 harg3 arg4 harg4 arg5 harg5 arg24 x1 x2 x3 x4 x5) y = upto AB1 6 y := by
  unfold kernelRun0.sl.H24_7 kernelRun0.sl.old_3
  exact step_sub arg24.view AB1 0 1 2 0 1 _ _ _ _ _ _
    (fun y => inTap_iff 0 1 2 _ _ rfl rfl rfl rfl rfl rfl rfl rfl y) rfl rfl rfl _
    (fun x k => v60_apply c arg1 harg1 arg2 harg2 arg3 harg3 arg4 harg4 arg5 harg5 x1 x2 x3 x4 x5 x k) _ (fact6 c arg1 harg1 arg2 harg2 arg3 harg3 arg4 harg4 arg5 harg5 arg24 x1 x2 x3 x4 x5) y

/-- Image 0, tap (2, 0): the payload at a local index. -/
theorem v65_apply (x : S1x31x31x128.Idx) (k : SAct.Idx) (hk0 : (k 0).val = (0 : Fin 2).val)
    (hk1 : (k 1).val = (x 1).val + 1) (hk2 : (k 2).val = (x 2).val + 0) (hk3 : (k 3).val = (x 3).val) :
    kernelRun0.sl.v65 (F := Ideal) c arg1 harg1 arg2 harg2 arg3 harg3 arg4 harg4 arg5 harg5 x1 x2 x3 x4 x5 x = AB1 k := by
  unfold kernelRun0.sl.v65 kernelRun0.sl.v62 kernelRun0.sl.v61
  rw [r2_eq]
  exact tap_payload AB1 0 1 0 _ _ _ x k hk0 hk1 hk2 hk3

/-- After that store the buffer holds the first 7 taps. -/
theorem fact8 (y : SCol.Idx) : View.canon (kernelRun0.sl.H24_8 (F := Ideal) c arg1 harg1 arg2 harg2 arg3 harg3 arg4 harg4 arg5 harg5 arg24 x1 x2 x3 x4 x5) y = upto AB1 7 y := by
  unfold kernelRun0.sl.H24_8 kernelRun0.sl.old_4
  exact step_sub arg24.view AB1 0 2 0 1 0 _ _ _ _ _ _
    (fun y => inTap_iff 0 2 0 _ _ rfl rfl rfl rfl rfl rfl rfl rfl y) rfl rfl rfl _
    (fun x k => v65_apply c arg1 harg1 arg2 harg2 arg3 harg3 arg4 harg4 arg5 harg5 x1 x2 x3 x4 x5 x k) _ (fact7 c arg1 harg1 arg2 harg2 arg3 harg3 arg4 harg4 arg5 harg5 arg24 x1 x2 x3 x4 x5) y

/-- Image 0, tap (2, 1): the payload at a local index. -/
theorem v70_apply (x : S1x31x32x128.Idx) (k : SAct.Idx) (hk0 : (k 0).val = (0 : Fin 2).val)
    (hk1 : (k 1).val = (x 1).val + 1) (hk2 : (k 2).val = (x 2).val + 0) (hk3 : (k 3).val = (x 3).val) :
    kernelRun0.sl.v70 (F := Ideal) c arg1 harg1 arg2 harg2 arg3 harg3 arg4 harg4 arg5 harg5 x1 x2 x3 x4 x5 x = AB1 k := by
  unfold kernelRun0.sl.v70 kernelRun0.sl.v67 kernelRun0.sl.v66
  rw [r2_eq]
  exact tap_payload AB1 0 1 0 _ _ _ x k hk0 hk1 hk2 hk3

/-- After that store the buffer holds the first 8 taps. -/
theorem fact9 (y : SCol.Idx) : View.canon (kernelRun0.sl.H24_9 (F := Ideal) c arg1 harg1 arg2 harg2 arg3 harg3 arg4 harg4 arg5 harg5 arg24 x1 x2 x3 x4 x5) y = upto AB1 8 y := by
  unfold kernelRun0.sl.H24_9
  exact step_plain AB1 0 2 1 1 0 _ _ _
    (fun y => inTap_iff 0 2 1 _ _ rfl rfl rfl rfl rfl rfl rfl rfl y) rfl rfl rfl _
    (fun x k => v70_apply c arg1 harg1 arg2 harg2 arg3 harg3 arg4 harg4 arg5 harg5 x1 x2 x3 x4 x5 x k) _ (fact8 c arg1 harg1 arg2 harg2 arg3 harg3 arg4 harg4 arg5 harg5 arg24 x1 x2 x3 x4 x5) y

/-- Image 0, tap (2, 2): the payload at a local index. -/
theorem v75_apply (x : S1x31x31x128.Idx) (k : SAct.Idx) (hk0 : (k 0).val = (0 : Fin 2).val)
    (hk1 : (k 1).val = (x 1).val + 1) (hk2 : (k 2).val = (x 2).val + 1) (hk3 : (k 3).val = (x 3).val) :
    kernelRun0.sl.v75 (F := Ideal) c arg1 harg1 arg2 harg2 arg3 harg3 arg4 harg4 arg5 harg5 x1 x2 x3 x4 x5 x = AB1 k := by
  unfold kernelRun0.sl.v75 kernelRun0.sl.v72 kernelRun0.sl.v71
  rw [r2_eq]
  exact tap_payload AB1 0 1 1 _ _ _ x k hk0 hk1 hk2 hk3

/-- After that store the buffer holds the first 9 taps. -/
theorem fact10 (y : SCol.Idx) : View.canon (kernelRun0.sl.H24_10 (F := Ideal) c arg1 harg1 arg2 harg2 arg3 harg3 arg4 harg4 arg5 harg5 arg24 x1 x2 x3 x4 x5) y = upto AB1 9 y := by
  unfold kernelRun0.sl.H24_10 kernelRun0.sl.old_5
  exact step_sub arg24.view AB1 0 2 2 1 1 _ _ _ _ _ _
    (fun y => inTap_iff 0 2 2 _ _ rfl rfl rfl rfl rfl rfl rfl rfl y) rfl rfl rfl _
    (fun x k => v75_apply c arg1 harg1 arg2 harg2 arg3 harg3 arg4 harg4 arg5 harg5 x1 x2 x3 x4 x5 x k) _ (fact9 c arg1 harg1 arg2 harg2 arg3 harg3 arg4 harg4 arg5 harg5 arg24 x1 x2 x3 x4 x5) y

/-- Image 1, tap (0, 0): the payload at a local index. -/
theorem v80_apply (x : S1x31x31x128.Idx) (k : SAct.Idx) (hk0 : (k 0).val = (1 : Fin 2).val)
    (hk1 : (k 1).val = (x 1).val + 0) (hk2 : (k 2).val = (x 2).val + 0) (hk3 : (k 3).val = (x 3).val) :
    kernelRun0.sl.v80 (F := Ideal) c arg1 harg1 arg2 harg2 arg3 harg3 arg4 harg4 arg5 harg5 x1 x2 x3 x4 x5 x = AB1 k := by
  unfold kernelRun0.sl.v80 kernelRun0.sl.v77 kernelRun0.sl.v76
  rw [r2_eq]
  exact tap_payload AB1 1 0 0 _ _ _ x k hk0 hk1 hk2 hk3

/-- After that store the buffer holds the first 10 taps. -/
theorem fact11 (y : SCol.Idx) : View.canon (kernelRun0.sl.H24_11 (F := Ideal) c arg1 harg1 arg2 harg2 arg3 harg3 arg4 harg4 arg5 harg5 arg24 x1 x2 x3 x4 x5) y = upto AB1 10 y := by
  unfold kernelRun0.sl.H24_11 kernelRun0.sl.old_6
  exact step_sub arg24.view AB1 1 0 0 0 0 _ _ _ _ _ _
    (fun y => inTap_iff 1 0 0 _ _ rfl rfl rfl rfl rfl rfl rfl rfl y) rfl rfl rfl _
    (fun x k => v80_apply c arg1 harg1 arg2 harg2 arg3 harg3 arg4 harg4 arg5 harg5 x1 x2 x3 x4 x5 x k) _ (fact10 c arg1 harg1 arg2 harg2 arg3 harg3 arg4 harg4 arg5 harg5 arg24 x1 x2 x3 x4 x5) y

/-- Image 1, tap (0, 1): the payload at a local index. -/
theorem v85_apply (x : S1x31x32x128.Idx) (k : SAct.Idx) (hk0 : (k 0).val = (1 : Fin 2).val)
    (hk1 : (k 1).val = (x 1).val + 0) (hk2 : (k 2).val = (x 2).val + 0) (hk3 : (k 3).val = (x 3).val) :
    kernelRun0.sl.v85 (F := Ideal) c arg1 harg1 arg2 harg2 arg3 harg3 arg4 harg4 arg5 harg5 x1 x2 x3 x4 x5 x = AB1 k := by
  unfold kernelRun0.sl.v85 kernelRun0.sl.v82 kernelRun0.sl.v81
  rw [r2_eq]
  exact tap_payload AB1 1 0 0 _ _ _ x k hk0 hk1 hk2 hk3

/-- After that store the buffer holds the first 11 taps. -/
theorem fact12 (y : SCol.Idx) : View.canon (kernelRun0.sl.H24_12 (F := Ideal) c arg1 harg1 arg2 harg2 arg3 harg3 arg4 harg4 arg5 harg5 arg24 x1 x2 x3 x4 x5) y = upto AB1 11 y := by
  unfold kernelRun0.sl.H24_12
  exact step_plain AB1 1 0 1 0 0 _ _ _
    (fun y => inTap_iff 1 0 1 _ _ rfl rfl rfl rfl rfl rfl rfl rfl y) rfl rfl rfl _
    (fun x k => v85_apply c arg1 harg1 arg2 harg2 arg3 harg3 arg4 harg4 arg5 harg5 x1 x2 x3 x4 x5 x k) _ (fact11 c arg1 harg1 arg2 harg2 arg3 harg3 arg4 harg4 arg5 harg5 arg24 x1 x2 x3 x4 x5) y

/-- Image 1, tap (0, 2): the payload at a local index. -/
theorem v90_apply (x : S1x31x31x128.Idx) (k : SAct.Idx) (hk0 : (k 0).val = (1 : Fin 2).val)
    (hk1 : (k 1).val = (x 1).val + 0) (hk2 : (k 2).val = (x 2).val + 1) (hk3 : (k 3).val = (x 3).val) :
    kernelRun0.sl.v90 (F := Ideal) c arg1 harg1 arg2 harg2 arg3 harg3 arg4 harg4 arg5 harg5 x1 x2 x3 x4 x5 x = AB1 k := by
  unfold kernelRun0.sl.v90 kernelRun0.sl.v87 kernelRun0.sl.v86
  rw [r2_eq]
  exact tap_payload AB1 1 0 1 _ _ _ x k hk0 hk1 hk2 hk3

/-- After that store the buffer holds the first 12 taps. -/
theorem fact13 (y : SCol.Idx) : View.canon (kernelRun0.sl.H24_13 (F := Ideal) c arg1 harg1 arg2 harg2 arg3 harg3 arg4 harg4 arg5 harg5 arg24 x1 x2 x3 x4 x5) y = upto AB1 12 y := by
  unfold kernelRun0.sl.H24_13 kernelRun0.sl.old_7
  exact step_sub arg24.view AB1 1 0 2 0 1 _ _ _ _ _ _
    (fun y => inTap_iff 1 0 2 _ _ rfl rfl rfl rfl rfl rfl rfl rfl y) rfl rfl rfl _
    (fun x k => v90_apply c arg1 harg1 arg2 harg2 arg3 harg3 arg4 harg4 arg5 harg5 x1 x2 x3 x4 x5 x k) _ (fact12 c arg1 harg1 arg2 harg2 arg3 harg3 arg4 harg4 arg5 harg5 arg24 x1 x2 x3 x4 x5) y

/-- Image 1, tap (1, 0): the payload at a local index. -/
theorem v95_apply (x : S1x32x31x128.Idx) (k : SAct.Idx) (hk0 : (k 0).val = (1 : Fin 2).val)
    (hk1 : (k 1).val = (x 1).val + 0) (hk2 : (k 2).val = (x 2).val + 0) (hk3 : (k 3).val = (x 3).val) :
    kernelRun0.sl.v95 (F := Ideal) c arg1 harg1 arg2 harg2 arg3 harg3 arg4 harg4 arg5 harg5 x1 x2 x3 x4 x5 x = AB1 k := by
  unfold kernelRun0.sl.v95 kernelRun0.sl.v92 kernelRun0.sl.v91
  rw [r2_eq]
  exact tap_payload AB1 1 0 0 _ _ _ x k hk0 hk1 hk2 hk3

/-- After that store the buffer holds the first 13 taps. -/
theorem fact14 (y : SCol.Idx) : View.canon (kernelRun0.sl.H24_14 (F := Ideal) c arg1 harg1 arg2 harg2 arg3 harg3 arg4 harg4 arg5 harg5 arg24 x1 x2 x3 x4 x5) y = upto AB1 13 y := by
  unfold kernelRun0.sl.H24_14 kernelRun0.sl.old_8
  exact step_sub arg24.view AB1 1 1 0 0 0 _ _ _ _ _ _
    (fun y => inTap_iff 1 1 0 _ _ rfl rfl rfl rfl rfl rfl rfl rfl y) rfl rfl rfl _
    (fun x k => v95_apply c arg1 harg1 arg2 harg2 arg3 harg3 arg4 harg4 arg5 harg5 x1 x2 x3 x4 x5 x k) _ (fact13 c arg1 harg1 arg2 harg2 arg3 harg3 arg4 harg4 arg5 harg5 arg24 x1 x2 x3 x4 x5) y

/-- Image 1, tap (1, 1): the payload at a local index. -/
theorem v100_apply (x : S1x32x32x128.Idx) (k : SAct.Idx) (hk0 : (k 0).val = (1 : Fin 2).val)
    (hk1 : (k 1).val = (x 1).val + 0) (hk2 : (k 2).val = (x 2).val + 0) (hk3 : (k 3).val = (x 3).val) :
    kernelRun0.sl.v100 (F := Ideal) c arg1 harg1 arg2 harg2 arg3 harg3 arg4 harg4 arg5 harg5 x1 x2 x3 x4 x5 x = AB1 k := by
  unfold kernelRun0.sl.v100 kernelRun0.sl.v97 kernelRun0.sl.v96
  rw [r2_eq]
  exact tap_payload AB1 1 0 0 _ _ _ x k hk0 hk1 hk2 hk3

/-- After that store the buffer holds the first 14 taps. -/
theorem fact15 (y : SCol.Idx) : View.canon (kernelRun0.sl.H24_15 (F := Ideal) c arg1 harg1 arg2 harg2 arg3 harg3 arg4 harg4 arg5 harg5 arg24 x1 x2 x3 x4 x5) y = upto AB1 14 y := by
  unfold kernelRun0.sl.H24_15
  exact step_plain AB1 1 1 1 0 0 _ _ _
    (fun y => inTap_iff 1 1 1 _ _ rfl rfl rfl rfl rfl rfl rfl rfl y) rfl rfl rfl _
    (fun x k => v100_apply c arg1 harg1 arg2 harg2 arg3 harg3 arg4 harg4 arg5 harg5 x1 x2 x3 x4 x5 x k) _ (fact14 c arg1 harg1 arg2 harg2 arg3 harg3 arg4 harg4 arg5 harg5 arg24 x1 x2 x3 x4 x5) y

/-- Image 1, tap (1, 2): the payload at a local index. -/
theorem v105_apply (x : S1x32x31x128.Idx) (k : SAct.Idx) (hk0 : (k 0).val = (1 : Fin 2).val)
    (hk1 : (k 1).val = (x 1).val + 0) (hk2 : (k 2).val = (x 2).val + 1) (hk3 : (k 3).val = (x 3).val) :
    kernelRun0.sl.v105 (F := Ideal) c arg1 harg1 arg2 harg2 arg3 harg3 arg4 harg4 arg5 harg5 x1 x2 x3 x4 x5 x = AB1 k := by
  unfold kernelRun0.sl.v105 kernelRun0.sl.v102 kernelRun0.sl.v101
  rw [r2_eq]
  exact tap_payload AB1 1 0 1 _ _ _ x k hk0 hk1 hk2 hk3

/-- After that store the buffer holds the first 15 taps. -/
theorem fact16 (y : SCol.Idx) : View.canon (kernelRun0.sl.H24_16 (F := Ideal) c arg1 harg1 arg2 harg2 arg3 harg3 arg4 harg4 arg5 harg5 arg24 x1 x2 x3 x4 x5) y = upto AB1 15 y := by
  unfold kernelRun0.sl.H24_16 kernelRun0.sl.old_9
  exact step_sub arg24.view AB1 1 1 2 0 1 _ _ _ _ _ _
    (fun y => inTap_iff 1 1 2 _ _ rfl rfl rfl rfl rfl rfl rfl rfl y) rfl rfl rfl _
    (fun x k => v105_apply c arg1 harg1 arg2 harg2 arg3 harg3 arg4 harg4 arg5 harg5 x1 x2 x3 x4 x5 x k) _ (fact15 c arg1 harg1 arg2 harg2 arg3 harg3 arg4 harg4 arg5 harg5 arg24 x1 x2 x3 x4 x5) y

/-- Image 1, tap (2, 0): the payload at a local index. -/
theorem v110_apply (x : S1x31x31x128.Idx) (k : SAct.Idx) (hk0 : (k 0).val = (1 : Fin 2).val)
    (hk1 : (k 1).val = (x 1).val + 1) (hk2 : (k 2).val = (x 2).val + 0) (hk3 : (k 3).val = (x 3).val) :
    kernelRun0.sl.v110 (F := Ideal) c arg1 harg1 arg2 harg2 arg3 harg3 arg4 harg4 arg5 harg5 x1 x2 x3 x4 x5 x = AB1 k := by
  unfold kernelRun0.sl.v110 kernelRun0.sl.v107 kernelRun0.sl.v106
  rw [r2_eq]
  exact tap_payload AB1 1 1 0 _ _ _ x k hk0 hk1 hk2 hk3

/-- After that store the buffer holds the first 16 taps. -/
theorem fact17 (y : SCol.Idx) : View.canon (kernelRun0.sl.H24_17 (F := Ideal) c arg1 harg1 arg2 harg2 arg3 harg3 arg4 harg4 arg5 harg5 arg24 x1 x2 x3 x4 x5) y = upto AB1 16 y := by
  unfold kernelRun0.sl.H24_17 kernelRun0.sl.old_10
  exact step_sub arg24.view AB1 1 2 0 1 0 _ _ _ _ _ _
    (fun y => inTap_iff 1 2 0 _ _ rfl rfl rfl rfl rfl rfl rfl rfl y) rfl rfl rfl _
    (fun x k => v110_apply c arg1 harg1 arg2 harg2 arg3 harg3 arg4 harg4 arg5 harg5 x1 x2 x3 x4 x5 x k) _ (fact16 c arg1 harg1 arg2 harg2 arg3 harg3 arg4 harg4 arg5 harg5 arg24 x1 x2 x3 x4 x5) y

/-- Image 1, tap (2, 1): the payload at a local index. -/
theorem v115_apply (x : S1x31x32x128.Idx) (k : SAct.Idx) (hk0 : (k 0).val = (1 : Fin 2).val)
    (hk1 : (k 1).val = (x 1).val + 1) (hk2 : (k 2).val = (x 2).val + 0) (hk3 : (k 3).val = (x 3).val) :
    kernelRun0.sl.v115 (F := Ideal) c arg1 harg1 arg2 harg2 arg3 harg3 arg4 harg4 arg5 harg5 x1 x2 x3 x4 x5 x = AB1 k := by
  unfold kernelRun0.sl.v115 kernelRun0.sl.v112 kernelRun0.sl.v111
  rw [r2_eq]
  exact tap_payload AB1 1 1 0 _ _ _ x k hk0 hk1 hk2 hk3

/-- After that store the buffer holds the first 17 taps. -/
theorem fact18 (y : SCol.Idx) : View.canon (kernelRun0.sl.H24_18 (F := Ideal) c arg1 harg1 arg2 harg2 arg3 harg3 arg4 harg4 arg5 harg5 arg24 x1 x2 x3 x4 x5) y = upto AB1 17 y := by
  unfold kernelRun0.sl.H24_18
  exact step_plain AB1 1 2 1 1 0 _ _ _
    (fun y => inTap_iff 1 2 1 _ _ rfl rfl rfl rfl rfl rfl rfl rfl y) rfl rfl rfl _
    (fun x k => v115_apply c arg1 harg1 arg2 harg2 arg3 harg3 arg4 harg4 arg5 harg5 x1 x2 x3 x4 x5 x k) _ (fact17 c arg1 harg1 arg2 harg2 arg3 harg3 arg4 harg4 arg5 harg5 arg24 x1 x2 x3 x4 x5) y

/-- Image 1, tap (2, 2): the payload at a local index. -/
theorem v120_apply (x : S1x31x31x128.Idx) (k : SAct.Idx) (hk0 : (k 0).val = (1 : Fin 2).val)
    (hk1 : (k 1).val = (x 1).val + 1) (hk2 : (k 2).val = (x 2).val + 1) (hk3 : (k 3).val = (x 3).val) :
    kernelRun0.sl.v120 (F := Ideal) c arg1 harg1 arg2 harg2 arg3 harg3 arg4 harg4 arg5 harg5 x1 x2 x3 x4 x5 x = AB1 k := by
  unfold kernelRun0.sl.v120 kernelRun0.sl.v117 kernelRun0.sl.v116
  rw [r2_eq]
  exact tap_payload AB1 1 1 1 _ _ _ x k hk0 hk1 hk2 hk3

/-- After that store the buffer holds the first 18 taps. -/
theorem fact19 (y : SCol.Idx) : View.canon (kernelRun0.sl.H24_19 (F := Ideal) c arg1 harg1 arg2 harg2 arg3 harg3 arg4 harg4 arg5 harg5 arg24 x1 x2 x3 x4 x5) y = upto AB1 18 y := by
  unfold kernelRun0.sl.H24_19 kernelRun0.sl.old_11
  exact step_sub arg24.view AB1 1 2 2 1 1 _ _ _ _ _ _
    (fun y => inTap_iff 1 2 2 _ _ rfl rfl rfl rfl rfl rfl rfl rfl y) rfl rfl rfl _
    (fun x k => v120_apply c arg1 harg1 arg2 harg2 arg3 harg3 arg4 harg4 arg5 harg5 x1 x2 x3 x4 x5 x k) _ (fact18 c arg1 harg1 arg2 harg2 arg3 harg3 arg4 harg4 arg5 harg5 arg24 x1 x2 x3 x4 x5) y

/-- The buffer as the first 3×3 layer's product loads it: at pixel `(h, w)` of image `img` and column
    `(ky · 3 + kx) · 128 + c`, the padded input of the layer at `(h + ky, w + kx, c)`. -/
theorem col1_eq (img : Fin 2) (h w : Fin 32) (ky kx : Fin 3) (ch : Fin 128) :
    kernelRun0.sl.v121 (F := Ideal) c arg1 harg1 arg2 harg2 arg3 harg3 arg4 harg4 arg5 harg5 arg24 x1 x2 x3 x4 x5 (ix4 img h w (BlockValue.colOf ky kx ch))
      = Cert.Spec.pad (fun h' w' c' => k0_pay5 x1 x2 x3 x4 x5 (ix4 img h' w' c')) (h.val + ky.val) (w.val + kx.val) ch := by
  unfold kernelRun0.sl.v121
  rw [View.readCov_eq_canon']
  beta_reduce
  rw [whole_idx, fact19, upto_all, tapAt_colOf]

end Round1

end Cert.KernelIdeal.Col

end
-- ==== Proof.KICol2.lean ====
/-
  The window buffer before the second 3×3 layer's product.

  The body zeroes the whole buffer again — so nothing of its first contents remains — and stores the eighteen boxes of the
  second block's 1×1 entry the same way. That entry is computed from the first block's exit, which used the buffer's first
  contents; it enters here as one fixed activation. After the eighteenth store the buffer holds, at every pixel and every
  column `(ky · 3 + kx) · 128 + c`, the zero-padded entry at the pixel shifted by the tap.
-/
import proofs.«145656_g2000601261699844_pallasbulk_55_1_alg».proof.Proof.KICol1

set_option maxRecDepth 16384

noncomputable section

namespace Cert.KernelIdeal.Col

open Cert.KernelIdeal Cert.KernelIdeal.Gen Cert.KernelIdeal.Body
open Idealize.ShloMosaic Idealize.ShloMosaic.ValueIdx Cert.LibIm2col

section Round2
variable (c : Dev nD)
  (arg1 : Memref sig .tc .vmem S2048x128 .f32) (harg1 : arg1.IsWhole) (arg2 : Memref sig .tc .vmem S128x512 .bf16) (harg2 : arg2.IsWhole)
  (arg3 : Memref sig .tc .vmem S1x512 .f32) (harg3 : arg3.IsWhole) (arg4 : Memref sig .tc .vmem S512x384 .bf16) (harg4 : arg4.IsWhole)
  (arg5 : Memref sig .tc .vmem S1x384 .f32) (harg5 : arg5.IsWhole) (arg6 : Memref sig .tc .vmem S1152x128 .bf16) (harg6 : arg6.IsWhole)
  (arg7 : Memref sig .tc .vmem S1x128 .f32) (harg7 : arg7.IsWhole) (arg8 : Memref sig .tc .vmem S128x256 .bf16) (harg8 : arg8.IsWhole)
  (arg9 : Memref sig .tc .vmem S1x256 .f32) (harg9 : arg9.IsWhole) (arg10 : Memref sig .tc .vmem S256x128 .bf16) (harg10 : arg10.IsWhole)
  (arg11 : Memref sig .tc .vmem S1x128 .f32) (harg11 : arg11.IsWhole) (arg24 : Memref sig .tc .vmem S2x32x32x1152 .bf16)
  (x1 : Vec Ideal S2048x128 .f32) (x2 : Vec Ideal S128x512 .bf16) (x3 : Vec Ideal S1x512 .f32) (x4 : Vec Ideal S512x384 .bf16)
  (x5 : Vec Ideal S1x384 .f32) (x6 : Vec Ideal S1152x128 .bf16) (x7 : Vec Ideal S1x128 .f32) (x8 : Vec Ideal S128x256 .bf16)
  (x9 : Vec Ideal S1x256 .f32) (x10 : Vec Ideal S256x128 .bf16) (x11 : Vec Ideal S1x128 .f32)

local notation "COL1" => kernelRun0.sl.v121 (F := Ideal) c arg1 harg1 arg2 harg2 arg3 harg3 arg4 harg4 arg5 harg5 arg24 x1 x2 x3 x4 x5
local notation "AB2" => (k0_pay30 (k0_pay4 x1 x2 x3 x4 x5) (k0_pay28 COL1) x6 x7 x8 x9 x10 x11 : SAct.Idx → EReal)

/-- The second 3×3 layer's input, from the loaded blocks and the buffer's first contents. -/
theorem r5_eq : kernelRun0.sl.r_5 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 = AB2 := by
  unfold kernelRun0.sl.r_5 kernelRun0.sl.r_1 kernelRun0.sl.v122
  simp only [View.readAt_eq_ld, Memref.IsWhole.read_unread, View.ld_unit_zero (S := S2048x128) hz2, View.ld_unit_zero (S := S128x512) hz2, View.ld_unit_zero (S := S1x512) hz2, View.ld_unit_zero (S := S512x384) hz2, View.ld_unit_zero (S := S1x384) hz2, View.ld_unit_zero (S := S1152x128) hz2, View.ld_unit_zero (S := S1x128) hz2, View.ld_unit_zero (S := S128x256) hz2, View.ld_unit_zero (S := S1x256) hz2, View.ld_unit_zero (S := S256x128) hz2]
  rfl

theorem r6_eq : kernelRun0.sl.r_6 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11
    = k0_pay32 (k0_pay4 x1 x2 x3 x4 x5) (k0_pay28 COL1) x6 x7 x8 x9 x10 x11 := by
  unfold kernelRun0.sl.r_6 kernelRun0.sl.r_1 kernelRun0.sl.v122
  simp only [View.readAt_eq_ld, Memref.IsWhole.read_unread, View.ld_unit_zero (S := S2048x128) hz2, View.ld_unit_zero (S := S128x512) hz2, View.ld_unit_zero (S := S1x512) hz2, View.ld_unit_zero (S := S512x384) hz2, View.ld_unit_zero (S := S1x384) hz2, View.ld_unit_zero (S := S1152x128) hz2, View.ld_unit_zero (S := S1x128) hz2, View.ld_unit_zero (S := S128x256) hz2, View.ld_unit_zero (S := S1x256) hz2, View.ld_unit_zero (S := S256x128) hz2]
  rfl

/-- After the second zero fill the buffer holds no tap, whatever it held. -/
theorem fact20 (y : SCol.Idx) : View.canon (kernelRun0.sl.H24_20 (F := Ideal) c arg1 harg1 arg2 harg2 arg3 harg3 arg4 harg4 arg5 harg5 arg24 x1 x2 x3 x4 x5) y = upto AB2 0 y := by
  unfold kernelRun0.sl.H24_20
  rw [View.canon_cons_unit_zero hz4, upto_zero]
  unfold k0_pay31
  exact Ideal.ofBits_zero_bf16

/-- Image 0, tap (0, 0): the payload at a local index. -/
theorem v163_apply (x : S1x31x31x128.Idx) (k : SAct.Idx) (hk0 : (k 0).val = (0 : Fin 2).val)
    (hk1 : (k 1).val = (x 1).val + 0) (hk2 : (k 2).val = (x 2).val + 0) (hk3 : (k 3).val = (x 3).val) :
    kernelRun0.sl.v163 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v163
  rw [r6_eq]
  unfold k0_pay32
  exact tap_payload AB2 0 0 0 _ _ _ x k hk0 hk1 hk2 hk3

/-- After that store the buffer holds the first 1 taps. -/
theorem fact21 (y : SCol.Idx) : View.canon (kernelRun0.sl.H24_21 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 1 y := by
  unfold kernelRun0.sl.H24_21 kernelRun0.sl.old_12
  exact step_sub arg24.view AB2 0 0 0 0 0 _ _ _ _ _ _
    (fun y => inTap_iff 0 0 0 _ _ rfl rfl rfl rfl rfl rfl rfl rfl y) rfl rfl rfl _
    (fun x k => v163_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact20 c arg1 harg1 arg2 harg2 arg3 harg3 arg4 harg4 arg5 harg5 arg24 x1 x2 x3 x4 x5 x6 x7 x8 x9 x10 x11) y

/-- Image 0, tap (0, 1): the payload at a local index. -/
theorem v168_apply (x : S1x31x32x128.Idx) (k : SAct.Idx) (hk0 : (k 0).val = (0 : Fin 2).val)
    (hk1 : (k 1).val = (x 1).val + 0) (hk2 : (k 2).val = (x 2).val + 0) (hk3 : (k 3).val = (x 3).val) :
    kernelRun0.sl.v168 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v168 kernelRun0.sl.v165 kernelRun0.sl.v164
  rw [r5_eq]
  exact tap_payload AB2 0 0 0 _ _ _ x k hk0 hk1 hk2 hk3

/-- After that store the buffer holds the first 2 taps. -/
theorem fact22 (y : SCol.Idx) : View.canon (kernelRun0.sl.H24_22 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 2 y := by
  unfold kernelRun0.sl.H24_22
  exact step_plain AB2 0 0 1 0 0 _ _ _
    (fun y => inTap_iff 0 0 1 _ _ rfl rfl rfl rfl rfl rfl rfl rfl y) rfl rfl rfl _
    (fun x k => v168_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact21 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 0, tap (0, 2): the payload at a local index. -/
theorem v173_apply (x : S1x31x31x128.Idx) (k : SAct.Idx) (hk0 : (k 0).val = (0 : Fin 2).val)
    (hk1 : (k 1).val = (x 1).val + 0) (hk2 : (k 2).val = (x 2).val + 1) (hk3 : (k 3).val = (x 3).val) :
    kernelRun0.sl.v173 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v173 kernelRun0.sl.v170 kernelRun0.sl.v169
  rw [r5_eq]
  exact tap_payload AB2 0 0 1 _ _ _ x k hk0 hk1 hk2 hk3

/-- After that store the buffer holds the first 3 taps. -/
theorem fact23 (y : SCol.Idx) : View.canon (kernelRun0.sl.H24_23 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 3 y := by
  unfold kernelRun0.sl.H24_23 kernelRun0.sl.old_13
  exact step_sub arg24.view AB2 0 0 2 0 1 _ _ _ _ _ _
    (fun y => inTap_iff 0 0 2 _ _ rfl rfl rfl rfl rfl rfl rfl rfl y) rfl rfl rfl _
    (fun x k => v173_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact22 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 0, tap (1, 0): the payload at a local index. -/
theorem v178_apply (x : S1x32x31x128.Idx) (k : SAct.Idx) (hk0 : (k 0).val = (0 : Fin 2).val)
    (hk1 : (k 1).val = (x 1).val + 0) (hk2 : (k 2).val = (x 2).val + 0) (hk3 : (k 3).val = (x 3).val) :
    kernelRun0.sl.v178 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v178 kernelRun0.sl.v175 kernelRun0.sl.v174
  rw [r5_eq]
  exact tap_payload AB2 0 0 0 _ _ _ x k hk0 hk1 hk2 hk3

/-- After that store the buffer holds the first 4 taps. -/
theorem fact24 (y : SCol.Idx) : View.canon (kernelRun0.sl.H24_24 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 4 y := by
  unfold kernelRun0.sl.H24_24 kernelRun0.sl.old_14
  exact step_sub arg24.view AB2 0 1 0 0 0 _ _ _ _ _ _
    (fun y => inTap_iff 0 1 0 _ _ rfl rfl rfl rfl rfl rfl rfl rfl y) rfl rfl rfl _
    (fun x k => v178_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact23 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 0, tap (1, 1): the payload at a local index. -/
theorem v183_apply (x : S1x32x32x128.Idx) (k : SAct.Idx) (hk0 : (k 0).val = (0 : Fin 2).val)
    (hk1 : (k 1).val = (x 1).val + 0) (hk2 : (k 2).val = (x 2).val + 0) (hk3 : (k 3).val = (x 3).val) :
    kernelRun0.sl.v183 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v183 kernelRun0.sl.v180 kernelRun0.sl.v179
  rw [r5_eq]
  exact tap_payload AB2 0 0 0 _ _ _ x k hk0 hk1 hk2 hk3

/-- After that store the buffer holds the first 5 taps. -/
theorem fact25 (y : SCol.Idx) : View.canon (kernelRun0.sl.H24_25 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 5 y := by
  unfold kernelRun0.sl.H24_25
  exact step_plain AB2 0 1 1 0 0 _ _ _
    (fun y => inTap_iff 0 1 1 _ _ rfl rfl rfl rfl rfl rfl rfl rfl y) rfl rfl rfl _
    (fun x k => v183_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact24 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 0, tap (1, 2): the payload at a local index. -/
theorem v188_apply (x : S1x32x31x128.Idx) (k : SAct.Idx) (hk0 : (k 0).val = (0 : Fin 2).val)
    (hk1 : (k 1).val = (x 1).val + 0) (hk2 : (k 2).val = (x 2).val + 1) (hk3 : (k 3).val = (x 3).val) :
    kernelRun0.sl.v188 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v188 kernelRun0.sl.v185 kernelRun0.sl.v184
  rw [r5_eq]
  exact tap_payload AB2 0 0 1 _ _ _ x k hk0 hk1 hk2 hk3

/-- After that store the buffer holds the first 6 taps. -/
theorem fact26 (y : SCol.Idx) : View.canon (kernelRun0.sl.H24_26 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 6 y := by
  unfold kernelRun0.sl.H24_26 kernelRun0.sl.old_15
  exact step_sub arg24.view AB2 0 1 2 0 1 _ _ _ _ _ _
    (fun y => inTap_iff 0 1 2 _ _ rfl rfl rfl rfl rfl rfl rfl rfl y) rfl rfl rfl _
    (fun x k => v188_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact25 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 0, tap (2, 0): the payload at a local index. -/
theorem v193_apply (x : S1x31x31x128.Idx) (k : SAct.Idx) (hk0 : (k 0).val = (0 : Fin 2).val)
    (hk1 : (k 1).val = (x 1).val + 1) (hk2 : (k 2).val = (x 2).val + 0) (hk3 : (k 3).val = (x 3).val) :
    kernelRun0.sl.v193 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v193 kernelRun0.sl.v190 kernelRun0.sl.v189
  rw [r5_eq]
  exact tap_payload AB2 0 1 0 _ _ _ x k hk0 hk1 hk2 hk3

/-- After that store the buffer holds the first 7 taps. -/
theorem fact27 (y : SCol.Idx) : View.canon (kernelRun0.sl.H24_27 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 7 y := by
  unfold kernelRun0.sl.H24_27 kernelRun0.sl.old_16
  exact step_sub arg24.view AB2 0 2 0 1 0 _ _ _ _ _ _
    (fun y => inTap_iff 0 2 0 _ _ rfl rfl rfl rfl rfl rfl rfl rfl y) rfl rfl rfl _
    (fun x k => v193_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact26 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 0, tap (2, 1): the payload at a local index. -/
theorem v198_apply (x : S1x31x32x128.Idx) (k : SAct.Idx) (hk0 : (k 0).val = (0 : Fin 2).val)
    (hk1 : (k 1).val = (x 1).val + 1) (hk2 : (k 2).val = (x 2).val + 0) (hk3 : (k 3).val = (x 3).val) :
    kernelRun0.sl.v198 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v198 kernelRun0.sl.v195 kernelRun0.sl.v194
  rw [r5_eq]
  exact tap_payload AB2 0 1 0 _ _ _ x k hk0 hk1 hk2 hk3

/-- After that store the buffer holds the first 8 taps. -/
theorem fact28 (y : SCol.Idx) : View.canon (kernelRun0.sl.H24_28 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 8 y := by
  unfold kernelRun0.sl.H24_28
  exact step_plain AB2 0 2 1 1 0 _ _ _
    (fun y => inTap_iff 0 2 1 _ _ rfl rfl rfl rfl rfl rfl rfl rfl y) rfl rfl rfl _
    (fun x k => v198_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact27 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 0, tap (2, 2): the payload at a local index. -/
theorem v203_apply (x : S1x31x31x128.Idx) (k : SAct.Idx) (hk0 : (k 0).val = (0 : Fin 2).val)
    (hk1 : (k 1).val = (x 1).val + 1) (hk2 : (k 2).val = (x 2).val + 1) (hk3 : (k 3).val = (x 3).val) :
    kernelRun0.sl.v203 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v203 kernelRun0.sl.v200 kernelRun0.sl.v199
  rw [r5_eq]
  exact tap_payload AB2 0 1 1 _ _ _ x k hk0 hk1 hk2 hk3

/-- After that store the buffer holds the first 9 taps. -/
theorem fact29 (y : SCol.Idx) : View.canon (kernelRun0.sl.H24_29 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 9 y := by
  unfold kernelRun0.sl.H24_29 kernelRun0.sl.old_17
  exact step_sub arg24.view AB2 0 2 2 1 1 _ _ _ _ _ _
    (fun y => inTap_iff 0 2 2 _ _ rfl rfl rfl rfl rfl rfl rfl rfl y) rfl rfl rfl _
    (fun x k => v203_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact28 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (0, 0): the payload at a local index. -/
theorem v208_apply (x : S1x31x31x128.Idx) (k : SAct.Idx) (hk0 : (k 0).val = (1 : Fin 2).val)
    (hk1 : (k 1).val = (x 1).val + 0) (hk2 : (k 2).val = (x 2).val + 0) (hk3 : (k 3).val = (x 3).val) :
    kernelRun0.sl.v208 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v208 kernelRun0.sl.v205 kernelRun0.sl.v204
  rw [r5_eq]
  exact tap_payload AB2 1 0 0 _ _ _ x k hk0 hk1 hk2 hk3

/-- After that store the buffer holds the first 10 taps. -/
theorem fact30 (y : SCol.Idx) : View.canon (kernelRun0.sl.H24_30 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 10 y := by
  unfold kernelRun0.sl.H24_30 kernelRun0.sl.old_18
  exact step_sub arg24.view AB2 1 0 0 0 0 _ _ _ _ _ _
    (fun y => inTap_iff 1 0 0 _ _ rfl rfl rfl rfl rfl rfl rfl rfl y) rfl rfl rfl _
    (fun x k => v208_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact29 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (0, 1): the payload at a local index. -/
theorem v213_apply (x : S1x31x32x128.Idx) (k : SAct.Idx) (hk0 : (k 0).val = (1 : Fin 2).val)
    (hk1 : (k 1).val = (x 1).val + 0) (hk2 : (k 2).val = (x 2).val + 0) (hk3 : (k 3).val = (x 3).val) :
    kernelRun0.sl.v213 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v213 kernelRun0.sl.v210 kernelRun0.sl.v209
  rw [r5_eq]
  exact tap_payload AB2 1 0 0 _ _ _ x k hk0 hk1 hk2 hk3

/-- After that store the buffer holds the first 11 taps. -/
theorem fact31 (y : SCol.Idx) : View.canon (kernelRun0.sl.H24_31 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 11 y := by
  unfold kernelRun0.sl.H24_31
  exact step_plain AB2 1 0 1 0 0 _ _ _
    (fun y => inTap_iff 1 0 1 _ _ rfl rfl rfl rfl rfl rfl rfl rfl y) rfl rfl rfl _
    (fun x k => v213_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact30 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (0, 2): the payload at a local index. -/
theorem v218_apply (x : S1x31x31x128.Idx) (k : SAct.Idx) (hk0 : (k 0).val = (1 : Fin 2).val)
    (hk1 : (k 1).val = (x 1).val + 0) (hk2 : (k 2).val = (x 2).val + 1) (hk3 : (k 3).val = (x 3).val) :
    kernelRun0.sl.v218 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v218 kernelRun0.sl.v215 kernelRun0.sl.v214
  rw [r5_eq]
  exact tap_payload AB2 1 0 1 _ _ _ x k hk0 hk1 hk2 hk3

/-- After that store the buffer holds the first 12 taps. -/
theorem fact32 (y : SCol.Idx) : View.canon (kernelRun0.sl.H24_32 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 12 y := by
  unfold kernelRun0.sl.H24_32 kernelRun0.sl.old_19
  exact step_sub arg24.view AB2 1 0 2 0 1 _ _ _ _ _ _
    (fun y => inTap_iff 1 0 2 _ _ rfl rfl rfl rfl rfl rfl rfl rfl y) rfl rfl rfl _
    (fun x k => v218_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact31 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (1, 0): the payload at a local index. -/
theorem v223_apply (x : S1x32x31x128.Idx) (k : SAct.Idx) (hk0 : (k 0).val = (1 : Fin 2).val)
    (hk1 : (k 1).val = (x 1).val + 0) (hk2 : (k 2).val = (x 2).val + 0) (hk3 : (k 3).val = (x 3).val) :
    kernelRun0.sl.v223 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v223 kernelRun0.sl.v220 kernelRun0.sl.v219
  rw [r5_eq]
  exact tap_payload AB2 1 0 0 _ _ _ x k hk0 hk1 hk2 hk3

/-- After that store the buffer holds the first 13 taps. -/
theorem fact33 (y : SCol.Idx) : View.canon (kernelRun0.sl.H24_33 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 13 y := by
  unfold kernelRun0.sl.H24_33 kernelRun0.sl.old_20
  exact step_sub arg24.view AB2 1 1 0 0 0 _ _ _ _ _ _
    (fun y => inTap_iff 1 1 0 _ _ rfl rfl rfl rfl rfl rfl rfl rfl y) rfl rfl rfl _
    (fun x k => v223_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact32 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (1, 1): the payload at a local index. -/
theorem v228_apply (x : S1x32x32x128.Idx) (k : SAct.Idx) (hk0 : (k 0).val = (1 : Fin 2).val)
    (hk1 : (k 1).val = (x 1).val + 0) (hk2 : (k 2).val = (x 2).val + 0) (hk3 : (k 3).val = (x 3).val) :
    kernelRun0.sl.v228 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v228 kernelRun0.sl.v225 kernelRun0.sl.v224
  rw [r5_eq]
  exact tap_payload AB2 1 0 0 _ _ _ x k hk0 hk1 hk2 hk3

/-- After that store the buffer holds the first 14 taps. -/
theorem fact34 (y : SCol.Idx) : View.canon (kernelRun0.sl.H24_34 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 14 y := by
  unfold kernelRun0.sl.H24_34
  exact step_plain AB2 1 1 1 0 0 _ _ _
    (fun y => inTap_iff 1 1 1 _ _ rfl rfl rfl rfl rfl rfl rfl rfl y) rfl rfl rfl _
    (fun x k => v228_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact33 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (1, 2): the payload at a local index. -/
theorem v233_apply (x : S1x32x31x128.Idx) (k : SAct.Idx) (hk0 : (k 0).val = (1 : Fin 2).val)
    (hk1 : (k 1).val = (x 1).val + 0) (hk2 : (k 2).val = (x 2).val + 1) (hk3 : (k 3).val = (x 3).val) :
    kernelRun0.sl.v233 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v233 kernelRun0.sl.v230 kernelRun0.sl.v229
  rw [r5_eq]
  exact tap_payload AB2 1 0 1 _ _ _ x k hk0 hk1 hk2 hk3

/-- After that store the buffer holds the first 15 taps. -/
theorem fact35 (y : SCol.Idx) : View.canon (kernelRun0.sl.H24_35 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 15 y := by
  unfold kernelRun0.sl.H24_35 kernelRun0.sl.old_21
  exact step_sub arg24.view AB2 1 1 2 0 1 _ _ _ _ _ _
    (fun y => inTap_iff 1 1 2 _ _ rfl rfl rfl rfl rfl rfl rfl rfl y) rfl rfl rfl _
    (fun x k => v233_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact34 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (2, 0): the payload at a local index. -/
theorem v238_apply (x : S1x31x31x128.Idx) (k : SAct.Idx) (hk0 : (k 0).val = (1 : Fin 2).val)
    (hk1 : (k 1).val = (x 1).val + 1) (hk2 : (k 2).val = (x 2).val + 0) (hk3 : (k 3).val = (x 3).val) :
    kernelRun0.sl.v238 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v238 kernelRun0.sl.v235 kernelRun0.sl.v234
  rw [r5_eq]
  exact tap_payload AB2 1 1 0 _ _ _ x k hk0 hk1 hk2 hk3

/-- After that store the buffer holds the first 16 taps. -/
theorem fact36 (y : SCol.Idx) : View.canon (kernelRun0.sl.H24_36 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 16 y := by
  unfold kernelRun0.sl.H24_36 kernelRun0.sl.old_22
  exact step_sub arg24.view AB2 1 2 0 1 0 _ _ _ _ _ _
    (fun y => inTap_iff 1 2 0 _ _ rfl rfl rfl rfl rfl rfl rfl rfl y) rfl rfl rfl _
    (fun x k => v238_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact35 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (2, 1): the payload at a local index. -/
theorem v243_apply (x : S1x31x32x128.Idx) (k : SAct.Idx) (hk0 : (k 0).val = (1 : Fin 2).val)
    (hk1 : (k 1).val = (x 1).val + 1) (hk2 : (k 2).val = (x 2).val + 0) (hk3 : (k 3).val = (x 3).val) :
    kernelRun0.sl.v243 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v243 kernelRun0.sl.v240 kernelRun0.sl.v239
  rw [r5_eq]
  exact tap_payload AB2 1 1 0 _ _ _ x k hk0 hk1 hk2 hk3

/-- After that store the buffer holds the first 17 taps. -/
theorem fact37 (y : SCol.Idx) : View.canon (kernelRun0.sl.H24_37 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 17 y := by
  unfold kernelRun0.sl.H24_37
  exact step_plain AB2 1 2 1 1 0 _ _ _
    (fun y => inTap_iff 1 2 1 _ _ rfl rfl rfl rfl rfl rfl rfl rfl y) rfl rfl rfl _
    (fun x k => v243_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact36 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- Image 1, tap (2, 2): the payload at a local index. -/
theorem v248_apply (x : S1x31x31x128.Idx) (k : SAct.Idx) (hk0 : (k 0).val = (1 : Fin 2).val)
    (hk1 : (k 1).val = (x 1).val + 1) (hk2 : (k 2).val = (x 2).val + 1) (hk3 : (k 3).val = (x 3).val) :
    kernelRun0.sl.v248 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x = AB2 k := by
  unfold kernelRun0.sl.v248 kernelRun0.sl.v245 kernelRun0.sl.v244
  rw [r5_eq]
  exact tap_payload AB2 1 1 1 _ _ _ x k hk0 hk1 hk2 hk3

/-- After that store the buffer holds the first 18 taps. -/
theorem fact38 (y : SCol.Idx) : View.canon (kernelRun0.sl.H24_38 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y = upto AB2 18 y := by
  unfold kernelRun0.sl.H24_38 kernelRun0.sl.old_23
  exact step_sub arg24.view AB2 1 2 2 1 1 _ _ _ _ _ _
    (fun y => inTap_iff 1 2 2 _ _ rfl rfl rfl rfl rfl rfl rfl rfl y) rfl rfl rfl _
    (fun x k => v248_apply c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 x k) _ (fact37 c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11) y

/-- The buffer as the second 3×3 layer's product loads it. -/
theorem col2_eq (img : Fin 2) (h w : Fin 32) (ky kx : Fin 3) (ch : Fin 128) :
    kernelRun0.sl.v249 (F := Ideal) c arg1 harg1 arg2 harg2 arg3 harg3 arg4 harg4 arg5 harg5 arg6 harg6 arg7 harg7 arg8 harg8 arg9 harg9 arg10 harg10 arg11 harg11 arg24 x1 x2 x3 x4 x5 x6 x7 x8 x9 x10 x11 (ix4 img h w (BlockValue.colOf ky kx ch))
      = Cert.Spec.pad (fun h' w' c' => k0_pay30 (k0_pay4 x1 x2 x3 x4 x5) (k0_pay28 COL1) x6 x7 x8 x9 x10 x11 (ix4 img h' w' c'))
          (h.val + ky.val) (w.val + kx.val) ch := by
  unfold kernelRun0.sl.v249
  rw [View.readCov_eq_canon']
  beta_reduce
  rw [whole_idx, fact38, upto_all, tapAt_colOf]

end Round2

end Cert.KernelIdeal.Col

end
-- ==== Proof.KIBlock.lean ====
/-
  The block the body stores, with no hypothesis left.

  The body's one store into its output block covers the block, so the block afterwards is that store's value: the last
  layer applied to the main branch (which reads the window buffer's second contents) and the side branch. With the
  buffer's two contents identified store by store, the block at pixel `(h, w)` of image `img` and channel `q` is the
  specification's network on that image.
-/
import proofs.«145656_g2000601261699844_pallasbulk_55_1_alg».proof.Proof.KIFrame
import proofs.«145656_g2000601261699844_pallasbulk_55_1_alg».proof.Proof.KValue
import proofs.«145656_g2000601261699844_pallasbulk_55_1_alg».proof.Proof.KICol2

set_option maxRecDepth 16384

noncomputable section

namespace Cert.KernelIdeal.Col

open Cert.KernelIdeal Cert.KernelIdeal.Gen Cert.KernelIdeal.Body
open Idealize.ShloMosaic Idealize.ShloMosaic.ValueIdx Cert.LibIm2col

/-- The block the body stores at point `t`, read at pixel `(h, w)` of image `img`, channel `q`: the network of the
    specification, with the loaded blocks as its parameters, on that image of the first block. -/
theorem hblock (c : Dev nD) (t : Fin cfg0.N) (x1 : Vec Ideal S2048x128 .f32) (x2 : Vec Ideal S128x512 .bf16) (x3 : Vec Ideal S1x512 .f32) (x4 : Vec Ideal S512x384 .bf16) (x5 : Vec Ideal S1x384 .f32) (x6 : Vec Ideal S1152x128 .bf16) (x7 : Vec Ideal S1x128 .f32) (x8 : Vec Ideal S128x256 .bf16) (x9 : Vec Ideal S1x256 .f32) (x10 : Vec Ideal S256x128 .bf16) (x11 : Vec Ideal S1x128 .f32) (x12 : Vec Ideal S1152x128 .bf16) (x13 : Vec Ideal S1x128 .f32) (x14 : Vec Ideal S128x256 .bf16) (x15 : Vec Ideal S1x256 .f32) (x16 : Vec Ideal S256x256 .bf16) (x17 : Vec Ideal S1x256 .f32) (x18 : Vec Ideal S128x256 .bf16) (x19 : Vec Ideal S1x256 .f32) (x20 : Vec Ideal S256x256 .bf16) (x21 : Vec Ideal S256x256 .bf16) (x22 : Vec Ideal S1x256 .f32)
    (img : Fin 2) (h w : Fin 32) (q : Fin 256) :
    Body.out22 (F := Ideal) c t x1 x2 x3 x4 x5 x6 x7 x8 x9 x10 x11 x12 x13 x14 x15 x16 x17 x18 x19 x20 x21 x22 (ix2 (BlockValue.rowOf img h w) q)
      = Cert.Spec.net (BlockValue.paramsOf x2 x3 x4 x5 x6 x7 x8 x9 x10 x11 x12 x13 x14 x15 x16 x17 x18 x19 x20 x21 x22) (BlockValue.imgOf x1 img) h w q := by
  unfold Body.out22
  unfold Body.kernelRun0
  dsimp only
  rw [View.canon_unit_zero (S := S2048x256) hz2]
  unfold kernelRun0.sl.r_7 kernelRun0.sl.r_8 kernelRun0.sl.r kernelRun0.sl.r_4 kernelRun0.sl.r_1 kernelRun0.sl.v122
  simp only [View.readAt_eq_ld, Memref.IsWhole.read_unread, View.ld_unit_zero (S := S2048x128) hz2, View.ld_unit_zero (S := S128x512) hz2, View.ld_unit_zero (S := S1x512) hz2, View.ld_unit_zero (S := S512x384) hz2, View.ld_unit_zero (S := S1x384) hz2, View.ld_unit_zero (S := S1152x128) hz2, View.ld_unit_zero (S := S1x128) hz2, View.ld_unit_zero (S := S128x256) hz2, View.ld_unit_zero (S := S1x256) hz2, View.ld_unit_zero (S := S256x128) hz2, View.ld_unit_zero (S := S256x256) hz2]
  exact BlockValue.out_eq x1 x2 x3 x4 x5 x6 x7 x8 x9 x10 x11 x12 x13 x14 x15 x16 x17 x18 x19 x20 x21 x22
    (kernelRun0.sl.v121 (F := Ideal) c (ms0_0 t) (hs0_0 t) (ms0_1 t) (hs0_1 t) (ms0_2 t) (hs0_2 t) (ms0_3 t) (hs0_3 t) (ms0_4 t) (hs0_4 t) scM x1 x2 x3 x4 x5)
    (kernelRun0.sl.v249 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM x1 x2 x3 x4 x5 x6 x7 x8 x9 x10 x11)
    (fun img h w ky kx ch => col1_eq c (ms0_0 t) (hs0_0 t) (ms0_1 t) (hs0_1 t) (ms0_2 t) (hs0_2 t) (ms0_3 t) (hs0_3 t) (ms0_4 t) (hs0_4 t) scM x1 x2 x3 x4 x5 img h w ky kx ch)
    (fun img h w ky kx ch => col2_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM x1 x2 x3 x4 x5 x6 x7 x8 x9 x10 x11 img h w ky kx ch)
    img h w q

end Cert.KernelIdeal.Col

end
-- ==== Proof.Bridge.lean ====
/-
  The two programs end with equal results.

  Each run ends with its result at the network of Proof/Spec.lean, pixel by pixel and channel by channel, on its own
  parameters and images; from memories that agree on the arguments those are the same (Proof/BridgeParams.lean), so the
  results are equal, and each run leaves its arguments as launched.
-/
import proofs.«145656_g2000601261699844_pallasbulk_55_1_alg».proof.Defs
import proofs.«145656_g2000601261699844_pallasbulk_55_1_alg».proof.Proof.Gen.Pre_finite_inputs
import proofs.«145656_g2000601261699844_pallasbulk_55_1_alg».proof.Proof.BridgeParams
import proofs.«145656_g2000601261699844_pallasbulk_55_1_alg».proof.Proof.RRun
import proofs.«145656_g2000601261699844_pallasbulk_55_1_alg».proof.Proof.RFinal
import proofs.«145656_g2000601261699844_pallasbulk_55_1_alg».proof.Proof.KIValueRun
import proofs.«145656_g2000601261699844_pallasbulk_55_1_alg».proof.Proof.KIBlock

noncomputable section

namespace Cert.Bridge

open Idealize.ShloMosaic Idealize.ShloMosaic.TcCoe Idealize.ShloMosaic.ValueIdx Idealize.SL.Sem

/-- At the ideal instance, from memories agreeing on the arguments, both programs run and end with equal results
    and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun i => Cert.Spec.net (Cert.KernelIdeal.Value.PK m c) (Cert.KernelIdeal.Value.XK m c (i 0)) (i 1) (i 2) (i 3)),
    Cert.KernelIdeal.Value.run m ρ Cert.KernelIdeal.Col.hblock, ?_⟩
  refine (θ_run (Cert.ReferenceIdeal.defs (F := Ideal)) _ _).mono (fun r h c => ⟨(h c).1.trans ?_, (h c).2⟩)
    (Cert.ReferenceIdeal.Body.run (F := Ideal) m' ρ')
  rw [Cert.ReferenceIdeal.Value.result_closed m' c]
  funext i
  rw [params_eq m m' (Cert.ReferenceIdeal.Body.outs m') c (hagree c)]
  exact congrArg (fun X => Cert.Spec.net (Cert.KernelIdeal.Value.PK m c) X (i 1) (i 2) (i 3)) (image_eq m m' c (hagree c) _)

end Cert.Bridge

end
-- ==== Proof.lean ====
/-
  The certificate's five claims.

  The kernel runs the whole block — a leaky 1×1 stem, two residual blocks each with a 3×3 layer, two leaky 1×1
  branches and a final leaky 1×1 layer over their concatenation — as ONE region of 32 points, two images a point, with a
  column buffer for the 3×3 layers; the reference runs it as six regions with the intermediate images in memory.
  The three frame claims: each program terminates, faults nowhere and leaves its arguments as launched — for the kernel at
  both instances from its body's run on the staging buffers and the column buffer, for the reference from its six regions'
  runs. The idealization changes nothing that is recorded (no ledger entry). At the ideal instance both programs end with
  the same result: pixel by pixel and channel by channel the network of Proof/Spec.lean applied to the argument's image,
  with the same folded weights and biases on both sides.
-/
import proofs.«145656_g2000601261699844_pallasbulk_55_1_alg».proof.Defs
import proofs.«145656_g2000601261699844_pallasbulk_55_1_alg».proof.Proof.Gen.Kernel
import proofs.«145656_g2000601261699844_pallasbulk_55_1_alg».proof.Proof.Gen.KernelIdeal
import proofs.«145656_g2000601261699844_pallasbulk_55_1_alg».proof.Proof.Gen.ReferenceIdeal
import proofs.«145656_g2000601261699844_pallasbulk_55_1_alg».proof.Proof.Gen.Pre_finite_inputs
import proofs.«145656_g2000601261699844_pallasbulk_55_1_alg».proof.Proof.KFrame
import proofs.«145656_g2000601261699844_pallasbulk_55_1_alg».proof.Proof.KIFrame
import proofs.«145656_g2000601261699844_pallasbulk_55_1_alg».proof.Proof.RRun
import proofs.«145656_g2000601261699844_pallasbulk_55_1_alg».proof.Proof.Bridge
import Idealize.ShloMosaic.Adequacy
import Idealize.ShloMosaic.Init

noncomputable section

namespace Cert.Proof

open Idealize.ShloMosaic Idealize.SL.Sem

/-- The word-level kernel's frame. -/
theorem frame_k : Cert.frame_Kernel (hKernel := Cert.Kernel.Gen.facts) (hPre_finite_inputs := Cert.Pre_finite_inputs.Gen.facts) :=
  fun m ρ _ => Cert.Kernel.Body.frame m ρ

/-- The idealized kernel's frame. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The idealized reference's frame. -/
theorem frame_ri : Cert.frame_ReferenceIdeal (hReferenceIdeal := Cert.ReferenceIdeal.Gen.facts) (hPre_finite_inputs := Cert.Pre_finite_inputs.Gen.facts) :=
  fun m ρ _ => Cert.ReferenceIdeal.Body.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
